-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v138) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x128x64x64 : Shape := ⟨4, ![64, 128, 64, 64]⟩
abbrev S64 : Shape := ⟨1, ![64]⟩
abbrev S4x128 : Shape := ⟨2, ![4, 128]⟩
abbrev S128 : Shape := ⟨1, ![128]⟩
abbrev S_ : Shape := ⟨0, ![]⟩
abbrev S64x1 : Shape := ⟨2, ![64, 1]⟩
abbrev S1x64 : Shape := ⟨2, ![1, 64]⟩
abbrev S64x64 : Shape := ⟨2, ![64, 64]⟩

class Facts : Prop where
  bcast_S_S64x128x64x64 : S_.BroadcastsInDim S64x128x64x64 (![] : Fin 0 → Fin S64x128x64x64.rank)
  reducesTo_S64x128x64x64_S_d0_1_2_3 : S64x128x64x64.ReducesTo [0, 1, 2, 3] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S64 : S_.BroadcastsInDim S64 (![] : Fin 0 → Fin S64.rank)
  reducesTo_S64_S_d0 : S64.ReducesTo [0] S_
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_

variable [Facts]

def fn_part3 {F : FTy → Type} [FloatOps F] (main_v42 : IVec S_ 1) (main_v48 : IVec S64x64 1) (main_v52 : IVec S64x64 32) (main_v53 : IVec S64x64 32) : IVec S_ 1 :=
  let main_v54 : IVec S64x64 1 := cmpi .eq main_v52 main_v53
  let main_v55 : IVec S64x64 1 := ori main_v48 main_v54
  let main_c_16 : IVec S_ 1 := constantI S_ 1 1#1
  let main_v56 : IVec S_ 1 := (fun x v => Host.reduce IntOp.andi x v reducesTo_S64x64_S_d0_1 h_S_) main_v55 main_c_16
  let main_v57 : IVec S_ 1 := andi main_v42 main_v56
  main_v57

def fn_part2 {F : FTy → Type} [FloatOps F] (main_arg1 : IVec S64 32) (main_arg2 : IVec S64 32) (main_v28 : IVec S_ 1) (main_v33 : IVec S64 1) : IVec S_ 1 :=
  let main_c_12 : IVec S_ 1 := constantI S_ 1 1#1
  let main_v34 : IVec S_ 1 := (fun x v => Host.reduce IntOp.andi x v reducesTo_S64_S_d0 h_S_) main_v33 main_c_12
  let main_v35 : IVec S_ 1 := andi main_v28 main_v34
  let main_c_13 : IVec S_ 32 := constantI S_ 32 0#32
  let main_v36 : IVec S64 32 := broadcastInDim S64 ![] bcast_S_S64 main_c_13
  let main_v37 : IVec S64 1 := cmpi .sge main_arg2 main_v36
  let main_c_14 : IVec S_ 32 := constantI S_ 32 64#32
  let main_v38 : IVec S64 32 := broadcastInDim S64 ![] bcast_S_S64 main_c_14
  let main_v39 : IVec S64 1 := cmpi .slt main_arg2 main_v38
  let main_v40 : IVec S64 1 := andi main_v37 main_v39
  let main_c_15 : IVec S_ 1 := constantI S_ 1 1#1
  let main_v41 : IVec S_ 1 := (fun x v => Host.reduce IntOp.andi x v reducesTo_S64_S_d0 h_S_) main_v40 main_c_15
  let main_v42 : IVec S_ 1 := andi main_v35 main_v41
  let main_v43 : IVec S64x1 32 := broadcastInDim S64x1 ![0] bcast_S64_S64x1_0 main_arg2
  let main_v44 : IVec S64 32 := iotaInDim S64 32 0
  let main_v45 : IVec S1x64 32 := broadcastInDim S1x64 ![1] bcast_S64_S1x64_1 main_v44
  let main_v46 : IVec S64x64 32 := broadcastInDim S64x64 ![0, 1] bcast_S64x1_S64x64_0_1 main_v43
  let main_v47 : IVec S64x64 32 := broadcastInDim S64x64 ![0, 1] bcast_S1x64_S64x64_0_1 main_v45
  let main_v48 : IVec S64x64 1 := cmpi .ne main_v46 main_v47
  let main_v49 : IVec S1x64 32 := broadcastInDim S1x64 ![1] bcast_S64_S1x64_1 main_arg1
  let main_v50 : IVec S64 32 := iotaInDim S64 32 0
  let main_v51 : IVec S64x1 32 := broadcastInDim S64x1 ![0] bcast_S64_S64x1_0 main_v50
  let main_v52 : IVec S64x64 32 := broadcastInDim S64x64 ![0, 1] bcast_S1x64_S64x64_0_1 main_v49
  let main_v53 : IVec S64x64 32 := broadcastInDim S64x64 ![0, 1] bcast_S64x1_S64x64_0_1 main_v51
  fn_part3 (F := F) main_v42 main_v48 main_v52 main_v53

def fn_part1 {F : FTy → Type} [FloatOps F] (main_arg1 : IVec S64 32) (main_arg2 : IVec S64 32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S64 32 := broadcastInDim S64 ![] bcast_S_S64 main_c_10
  let main_v30 : IVec S64 1 := cmpi .sge main_arg1 main_v29
  let main_c_11 : IVec S_ 32 := constantI S_ 32 64#32
  let main_v31 : IVec S64 32 := broadcastInDim S64 ![] bcast_S_S64 main_c_11
  let main_v32 : IVec S64 1 := cmpi .slt main_arg1 main_v31
  let main_v33 : IVec S64 1 := andi main_v30 main_v32
  fn_part2 (F := F) main_arg1 main_arg2 main_v28 main_v33

def fn {F : FTy → Type} [FloatOps F] (main_arg0 : FVec F S64x128x64x64 .f32) (main_arg1 : IVec S64 32) (main_arg2 : IVec S64 32) (main_arg3 : FVec F S4x128 .f32) (main_arg4 : FVec F S4x128 .f32) (main_arg5 : FVec F S128 .f32) (main_arg6 : FVec F S128 .f32) (main_arg7 : FVec F S128 .f32) : IVec S_ 1 :=
  let main_v0 : FVec F S64x128x64x64 .f32 := Host.absf main_arg0
  let main_cst : FVec F S_ .f32 := constant S_ .f32 0x7F800000#32
  let main_v1 : FVec F S64x128x64x64 .f32 := broadcastInDim S64x128x64x64 ![] bcast_S_S64x128x64x64 main_cst
  let main_v2 : IVec S64x128x64x64 1 := cmpf .olt main_v0 main_v1
  let main_c : IVec S_ 1 := constantI S_ 1 1#1
  let main_v3 : IVec S_ 1 := (fun x v => Host.reduce IntOp.andi x v reducesTo_S64x128x64x64_S_d0_1_2_3 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S4x128 .f32 := Host.absf main_arg4
  let main_cst_2 : FVec F S_ .f32 := constant S_ .f32 0x7F800000#32
  let main_v10 : FVec F S4x128 .f32 := broadcastInDim S4x128 ![] bcast_S_S4x128 main_cst_2
  let main_v11 : IVec S4x128 1 := cmpf .olt main_v9 main_v10
  let main_c_3 : IVec S_ 1 := constantI S_ 1 1#1
  let main_v12 : IVec S_ 1 := (fun x v => Host.reduce IntOp.andi x v reducesTo_S4x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg2 main_arg6 main_arg7 main_v13 main_v16
-- ==== Kernel.lean ====
abbrev S64x128x64x64 : Shape := ⟨4, ![64, 128, 64, 64]⟩
abbrev S64 : Shape := ⟨1, ![64]⟩
abbrev S4x128 : Shape := ⟨2, ![4, 128]⟩
abbrev S128 : Shape := ⟨1, ![128]⟩
abbrev S4x128x1x1 : Shape := ⟨4, ![4, 128, 1, 1]⟩
abbrev S1x128x64x64 : Shape := ⟨4, ![1, 128, 64, 64]⟩
abbrev S1 : Shape := ⟨1, ![1]⟩
abbrev S1x128x1x1 : Shape := ⟨4, ![1, 128, 1, 1]⟩
abbrev S1x128x64 : Shape := ⟨3, ![1, 128, 64]⟩
abbrev S1x128x64x1 : Shape := ⟨4, ![1, 128, 64, 1]⟩
abbrev S1x128x1 : Shape := ⟨3, ![1, 128, 1]⟩
abbrev S_ : Shape := ⟨0, ![]⟩
abbrev S64x1 : Shape := ⟨2, ![64, 1]⟩
abbrev S64x128 : Shape := ⟨2, ![64, 128]⟩
abbrev S1x128 : Shape := ⟨2, ![1, 128]⟩
abbrev S64x128x1x1 : Shape := ⟨4, ![64, 128, 1, 1]⟩

abbrev nBuf : Space → Nat
  | .hbm => 100
  | .vmem => 24
  | .smem => 1
  | _ => 0

abbrev bufTy : (tb : Table) → Fin (tcTables nBuf tb) → BufTy
  | .hbm, ⟨0, _⟩ => ⟨S64x128x64x64, .f32⟩
  | .hbm, ⟨1, _⟩ => ⟨S64, .i32⟩
  | .hbm, ⟨2, _⟩ => ⟨S4x128, .f32⟩
  | .hbm, ⟨3, _⟩ => ⟨S4x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4x128x1x1, .f32⟩
  | .hbm, ⟨8, _⟩ => ⟨S4x128x1x1, .f32⟩
  | .hbm, ⟨9, _⟩ => ⟨S_, .f32⟩
  | .hbm, ⟨10, _⟩ => ⟨S4x128x1x1, .f32⟩
  | .hbm, ⟨11, _⟩ => ⟨S4x128x1x1, .f32⟩
  | .hbm, ⟨12, _⟩ => ⟨S_, .f32⟩
  | .hbm, ⟨13, _⟩ => ⟨S4x128x1x1, .f32⟩
  | .hbm, ⟨14, _⟩ => ⟨S4x128x1x1, .f32⟩
  | .hbm, ⟨15, _⟩ => ⟨S4x128x1x1, .f32⟩
  | .hbm, ⟨16, _⟩ => ⟨S4x128x1x1, .f32⟩
  | .hbm, ⟨17, _⟩ => ⟨S4x128, .f32⟩
  | .hbm, ⟨18, _⟩ => ⟨S4x128, .f32⟩
  | .hbm, ⟨19, _⟩ => ⟨S_, .i32⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S64, .i32⟩
  | .hbm, ⟨28, _⟩ => ⟨S64, .i32⟩
  | .hbm, ⟨29, _⟩ => ⟨S_, .i32⟩
  | .hbm, ⟨30, _⟩ => ⟨S64, .i32⟩
  | .hbm, ⟨31, _⟩ => ⟨S64, .i1⟩
  | .hbm, ⟨32, _⟩ => ⟨S64, .i1⟩
  | .hbm, ⟨33, _⟩ => ⟨S_, .i32⟩
  | .hbm, ⟨34, _⟩ => ⟨S64, .i32⟩
  | .hbm, ⟨35, _⟩ => ⟨S64, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i1⟩
  | .hbm, ⟨40, _⟩ => ⟨S_, .i32⟩
  | .hbm, ⟨41, _⟩ => ⟨S64, .i32⟩
  | .hbm, ⟨42, _⟩ => ⟨S64, .i32⟩
  | .hbm, ⟨43, _⟩ => ⟨S64, .i32⟩
  | .hbm, ⟨44, _⟩ => ⟨S64x1, .i32⟩
  | .hbm, ⟨45, _⟩ => ⟨S64x128, .f32⟩
  | .hbm, ⟨46, _⟩ => ⟨S_, .i32⟩
  | .hbm, ⟨47, _⟩ => ⟨S64, .i32⟩
  | .hbm, ⟨48, _⟩ => ⟨S64, .i1⟩
  | .hbm, ⟨49, _⟩ => ⟨S_, .i32⟩
  | .hbm, ⟨50, _⟩ => ⟨S64, .i32⟩
  | .hbm, ⟨51, _⟩ => ⟨S64, .i32⟩
  | .hbm, ⟨52, _⟩ => ⟨S64, .i32⟩
  | .hbm, ⟨53, _⟩ => ⟨S64x1, .i32⟩
  | .hbm, ⟨54, _⟩ => ⟨S64x128, .f32⟩
  | .hbm, ⟨55, _⟩ => ⟨S_, .i32⟩
  | .hbm, ⟨56, _⟩ => ⟨S64, .i32⟩
  | .hbm, ⟨57, _⟩ => ⟨S64, .i1⟩
  | .hbm, ⟨58, _⟩ => ⟨S_, .i32⟩
  | .hbm, ⟨59, _⟩ => ⟨S64, .i32⟩
  | .hbm, ⟨60, _⟩ => ⟨S64, .i32⟩
  | .hbm, ⟨61, _⟩ => ⟨S64, .i32⟩
  | .hbm, ⟨62, _⟩ => ⟨S64x1, .i32⟩
  | .hbm, ⟨63, _⟩ => ⟨S64x128, .f32⟩
  | .hbm, ⟨64, _⟩ => ⟨S_, .i32⟩
  | .hbm, ⟨65, _⟩ => ⟨S64, .i32⟩
  | .hbm, ⟨66, _⟩ => ⟨S64, .i1⟩
  | .hbm, ⟨67, _⟩ => ⟨S_, .i32⟩
  | .hbm, ⟨68, _⟩ => ⟨S64, .i32⟩
  | .hbm, ⟨69, _⟩ => ⟨S64, .i32⟩
  | .hbm, ⟨70, _⟩ => ⟨S64, .i32⟩
  | .hbm, ⟨71, _⟩ => ⟨S64x1, .i32⟩
  | .hbm, ⟨72, _⟩ => ⟨S64x128, .f32⟩
  | .hbm, ⟨73, _⟩ => ⟨S128, .f32⟩
  | .hbm, ⟨74, _⟩ => ⟨S128, .f32⟩
  | .hbm, ⟨75, _⟩ => ⟨S_, .f32⟩
  | .hbm, ⟨76, _⟩ => ⟨S128, .f32⟩
  | .hbm, ⟨77, _⟩ => ⟨S128, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S_, .i32⟩
  | .hbm, ⟨82, _⟩ => ⟨S64, .i32⟩
  | .hbm, ⟨83, _⟩ => ⟨S64, .i1⟩
  | .hbm, ⟨84, _⟩ => ⟨S64x1, .i1⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S64x128, .i1⟩
  | .hbm, ⟨89, _⟩ => ⟨S64x128, .f32⟩
  | .hbm, ⟨90, _⟩ => ⟨S64x128, .f32⟩
  | .hbm, ⟨91, _⟩ => ⟨S64x128, .f32⟩
  | .hbm, ⟨92, _⟩ => ⟨S64x128x1x1, .f32⟩
  | .hbm, ⟨93, _⟩ => ⟨S64x128x1x1, .f32⟩
  | .hbm, ⟨94, _⟩ => ⟨S64x128x1x1, .f32⟩
  | .hbm, ⟨95, _⟩ => ⟨S64x128x1x1, .f32⟩
  | .hbm, ⟨96, _⟩ => ⟨S64x128x1x1, .f32⟩
  | .hbm, ⟨97, _⟩ => ⟨S1x128x1x1, .f32⟩
  | .hbm, ⟨98, _⟩ => ⟨S1x128x1x1, .f32⟩
  | .hbm, ⟨99, _⟩ => ⟨S64x128x64x64, .f32⟩
  | .local _ .vmem, ⟨0, _⟩ => ⟨S1x128x64x64, .f32⟩
  | .local _ .vmem, ⟨1, _⟩ => ⟨S1x128x64x64, .f32⟩
  | .local _ .vmem, ⟨2, _⟩ => ⟨S1x128x1x1, .f32⟩
  | .local _ .vmem, ⟨3, _⟩ => ⟨S1x128x1x1, .f32⟩
  | .local _ .vmem, ⟨4, _⟩ => ⟨S1x128x1x1, .f32⟩
  | .local _ .vmem, ⟨5, _⟩ => ⟨S1x128x1x1, .f32⟩
  | .local _ .vmem, ⟨6, _⟩ => ⟨S1x128x1x1, .f32⟩
  | .local _ .vmem, ⟨7, _⟩ => ⟨S1x128x1x1, .f32⟩
  | .local _ .vmem, ⟨8, _⟩ => ⟨S1x128x64x64, .f32⟩
  | .local _ .vmem, ⟨9, _⟩ => ⟨S1x128x64x64, .f32⟩
  | .local _ .vmem, ⟨10, _⟩ => ⟨S1x128x1x1, .f32⟩
  | .local _ .vmem, ⟨11, _⟩ => ⟨S1x128x1x1, .f32⟩
  | .local _ .vmem, ⟨12, _⟩ => ⟨S1x128x1x1, .f32⟩
  | .local _ .vmem, ⟨13, _⟩ => ⟨S1x128x1x1, .f32⟩
  | .local _ .vmem, ⟨14, _⟩ => ⟨S1x128x1x1, .f32⟩
  | .local _ .vmem, ⟨15, _⟩ => ⟨S1x128x1x1, .f32⟩
  | .local _ .vmem, ⟨16, _⟩ => ⟨S1x128x1x1, .f32⟩
  | .local _ .vmem, ⟨17, _⟩ => ⟨S1x128x1x1, .f32⟩
  | .local _ .vmem, ⟨18, _⟩ => ⟨S1x128x1x1, .f32⟩
  | .local _ .vmem, ⟨19, _⟩ => ⟨S1x128x1x1, .f32⟩
  | .local _ .vmem, ⟨20, _⟩ => ⟨S1x128x1x1, .f32⟩
  | .local _ .vmem, ⟨21, _⟩ => ⟨S1x128x1x1, .f32⟩
  | .local _ .vmem, ⟨22, _⟩ => ⟨S1x128x64x64, .f32⟩
  | .local _ .vmem, ⟨23, _⟩ => ⟨S1x128x64x64, .f32⟩
  | .local _ .smem, ⟨0, _⟩ => ⟨S64, .i32⟩
  | _, _ => ⟨S64x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v9 : Ref sig .tc := ⟨.hbm, 36, rfl⟩
abbrev main_c_1 : Ref sig .tc := ⟨.hbm, 37, rfl⟩
abbrev main_v10 : Ref sig .tc := ⟨.hbm, 38, rfl⟩
abbrev main_v11 : Ref sig .tc := ⟨.hbm, 39, rfl⟩
abbrev main_c_2 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_3 : Ref sig .tc := ⟨.hbm, 46, rfl⟩
abbrev main_v17 : Ref sig .tc := ⟨.hbm, 47, rfl⟩
abbrev main_v18 : Ref sig .tc := ⟨.hbm, 48, rfl⟩
abbrev main_c_4 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_c_5 : Ref sig .tc := ⟨.hbm, 55, rfl⟩
abbrev main_v24 : Ref sig .tc := ⟨.hbm, 56, rfl⟩
abbrev main_v25 : Ref sig .tc := ⟨.hbm, 57, rfl⟩
abbrev main_c_6 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_7 : Ref sig .tc := ⟨.hbm, 64, rfl⟩
abbrev main_v31 : Ref sig .tc := ⟨.hbm, 65, rfl⟩
abbrev main_v32 : Ref sig .tc := ⟨.hbm, 66, rfl⟩
abbrev main_c_8 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst_9 : Ref sig .tc := ⟨.hbm, 75, rfl⟩
abbrev main_v40 : Ref sig .tc := ⟨.hbm, 76, rfl⟩
abbrev main_v41 : Ref sig .tc := ⟨.hbm, 77, rfl⟩
abbrev main_cst_10 : Ref sig .tc := ⟨.hbm, 78, rfl⟩
abbrev main_v42 : Ref sig .tc := ⟨.hbm, 79, rfl⟩
abbrev main_v43 : Ref sig .tc := ⟨.hbm, 80, rfl⟩
abbrev main_c_11 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_cst_12 : Ref sig .tc := ⟨.hbm, 85, rfl⟩
abbrev main_v47 : Ref sig .tc := ⟨.hbm, 86, rfl⟩
abbrev main_v48 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17
abbrev cc1_sem6_0 : DmaSem sig := 18
abbrev cc1_sem7_0 : DmaSem sig := 19
abbrev cc1_sem8_0 : DmaSem sig := 20
abbrev cc1_sem8_1 : DmaSem sig := 21

abbrev nD : Nat := 1
abbrev τ : Topo := Topo.v7x

variable {F : FTy → Type} [FloatOps F]

abbrev grid0 : Pipeline.Grid := ⟨2, ![4, 16], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let v2 : Index := Scalar.indexCast v1
  ![v2.toNat]
def k0_cond2 (i : grid0.Coords) : BitVec 1 :=
  let arg1 : BitVec 32 := BitVec.ofNat 32 (i 1).val
  let c15_i32 : BitVec 32 := 15#32
  let v23 : BitVec 1 := Scalar.cmpi .eq arg1 c15_i32
  let v24 : BitVec 32 := Scalar.extui v23
  let c0_i32_23 : BitVec 32 := 0#32
  let v25 : BitVec 1 := Scalar.cmpi .ne v24 c0_i32_23
  v25

def cc0_transform_0 (k0_off1_inb : ∀ i : grid0.Coords, ∀ a, (k0_off1 i) a + S1.size a ≤ S64.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let v2 : Index := Scalar.indexCast v1
  let v3 : BitVec 32 := pf.at 0 (Rect.unit (s := S64) ![v2.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![v3.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_5 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_7 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S1x128x64x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x1x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x1x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x128x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x128x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128x1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128x1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x128x64x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  numel1_S1 : S1.numel = 1
  inb_S1x128x1x1_S1x128x1x1_0_0_0_0 : ∀ a, (![0, 0, 0, 0] : Fin 4 → Nat) a + S1x128x1x1.size a ≤ S1x128x1x1.size a
  h_S1x128x1x1 : 0 < S1x128x1x1.numel
  shapeCasts_S1x128x1x1_S1x128x1x1 : S1x128x1x1.ShapeCasts S1x128x1x1
  inb_S1x128x64x64_S1x128x64x64_0_0_0_0 : ∀ a, (![0, 0, 0, 0] : Fin 4 → Nat) a + S1x128x64x64.size a ≤ S1x128x64x64.size a
  h_S1x128x64x64 : 0 < S1x128x64x64.numel
  reduces_S1x128x64x64_S1x128x64 : S1x128x64x64.Reduces [3] S1x128x64
  shapeCasts_S1x128x64_S1x128x64x1 : S1x128x64.ShapeCasts S1x128x64x1
  reduces_S1x128x64x1_S1x128x1 : S1x128x64x1.Reduces [2] S1x128x1
  shapeCasts_S1x128x1_S1x128x1x1 : S1x128x1.ShapeCasts S1x128x1x1
  bcast_S_S4x128x1x1 : S_.BroadcastsInDim S4x128x1x1 (![] : Fin 0 → Fin S4x128x1x1.rank)
  shapeCasts_S4x128x1x1_S4x128 : S4x128x1x1.ShapeCasts S4x128
  bcast_S_S64 : S_.BroadcastsInDim S64 (![] : Fin 0 → Fin S64.rank)
  bcast_S64_S64x1_0 : S64.BroadcastsInDim S64x1 (![0] : Fin 1 → Fin S64x1.rank)
  bcast_S_S128 : S_.BroadcastsInDim S128 (![] : Fin 0 → Fin S128.rank)
  bcast_S_S1x128 : S_.BroadcastsInDim S1x128 (![] : Fin 0 → Fin S1x128.rank)
  bcast_S128_S1x128_1 : S128.BroadcastsInDim S1x128 (![1] : Fin 1 → Fin S1x128.rank)
  bcast_S64x1_S64x128_0_1 : S64x1.BroadcastsInDim S64x128 (![0, 1] : Fin 2 → Fin S64x128.rank)
  bcast_S1x128_S64x128_0_1 : S1x128.BroadcastsInDim S64x128 (![0, 1] : Fin 2 → Fin S64x128.rank)
  shapeCasts_S64x128_S64x128x1x1 : S64x128.ShapeCasts S64x128x1x1
  shapeCasts_S128_S1x128x1x1 : S128.ShapeCasts S1x128x1x1
  broadcasts_S1x128x1x1_S1x128x64x64 : S1x128x1x1.Broadcasts S1x128x64x64
  gather_S4x128_S64x1_S64x128_1_0_n_n_0_1_1128_wf : GatherDims.WF S4x128 S64x1 S64x128 [1] [0] [] [0] [] 1 ![1, 128]
  hrank0 : 0 < grid0.rank
  k0_off1_inb : ∀ i : grid0.Coords, ∀ a, (k0_off1 i) a + S1.size a ≤ S64.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x1x1.size a ≤ S4x128x1x1.size a
  hwx0_1 : ∀ i : grid0.Coords, EltTy.bits .f32 = 32 ∨ (Rect.block (s := S4x128x1x1) S1x128x1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x1x1.size a ≤ S4x128x1x1.size a
  hwx0_2 : ∀ i : grid0.Coords, EltTy.bits .f32 = 32 ∨ (Rect.block (s := S4x128x1x1) S1x128x1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x64x64.size a ≤ S64x128x64x64.size a
  hwx1_0 : ∀ i : grid1.Coords, EltTy.bits .f32 = 32 ∨ (Rect.block (s := S64x128x64x64) S1x128x64x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x1x1.size a ≤ S64x128x1x1.size a
  hwx1_1 : ∀ i : grid1.Coords, EltTy.bits .f32 = 32 ∨ (Rect.block (s := S64x128x1x1) S1x128x1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x1x1.size a ≤ S64x128x1x1.size a
  hwx1_2 : ∀ i : grid1.Coords, EltTy.bits .f32 = 32 ∨ (Rect.block (s := S64x128x1x1) S1x128x1x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x1x1.size a ≤ S64x128x1x1.size a
  hwx1_3 : ∀ i : grid1.Coords, EltTy.bits .f32 = 32 ∨ (Rect.block (s := S64x128x1x1) S1x128x1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x128x1x1.size a ≤ S64x128x1x1.size a
  hwx1_4 : ∀ i : grid1.Coords, EltTy.bits .f32 = 32 ∨ (Rect.block (s := S64x128x1x1) S1x128x1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x128x1x1.size a ≤ S64x128x1x1.size a
  hwx1_5 : ∀ i : grid1.Coords, EltTy.bits .f32 = 32 ∨ (Rect.block (s := S64x128x1x1) S1x128x1x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128x1x1.size a ≤ S1x128x1x1.size a
  hwx1_6 : ∀ i : grid1.Coords, EltTy.bits .f32 = 32 ∨ (Rect.block (s := S1x128x1x1) S1x128x1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128x1x1.size a ≤ S1x128x1x1.size a
  hwx1_7 : ∀ i : grid1.Coords, EltTy.bits .f32 = 32 ∨ (Rect.block (s := S1x128x1x1) S1x128x1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128x64x64.size a ≤ S64x128x64x64.size a
  hwx1_8 : ∀ i : grid1.Coords, EltTy.bits .f32 = 32 ∨ (Rect.block (s := S64x128x64x64) S1x128x64x64.size (cc1_transform_8 i) (hinb1_8 i)).WholeWords (EltTy.packing .f32)

variable [Facts₀]

def gather_S4x128_S64x1_S64x128_1_0_n_n_0_1_1128 : GatherDims S4x128 S64x1 S64x128 where
  offsetDims := [1]
  collapsedSliceDims := [0]
  operandBatchingDims := []
  startIndicesBatchingDims := []
  startIndexMap := [0]
  indexVectorDim := 1
  sliceSizes := ![1, 128]
  wf := gather_S4x128_S64x1_S64x128_1_0_n_n_0_1_1128_wf

abbrev spec0_0 : Pipeline.WinSpec sig grid0.rank :=
  Pipeline.WinSpec.ofSpec (Memref.whole main_arg0) S1x128x64x64.size reads0_0 false false 2 stage0_0 sem0_0 nbuf0_0 hstage0_0

abbrev spec0_1 : Pipeline.WinSpec sig grid0.rank :=
  Pipeline.WinSpec.ofSpec (Memref.whole main_v0_0) S1x128x1x1.size reads0_1 true false 2 stage0_1 sem0_1 nbuf0_1 hstage0_1

abbrev spec0_2 : Pipeline.WinSpec sig grid0.rank :=
  Pipeline.WinSpec.ofSpec (Memref.whole main_v0_1) S1x128x1x1.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x128x64x64.size a ≤ S64x128x64x64.size a), EltTy.bits .f32 = 32 ∨ (Rect.block (s := S64x128x64x64) S1x128x64x64.size (cc0_transform_0 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok i).elim fun h _ => h a | 1 => hinb0_1 | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok i).elim fun _ h => h | 1 => hwx0_1 | 2 => hwx0_2 | ⟨_ + 3, h⟩ => absurd h (Nat.not_lt.2 (Nat.le_add_left _ _))
abbrev idle0 : Fin 3 → grid0.Coords → Bool := fun | 0 => fun _ => false | 1 => fun i => !(k0_cond2 i == 1#1) | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg0) S1x128x64x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v50) S1x128x1x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v51) S1x128x1x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v52) S1x128x1x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v53) S1x128x1x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v54) S1x128x1x1.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v55) S1x128x1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v56) S1x128x1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v57) S1x128x64x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where
  harr0 : ∀ w, (spec0 w).arr.IsWhole

variable [Facts]
-- ==== ReferenceIdeal.lean ====
abbrev S64x128x64x64 : Shape := ⟨4, ![64, 128, 64, 64]⟩
abbrev S64 : Shape := ⟨1, ![64]⟩
abbrev S4x128 : Shape := ⟨2, ![4, 128]⟩
abbrev S128 : Shape := ⟨1, ![128]⟩
abbrev S_ : Shape := ⟨0, ![]⟩
abbrev S64x1 : Shape := ⟨2, ![64, 1]⟩
abbrev S16x128x64x64 : Shape := ⟨4, ![16, 128, 64, 64]⟩
abbrev S1x128x1x1 : Shape := ⟨4, ![1, 128, 1, 1]⟩
abbrev S1x128 : Shape := ⟨2, ![1, 128]⟩
abbrev S16x128 : Shape := ⟨2, ![16, 128]⟩
abbrev S16x128x1x1 : Shape := ⟨4, ![16, 128, 1, 1]⟩

abbrev nBuf : Space → Nat
  | .hbm => 284
  | .vmem => 0
  | .smem => 0
  | _ => 0

abbrev hbmTy0_0 (i : Nat) : BufTy := match i % 128 with
  | 0 => ⟨S64x128x64x64, .f32⟩
  | 1 => ⟨S64, .i32⟩
  | 2 => ⟨S64, .i32⟩
  | 3 => ⟨S4x128, .f32⟩
  | 4 => ⟨S4x128, .f32⟩
  | 5 => ⟨S128, .f32⟩
  | 6 => ⟨S128, .f32⟩
  | 7 => ⟨S128, .f32⟩
  | 8 => ⟨S_, .i32⟩
  | 9 => ⟨S64, .i32⟩
  | 10 => ⟨S64, .i1⟩
  | 11 => ⟨S_, .i32⟩
  | 12 => ⟨S64, .i32⟩
  | 13 => ⟨S64, .i32⟩
  | 14 => ⟨S64, .i32⟩
  | 15 => ⟨S64x1, .i32⟩
  | 16 => ⟨S64x128x64x64, .f32⟩
  | 17 => ⟨S16x128x64x64, .f32⟩
  | 18 => ⟨S_, .f32⟩
  | 19 => ⟨S128, .f32⟩
  | 20 => ⟨S1x128x1x1, .f32⟩
  | 21 => ⟨S_, .f32⟩
  | 22 => ⟨S1x128x1x1, .f32⟩
  | 23 => ⟨S1x128x1x1, .f32⟩
  | 24 => ⟨S_, .i32⟩
  | 25 => ⟨S_, .f32⟩
  | 26 => ⟨S128, .f32⟩
  | 27 => ⟨S1x128x1x1, .f32⟩
  | 28 => ⟨S_, .f32⟩
  | 29 => ⟨S1x128x1x1, .f32⟩
  | 30 => ⟨S1x128x1x1, .f32⟩
  | 31 => ⟨S16x128x64x64, .f32⟩
  | 32 => ⟨S16x128x64x64, .f32⟩
  | 33 => ⟨S16x128x64x64, .f32⟩
  | 34 => ⟨S_, .f32⟩
  | 35 => ⟨S_, .f32⟩
  | 36 => ⟨S_, .f32⟩
  | 37 => ⟨S_, .f32⟩
  | 38 => ⟨S128, .f32⟩
  | 39 => ⟨S1x128x1x1, .f32⟩
  | 40 => ⟨S1x128x1x1, .f32⟩
  | 41 => ⟨S1x128x1x1, .f32⟩
  | 42 => ⟨S_, .f32⟩
  | 43 => ⟨S_, .i1⟩
  | 44 => ⟨S_, .f32⟩
  | 45 => ⟨S_, .f32⟩
  | 46 => ⟨S1x128x1x1, .f32⟩
  | 47 => ⟨S1x128x1x1, .f32⟩
  | 48 => ⟨S16x128x64x64, .f32⟩
  | 49 => ⟨S16x128x64x64, .f32⟩
  | 50 => ⟨S_, .f32⟩
  | 51 => ⟨S1x128x1x1, .f32⟩
  | 52 => ⟨S1x128x1x1, .f32⟩
  | 53 => ⟨S1x128x1x1, .f32⟩
  | 54 => ⟨S16x128x64x64, .f32⟩
  | 55 => ⟨S16x128x64x64, .f32⟩
  | 56 => ⟨S1x128, .f32⟩
  | 57 => ⟨S128, .f32⟩
  | 58 => ⟨S1x128x1x1, .f32⟩
  | 59 => ⟨S16x128x64x64, .f32⟩
  | 60 => ⟨S16x128x64x64, .f32⟩
  | 61 => ⟨S1x128, .f32⟩
  | 62 => ⟨S128, .f32⟩
  | 63 => ⟨S1x128x1x1, .f32⟩
  | 64 => ⟨S16x128x64x64, .f32⟩
  | 65 => ⟨S16x128x64x64, .f32⟩
  | 66 => ⟨S16x128x64x64, .f32⟩
  | 67 => ⟨S_, .f32⟩
  | 68 => ⟨S128, .f32⟩
  | 69 => ⟨S1x128x1x1, .f32⟩
  | 70 => ⟨S_, .f32⟩
  | 71 => ⟨S1x128x1x1, .f32⟩
  | 72 => ⟨S1x128x1x1, .f32⟩
  | 73 => ⟨S_, .i32⟩
  | 74 => ⟨S_, .f32⟩
  | 75 => ⟨S128, .f32⟩
  | 76 => ⟨S1x128x1x1, .f32⟩
  | 77 => ⟨S_, .f32⟩
  | 78 => ⟨S1x128x1x1, .f32⟩
  | 79 => ⟨S1x128x1x1, .f32⟩
  | 80 => ⟨S16x128x64x64, .f32⟩
  | 81 => ⟨S16x128x64x64, .f32⟩
  | 82 => ⟨S16x128x64x64, .f32⟩
  | 83 => ⟨S_, .f32⟩
  | 84 => ⟨S_, .f32⟩
  | 85 => ⟨S_, .f32⟩
  | 86 => ⟨S_, .f32⟩
  | 87 => ⟨S128, .f32⟩
  | 88 => ⟨S1x128x1x1, .f32⟩
  | 89 => ⟨S1x128x1x1, .f32⟩
  | 90 => ⟨S1x128x1x1, .f32⟩
  | 91 => ⟨S_, .f32⟩
  | 92 => ⟨S_, .i1⟩
  | 93 => ⟨S_, .f32⟩
  | 94 => ⟨S_, .f32⟩
  | 95 => ⟨S1x128x1x1, .f32⟩
  | 96 => ⟨S1x128x1x1, .f32⟩
  | 97 => ⟨S16x128x64x64, .f32⟩
  | 98 => ⟨S16x128x64x64, .f32⟩
  | 99 => ⟨S_, .f32⟩
  | 100 => ⟨S1x128x1x1, .f32⟩
  | 101 => ⟨S1x128x1x1, .f32⟩
  | 102 => ⟨S1x128x1x1, .f32⟩
  | 103 => ⟨S16x128x64x64, .f32⟩
  | 104 => ⟨S16x128x64x64, .f32⟩
  | 105 => ⟨S1x128, .f32⟩
  | 106 => ⟨S128, .f32⟩
  | 107 => ⟨S1x128x1x1, .f32⟩
  | 108 => ⟨S16x128x64x64, .f32⟩
  | 109 => ⟨S16x128x64x64, .f32⟩
  | 110 => ⟨S1x128, .f32⟩
  | 111 => ⟨S128, .f32⟩
  | 112 => ⟨S1x128x1x1, .f32⟩
  | 113 => ⟨S16x128x64x64, .f32⟩
  | 114 => ⟨S16x128x64x64, .f32⟩
  | 115 => ⟨S16x128x64x64, .f32⟩
  | 116 => ⟨S_, .f32⟩
  | 117 => ⟨S128, .f32⟩
  | 118 => ⟨S1x128x1x1, .f32⟩
  | 119 => ⟨S_, .f32⟩
  | 120 => ⟨S1x128x1x1, .f32⟩
  | 121 => ⟨S1x128x1x1, .f32⟩
  | 122 => ⟨S_, .i32⟩
  | 123 => ⟨S_, .f32⟩
  | 124 => ⟨S128, .f32⟩
  | 125 => ⟨S1x128x1x1, .f32⟩
  | 126 => ⟨S_, .f32⟩
  | 127 => ⟨S1x128x1x1, .f32⟩
  | _ => ⟨S64x128x64x64, .f32⟩

abbrev hbmTy0_1 (i : Nat) : BufTy := match i % 128 with
  | 0 => ⟨S1x128x1x1, .f32⟩
  | 1 => ⟨S16x128x64x64, .f32⟩
  | 2 => ⟨S16x128x64x64, .f32⟩
  | 3 => ⟨S16x128x64x64, .f32⟩
  | 4 => ⟨S_, .f32⟩
  | 5 => ⟨S_, .f32⟩
  | 6 => ⟨S_, .f32⟩
  | 7 => ⟨S_, .f32⟩
  | 8 => ⟨S128, .f32⟩
  | 9 => ⟨S1x128x1x1, .f32⟩
  | 10 => ⟨S1x128x1x1, .f32⟩
  | 11 => ⟨S1x128x1x1, .f32⟩
  | 12 => ⟨S_, .f32⟩
  | 13 => ⟨S_, .i1⟩
  | 14 => ⟨S_, .f32⟩
  | 15 => ⟨S_, .f32⟩
  | 16 => ⟨S1x128x1x1, .f32⟩
  | 17 => ⟨S1x128x1x1, .f32⟩
  | 18 => ⟨S16x128x64x64, .f32⟩
  | 19 => ⟨S16x128x64x64, .f32⟩
  | 20 => ⟨S_, .f32⟩
  | 21 => ⟨S1x128x1x1, .f32⟩
  | 22 => ⟨S1x128x1x1, .f32⟩
  | 23 => ⟨S1x128x1x1, .f32⟩
  | 24 => ⟨S16x128x64x64, .f32⟩
  | 25 => ⟨S16x128x64x64, .f32⟩
  | 26 => ⟨S1x128, .f32⟩
  | 27 => ⟨S128, .f32⟩
  | 28 => ⟨S1x128x1x1, .f32⟩
  | 29 => ⟨S16x128x64x64, .f32⟩
  | 30 => ⟨S16x128x64x64, .f32⟩
  | 31 => ⟨S1x128, .f32⟩
  | 32 => ⟨S128, .f32⟩
  | 33 => ⟨S1x128x1x1, .f32⟩
  | 34 => ⟨S16x128x64x64, .f32⟩
  | 35 => ⟨S16x128x64x64, .f32⟩
  | 36 => ⟨S16x128x64x64, .f32⟩
  | 37 => ⟨S_, .f32⟩
  | 38 => ⟨S128, .f32⟩
  | 39 => ⟨S1x128x1x1, .f32⟩
  | 40 => ⟨S_, .f32⟩
  | 41 => ⟨S1x128x1x1, .f32⟩
  | 42 => ⟨S1x128x1x1, .f32⟩
  | 43 => ⟨S_, .i32⟩
  | 44 => ⟨S_, .f32⟩
  | 45 => ⟨S128, .f32⟩
  | 46 => ⟨S1x128x1x1, .f32⟩
  | 47 => ⟨S_, .f32⟩
  | 48 => ⟨S1x128x1x1, .f32⟩
  | 49 => ⟨S1x128x1x1, .f32⟩
  | 50 => ⟨S16x128x64x64, .f32⟩
  | 51 => ⟨S16x128x64x64, .f32⟩
  | 52 => ⟨S16x128x64x64, .f32⟩
  | 53 => ⟨S_, .f32⟩
  | 54 => ⟨S_, .f32⟩
  | 55 => ⟨S_, .f32⟩
  | 56 => ⟨S_, .f32⟩
  | 57 => ⟨S128, .f32⟩
  | 58 => ⟨S1x128x1x1, .f32⟩
  | 59 => ⟨S1x128x1x1, .f32⟩
  | 60 => ⟨S1x128x1x1, .f32⟩
  | 61 => ⟨S_, .f32⟩
  | 62 => ⟨S_, .i1⟩
  | 63 => ⟨S_, .f32⟩
  | 64 => ⟨S_, .f32⟩
  | 65 => ⟨S1x128x1x1, .f32⟩
  | 66 => ⟨S1x128x1x1, .f32⟩
  | 67 => ⟨S16x128x64x64, .f32⟩
  | 68 => ⟨S16x128x64x64, .f32⟩
  | 69 => ⟨S_, .f32⟩
  | 70 => ⟨S1x128x1x1, .f32⟩
  | 71 => ⟨S1x128x1x1, .f32⟩
  | 72 => ⟨S1x128x1x1, .f32⟩
  | 73 => ⟨S16x128x64x64, .f32⟩
  | 74 => ⟨S16x128x64x64, .f32⟩
  | 75 => ⟨S1x128, .f32⟩
  | 76 => ⟨S128, .f32⟩
  | 77 => ⟨S1x128x1x1, .f32⟩
  | 78 => ⟨S16x128x64x64, .f32⟩
  | 79 => ⟨S16x128x64x64, .f32⟩
  | 80 => ⟨S1x128, .f32⟩
  | 81 => ⟨S128, .f32⟩
  | 82 => ⟨S1x128x1x1, .f32⟩
  | 83 => ⟨S16x128x64x64, .f32⟩
  | 84 => ⟨S16x128x64x64, .f32⟩
  | 85 => ⟨S_, .f32⟩
  | 86 => ⟨S16x128, .f32⟩
  | 87 => ⟨S16x128x1x1, .f32⟩
  | 88 => ⟨S_, .f32⟩
  | 89 => ⟨S16x128x1x1, .f32⟩
  | 90 => ⟨S16x128x1x1, .f32⟩
  | 91 => ⟨S_, .i32⟩
  | 92 => ⟨S_, .f32⟩
  | 93 => ⟨S16x128, .f32⟩
  | 94 => ⟨S16x128x1x1, .f32⟩
  | 95 => ⟨S_, .f32⟩
  | 96 => ⟨S16x128x1x1, .f32⟩
  | 97 => ⟨S16x128x1x1, .f32⟩
  | 98 => ⟨S16x128x64x64, .f32⟩
  | 99 => ⟨S16x128x64x64, .f32⟩
  | 100 => ⟨S16x128x64x64, .f32⟩
  | 101 => ⟨S_, .f32⟩
  | 102 => ⟨S_, .f32⟩
  | 103 => ⟨S_, .f32⟩
  | 104 => ⟨S_, .f32⟩
  | 105 => ⟨S16x128, .f32⟩
  | 106 => ⟨S16x128x1x1, .f32⟩
  | 107 => ⟨S16x128x1x1, .f32⟩
  | 108 => ⟨S16x128x1x1, .f32⟩
  | 109 => ⟨S_, .f32⟩
  | 110 => ⟨S_, .i1⟩
  | 111 => ⟨S_, .f32⟩
  | 112 => ⟨S_, .f32⟩
  | 113 => ⟨S16x128x1x1, .f32⟩
  | 114 => ⟨S16x128x1x1, .f32⟩
  | 115 => ⟨S16x128x64x64, .f32⟩
  | 116 => ⟨S16x128x64x64, .f32⟩
  | 117 => ⟨S_, .f32⟩
  | 118 => ⟨S16x128x1x1, .f32⟩
  | 119 => ⟨S16x128x1x1, .f32⟩
  | 120 => ⟨S16x128x1x1, .f32⟩
  | 121 => ⟨S16x128x64x64, .f32⟩
  | 122 => ⟨S16x128x64x64, .f32⟩
  | 123 => ⟨S1x128x1x1, .f32⟩
  | 124 => ⟨S16x128x64x64, .f32⟩
  | 125 => ⟨S16x128x64x64, .f32⟩
  | 126 => ⟨S1x128x1x1, .f32⟩
  | 127 => ⟨S16x128x64x64, .f32⟩
  | _ => ⟨S64x128x64x64, .f32⟩

abbrev hbmTy0_2 (i : Nat) : BufTy := match i % 128 with
  | 0 => ⟨S16x128x64x64, .f32⟩
  | 1 => ⟨S128, .f32⟩
  | 2 => ⟨S128, .f32⟩
  | 3 => ⟨S_, .f32⟩
  | 4 => ⟨S128, .f32⟩
  | 5 => ⟨S128, .f32⟩
  | 6 => ⟨S_, .f32⟩
  | 7 => ⟨S128, .f32⟩
  | 8 => ⟨S128, .f32⟩
  | 9 => ⟨S1x128x1x1, .f32⟩
  | 10 => ⟨S16x128x64x64, .f32⟩
  | 11 => ⟨S16x128x64x64, .f32⟩
  | 12 => ⟨S_, .f32⟩
  | 13 => ⟨S1x128x1x1, .f32⟩
  | 14 => ⟨S1x128x1x1, .f32⟩
  | 15 => ⟨S16x128x64x64, .f32⟩
  | 16 => ⟨S16x128x64x64, .f32⟩
  | 17 => ⟨S16x128x64x64, .f32⟩
  | 18 => ⟨S64x128x64x64, .f32⟩
  | 19 => ⟨S_, .i32⟩
  | 20 => ⟨S64, .i32⟩
  | 21 => ⟨S64, .i1⟩
  | 22 => ⟨S_, .i32⟩
  | 23 => ⟨S64, .i32⟩
  | 24 => ⟨S64, .i32⟩
  | 25 => ⟨S64, .i32⟩
  | 26 => ⟨S64x1, .i32⟩
  | 27 => ⟨S64x128x64x64, .f32⟩
  | _ => ⟨S64x128x64x64, .f32⟩

abbrev hbmTy (i : Nat) : BufTy := match i / 128 with
  | 0 => hbmTy0_0 i
  | 1 => hbmTy0_1 i
  | 2 => hbmTy0_2 i
  | _ => ⟨S64x128x64x64, .f32⟩

abbrev bufTy : (tb : Table) → Fin (tcTables nBuf tb) → BufTy
  | .hbm, ⟨i, _⟩ => hbmTy i
  | _, _ => ⟨S64x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_call0_cst : Ref sig .tc := ⟨.hbm, 25, rfl⟩
abbrev main_call0_v0 : Ref sig .tc := ⟨.hbm, 26, rfl⟩
abbrev main_call0_v1 : Ref sig .tc := ⟨.hbm, 27, rfl⟩
abbrev main_call0_cst_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_v6 : Ref sig .tc := ⟨.hbm, 33, rfl⟩
abbrev main_call0_v7 : Ref sig .tc := ⟨.hbm, 34, rfl⟩
abbrev main_call0_cst_1 : Ref sig .tc := ⟨.hbm, 35, rfl⟩
abbrev main_call0_v8 : Ref sig .tc := ⟨.hbm, 36, rfl⟩
abbrev main_call0_cst_2 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_v12 : Ref sig .tc := ⟨.hbm, 41, rfl⟩
abbrev main_call0_cst_3 : Ref sig .tc := ⟨.hbm, 42, rfl⟩
abbrev main_call0_v13 : Ref sig .tc := ⟨.hbm, 43, rfl⟩
abbrev main_call0_cst_4 : Ref sig .tc := ⟨.hbm, 44, rfl⟩
abbrev main_call0_call0_v0 : Ref sig .tc := ⟨.hbm, 45, rfl⟩
abbrev main_call0_call0_v1 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_cst_4 : Ref sig .tc := ⟨.hbm, 67, rfl⟩
abbrev main_v31 : Ref sig .tc := ⟨.hbm, 68, rfl⟩
abbrev main_v32 : Ref sig .tc := ⟨.hbm, 69, rfl⟩
abbrev main_cst_5 : Ref sig .tc := ⟨.hbm, 70, rfl⟩
abbrev main_v33 : Ref sig .tc := ⟨.hbm, 71, rfl⟩
abbrev main_v34 : Ref sig .tc := ⟨.hbm, 72, rfl⟩
abbrev main_c_6 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_cst_0 : Ref sig .tc := ⟨.hbm, 77, rfl⟩
abbrev main_call1_v2 : Ref sig .tc := ⟨.hbm, 78, rfl⟩
abbrev main_call1_v3 : Ref sig .tc := ⟨.hbm, 79, rfl⟩
abbrev main_call1_v4 : Ref sig .tc := ⟨.hbm, 80, rfl⟩
abbrev main_call1_v5 : Ref sig .tc := ⟨.hbm, 81, rfl⟩
abbrev main_call1_v6 : Ref sig .tc := ⟨.hbm, 82, rfl⟩
abbrev main_call1_v7 : Ref sig .tc := ⟨.hbm, 83, rfl⟩
abbrev main_call1_cst_1 : Ref sig .tc := ⟨.hbm, 84, rfl⟩
abbrev main_call1_v8 : Ref sig .tc := ⟨.hbm, 85, rfl⟩
abbrev main_call1_cst_2 : Ref sig .tc := ⟨.hbm, 86, rfl⟩
abbrev main_call1_v9 : Ref sig .tc := ⟨.hbm, 87, rfl⟩
abbrev main_call1_v10 : Ref sig .tc := ⟨.hbm, 88, rfl⟩
abbrev main_call1_v11 : Ref sig .tc := ⟨.hbm, 89, rfl⟩
abbrev main_call1_v12 : Ref sig .tc := ⟨.hbm, 90, rfl⟩
abbrev main_call1_cst_3 : Ref sig .tc := ⟨.hbm, 91, rfl⟩
abbrev main_call1_v13 : Ref sig .tc := ⟨.hbm, 92, rfl⟩
abbrev main_call1_cst_4 : Ref sig .tc := ⟨.hbm, 93, rfl⟩
abbrev main_call1_call0_v0 : Ref sig .tc := ⟨.hbm, 94, rfl⟩
abbrev main_call1_call0_v1 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_cst_7 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_v43 : Ref sig .tc := ⟨.hbm, 105, rfl⟩
abbrev main_v44 : Ref sig .tc := ⟨.hbm, 106, rfl⟩
abbrev main_v45 : Ref sig .tc := ⟨.hbm, 107, rfl⟩
abbrev main_v46 : Ref sig .tc := ⟨.hbm, 108, rfl⟩
abbrev main_v47 : Ref sig .tc := ⟨.hbm, 109, rfl⟩
abbrev main_v48 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_cst_8 : Ref sig .tc := ⟨.hbm, 116, rfl⟩
abbrev main_v54 : Ref sig .tc := ⟨.hbm, 117, rfl⟩
abbrev main_v55 : Ref sig .tc := ⟨.hbm, 118, rfl⟩
abbrev main_cst_9 : Ref sig .tc := ⟨.hbm, 119, rfl⟩
abbrev main_v56 : Ref sig .tc := ⟨.hbm, 120, rfl⟩
abbrev main_v57 : Ref sig .tc := ⟨.hbm, 121, rfl⟩
abbrev main_c_10 : Ref sig .tc := ⟨.hbm, 122, rfl⟩
abbrev main_call2_cst : Ref sig .tc := ⟨.hbm, 123, rfl⟩
abbrev main_call2_v0 : Ref sig .tc := ⟨.hbm, 124, rfl⟩
abbrev main_call2_v1 : Ref sig .tc := ⟨.hbm, 125, rfl⟩
abbrev main_call2_cst_0 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_call2_v5 : Ref sig .tc := ⟨.hbm, 130, rfl⟩
abbrev main_call2_v6 : Ref sig .tc := ⟨.hbm, 131, rfl⟩
abbrev main_call2_v7 : Ref sig .tc := ⟨.hbm, 132, rfl⟩
abbrev main_call2_cst_1 : Ref sig .tc := ⟨.hbm, 133, rfl⟩
abbrev main_call2_v8 : Ref sig .tc := ⟨.hbm, 134, rfl⟩
abbrev main_call2_cst_2 : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_v12 : Ref sig .tc := ⟨.hbm, 139, rfl⟩
abbrev main_call2_cst_3 : Ref sig .tc := ⟨.hbm, 140, rfl⟩
abbrev main_call2_v13 : Ref sig .tc := ⟨.hbm, 141, rfl⟩
abbrev main_call2_cst_4 : Ref sig .tc := ⟨.hbm, 142, rfl⟩
abbrev main_call2_call0_v0 : Ref sig .tc := ⟨.hbm, 143, rfl⟩
abbrev main_call2_call0_v1 : Ref sig .tc := ⟨.hbm, 144, rfl⟩
abbrev main_v58 : Ref sig .tc := ⟨.hbm, 145, rfl⟩
abbrev main_v59 : Ref sig .tc := ⟨.hbm, 146, rfl⟩
abbrev main_v60 : Ref sig .tc := ⟨.hbm, 147, rfl⟩
abbrev main_cst_11 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_v73 : Ref sig .tc := ⟨.hbm, 161, rfl⟩
abbrev main_v74 : Ref sig .tc := ⟨.hbm, 162, rfl⟩
abbrev main_v75 : Ref sig .tc := ⟨.hbm, 163, rfl⟩
abbrev main_v76 : Ref sig .tc := ⟨.hbm, 164, rfl⟩
abbrev main_cst_12 : Ref sig .tc := ⟨.hbm, 165, rfl⟩
abbrev main_v77 : Ref sig .tc := ⟨.hbm, 166, rfl⟩
abbrev main_v78 : Ref sig .tc := ⟨.hbm, 167, rfl⟩
abbrev main_cst_13 : Ref sig .tc := ⟨.hbm, 168, rfl⟩
abbrev main_v79 : Ref sig .tc := ⟨.hbm, 169, rfl⟩
abbrev main_v80 : Ref sig .tc := ⟨.hbm, 170, rfl⟩
abbrev main_c_14 : Ref sig .tc := ⟨.hbm, 171, rfl⟩
abbrev main_call3_cst : Ref sig .tc := ⟨.hbm, 172, rfl⟩
abbrev main_call3_v0 : Ref sig .tc := ⟨.hbm, 173, rfl⟩
abbrev main_call3_v1 : Ref sig .tc := ⟨.hbm, 174, rfl⟩
abbrev main_call3_cst_0 : Ref sig .tc := ⟨.hbm, 175, rfl⟩
abbrev main_call3_v2 : Ref sig .tc := ⟨.hbm, 176, rfl⟩
abbrev main_call3_v3 : Ref sig .tc := ⟨.hbm, 177, rfl⟩
abbrev main_call3_v4 : Ref sig .tc := ⟨.hbm, 178, rfl⟩
abbrev main_call3_v5 : Ref sig .tc := ⟨.hbm, 179, rfl⟩
abbrev main_call3_v6 : Ref sig .tc := ⟨.hbm, 180, rfl⟩
abbrev main_call3_v7 : Ref sig .tc := ⟨.hbm, 181, rfl⟩
abbrev main_call3_cst_1 : Ref sig .tc := ⟨.hbm, 182, rfl⟩
abbrev main_call3_v8 : Ref sig .tc := ⟨.hbm, 183, rfl⟩
abbrev main_call3_cst_2 : Ref sig .tc := ⟨.hbm, 184, rfl⟩
abbrev main_call3_v9 : Ref sig .tc := ⟨.hbm, 185, rfl⟩
abbrev main_call3_v10 : Ref sig .tc := ⟨.hbm, 186, rfl⟩
abbrev main_call3_v11 : Ref sig .tc := ⟨.hbm, 187, rfl⟩
abbrev main_call3_v12 : Ref sig .tc := ⟨.hbm, 188, rfl⟩
abbrev main_call3_cst_3 : Ref sig .tc := ⟨.hbm, 189, rfl⟩
abbrev main_call3_v13 : Ref sig .tc := ⟨.hbm, 190, rfl⟩
abbrev main_call3_cst_4 : Ref sig .tc := ⟨.hbm, 191, rfl⟩
abbrev main_call3_call0_v0 : Ref sig .tc := ⟨.hbm, 192, rfl⟩
abbrev main_call3_call0_v1 : Ref sig .tc := ⟨.hbm, 193, rfl⟩
abbrev main_v81 : Ref sig .tc := ⟨.hbm, 194, rfl⟩
abbrev main_v82 : Ref sig .tc := ⟨.hbm, 195, rfl⟩
abbrev main_v83 : Ref sig .tc := ⟨.hbm, 196, rfl⟩
abbrev main_cst_15 : Ref sig .tc := ⟨.hbm, 197, rfl⟩
abbrev main_v84 : Ref sig .tc := ⟨.hbm, 198, rfl⟩
abbrev main_v85 : Ref sig .tc := ⟨.hbm, 199, rfl⟩
abbrev main_v86 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩
abbrev main_v91 : Ref sig .tc := ⟨.hbm, 205, rfl⟩
abbrev main_v92 : Ref sig .tc := ⟨.hbm, 206, rfl⟩
abbrev main_v93 : Ref sig .tc := ⟨.hbm, 207, rfl⟩
abbrev main_v94 : Ref sig .tc := ⟨.hbm, 208, rfl⟩
abbrev main_v95 : Ref sig .tc := ⟨.hbm, 209, rfl⟩
abbrev main_v96 : Ref sig .tc := ⟨.hbm, 210, rfl⟩
abbrev main_v97 : Ref sig .tc := ⟨.hbm, 211, rfl⟩
abbrev main_v98 : Ref sig .tc := ⟨.hbm, 212, rfl⟩
abbrev main_cst_16 : Ref sig .tc := ⟨.hbm, 213, rfl⟩
abbrev main_v99 : Ref sig .tc := ⟨.hbm, 214, rfl⟩
abbrev main_v100 : Ref sig .tc := ⟨.hbm, 215, rfl⟩
abbrev main_cst_17 : Ref sig .tc := ⟨.hbm, 216, rfl⟩
abbrev main_v101 : Ref sig .tc := ⟨.hbm, 217, rfl⟩
abbrev main_v102 : Ref sig .tc := ⟨.hbm, 218, rfl⟩
abbrev main_c_18 : Ref sig .tc := ⟨.hbm, 219, rfl⟩
abbrev main_call4_cst : Ref sig .tc := ⟨.hbm, 220, rfl⟩
abbrev main_call4_v0 : Ref sig .tc := ⟨.hbm, 221, rfl⟩
abbrev main_call4_v1 : Ref sig .tc := ⟨.hbm, 222, rfl⟩
abbrev main_call4_cst_0 : Ref sig .tc := ⟨.hbm, 223, rfl⟩
abbrev main_call4_v2 : Ref sig .tc := ⟨.hbm, 224, rfl⟩
abbrev main_call4_v3 : Ref sig .tc := ⟨.hbm, 225, rfl⟩
abbrev main_call4_v4 : Ref sig .tc := ⟨.hbm, 226, rfl⟩
abbrev main_call4_v5 : Ref sig .tc := ⟨.hbm, 227, rfl⟩
abbrev main_call4_v6 : Ref sig .tc := ⟨.hbm, 228, rfl⟩
abbrev main_call4_v7 : Ref sig .tc := ⟨.hbm, 229, rfl⟩
abbrev main_call4_cst_1 : Ref sig .tc := ⟨.hbm, 230, rfl⟩
abbrev main_call4_v8 : Ref sig .tc := ⟨.hbm, 231, rfl⟩
abbrev main_call4_cst_2 : Ref sig .tc := ⟨.hbm, 232, rfl⟩
abbrev main_call4_v9 : Ref sig .tc := ⟨.hbm, 233, rfl⟩
abbrev main_call4_v10 : Ref sig .tc := ⟨.hbm, 234, rfl⟩
abbrev main_call4_v11 : Ref sig .tc := ⟨.hbm, 235, rfl⟩
abbrev main_call4_v12 : Ref sig .tc := ⟨.hbm, 236, rfl⟩
abbrev main_call4_cst_3 : Ref sig .tc := ⟨.hbm, 237, rfl⟩
abbrev main_call4_v13 : Ref sig .tc := ⟨.hbm, 238, rfl⟩
abbrev main_call4_cst_4 : Ref sig .tc := ⟨.hbm, 239, rfl⟩
abbrev main_call4_call0_v0 : Ref sig .tc := ⟨.hbm, 240, rfl⟩
abbrev main_call4_call0_v1 : Ref sig .tc := ⟨.hbm, 241, rfl⟩
abbrev main_v103 : Ref sig .tc := ⟨.hbm, 242, rfl⟩
abbrev main_v104 : Ref sig .tc := ⟨.hbm, 243, rfl⟩
abbrev main_v105 : Ref sig .tc := ⟨.hbm, 244, rfl⟩
abbrev main_cst_19 : Ref sig .tc := ⟨.hbm, 245, rfl⟩
abbrev main_v106 : Ref sig .tc := ⟨.hbm, 246, rfl⟩
abbrev main_v107 : Ref sig .tc := ⟨.hbm, 247, rfl⟩
abbrev main_v108 : Ref sig .tc := ⟨.hbm, 248, rfl⟩
abbrev main_v109 : Ref sig .tc := ⟨.hbm, 249, rfl⟩
abbrev main_v110 : Ref sig .tc := ⟨.hbm, 250, rfl⟩
abbrev main_v111 : Ref sig .tc := ⟨.hbm, 251, rfl⟩
abbrev main_v112 : Ref sig .tc := ⟨.hbm, 252, rfl⟩
abbrev main_v113 : Ref sig .tc := ⟨.hbm, 253, rfl⟩
abbrev main_v114 : Ref sig .tc := ⟨.hbm, 254, rfl⟩
abbrev main_v115 : Ref sig .tc := ⟨.hbm, 255, rfl⟩
abbrev main_v116 : Ref sig .tc := ⟨.hbm, 256, rfl⟩
abbrev main_v117 : Ref sig .tc := ⟨.hbm, 257, rfl⟩
abbrev main_v118 : Ref sig .tc := ⟨.hbm, 258, rfl⟩
abbrev main_cst_20 : Ref sig .tc := ⟨.hbm, 259, rfl⟩
abbrev main_v119 : Ref sig .tc := ⟨.hbm, 260, rfl⟩
abbrev main_v120 : Ref sig .tc := ⟨.hbm, 261, rfl⟩
abbrev main_cst_21 : Ref sig .tc := ⟨.hbm, 262, rfl⟩
abbrev main_v121 : Ref sig .tc := ⟨.hbm, 263, rfl⟩
abbrev main_v122 : Ref sig .tc := ⟨.hbm, 264, rfl⟩
abbrev main_v123 : Ref sig .tc := ⟨.hbm, 265, rfl⟩
abbrev main_v124 : Ref sig .tc := ⟨.hbm, 266, rfl⟩
abbrev main_v125 : Ref sig .tc := ⟨.hbm, 267, rfl⟩
abbrev main_cst_22 : Ref sig .tc := ⟨.hbm, 268, rfl⟩
abbrev main_v126 : Ref sig .tc := ⟨.hbm, 269, rfl⟩
abbrev main_v127 : Ref sig .tc := ⟨.hbm, 270, rfl⟩
abbrev main_v128 : Ref sig .tc := ⟨.hbm, 271, rfl⟩
abbrev main_v129 : Ref sig .tc := ⟨.hbm, 272, rfl⟩
abbrev main_v130 : Ref sig .tc := ⟨.hbm, 273, rfl⟩
abbrev main_v131 : Ref sig .tc := ⟨.hbm, 274, rfl⟩
abbrev main_c_23 : Ref sig .tc := ⟨.hbm, 275, rfl⟩
abbrev main_v132 : Ref sig .tc := ⟨.hbm, 276, rfl⟩
abbrev main_v133 : Ref sig .tc := ⟨.hbm, 277, rfl⟩
abbrev main_c_24 : Ref sig .tc := ⟨.hbm, 278, rfl⟩
abbrev main_v134 : Ref sig .tc := ⟨.hbm, 279, rfl⟩
abbrev main_v135 : Ref sig .tc := ⟨.hbm, 280, rfl⟩
abbrev main_v136 : Ref sig .tc := ⟨.hbm, 281, rfl⟩
abbrev main_v137 : Ref sig .tc := ⟨.hbm, 282, rfl⟩
abbrev main_v138 : Ref sig .tc := ⟨.hbm, 283, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S64x1_0 : S64.BroadcastsInDim S64x1 (![0] : Fin 1 → Fin S64x1.rank)
  slices_S64x128x64x64_S16x128x64x64_0_0_0_0 : S64x128x64x64.Slices ![0, 0, 0, 0] S16x128x64x64
  reducesTo_S16x128x64x64_S128_d0_2_3 : S16x128x64x64.ReducesTo [0, 2, 3] S128
  h_S_ : 0 < S_.numel
  bcast_S128_S1x128x1x1_1 : S128.BroadcastsInDim S1x128x1x1 (![1] : Fin 1 → Fin S1x128x1x1.rank)
  bcast_S_S1x128x1x1 : S_.BroadcastsInDim S1x128x1x1 (![] : Fin 0 → Fin S1x128x1x1.rank)
  bcast_S1x128x1x1_S16x128x64x64_0_1_2_3 : S1x128x1x1.BroadcastsInDim S16x128x64x64 (![0, 1, 2, 3] : Fin 4 → Fin S16x128x64x64.rank)
  slices_S4x128_S1x128_0_0 : S4x128.Slices ![0, 0] S1x128
  shapeCasts_S1x128_S128 : S1x128.ShapeCasts S128
  slices_S64x128x64x64_S16x128x64x64_16_0_0_0 : S64x128x64x64.Slices ![16, 0, 0, 0] S16x128x64x64
  slices_S4x128_S1x128_1_0 : S4x128.Slices ![1, 0] S1x128
  slices_S64x128x64x64_S16x128x64x64_32_0_0_0 : S64x128x64x64.Slices ![32, 0, 0, 0] S16x128x64x64
  slices_S4x128_S1x128_2_0 : S4x128.Slices ![2, 0] S1x128
  slices_S64x128x64x64_S16x128x64x64_48_0_0_0 : S64x128x64x64.Slices ![48, 0, 0, 0] S16x128x64x64
  slices_S4x128_S1x128_3_0 : S4x128.Slices ![3, 0] S1x128
  reducesTo_S16x128x64x64_S16x128_d2_3 : S16x128x64x64.ReducesTo [2, 3] S16x128
  bcast_S16x128_S16x128x1x1_0_1 : S16x128.BroadcastsInDim S16x128x1x1 (![0, 1] : Fin 2 → Fin S16x128x1x1.rank)
  bcast_S_S16x128x1x1 : S_.BroadcastsInDim S16x128x1x1 (![] : Fin 0 → Fin S16x128x1x1.rank)
  bcast_S16x128x1x1_S16x128x64x64_0_1_2_3 : S16x128x1x1.BroadcastsInDim S16x128x64x64 (![0, 1, 2, 3] : Fin 4 → Fin S16x128x64x64.rank)
  bcast_S_S128 : S_.BroadcastsInDim S128 (![] : Fin 0 → Fin S128.rank)
  concatenates_S16x128x64x64_S16x128x64x64_S16x128x64x64_S16x128x64x64_S64x128x64x64_d0 : Shape.Concatenates [S16x128x64x64, S16x128x64x64, S16x128x64x64, S16x128x64x64] S64x128x64x64 0
  gather_S64x128x64x64_S64x1_S64x128x64x64_123_0_n_n_0_1_11286464_wf : GatherDims.WF S64x128x64x64 S64x1 S64x128x64x64 [1, 2, 3] [0] [] [0] [] 1 ![1, 128, 64, 64]

variable [Facts₀]

def gather_S64x128x64x64_S64x1_S64x128x64x64_123_0_n_n_0_1_11286464 : GatherDims S64x128x64x64 S64x1 S64x128x64x64 where
  offsetDims := [1, 2, 3]
  collapsedSliceDims := [0]
  operandBatchingDims := []
  startIndicesBatchingDims := []
  startIndexMap := [0]
  indexVectorDim := 1
  sliceSizes := ![1, 128, 64, 64]
  wf := gather_S64x128x64x64_S64x1_S64x128x64x64_123_0_n_n_0_1_11286464_wf

class Facts : Prop extends Facts₀ where

variable [Facts]
-- ==== Proof.IndexFacts.lean ====
/-
  What the precondition says of the two index arrays, as facts about their words.

  Beside the finiteness of the float inputs, the precondition states, with `S` the sorting index array and `U` the
  un-sorting one, both of 64 signed 32-bit words:
    * every `S j` and every `U b` is a batch position: `0 ≤ · < 64` read signed;
    * `U` undoes `S`: whenever `U b` is the word of `j`, `S j` is the word of `b` — that is, `S (U b) = b`.
  Each is one `and`-reduction of a comparison array to a scalar; a reduction by `and` that is 1 had a 1 at every
  operand index, and a comparison word that is 1 says its relation of the two operands. The third conjunct compares two
  [64, 64] arrays made by broadcasting a [64] vector along rows or along columns: at `(b, j)` a vector broadcast along
  rows reads its entry `b`, one broadcast along columns its entry `j`, and the iota vector's entry `j` is the word of `j`.
-/
import proofs.«159259_j85899346585_1_alg».proof.Pre_finite_inputs
import proofs.«159259_j85899346585_1_alg».proof.Proof.Gen.Pre_finite_inputs
import Idealize.ShloMosaic.Lib.ReduceAll
import Idealize.ShloMosaic.Lib.ValueIdx
import Idealize.ShloMosaic.Lib.Pipeline.Value
import Idealize.ShloMosaic.Lib.Affine
import Idealize.ShloMosaic.Lib.IdealHost

noncomputable section

namespace Cert.IndexFacts

open Idealize.ShloMosaic Idealize.ShloMosaic.ValueIdx Cert.Pre_finite_inputs

variable [Cert.Pre_finite_inputs.Facts]
open Cert.Pre_finite_inputs.Facts

/-- The scalar shape has one index. -/
instance : Subsingleton S_.Idx := ⟨fun a b => funext fun d => d.elim0⟩

/-- A [64] vector made a [64, 1] column and broadcast along rows to [64, 64] reads, at `(b, j)`, its entry `b`. -/
theorem along_rows {α : Type} (v : S64.Idx → α) (b j : Fin 64) :
    broadcastInDim S64x64 ![0, 1] bcast_S64x1_S64x64_0_1 (broadcastInDim S64x1 ![0] bcast_S64_S64x1_0 v) (ix2 b j) = v (ix1 b) := by
  refine (broadcastInDim_apply _ _ _ (ix2 b j) (ix2 b (0 : Fin 1)) ?_).trans
    (broadcastInDim_apply _ _ _ (ix2 b (0 : Fin 1)) (ix1 b) ?_)
  · intro a; match a with | ⟨0, _⟩ => rfl | ⟨1, _⟩ => rfl
  · intro a; match a with | ⟨0, _⟩ => rfl

/-- A [64] vector made a [1, 64] row and broadcast along columns to [64, 64] reads, at `(b, j)`, its entry `j`. -/
theorem along_cols {α : Type} (v : S64.Idx → α) (b j : Fin 64) :
    broadcastInDim S64x64 ![0, 1] bcast_S1x64_S64x64_0_1 (broadcastInDim S1x64 ![1] bcast_S64_S1x64_1 v) (ix2 b j) = v (ix1 j) := by
  refine (broadcastInDim_apply _ _ _ (ix2 b j) (ix2 (0 : Fin 1) j) ?_).trans
    (broadcastInDim_apply _ _ _ (ix2 (0 : Fin 1) j) (ix1 j) ?_)
  · intro a; match a with | ⟨0, _⟩ => rfl | ⟨1, _⟩ => rfl
  · intro a; match a with | ⟨0, _⟩ => rfl

/-- A word that is at least the zero word and below the word of 64, both read signed, is a natural number below 64. -/
theorem word_range (w : BitVec 32) (h0 : IntOp.cmpi .sge w 0#32 = 1#1) (h1 : IntOp.cmpi .slt w 64#32 = 1#1) :
    0 ≤ w.toInt ∧ w.toInt < 64 := by
  have a := IntOp.cmpi_sge.mp h0
  have b := IntOp.cmpi_slt.mp h1
  have z : (0#32 : BitVec 32).toInt = 0 := by decide
  have s : (64#32 : BitVec 32).toInt = 64 := by decide
  rw [z] at a; rw [s] at b
  exact ⟨a, b⟩

/-- THE PRECONDITION DECODED, of the index arrays: both hold batch positions, and the second undoes the first. -/
theorem decode {F : FTy → Type} [FloatOps F] (a0 : FVec F S64x128x64x64 .f32) (S U : IVec S64 32) (a3 a4 : FVec F S4x128 .f32)
    (a5 a6 a7 : FVec F S128 .f32) (h : fn (F := F) a0 S U a3 a4 a5 a6 a7 = fun _ => 1#1) :
    (∀ j : S64.Idx, 0 ≤ (S j).toInt ∧ (S j).toInt < 64)
    ∧ (∀ b : S64.Idx, 0 ≤ (U b).toInt ∧ (U b).toInt < 64)
    ∧ (∀ b j : Fin 64, U (ix1 b) = BitVec.ofNat 32 j.val → S (ix1 j) = BitVec.ofNat 32 b.val) := by
  have e := congrFun h ix0
  dsimp only [fn, fn_part1, fn_part2, fn_part3] at e
  obtain ⟨e1, eInv⟩ := IntOp.andi_eq_one.mp e
  obtain ⟨e2, eU⟩ := IntOp.andi_eq_one.mp e1
  obtain ⟨-, eS⟩ := IntOp.andi_eq_one.mp e2
  refine ⟨fun j => ?_, fun b => ?_, fun b j hb => ?_⟩
  · obtain ⟨h0, h1⟩ := IntOp.andi_eq_one.mp (Host.reduce_andi_all _ _ _ _ _ eS j)
    exact word_range (S j) h0 h1
  · obtain ⟨h0, h1⟩ := IntOp.andi_eq_one.mp (Host.reduce_andi_all _ _ _ _ _ eU b)
    exact word_range (U b) h0 h1
  · rcases IntOp.ori_eq_one.mp (Host.reduce_andi_all _ _ _ _ _ eInv (ix2 b j)) with hne | heq
    · refine absurd ?_ (IntOp.cmpi_ne.mp hne)
      exact (along_rows U b j).trans (hb.trans (along_cols (iotaInDim S64 32 0) b j).symm)
    · exact (along_cols S b j).symm.trans ((IntOp.cmpi_eq.mp heq).trans (along_rows (iotaInDim S64 32 0) b j))

end Cert.IndexFacts

end
-- ==== Proof.TableOkIdeal.lean ====
/-
  The side condition of the statistics region's prefetched table.

  The first region reads its input block through a table of 64 words: at grid point `(d, i)` it stages batch row
  `table[16·d + i]` of the `[64, 128, 64, 64]` array, a block of one whole row. The block lies inside the array exactly
  when that word, read unsigned, is below 64 — which holds of every word of a table whose words are in `[0, 64)` read
  signed (a nonnegative signed word is its unsigned value).
-/
import proofs.«159259_j85899346585_1_alg».proof.KernelIdeal
import proofs.«159259_j85899346585_1_alg».proof.Proof.Gen.KernelIdeal

set_option maxRecDepth 16384

noncomputable section

namespace Cert.KernelIdeal.TableOk

open Cert.KernelIdeal Cert.KernelIdeal.Gen
open Idealize.ShloMosaic Idealize.SL.Sem

variable {F : FTy → Type} [FloatOps F]

/-- A word in `[0, 64)` read signed is below 64 read unsigned. -/
theorem toNat_lt_of_signed (w : BitVec 32) (h0 : 0 ≤ w.toInt) (h1 : w.toInt < 64) : w.toNat < 64 := by
  have h32 := w.isLt
  unfold BitVec.toInt at h0 h1
  split at h1 <;> omega

/-- A table all of whose words are below 64 satisfies the region's side condition: every staged row is a row of the array. -/
theorem ok0_of_lt (pf : pre0.Contents (Elt F)) (h : ∀ x, (pf 0 x).toNat < 64) : ok0 pf := by
  intro i
  obtain ⟨w, hw, e⟩ : ∃ w : BitVec 32, w.toNat < 64 ∧ cc0_transform_0 k0_off1_inb numel1_S1 pf i = ![w.toNat, 0, 0, 0] :=
    ⟨_, h _, rfl⟩
  refine ⟨fun a => ?_, Or.inl rfl⟩
  rw [e]
  fin_cases a <;> simp [S1x128x64x64, S64x128x64x64] <;> omega

end Cert.KernelIdeal.TableOk

end
-- ==== Proof.PreGlueIdeal.lean ====
/-
  From the precondition to the statistics region's admissible table.

  The statistics region stages batch rows through the table of 64 words that the sorting index array is; its side condition
  asks every such word to name a row of the 64. The precondition says every word of that array is in `[0, 64)` read signed,
  hence below 64 read unsigned, so the table read off the launch memory (the program has one device) is admissible.
-/
import proofs.«159259_j85899346585_1_alg».proof.Defs
import proofs.«159259_j85899346585_1_alg».proof.Proof.IndexFacts
import proofs.«159259_j85899346585_1_alg».proof.Proof.TableOkIdeal

set_option maxRecDepth 16384

noncomputable section

namespace Cert.KernelIdeal.PreGlue

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

/-- The precondition of the printed predicate on every device, at any float instance. -/
abbrev Pre : Prop :=
  ∀ c : Dev nD,
    (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) = (fun _ => 1#1)

/-- The table's contents, read off the launch memory on the program's one device. -/
def tbl : pre0.Contents (Elt F) := fun j => m (((0 : Dev nD) : Thread nD τ).loc (pre0.ref j))

/-- Under the precondition every word of the table is below 64. -/
theorem tbl_lt (h : Pre m) : ∀ x, (tbl m 0 x).toNat < 64 := fun x =>
  have hS := (Cert.IndexFacts.decode _ _ _ _ _ _ _ _ (h 0)).1 x
  Cert.KernelIdeal.TableOk.toNat_lt_of_signed _ hS.1 hS.2

/-- The table as admissible contents of the statistics region's pipeline. -/
def adm (h : Pre m) : (pcfg0 (F := F)).Adm := ⟨tbl m, Cert.KernelIdeal.TableOk.ok0_of_lt (tbl m) (tbl_lt m h)⟩

end Cert.KernelIdeal.PreGlue

end
-- ==== Proof.IfaceIdeal.lean ====
/-
  What the statistics region's proof hands the run of the whole program.

  The statistics region (the first of the program's two kernel regions) runs its body at 64 points `(d, i)`, `d` a domain and `i`
  one of its 16 samples: it stages batch row `table[16·d + i]` of the input through a prefetched table of 64 words, adds the
  row's per-channel sum and sum of squares into two scratch accumulators it carries from point to point (cleared at `i = 0`),
  and at `i = 15` stores the two accumulators into row `d` of its two `[4, 128, 1, 1]` results. The run of the whole program
  needs of it: proof data for the pipeline pinned at admissible table contents `a`, entered from buffer contents `V`; the body
  obligation at every point; and that its invariant takes in, and gives back, the generator register, the table and the
  scoped buffers no window stages.
-/
import proofs.«159259_j85899346585_1_alg».proof.Proof.Gen.KernelIdeal.Launch
import proofs.«159259_j85899346585_1_alg».proof.Proof.Gen.KernelIdeal.Skeleton
import proofs.«159259_j85899346585_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Iface

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's buffer held whole at the admissible contents `a`, on core `c`. -/
abbrev tableHeld (a : (pcfg0 (F := F)).Adm) (c : Dev nD) : sProp 𝕄 :=
  Pipeline.prefHeld (Ix := Unit) (Name := ℕ) (U := UR sig nD τ) (Lvl := ℕ) (Val := Elt F) pre0 c (fun _ => fullShare) a.1

/-- The scoped buffers no window of the statistics region stages (its two scratch accumulators and the other region's staging
    buffers), each whole at some contents. -/
abbrev restHeld (c : Dev nD) : sProp 𝕄 :=
  Pipeline.scopedRest (Ix := Unit) (Name := ℕ) (U := UR sig nD τ) (Lvl := ℕ) (Val := Elt F) spec0 c

/-- What the statistics region supplies, at admissible table contents `a` and entry contents `V`. -/
structure Stats (a : (pcfg0 (F := F)).Adm) (V : (c : Dev nD) → (b : Ref sig .tc) → Buf (Elt F) ((c : Thread nD τ).loc b)) where
  /-- The proof data on each core. -/
  dat : (c : Dev nD) → Dat τ (Elt F) Unit ℕ (UR sig nD τ) ℕ (cfg0 a) c
  /-- Its arrays are the entry contents, held in full, and the body owes no one anything. -/
  A_eq : ∀ c w, (dat c).A w = V c (Pipeline.arrRef spec0 w)
  q_full : ∀ c w, (dat c).q w = fullShare
  owed_zero : ∀ c t, (dat c).owed t = 0
  /-- The body obligation at every point. -/
  body : ∀ c, BodyObligation (dat c) (defs₀ (F := F)) Variants.none () Set.univ
  /-- The invariant before the first point from the generator register, the table and the scoped rest; -/
  hin : ∀ c, (iprop((∃ r, prngReg c r) ∗ tableHeld a c ∗ restHeld c) : sProp 𝕄) ⊢ (dat c).Φ 0
  /-- and after the last point it gives all three back. -/
  hout : ∀ c, (dat c).Φ (Fin.last (cfg0 a).N) ⊢ (iprop(((∃ r, prngReg c r) ∗ tableHeld a c) ∗ restHeld c) : sProp 𝕄)

end Cert.KernelIdeal.Iface

end
-- ==== Proof.StatsRunsIdeal.lean ====
/-
  The statistics region: what its three control cases share.

  The body runs at 64 points `t`, with coordinates `(t / 16, t % 16)`. Its first conditional (clear the two accumulators)
  is taken exactly where `t % 16 = 0`, its last (copy the accumulators to the two results) exactly where `t % 16 = 15`.
  The two result windows are idle, and not written back, exactly where the last conditional is not taken; the input window
  is never idle. Here: those facts in closed form over the grid, the memrefs the body is called with at a point, the
  input window's block at a point, and the invariant's scoped buffers opened to show the two accumulators.
-/
import proofs.«159259_j85899346585_1_alg».proof.Proof.IfaceIdeal

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- The first conditional's condition from the grid coordinates: the sample index is zero. -/
abbrev condFirst (i : grid0.Coords) : Prop :=
  (Scalar.cmpi .ne (Scalar.extui (Scalar.cmpi .eq (BitVec.ofNat 32 (i 1).val) 0#32)) 0#32) = 1#1
/-- It holds at the points whose sample index is zero. -/
theorem condFirst_iff : ∀ t : Fin grid0.N, condFirst (grid0.coords t) ↔ t.val % 16 = 0 := by decide +kernel

/-- The last conditional's condition from the grid coordinates: the sample index is fifteen. -/
abbrev condLast (i : grid0.Coords) : Prop := k0_cond2 i = 1#1
/-- It holds at the points whose sample index is fifteen. -/
theorem condLast_iff : ∀ t : Fin grid0.N, condLast (grid0.coords t) ↔ t.val % 16 = 15 := by decide +kernel

variable (a : (pcfg0 (F := F)).Adm)

/-! ## Where the windows are idle, at any admissible table contents -/

/-- The input window is never idle. -/
theorem live0 : ∀ i, (cfg0 a).idle 0 i = false := fun _ => rfl
/-- Away from the last sample of a domain the first result's window is idle -/
theorem idle1 : ∀ t : Fin (cfg0 a).N, ¬condLast (grid0.coords t) → (cfg0 a).idle 1 (grid0.coords t) = true :=
  (by decide +kernel : ∀ t : Fin grid0.N, ¬condLast (grid0.coords t) → idle0 1 (grid0.coords t) = true)
/-- and not written back; -/
theorem noFlush1 : ∀ t : Fin (cfg0 a).N, ¬condLast (grid0.coords t) → ((cfg0 a).win 1).flush t = false :=
  (by decide +kernel : ∀ t : Fin grid0.N, ¬condLast (grid0.coords t) → Pipeline.Window.flushOf grid0 true cc0_transform_1 t = false)
/-- at the last sample it is live. -/
theorem live1 : ∀ t : Fin (cfg0 a).N, condLast (grid0.coords t) → (cfg0 a).idle 1 (grid0.coords t) = false :=
  (by decide +kernel : ∀ t : Fin grid0.N, condLast (grid0.coords t) → idle0 1 (grid0.coords t) = false)
/-- The same of the second result's window. -/
theorem idle2 : ∀ t : Fin (cfg0 a).N, ¬condLast (grid0.coords t) → (cfg0 a).idle 2 (grid0.coords t) = true :=
  (by decide +kernel : ∀ t : Fin grid0.N, ¬condLast (grid0.coords t) → idle0 2 (grid0.coords t) = true)
theorem noFlush2 : ∀ t : Fin (cfg0 a).N, ¬condLast (grid0.coords t) → ((cfg0 a).win 2).flush t = false :=
  (by decide +kernel : ∀ t : Fin grid0.N, ¬condLast (grid0.coords t) → Pipeline.Window.flushOf grid0 true cc0_transform_2 t = false)
theorem live2 : ∀ t : Fin (cfg0 a).N, condLast (grid0.coords t) → (cfg0 a).idle 2 (grid0.coords t) = false :=
  (by decide +kernel : ∀ t : Fin grid0.N, condLast (grid0.coords t) → idle0 2 (grid0.coords t) = false)

/-! ## What the body is called with at a point -/

/-- Each window's current staging memref at point `t`, and its wholeness. -/
abbrev ms0 (t : Fin (cfg0 a).N) : Memref sig .tc .vmem S1x128x64x64 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x128x1x1 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x128x1x1 .f32 := spec0_2.stage ((cfg0 a).slots t 2)
abbrev hs2 (t : Fin (cfg0 a).N) : (ms2 a t).IsWhole := hstage0_2 (((cfg0 a).slots t 2).cast nbuf0_2)
/-- The two accumulators: whole scoped buffers of the kernel's own, passed beside the windows. -/
abbrev acc0M : Memref sig .tc .vmem S1x128x1x1 .f32 := Memref.whole cc0_scratch0
abbrev acc1M : Memref sig .tc .vmem S1x128x1x1 .f32 := Memref.whole cc0_scratch1

/-- The body at point `t`, on what the pipeline calls it with. -/
abbrev bodyAt (t : Fin (cfg0 a).N) : Prog (TpuEff nD τ sig (Elt F) Λ₀ .tc) PUnit :=
  cc0__stats_kernel (grid0.coords t) (Memref.whole main_arg1) (Memref.isWhole_whole _) (ms0 a t) (hs0 a t) (ms1 a t) (hs1 a t) (ms2 a t) (hs2 a t)
    acc0M (Memref.isWhole_whole _) acc1M (Memref.isWhole_whole _)

/-! ## The input window's block -/

variable (V : (c : Dev nD) → (b : Ref sig .tc) → Buf (Elt F) ((c : Thread nD τ).loc b))

/-- The input window's block at point `t`: the batch row the table names there, read off the input as the region finds it. -/
def iblk (c : Dev nD) (t : Fin (cfg0 a).N) : (((cfg0 a).win 0).xblock ((cfg0 a).grid.coords t)).Idx → Elt F ((cfg0 a).win 0).elt :=
  (((cfg0 a).win 0).blk t).view.read (Elt F) (V c (Pipeline.arrRef spec0 0))

/-- The input window's current staging buffer holds its block at every point, whether fetched there or not: where it is not
    fetched its block index has not moved. -/
theorem before0_of {c : Dev nD} (dat : Dat τ (Elt F) Unit ℕ (UR sig nD τ) ℕ (cfg0 a) c) (hA : dat.A 0 = V c (Pipeline.arrRef spec0 0))
    (hafter : ∀ t, dat.after 0 t = iblk a V c t) (t : Fin (cfg0 a).N) (d) : dat.before 0 t d = iblk a V c t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The scoped buffers no window stages, opened -/

/-- The sixteen staging buffers of the other region, each whole at some contents. -/
def otherHeld (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The scoped buffers no window of the region stages are the two accumulators, each owned whole at some contents, and the
    other region's staging buffers. -/
theorem restHeld_eq (c : Dev nD) :
    (Iface.restHeld c : sProp 𝕄)
      = iprop((∃ d, owns (c : Thread nD τ) acc0M fullShare d) ∗ (∃ d, owns (c : Thread nD τ) acc1M fullShare d) ∗ otherHeld c) := by
  unfold Iface.restHeld otherHeld; rw [scopedRest0_eq]; simp only [acc0M, acc1M, owns_whole]; try rfl

end Cert.KernelIdeal.StatsRegion

end
-- ==== Proof.StatsCaseAIdeal.lean ====
/-
  The statistics body where a domain begins (first conditional taken, last not), run once at symbolic operands.

  On whole memrefs — the input's staging buffer at the row `x`, the two results' at contents handed back untouched, the two
  accumulators at anything — the body clears both accumulators and adds the row's per-channel sum and sum of squares. What
  each accumulator ends with is the list of pieces its stores wrote, last first; the run finds them.
-/
import proofs.«159259_j85899346585_1_alg».proof.Proof.StatsRunsIdeal

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two results' staging buffers (none) and in the two accumulators where a
    domain begins, with the proof that the body runs to the continuation holding the input's buffer and the results' as they
    were and each accumulator with its pieces written. -/
noncomputable def runA (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)
    (hc0 : condFirst i) (hc1 : ¬condLast i) (x : Vec F S1x128x64x64 .f32) :
    Σ' (L1 : List (View.Piece (Elt F) S1x128x1x1 .f32)) (L2 : List (View.Piece (Elt F) S1x128x1x1 .f32)) (LS0 : List (View.Piece (Elt F) S1x128x1x1 .f32)), { LS1 : List (View.Piece (Elt F) S1x128x1x1 .f32) //
      ∀ (xi1 xi2 : Vec F S1x128x1x1 .f32) (E : Set ℕ) (K : PUnit → sProp 𝕄),
        iprop(owns (c : Thread nD τ) arg3 fullShare x ∗ owns (c : Thread nD τ) arg4 fullShare xi1 ∗ owns (c : Thread nD τ) arg5 fullShare xi2
            ∗ (∃ d, owns (c : Thread nD τ) arg6 fullShare d) ∗ (∃ d, owns (c : Thread nD τ) arg7 fullShare d)
            ∗ (iprop(owns (c : Thread nD τ) arg3 fullShare x ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.KernelIdeal.StatsRegion

end
-- ==== Proof.StatsCaseBIdeal.lean ====
/-
  The statistics body inside a domain (neither conditional taken), run once at symbolic operands.

  On whole memrefs — the input's staging buffer at the row `x`, the two results' at contents handed back untouched, the two
  accumulators at what the point before left, `s0` and `s1` — the body adds the row's per-channel sum and sum of squares to
  the accumulators. What each accumulator ends with is the list of pieces its stores wrote, last first; the run finds them.
-/
import proofs.«159259_j85899346585_1_alg».proof.Proof.StatsCaseAIdeal

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two results' staging buffers (none) and in the two accumulators inside a
    domain, with the proof that the body runs to the continuation holding the input's buffer and the results' as they were
    and each accumulator with its pieces written over what the point before left. -/
noncomputable def runB (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)
    (hc0 : ¬condFirst i) (hc1 : ¬condLast i) (x : Vec F S1x128x64x64 .f32) (s0 s1 : Vec F S1x128x1x1 .f32) :
    Σ' (L1 : List (View.Piece (Elt F) S1x128x1x1 .f32)) (L2 : List (View.Piece (Elt F) S1x128x1x1 .f32)) (LS0 : List (View.Piece (Elt F) S1x128x1x1 .f32)), { LS1 : List (View.Piece (Elt F) S1x128x1x1 .f32) //
      ∀ (xi1 xi2 : Vec F S1x128x1x1 .f32) (E : Set ℕ) (K : PUnit → sProp 𝕄),
        iprop(owns (c : Thread nD τ) arg3 fullShare x ∗ owns (c : Thread nD τ) arg4 fullShare xi1 ∗ owns (c : Thread nD τ) arg5 fullShare xi2
            ∗ owns (c : Thread nD τ) arg6 fullShare s0 ∗ owns (c : Thread nD τ) arg7 fullShare s1
            ∗ (iprop(owns (c : Thread nD τ) arg3 fullShare x ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.KernelIdeal.StatsRegion

end
-- ==== Proof.StatsCaseCIdeal.lean ====
/-
  The statistics body where a domain ends (last conditional taken, first not), run once at symbolic operands.

  On whole memrefs — the input's staging buffer at the row `x`, the two results' at anything, the two accumulators at what
  the point before left, `s0` and `s1` — the body adds the row's per-channel sum and sum of squares to the accumulators
  and copies each accumulator whole into its result's staging buffer. What each of the four buffers ends with is the list
  of pieces its stores wrote, last first; the run finds them.
-/
import proofs.«159259_j85899346585_1_alg».proof.Proof.StatsCaseBIdeal

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two results' staging buffers and in the two accumulators where a domain ends,
    with the proof that the body runs to the continuation holding the input's buffer as it was and each of the four with
    its pieces written. -/
noncomputable def runC (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)
    (hc0 : ¬condFirst i) (hc1 : condLast i) (x : Vec F S1x128x64x64 .f32) (s0 s1 : Vec F S1x128x1x1 .f32) :
    Σ' (L1 : List (View.Piece (Elt F) S1x128x1x1 .f32)) (L2 : List (View.Piece (Elt F) S1x128x1x1 .f32)) (LS0 : List (View.Piece (Elt F) S1x128x1x1 .f32)), { LS1 : List (View.Piece (Elt F) S1x128x1x1 .f32) //
      ∀ (E : Set ℕ) (K : PUnit → sProp 𝕄),
        iprop(owns (c : Thread nD τ) arg3 fullShare x ∗ (∃ d, owns (c : Thread nD τ) arg4 fullShare d) ∗ (∃ d, owns (c : Thread nD τ) arg5 fullShare d)
            ∗ owns (c : Thread nD τ) arg6 fullShare s0 ∗ owns (c : Thread nD τ) arg7 fullShare s1
            ∗ (iprop(owns (c : Thread nD τ) arg3 fullShare x ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.KernelIdeal.StatsRegion

end
-- ==== Proof.StatsRegionIdeal.lean ====
/-
  The statistics region's proof data, at admissible table contents `a` and the buffer contents `V` it is entered from.

  The body runs at 64 points `t = 16·d + i`. Point by point the two accumulators hold: after a domain's first sample the
  row's per-channel sum and sum of squares added to zero, after each later sample the same added to what the point before
  left; at a domain's last sample the two results' staging buffers receive the accumulators, and only there are they written
  back. The invariant before a point carries the two accumulators at what the point before left (before the first point,
  at anything), and, untouched throughout, the generator register, the table, and the other region's staging buffers.
-/
import proofs.«159259_j85899346585_1_alg».proof.Proof.StatsCaseCIdeal

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-! ## What each case's pieces cover -/

section Pieces
variable (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)

/-- The pieces the body leaves in the first accumulator where a domain begins tile it, so they cover it. -/
theorem coverA_acc0 (hc0 : condFirst i) (hc1 : ¬condLast i) (x : Vec F S1x128x64x64 .f32) (y : S1x128x1x1.Idx) :
    ∃ pc ∈ (runA c i arg2 harg2 arg3 harg3 arg4 harg4 arg5 harg5 arg6 harg6 arg7 harg7 hc0 hc1 x).2.2.1, y ∈ pc.1.set :=
  View.cover_of_tiledL (runA c i arg2 harg2 arg3 harg3 arg4 harg4 arg5 harg5 arg6 harg6 arg7 harg7 hc0 hc1 x).2.2.1 S1x128x1x1.size (by sl_kernel_rfl) y
/-- The pieces the body leaves in the second accumulator where a domain begins tile it, so they cover it. -/
theorem coverA_acc1 (hc0 : condFirst i) (hc1 : ¬condLast i) (x : Vec F S1x128x64x64 .f32) (y : S1x128x1x1.Idx) :
    ∃ pc ∈ (runA c i arg2 harg2 arg3 harg3 arg4 harg4 arg5 harg5 arg6 harg6 arg7 harg7 hc0 hc1 x).2.2.2.1, y ∈ pc.1.set :=
  View.cover_of_tiledL (runA c i arg2 harg2 arg3 harg3 arg4 harg4 arg5 harg5 arg6 harg6 arg7 harg7 hc0 hc1 x).2.2.2.1 S1x128x1x1.size (by sl_kernel_rfl) y
/-- The pieces the body leaves in the first accumulator inside a domain tile it, so they cover it. -/
theorem coverB_acc0 (hc0 : ¬condFirst i) (hc1 : ¬condLast i) (x : Vec F S1x128x64x64 .f32) (s0 s1 : Vec F S1x128x1x1 .f32) (y : S1x128x1x1.Idx) :
    ∃ pc ∈ (runB c i arg2 harg2 arg3 harg3 arg4 harg4 arg5 harg5 arg6 harg6 arg7 harg7 hc0 hc1 x s0 s1).2.2.1, y ∈ pc.1.set :=
  View.cover_of_tiledL (runB c i arg2 harg2 arg3 harg3 arg4 harg4 arg5 harg5 arg6 harg6 arg7 harg7 hc0 hc1 x s0 s1).2.2.1 S1x128x1x1.size (by sl_kernel_rfl) y
/-- The pieces the body leaves in the second accumulator inside a domain tile it, so they cover it. -/
theorem coverB_acc1 (hc0 : ¬condFirst i) (hc1 : ¬condLast i) (x : Vec F S1x128x64x64 .f32) (s0 s1 : Vec F S1x128x1x1 .f32) (y : S1x128x1x1.Idx) :
    ∃ pc ∈ (runB c i arg2 harg2 arg3 harg3 arg4 harg4 arg5 harg5 arg6 harg6 arg7 harg7 hc0 hc1 x s0 s1).2.2.2.1, y ∈ pc.1.set :=
  View.cover_of_tiledL (runB c i arg2 harg2 arg3 harg3 arg4 harg4 arg5 harg5 arg6 harg6 arg7 harg7 hc0 hc1 x s0 s1).2.2.2.1 S1x128x1x1.size (by sl_kernel_rfl) y
/-- The pieces the body leaves in the first result's staging buffer where a domain ends tile it, so they cover it. -/
theorem coverC_out1 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).1, y ∈ pc.1.set :=
  View.cover_of_tiledL (runC c i arg2 harg2 arg3 harg3 arg4 harg4 arg5 harg5 arg6 harg6 arg7 harg7 hc0 hc1 x s0 s1).1 S1x128x1x1.size (by sl_kernel_rfl) y
/-- The pieces the body leaves in the second result's staging buffer where a domain ends tile it, so they cover it. -/
theorem coverC_out2 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).2.1, y ∈ pc.1.set :=
  View.cover_of_tiledL (runC c i arg2 harg2 arg3 harg3 arg4 harg4 arg5 harg5 arg6 harg6 arg7 harg7 hc0 hc1 x s0 s1).2.1 S1x128x1x1.size (by sl_kernel_rfl) y
/-- The pieces the body leaves in the first accumulator where a domain ends tile it, so they cover it. -/
theorem coverC_acc0 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).2.2.1, y ∈ pc.1.set :=
  View.cover_of_tiledL (runC c i arg2 harg2 arg3 harg3 arg4 harg4 arg5 harg5 arg6 harg6 arg7 harg7 hc0 hc1 x s0 s1).2.2.1 S1x128x1x1.size (by sl_kernel_rfl) y
/-- The pieces the body leaves in the second accumulator where a domain ends tile it, so they cover it. -/
theorem coverC_acc1 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).2.2.2.1, y ∈ pc.1.set :=
  View.cover_of_tiledL (runC c i arg2 harg2 arg3 harg3 arg4 harg4 arg5 harg5 arg6 harg6 arg7 harg7 hc0 hc1 x s0 s1).2.2.2.1 S1x128x1x1.size (by sl_kernel_rfl) y

end Pieces

/-! ## The cases at a point -/

/-- The body's run where a domain begins, at point `t`'s memrefs and input block. -/
abbrev ptA (c : Dev nD) (t : Fin (cfg0 a).N) (h0 : t.val % 16 = 0) (h1 : ¬t.val % 16 = 15) :=
  runA (F := F) c (grid0.coords t) (Memref.whole main_arg1) (Memref.isWhole_whole _) (ms0 a t) (hs0 a t) (ms1 a t) (hs1 a t) (ms2 a t) (hs2 a t) acc0M (Memref.isWhole_whole _) acc1M (Memref.isWhole_whole _) ((condFirst_iff t).mpr h0) (fun h => h1 ((condLast_iff t).mp h)) (iblk a V c t)
/-- What it leaves: the two results' staging buffers, then the two accumulators, each at its pieces' canonical contents (the results' buffers get no piece there: a placeholder nothing consults, the windows being idle and not written back). -/
def leftA (c : Dev nD) (t : Fin (cfg0 a).N) (h0 : t.val % 16 = 0) (h1 : ¬t.val % 16 = 15) : Vec F S1x128x1x1 .f32 × Vec F S1x128x1x1 .f32 × Vec F S1x128x1x1 .f32 × Vec F S1x128x1x1 .f32 :=
  (View.canon (ptA a V c t h0 h1).1, View.canon (ptA a V c t h0 h1).2.1, View.canon (ptA a V c t h0 h1).2.2.1, View.canon (ptA a V c t h0 h1).2.2.2.1)
/-- The body's run inside a domain, at point `t`'s memrefs and input block, over accumulators at `s0` and `s1`. -/
abbrev ptB (c : Dev nD) (t : Fin (cfg0 a).N) (h0 : ¬t.val % 16 = 0) (h1 : ¬t.val % 16 = 15) (s0 s1 : Vec F S1x128x1x1 .f32) :=
  runB (F := F) c (grid0.coords t) (Memref.whole main_arg1) (Memref.isWhole_whole _) (ms0 a t) (hs0 a t) (ms1 a t) (hs1 a t) (ms2 a t) (hs2 a t) acc0M (Memref.isWhole_whole _) acc1M (Memref.isWhole_whole _) (fun h => h0 ((condFirst_iff t).mp h)) (fun h => h1 ((condLast_iff t).mp h)) (iblk a V c t) s0 s1
/-- What it leaves: the two results' staging buffers, then the two accumulators, each at its pieces' canonical contents (the results' buffers get no piece there: a placeholder nothing consults, the windows being idle and not written back). -/
def leftB (c : Dev nD) (t : Fin (cfg0 a).N) (h0 : ¬t.val % 16 = 0) (h1 : ¬t.val % 16 = 15) (s0 s1 : Vec F S1x128x1x1 .f32) : Vec F S1x128x1x1 .f32 × Vec F S1x128x1x1 .f32 × Vec F S1x128x1x1 .f32 × Vec F S1x128x1x1 .f32 :=
  (View.canon (ptB a V c t h0 h1 s0 s1).1, View.canon (ptB a V c t h0 h1 s0 s1).2.1, View.canon (ptB a V c t h0 h1 s0 s1).2.2.1, View.canon (ptB a V c t h0 h1 s0 s1).2.2.2.1)
/-- The body's run where a domain ends, at point `t`'s memrefs and input block, over accumulators at `s0` and `s1`. -/
abbrev ptC (c : Dev nD) (t : Fin (cfg0 a).N) (h0 : ¬t.val % 16 = 0) (h1 : t.val % 16 = 15) (s0 s1 : Vec F S1x128x1x1 .f32) :=
  runC (F := F) c (grid0.coords t) (Memref.whole main_arg1) (Memref.isWhole_whole _) (ms0 a t) (hs0 a t) (ms1 a t) (hs1 a t) (ms2 a t) (hs2 a t) acc0M (Memref.isWhole_whole _) acc1M (Memref.isWhole_whole _) (fun h => h0 ((condFirst_iff t).mp h)) ((condLast_iff t).mpr h1) (iblk a V c t) s0 s1
/-- What it leaves: the two results' staging buffers, then the two accumulators, each at its pieces' canonical contents. -/
def leftC (c : Dev nD) (t : Fin (cfg0 a).N) (h0 : ¬t.val % 16 = 0) (h1 : t.val % 16 = 15) (s0 s1 : Vec F S1x128x1x1 .f32) : Vec F S1x128x1x1 .f32 × Vec F S1x128x1x1 .f32 × Vec F S1x128x1x1 .f32 × Vec F S1x128x1x1 .f32 :=
  (View.canon (ptC a V c t h0 h1 s0 s1).1, View.canon (ptC a V c t h0 h1 s0 s1).2.1, View.canon (ptC a V c t h0 h1 s0 s1).2.2.1, View.canon (ptC a V c t h0 h1 s0 s1).2.2.2.1)

/-! ## What the four buffers hold after each point -/

/-- The accumulation. What the two results' staging buffers and the two accumulators hold after the body at position `n`:
    the case the closed forms select at `n`, run at the point's memrefs and input block, the accumulators at what this
    leaves at `n - 1`. An assignment of the conditions no point meets is no case. -/
def outsAt (c : Dev nD) : (n : ℕ) → n < (cfg0 a).N → Vec F S1x128x1x1 .f32 × Vec F S1x128x1x1 .f32 × Vec F S1x128x1x1 .f32 × Vec F S1x128x1x1 .f32
  | 0, hn => leftA a V c ⟨0, hn⟩ (Nat.zero_mod _) (show ¬(0 : ℕ) % 16 = 15 by decide)
  | n + 1, hn =>
    if h0 : (n + 1) % 16 = 0 then
      if h1 : (n + 1) % 16 = 15 then
        False.elim (by omega)
      else
        leftA a V c ⟨n + 1, hn⟩ h0 h1
    else
      if h1 : (n + 1) % 16 = 15 then
        leftC a V c ⟨n + 1, hn⟩ h0 h1 (outsAt c n (Nat.lt_of_succ_lt hn)).2.2.1 (outsAt c n (Nat.lt_of_succ_lt hn)).2.2.2
      else
        leftB a V c ⟨n + 1, hn⟩ h0 h1 (outsAt c n (Nat.lt_of_succ_lt hn)).2.2.1 (outsAt c n (Nat.lt_of_succ_lt hn)).2.2.2

/-- At a domain's first sample: that case's contents. -/
theorem outsAt_A (c : Dev nD) (t : Fin (cfg0 a).N) (h0 : t.val % 16 = 0) (h1 : ¬t.val % 16 = 15) :
    outsAt a V c t.val t.isLt = leftA a V c t h0 h1 := by
  obtain ⟨n, hn⟩ := t
  cases n with
  | zero => exact rfl
  | succ n => exact (dif_pos h0).trans ((dif_neg h1).trans rfl)

/-- Inside a domain: that case's contents, over what the point before left. -/
theorem outsAt_B (c : Dev nD) (t : Fin (cfg0 a).N) (h0 : ¬t.val % 16 = 0) (h1 : ¬t.val % 16 = 15) :
    outsAt a V c t.val t.isLt = leftB a V c t h0 h1 (outsAt a V c (t.val - 1) (Nat.lt_of_le_of_lt (Nat.sub_le _ _) t.isLt)).2.2.1 (outsAt a V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a domain's last sample: that case's contents, over what the point before left. -/
theorem outsAt_C (c : Dev nD) (t : Fin (cfg0 a).N) (h0 : ¬t.val % 16 = 0) (h1 : t.val % 16 = 15) :
    outsAt a V c t.val t.isLt = leftC a V c t h0 h1 (outsAt a V c (t.val - 1) (Nat.lt_of_le_of_lt (Nat.sub_le _ _) t.isLt)).2.2.1 (outsAt a V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: the generator register at some state, the table held whole, and the scoped
    buffers no window stages — before the first point each at some contents; afterwards the two accumulators at what the
    point before left in them, the others at some contents. -/
def PhiS (c : Dev nD) : (n : ℕ) → n ≤ (cfg0 a).N → sProp 𝕄
  | 0, _ => iprop((∃ r, prngReg c r) ∗ Iface.tableHeld a c ∗ Iface.restHeld c)
  | n + 1, hn => iprop((∃ r, prngReg c r) ∗ Iface.tableHeld a c
      ∗ owns (c : Thread nD τ) acc0M fullShare (outsAt a V c n hn).2.2.1 ∗ owns (c : Thread nD τ) acc1M fullShare (outsAt a V c n hn).2.2.2 ∗ otherHeld c)

theorem PhiS_zero (c : Dev nD) (n : ℕ) (h : n ≤ (cfg0 a).N) (hz : n = 0) :
    PhiS a V c n h = iprop((∃ r, prngReg c r) ∗ Iface.tableHeld a c ∗ Iface.restHeld c) := by
  subst hz; rfl

/-- After point `n` (before point `n + 1`): the accumulators at that point's contents. -/
theorem PhiS_succ (c : Dev nD) (n : ℕ) (hn : n < (cfg0 a).N) :
    PhiS a V c (n + 1) hn = iprop((∃ r, prngReg c r) ∗ Iface.tableHeld a c
      ∗ owns (c : Thread nD τ) acc0M fullShare (outsAt a V c n hn).2.2.1 ∗ owns (c : Thread nD τ) acc1M fullShare (outsAt a V c n hn).2.2.2 ∗ otherHeld c) := rfl

/-- Before a point that is not the first: the accumulators at what the point before left. -/
theorem PhiS_pos (c : Dev nD) (n : ℕ) (h : n ≤ (cfg0 a).N) (hz : n ≠ 0) :
    PhiS a V c n h = iprop((∃ r, prngReg c r) ∗ Iface.tableHeld a c
      ∗ owns (c : Thread nD τ) acc0M fullShare (outsAt a V c (n - 1) (by omega)).2.2.1 ∗ owns (c : Thread nD τ) acc1M fullShare (outsAt a V c (n - 1) (by omega)).2.2.2 ∗ otherHeld c) := by
  cases n with
  | zero => exact absurd rfl hz
  | succ n => rfl

/-! ## The proof data -/

/-- The proof data on core `c`: the arrays as the region finds them; after the body at point `t` the input's buffer at its
    block and the two results' at `outsAt`'s first two components; the invariant `PhiS`; nothing owed; full shares. -/
def dat (c : Dev nD) : Dat τ (Elt F) Unit ℕ (UR sig nD τ) ℕ (cfg0 a) c where
  A w := V c (Pipeline.arrRef spec0 w)
  after w t := match w with
    | ⟨0, _⟩ => iblk a V c t
    | ⟨1, _⟩ => (outsAt a V c t.val t.isLt).1
    | ⟨2, _⟩ => (outsAt a V c t.val t.isLt).2.1
  Φ t := PhiS a V c t.val (Nat.le_of_lt_succ t.isLt)
  q _ := fullShare
  owed _ := 0

theorem A_eq (c : Dev nD) (w : Fin (cfg0 a).W) : (dat a V c).A w = V c (Pipeline.arrRef spec0 w) := by
  dsimp only [dat]

/-- The invariant at a point's start, restated at the point's position. -/
theorem PhiS_castSucc (c : Dev nD) (t : Fin (cfg0 a).N) :
    (dat a V c).Φ t.castSucc = PhiS a V c t.val (Nat.le_of_lt t.isLt) := by
  dsimp only [dat]; simp only [Fin.coe_castSucc]

theorem after0 (c : Dev nD) (t : Fin (cfg0 a).N) : (dat a V c).after 0 t = iblk a V c t := by dsimp only [dat]; try rfl
theorem after1 (c : Dev nD) (t : Fin (cfg0 a).N) : (dat a V c).after 1 t = (outsAt a V c t.val t.isLt).1 := by dsimp only [dat]; try rfl
theorem after2 (c : Dev nD) (t : Fin (cfg0 a).N) : (dat a V c).after 2 t = (outsAt a V c t.val t.isLt).2.1 := by dsimp only [dat]; try rfl

/-- The input's current staging buffer holds its block at every point, fetched there or not. -/
theorem before0 (c : Dev nD) (t : Fin (cfg0 a).N) (d) : (dat a V c).before 0 t d = iblk a V c t :=
  before0_of a V (dat a V c) (A_eq a V c 0) (after0 a V c) t d

/-! ## The body obligation -/

/-- What the body is called with at point `t`, the windows one by one, -/
def bodyPre (c : Dev nD) (t : Fin (cfg0 a).N) : sProp 𝕄 :=
  iprop((dat a V c).Φ t.castSucc ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg0 a).N) : sProp 𝕄 :=
  iprop((dat a V c).Φ t.succ ∗ (dat a V c).owesAt () t.succ
    ∗ (dat a V c).leavesExact 0 t
    ∗ (dat a V c).leavesExact 1 t
    ∗ (dat a V c).leavesExact 2 t)

set_option maxHeartbeats 4800000 in
/-- The body at any point. The input's memref holds its block; the closed forms say which case the point is in; the invariant
    hands the body the accumulators at what the point before left (at anything at the first point) and takes them back at
    this point's contents; where a domain does not end the results' buffers come back untouched, the windows being idle and
    not written back there; the register, the table, the other scoped buffers and the core's dues pass through unread. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before0]
  rw [show (dat a V c).owesAt () t.succ = (dat a V c).owesAt () t.castSucc from rfl]
  rw [show (dat a V c).Φ t.succ = PhiS a V c (t.val + 1) t.isLt from rfl, PhiS_succ]
  have hN : t.val < 64 := lt_of_lt_of_eq t.isLt (show (cfg0 a).N = 64 from N_0)
  rw [show (dat a V c).leavesExact 0 t = owns (c : Thread nD τ) (ms0 a t) fullShare ((dat a V c).after 0 t) from (by
    unfold Dat.leavesExact; rw [live0 a]; try rfl), after0]
  by_cases h0 : t.val % 16 = 0
  · have h1 : ¬t.val % 16 = 15 := by omega
    rw [Dat.leavesExact_idle (dat a V c) 1 t (idle1 a t (fun h => h1 ((condLast_iff t).mp h))) (noFlush1 a t (fun h => h1 ((condLast_iff t).mp h)))]
    rw [Dat.leavesExact_idle (dat a V c) 2 t (idle2 a t (fun h => h1 ((condLast_iff t).mp h))) (noFlush2 a t (fun h => h1 ((condLast_iff t).mp h)))]
    rw [outsAt_A a V c t h0 h1]
    unfold leftA; (try dsimp only)
    by_cases hz : t.val = 0
    · rw [PhiS_castSucc a V c t, PhiS_zero a V c _ _ hz, restHeld_eq]
      iintro ⟨⟨Hg, HT, HS0, HS1, HR⟩, Ho, ⟨%d0, H0⟩, ⟨%d1, H1⟩, ⟨%d2, H2⟩⟩
      iapply ((ptA a V c t h0 h1).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hg HT HS0 HS1 HR]
      · isplitl [Hg]; · iexact Hg
        isplitl [HT]; · iexact HT
        isplitl [HS0]
        · unfold owns; iexists _; isplitr
          swap; · iexact HS0
          ipureintro; exact View.read_writes_eq_canon _ _ _ (coverA_acc0 c _ _ _ _ _ _ _ _ _ _ _ _ _ _ _ _)
        isplitl [HS1]
        · unfold owns; iexists _; isplitr
          swap; · iexact HS1
          ipureintro; exact View.read_writes_eq_canon _ _ _ (coverA_acc1 c _ _ _ _ _ _ _ _ _ _ _ _ _ _ _ _)
        iexact HR
      isplitl [Ho]; · iexact Ho
      isplitl [H0]; · iexact H0
      isplitl [H1]; · iexists _; iexact H1
      iexists _; iexact H2
    · rw [PhiS_castSucc a V c t, PhiS_pos a V c _ _ hz]
      iintro ⟨⟨Hg, HT, HS0, HS1, HR⟩, Ho, ⟨%d0, H0⟩, ⟨%d1, H1⟩, ⟨%d2, H2⟩⟩
      iapply ((ptA a V c t h0 h1).2.2.2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hg HT HS0 HS1 HR]
      · isplitl [Hg]; · iexact Hg
        isplitl [HT]; · iexact HT
        isplitl [HS0]
        · unfold owns; iexists _; isplitr
          swap; · iexact HS0
          ipureintro; exact View.read_writes_eq_canon _ _ _ (coverA_acc0 c _ _ _ _ _ _ _ _ _ _ _ _ _ _ _ _)
        isplitl [HS1]
        · unfold owns; iexists _; isplitr
          swap; · iexact HS1
          ipureintro; exact View.read_writes_eq_canon _ _ _ (coverA_acc1 c _ _ _ _ _ _ _ _ _ _ _ _ _ _ _ _)
        iexact HR
      isplitl [Ho]; · iexact Ho
      isplitl [H0]; · iexact H0
      isplitl [H1]; · iexists _; iexact H1
      iexists _; iexact H2
  · have hz : t.val ≠ 0 := fun h => h0 (by rw [h])
    by_cases h1 : t.val % 16 = 15
    · rw [show (dat a V c).leavesExact 1 t = owns (c : Thread nD τ) (ms1 a t) fullShare ((dat a V c).after 1 t) from (by
        unfold Dat.leavesExact; rw [live1 a t ((condLast_iff t).mpr h1)]; try rfl), after1]
      rw [show (dat a V c).leavesExact 2 t = owns (c : Thread nD τ) (ms2 a t) fullShare ((dat a V c).after 2 t) from (by
        unfold Dat.leavesExact; rw [live2 a t ((condLast_iff t).mpr h1)]; try rfl), after2]
      rw [outsAt_C a V c t h0 h1]
      unfold leftC; (try dsimp only)
      · rw [PhiS_castSucc a V c t, PhiS_pos a V c _ _ hz]
        iintro ⟨⟨Hg, HT, HS0, HS1, HR⟩, Ho, ⟨%d0, H0⟩, ⟨%d1, H1⟩, ⟨%d2, H2⟩⟩
        iapply ((ptC a V c t h0 h1 _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, ⟨%es0, HS0⟩, ⟨%es1, HS1⟩⟩
        isplitl [Hg HT HS0 HS1 HR]
        · isplitl [Hg]; · iexact Hg
          isplitl [HT]; · iexact HT
          isplitl [HS0]
          · unfold owns; iexists _; isplitr
            swap; · iexact HS0
            ipureintro; exact View.read_writes_eq_canon _ _ _ (coverC_acc0 c _ _ _ _ _ _ _ _ _ _ _ _ _ _ _ _ _ _)
          isplitl [HS1]
          · unfold owns; iexists _; isplitr
            swap; · iexact HS1
            ipureintro; exact View.read_writes_eq_canon _ _ _ (coverC_acc1 c _ _ _ _ _ _ _ _ _ _ _ _ _ _ _ _ _ _)
          iexact HR
        isplitl [Ho]; · iexact Ho
        isplitl [H0]; · iexact H0
        isplitl [H1]
        · unfold owns; iexists _; isplitr
          swap; · iexact H1
          ipureintro; exact View.read_writes_eq_canon _ _ _ (coverC_out1 c _ _ _ _ _ _ _ _ _ _ _ _ _ _ _ _ _ _)
        unfold owns; iexists _; isplitr
        swap; · iexact H2
        ipureintro; exact View.read_writes_eq_canon _ _ _ (coverC_out2 c _ _ _ _ _ _ _ _ _ _ _ _ _ _ _ _ _ _)
    · rw [Dat.leavesExact_idle (dat a V c) 1 t (idle1 a t (fun h => h1 ((condLast_iff t).mp h))) (noFlush1 a t (fun h => h1 ((condLast_iff t).mp h)))]
      rw [Dat.leavesExact_idle (dat a V c) 2 t (idle2 a t (fun h => h1 ((condLast_iff t).mp h))) (noFlush2 a t (fun h => h1 ((condLast_iff t).mp h)))]
      rw [outsAt_B a V c t h0 h1]
      unfold leftB; (try dsimp only)
      · rw [PhiS_castSucc a V c t, PhiS_pos a V c _ _ hz]
        iintro ⟨⟨Hg, HT, HS0, HS1, HR⟩, Ho, ⟨%d0, H0⟩, ⟨%d1, H1⟩, ⟨%d2, H2⟩⟩
        iapply ((ptB a V c t h0 h1 _ _).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [Hg HT HS0 HS1 HR]
        · isplitl [Hg]; · iexact Hg
          isplitl [HT]; · iexact HT
          isplitl [HS0]
          · unfold owns; iexists _; isplitr
            swap; · iexact HS0
            ipureintro; exact View.read_writes_eq_canon _ _ _ (coverB_acc0 c _ _ _ _ _ _ _ _ _ _ _ _ _ _ _ _ _ _)
          isplitl [HS1]
          · unfold owns; iexists _; isplitr
            swap; · iexact HS1
            ipureintro; exact View.read_writes_eq_canon _ _ _ (coverB_acc1 c _ _ _ _ _ _ _ _ _ _ _ _ _ _ _ _ _ _)
          iexact HR
        isplitl [Ho]; · iexact Ho
        isplitl [H0]; · iexact H0
        isplitl [H1]; · iexists _; iexact H1
        iexists _; iexact H2

/-- The body obligation, at every point. -/
theorem body_obligation (c : Dev nD) : BodyObligation (dat (F := F) a V c) (defs₀ (F := F)) Variants.none () Set.univ := fun t => by
  rw [bigSep_W0, bigSep_W0]
  exact sound_body a V c t

/-- The generator register, the table and the scoped rest are the invariant before the first point. -/
theorem hin (c : Dev nD) : (iprop((∃ r, prngReg c r) ∗ Iface.tableHeld a c ∗ Iface.restHeld c) : sProp 𝕄) ⊢ (dat a V c).Φ 0 := by
  rw [show (dat a V c).Φ 0 = PhiS a V c 0 (Nat.zero_le _) from rfl, PhiS_zero a V c 0 _ rfl]
  try exact Idealize.SL.BI.Entails.refl _

/-- After the last point the invariant gives all three back: the accumulators' named contents are forgotten. -/
theorem hout (c : Dev nD) : (dat a V c).Φ (Fin.last (cfg0 a).N) ⊢ (iprop(((∃ r, prngReg c r) ∗ Iface.tableHeld a c) ∗ Iface.restHeld c) : sProp 𝕄) := by
  have ht : (Fin.last (cfg0 a).N).val ≠ 0 := by rw [Fin.val_last]; have : (cfg0 a).N = 64 := N_0; omega
  rw [show (dat a V c).Φ (Fin.last (cfg0 a).N) = PhiS a V c (Fin.last (cfg0 a).N).val (Nat.le_of_lt_succ (Fin.last (cfg0 a).N).isLt) from rfl,
    PhiS_pos a V c _ _ ht, restHeld_eq]
  iintro ⟨Hg, HT, HS0, HS1, HR⟩
  isplitl [Hg HT]
  · isplitl [Hg]; · iexact Hg
    iexact HT
  isplitl [HS0]; · iexists _; iexact HS0
  isplitl [HS1]; · iexists _; iexact HS1
  iexact HR

/-! ## What the region hands the run of the whole program -/

/-- The statistics region's proof data, body obligation and invariant ends, at admissible table contents `a` and entry
    contents `V`. -/
def stats : Iface.Stats a V where
  dat := dat a V
  A_eq := A_eq a V
  q_full _ _ := rfl
  owed_zero _ _ := rfl
  body := body_obligation a V
  hin := hin a V
  hout := hout a V

end Cert.KernelIdeal.StatsRegion

end
-- ==== Proof.ApplyBodyIdeal.lean ====
/-
  The normalising region's kernel body, run once at symbolic operands.

  The body loads its eight input blocks whole — the sample's `[1, 128, 64, 64]` block and seven `[1, 128, 1, 1]` per-channel
  columns (the batch statistics' mean and variance, the batch-norm weight and bias, the blend gate, the instance-norm weight
  and bias) — and stores one `[1, 128, 64, 64]` block whole: the gate times the batch-normalised sample plus one minus the
  gate times the instance-normalised sample, the instance statistics being the block's own mean and variance over its
  last two axes. What the output's buffer holds after the body is therefore that one stored value, as a function of the
  eight blocks read.
-/
import proofs.«159259_j85899346585_1_alg».proof.Proof.Gen.KernelIdeal.Launch
import proofs.«159259_j85899346585_1_alg».proof.Proof.Gen.KernelIdeal.Skeleton
import proofs.«159259_j85899346585_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.ApplyBody

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a sample block, and the whole of a per-channel column: the two rectangles the body reads and writes through. -/
abbrev rBlock : Rect S1x128x64x64 := Rect.unit (s := S1x128x64x64) ![0, 0, 0, 0] S1x128x64x64.size inb_S1x128x64x64_S1x128x64x64_0_0_0_0
abbrev rCol : Rect S1x128x1x1 := Rect.unit (s := S1x128x1x1) ![0, 0, 0, 0] S1x128x1x1.size inb_S1x128x1x1_S1x128x1x1_0_0_0_0

/-- The output block after the body, from the eight input blocks (sample, mean, variance, batch-norm weight and bias, gate,
    instance-norm weight and bias): its one store, the blend of the two normalisations of the sample. -/
def applied (x : Vec F S1x128x64x64 .f32) (mean var bnw bnb gate inw inb : Vec F S1x128x1x1 .f32) : Vec F S1x128x64x64 .f32 :=
  View.canon [⟨rBlock, k1_pay1 (View.ld x rBlock) (k1_pay2 (View.ld gate rCol)) (k1_pay3 (View.ld inw rCol)) (k1_pay4 (View.ld inb rCol))
    (k1_pay5 (View.ld x rBlock) (View.ld mean rCol) (View.ld var rCol) (View.ld bnw rCol) (View.ld bnb rCol))⟩]

/-- The one store writes the whole block, so it covers it. -/
theorem applied_cover (p0 : Vec F S1x128x64x64 .f32) (y : S1x128x64x64.Idx) :
    ∃ pc ∈ ([⟨rBlock, p0⟩] : List (View.Piece (Elt F) S1x128x64x64 .f32)), y ∈ pc.1.set :=
  View.cover_of_tiled [⟨rBlock, p0⟩] S1x128x64x64.size (by rfl) y

set_option maxHeartbeats 1000000 in
/-- The body on whole staging memrefs, the eight inputs' at read contents and the output's at anything, runs to the
    continuation holding the inputs' as they were and the output's at `applied` of them. -/
theorem sound_kernel (c : Dev nD) (E : Set ℕ) (i : grid1.Coords)
    (arg1 : Memref sig .tc .vmem S1x128x64x64 .f32) (harg1 : arg1.IsWhole) (arg2 : Memref sig .tc .vmem S1x128x1x1 .f32) (harg2 : arg2.IsWhole)
    (arg3 : Memref sig .tc .vmem S1x128x1x1 .f32) (harg3 : arg3.IsWhole) (arg4 : Memref sig .tc .vmem S1x128x1x1 .f32) (harg4 : arg4.IsWhole)
    (arg5 : Memref sig .tc .vmem S1x128x1x1 .f32) (harg5 : arg5.IsWhole) (arg6 : Memref sig .tc .vmem S1x128x1x1 .f32) (harg6 : arg6.IsWhole)
    (arg7 : Memref sig .tc .vmem S1x128x1x1 .f32) (harg7 : arg7.IsWhole) (arg8 : Memref sig .tc .vmem S1x128x1x1 .f32) (harg8 : arg8.IsWhole)
    (arg9 : Memref sig .tc .vmem S1x128x64x64 .f32) (harg9 : arg9.IsWhole)
    (x : Vec F S1x128x64x64 .f32) (mean var bnw bnb gate inw inb : Vec F S1x128x1x1 .f32) (K : PUnit → sProp 𝕄) :
    iprop(owns (c : Thread nD τ) arg1 fullShare x ∗ owns (c : Thread nD τ) arg2 fullShare mean ∗ owns (c : Thread nD τ) arg3 fullShare var
        ∗ owns (c : Thread nD τ) arg4 fullShare bnw ∗ owns (c : Thread nD τ) arg5 fullShare bnb ∗ owns (c : Thread nD τ) arg6 fullShare gate
        ∗ owns (c : Thread nD τ) arg7 fullShare inw ∗ owns (c : Thread nD τ) arg8 fullShare inb ∗ (∃ d, owns (c : Thread nD τ) arg9 fullShare d)
        ∗ (iprop(owns (c : Thread nD τ) arg1 fullShare x ∗ owns (c : Thread nD τ) arg2 fullShare mean ∗ owns (c : Thread nD τ) arg3 fullShare var
            ∗ owns (c : Thread nD τ) arg4 fullShare bnw ∗ owns (c : Thread nD τ) arg5 fullShare bnb ∗ owns (c : Thread nD τ) arg6 fullShare gate
            ∗ owns (c : Thread nD τ) arg7 fullShare inw ∗ owns (c : Thread nD τ) arg8 fullShare inb
            ∗ owns (c : Thread nD τ) arg9 fullShare (applied x mean var bnw bnb gate inw inb)) -∗ K ⟨⟩))
      ⊢ wp frame (wpE (defs₀ (F := F)) Variants.none c none) E
          (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (applied_cover _)

end Cert.KernelIdeal.ApplyBody

end
-- ==== Proof.ApplyRegionIdeal.lean ====
/-
  The normalising region's proof data, at the buffer contents `V` the region is entered from.

  The region runs the body once per sample `b` (a grid of 64 points). Window 0 stages sample `b` of the input, windows 1–5
  row `b` of five `[64, 128, 1, 1]` arrays (that sample's batch mean, variance, batch-norm weight, bias and gate), windows 6
  and 7 the one row of the instance-norm weight and bias (fetched once: their block never moves), window 8 is sample `b` of
  the result, written back at every point. An input's buffer holds its array's block at the point whether or not the point
  fetches it, the body leaves the inputs as it found them, and the output's buffer ends at the blend of the eight blocks.
-/
import proofs.«159259_j85899346585_1_alg».proof.Proof.ApplyBodyIdeal

set_option maxRecDepth 16384

noncomputable section

namespace Cert.KernelIdeal.ApplyRegion

open Cert.KernelIdeal Cert.KernelIdeal.Gen Cert.KernelIdeal.ApplyBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or not: where it is not
    fetched its block index has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not: where it is not
    fetched its block index has not moved. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not: where it is not
    fetched its block index has not moved. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or not: where it is not
    fetched its block index has not moved. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or not: where it is not
    fetched its block index has not moved. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or not: where it is not
    fetched its block index has not moved. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether fetched there or not: where it is not
    fetched its block index has not moved. -/
theorem before6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether fetched there or not: where it is not
    fetched its block index has not moved. -/
theorem before7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's buffer at its
    block and the output's at the blend of the eight blocks; the invariant the scoped buffers no window stages and the
    generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => applied (iblk V c 0 t) (iblk V c 1 t) (iblk V c 2 t) (iblk V c 3 t) (iblk V c 4 t) (iblk V c 5 t) (iblk V c 6 t) (iblk V c 7 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = applied (iblk V c 0 t) (iblk V c 1 t) (iblk V c 2 t) (iblk V c 3 t) (iblk V c 4 t) (iblk V c 5 t) (iblk V c 6 t) (iblk V c 7 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d
theorem before6 (c : Dev nD) (t : Fin cfg1.N) (d) : (dat V c).before 6 t d = iblk V c 6 t :=
  before6_of V (dat V c) (A_eq V c 6) (after6 V c) t d
theorem before7 (c : Dev nD) (t : Fin cfg1.N) (d) : (dat V c).before 7 t d = iblk V c 7 t :=
  before7_of V (dat V c) (A_eq V c 7) (after7 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7]
  rw [show (dat V c).Φ t.succ = (dat V c).Φ t.castSucc from rfl,
    show (dat V c).owesAt () t.succ = (dat V c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (dat (F := F) V c) (defs₀ (F := F)) Variants.none () Set.univ := fun t => by
  rw [bigSep_W1, bigSep_W1]
  exact sound_body V c t

end Cert.KernelIdeal.ApplyRegion

end
-- ==== Proof.RunIdeal.lean ====
/-
  The run of the whole program, given what the statistics region supplies.

  The program is two kernel regions with five stretches of host operations between them. The statistics region reads the
  input through a table of 64 row indices it prefetches and leaves per-channel sums and sums of squares in two small
  arrays; the host stretches turn those into per-sample means, variances, weights, biases and a gate; the normalising
  region blends them into the result. The thread state between two segments is every unscoped buffer held whole at
  the contents the segments so far leave there (a fold through the program from the launch memory), beside the
  generator register and the core's dues, at nothing. A region takes its arrays (the first also its table, whose contents are
  the admissible ones the statistics region's proof is given for) out of that state at its entry and puts them back,
  at what its pipeline leaves, at its exit. From the chain of segments: the program runs from any memory with zero counters
  whose table is admissible, and every final state has every unscoped buffer at the last contents of the fold — in
  particular each argument as launched, and the result at what the normalising region's pipeline leaves in its output
  window.
-/
import proofs.«159259_j85899346585_1_alg».proof.Proof.IfaceIdeal
import proofs.«159259_j85899346585_1_alg».proof.Proof.ApplyRegionIdeal
import proofs.«159259_j85899346585_1_alg».proof.Proof.Gen.KernelIdeal.Regions

set_option maxRecDepth 16384

noncomputable section

namespace Cert.KernelIdeal.Run

open Cert.KernelIdeal Cert.KernelIdeal.Gen Cert.KernelIdeal.Iface
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)
variable (st : ∀ V : (c : Dev nD) → (b : Ref sig .tc) → Buf (Elt F) ((c : Thread nD τ).loc b), Stats a0 V)

/-! ## The buffer contents at each segment boundary: a fold through the program -/

/-- Core `c`'s buffers at launch. -/
abbrev W0 : Dev nD → Valuation τ sig (Elt F) := fun c b => m (c, b)
/-- The same read at the TensorCore's references (what the statistics region's proof data take). -/
abbrev V0 : (c : Dev nD) → (b : Ref sig .tc) → Buf (Elt F) ((c : Thread nD τ).loc b) := fun c b => W0 m c b
/-- At the statistics region's exit: its arrays at what the pipeline leaves, every other buffer as entered. -/
def W1 (c : Dev nD) : Valuation τ sig (Elt F) :=
  Pipeline.withArrays spec0 c (W0 m c) fun w => ((st (V0 m)).dat c).arrAt w (cfg0 a0).N
theorem W1_arr (c : Dev nD) (w : Fin (cfg0 a0).W) :
    W1 m a0 st c (Proc.devRef .tc (Pipeline.arrRef spec0 w)) = ((st (V0 m)).dat c).arrAt w (cfg0 a0).N := by
  unfold W1; exact Pipeline.withArrays_arr spec0 winFacts0.arr_inj c _ _ w
theorem W1_of_ne (c : Dev nD) (b : Ref sig .tc) (hb : ∀ w, Pipeline.arrRef spec0 w ≠ b) :
    W1 m a0 st c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m a0 st c b
/-- After each of the five host stretches. -/
abbrev W2 : Dev nD → Valuation τ sig (Elt F) := fun c => StableHlo.after hostOps1 (W1 m a0 st c)
abbrev W3 : Dev nD → Valuation τ sig (Elt F) := fun c => StableHlo.after hostOps1_1 (W2 m a0 st c)
abbrev W4 : Dev nD → Valuation τ sig (Elt F) := fun c => StableHlo.after hostOps1_2 (W3 m a0 st c)
abbrev W5 : Dev nD → Valuation τ sig (Elt F) := fun c => StableHlo.after hostOps1_3 (W4 m a0 st c)
abbrev W6 : Dev nD → Valuation τ sig (Elt F) := fun c => StableHlo.after hostOps1_4 (W5 m a0 st c)
/-- The same read at the TensorCore's references (what the normalising region's proof data take). -/
abbrev V6 : (c : Dev nD) → (b : Ref sig .tc) → Buf (Elt F) ((c : Thread nD τ).loc b) := fun c b => W6 m a0 st c b
/-- At the normalising region's exit. -/
def W7 (c : Dev nD) : Valuation τ sig (Elt F) :=
  Pipeline.withArrays spec1 c (W6 m a0 st c) fun w => (ApplyRegion.dat (V6 m a0 st) c).arrAt w cfg1.N
theorem W7_arr (c : Dev nD) (w : Fin cfg1.W) :
    W7 m a0 st c (Proc.devRef .tc (Pipeline.arrRef spec1 w)) = (ApplyRegion.dat (V6 m a0 st) c).arrAt w cfg1.N := by
  unfold W7; exact Pipeline.withArrays_arr spec1 winFacts1.arr_inj c _ _ w
theorem W7_of_ne (c : Dev nD) (b : Ref sig .tc) (hb : ∀ w, Pipeline.arrRef spec1 w ≠ b) :
    W7 m a0 st c (Proc.devRef .tc b) = W6 m a0 st c (Proc.devRef .tc b) := by
  unfold W7; exact Pipeline.withArrays_of_ne spec1 c _ _ b hb
abbrev V7 : (c : Dev nD) → (b : Ref sig .tc) → Buf (Elt F) ((c : Thread nD τ).loc b) := fun c b => W7 m a0 st c b

/-! ## The proof data family and the thread state -/

/-- The prefetched tables' admissible contents: the statistics region's table at `a0`; the normalising region has none. -/
abbrev adm : (p : Fin 2) → (pcfgs (F := F) p).Adm
  | ⟨0, _⟩ => a0
  | ⟨1, _⟩ => cfg1.toPCfg_adm
/-- Every pipeline's proof data, each at its region's entry contents. -/
def pdats : (p : Fin 2) → (c : Dev nD) → Dat τ (Elt F) Unit ℕ (UR sig nD τ) ℕ (Pipeline.pin (pcfgs (F := F)) (adm a0) p) c
  | ⟨0, _⟩ => fun c => (st (V0 m)).dat c
  | ⟨1, _⟩ => fun c => ApplyRegion.dat (V6 m a0 st) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The same at launch: the dues at nothing with no wait recorded yet. -/
abbrev R₀ (c : Dev nD) : sProp 𝕄 := iprop((∃ r, prngReg c r) ∗ owes (c : Thread nD τ) (0 : CellTallies nD τ sig Unit) ∅)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m a0 st c) ∗ ∃ r, prngReg c r)

variable (htab : ∀ (c : Dev nD) (k : Fin pre0.K), a0.1 k = m ((c : Thread nD τ).loc (pre0.ref k)))

/-- At the statistics region's exit each of its arrays holds what the pipeline leaves and every other buffer what it
    held at entry. -/
theorem hF0 (c : Dev nD) (w : Fin (cfg0 a0).W) : ((st (V0 m)).dat c).arrAt w (cfg0 a0).N = V1 m a0 st c (Pipeline.arrRef spec0 w) :=
  (W1_arr m a0 st c w).symm
theorem hrest0 (c : Dev nD) : ∀ b, b ∉ Finset.univ.image (Pipeline.arrRef spec0) → V1 m a0 st c b = V0 m c b :=
  fun b hb => W1_of_ne m a0 st c b fun w e => hb (Finset.mem_image.mpr ⟨w, Finset.mem_univ _, e⟩)
theorem hF1 (c : Dev nD) (w : Fin cfg1.W) : (ApplyRegion.dat (V6 m a0 st) c).arrAt w cfg1.N = V7 m a0 st c (Pipeline.arrRef spec1 w) :=
  (W7_arr m a0 st c w).symm
theorem hrest1 (c : Dev nD) : ∀ b, b ∉ Finset.univ.image (Pipeline.arrRef spec1) → V7 m a0 st c b = V6 m a0 st c b :=
  fun b hb => W7_of_ne m a0 st c b fun w e => hb (Finset.mem_image.mpr ⟨w, Finset.mem_univ _, e⟩)

include htab in
/-- The table's contents read off the launch memory are the admissible contents. -/
theorem tab_eq (c : Dev nD) : (fun k => V0 m c (pre0.ref k)) = a0.1 := funext fun k => (htab c k).symm

include htab in
/-- The unscoped buffers that are no array of the statistics region are its table, at the admissible contents, and the rest. -/
theorem rest_split (c : Dev nD) :
    (Pipeline.unscopedRest (Ix := Unit) (Name := ℕ) (U := UR sig nD τ) (Lvl := ℕ) spec0 c (V0 m c) : sProp 𝕄)
      = iprop(tableHeld a0 c ∗ Pipeline.unscopedRestP pre0 spec0 c (V0 m c)) := by
  have h := Pipeline.unscopedRest_split (Ix := Unit) (Name := ℕ) (U := UR sig nD τ) (Lvl := ℕ) (Val := Elt F) preFacts0 c (V0 m c)
  rw [tab_eq m a0 htab c] at h
  exact h

/-! ## The regions as segments -/

set_option backward.isDefEq.respectTransparency.types false in
/-- The statistics region over the thread state: entered from every unscoped buffer at `W0`, left at `W1`. Its arrays
    and its table split out of the unscoped buffers and put back at the exit contents; the generator register and
    the table into the region's invariant and out; nothing owed; no semaphore of the kernel's own. -/
def reg0 : Pipeline.RegionSeg (pcfgs (F := F)) (adm a0) (pdats m a0 st) () defs₀ 𝒱₀ L lv 0 where
  win := winFacts0.to₀
  block_pos := block_pos0
  stage_whole := stage_whole0
  K := PEmpty
  osem k := k.elim
  ho := Pipeline.OwnSemFacts.none _
  hbody c := ((st (V0 m)).body c).loose
  hwaits := Pipeline.hwaits_of_owed_zero (pcfgs (F := F)) (adm a0) (pdats m a0 st) () L lv 0 fun c t => (st (V0 m)).owed_zero c t
  pre c := iprop(StableHlo.held (c : Thread nD τ) (Pipeline.ucRefs τ sig) (W0 m c) ∗ R₀ c)
  post c := iprop(StableHlo.held (c : Thread nD τ) (Pipeline.ucRefs τ sig) (W1 m a0 st c) ∗ R c)
  X c := iprop(∃ r, prngReg c r)
  Y c := iprop((∃ r, prngReg c r) ∗ tableHeld a0 c)
  Z c := Pipeline.unscopedRestP (Ix := Unit) (Name := ℕ) (U := UR sig nD τ) (Lvl := ℕ) pre0 spec0 c (V0 m c)
  hentry c := by
    rw [Pipeline.ownSems0_none]
    have hsplit := Pipeline.arrays_of_unscopedBufs (p := 0) (pcfgs (F := F)) (adm a0) (pdats m a0 st) winFacts0 arr_whole0 c
      ((pdats m a0 st 0 c).share_full fun w => (st (V0 m)).q_full c w) (V0 m c) fun w => (st (V0 m)).A_eq c w
    rw [Pipeline.unscopedBufs_held] at hsplit
    replace hsplit := hsplit.trans (sep_mono .rfl (Entails.of_eq (rest_split m a0 htab c)))
    iintro ⟨⟨Hub, Hp, HO⟩, -, -⟩
    ihave H := hsplit $$ Hub
    icases H with ⟨Ha, Htab, Hrest⟩
    imodintro
    isplitl [Ha]; · iexact Ha
    isplitl [Htab]; · iexact Htab
    isplitl [HO]
    · unfold Pipeline.Dat.owesAt Pipeline.owesWithin
      rw [show (pdats m a0 st 0 c).owed 0 = 0 from (st (V0 m)).owed_zero c 0]
      iexists ∅; isplitr; · ipureintro; rw [Finset.coe_empty]; exact Set.empty_subset _
      iexact HO
    isplitl [Hp]; · iexact Hp
    iexact Hrest
  hin c := (st (V0 m)).hin c
  hout c := by
    rw [Pipeline.ownSems0_none]
    refine ((st (V0 m)).hout c).trans ?_
    iintro ⟨HY, Hr⟩
    isplitl [HY]; · iexact HY
    isplitr; · iempintro
    iexact Hr
  hexit c := by
    have hjoin := Pipeline.unscopedBufs_of_arrays (p := 0) (pcfgs (F := F)) (adm a0) (Ix := Unit) (Name := ℕ) (U := UR sig nD τ) (Lvl := ℕ)
      winFacts0 arr_whole0 c (pdats m a0 st) ((pdats m a0 st 0 c).share_full fun w => (st (V0 m)).q_full c w)
      (V0 m c) (V1 m a0 st c) ((pdats m a0 st 0 c).arrAt · (cfg0 a0).N) (hF0 m a0 st c) (hrest0 m a0 st c)
    have hO : ((pdats m a0 st 0 c).owesAt () (Fin.last (cfg0 a0).N) : sProp 𝕄) ⊢ iprop(∃ W, owes (c : Thread nD τ) (0 : CellTallies nD τ sig Unit) W) := by
      unfold Pipeline.Dat.owesAt Pipeline.owesWithin
      rw [show (pdats m a0 st 0 c).owed (Fin.last (cfg0 a0).N) = 0 from (st (V0 m)).owed_zero c _]
      iintro ⟨%W, -, HO⟩; iexists W; iexact HO
    rw [Pipeline.unscopedBufs_held] at hjoin
    replace hjoin := (sep_mono .rfl (Entails.of_eq (rest_split m a0 htab c).symm)).trans hjoin
    iintro ⟨Ha, HO, ⟨Hp, Htab⟩, Hrest⟩
    imodintro
    isplitl [Ha Htab Hrest]
    · iapply hjoin; isplitl [Ha]; · iexact Ha
      isplitl [Htab]; · iexact Htab
      iexact Hrest
    isplitl [Hp]; · iexact Hp
    iapply hO; iexact HO

set_option backward.isDefEq.respectTransparency.types false in
/-- The normalising region over the thread state: entered from every unscoped buffer at `W6`, left at `W7` (what the
    launch reads at the end). Its arrays split out of the unscoped buffers and put back at the exit contents; the
    generator register into the region's invariant and out; nothing owed; no semaphore of the kernel's own. -/
def reg1 : Pipeline.RegionSeg (pcfgs (F := F)) (adm a0) (pdats m a0 st) () defs₀ 𝒱₀ L lv 1 where
  win := winFacts1.to₀
  block_pos := block_pos1
  stage_whole := stage_whole1
  K := PEmpty
  osem k := k.elim
  ho := Pipeline.OwnSemFacts.none _
  hbody c := (ApplyRegion.body_obligation (V6 m a0 st) c).loose
  hwaits := Pipeline.hwaits_of_owed_zero (pcfgs (F := F)) (adm a0) (pdats m a0 st) () L lv 1 fun _ _ => rfl
  pre c := iprop(StableHlo.held (c : Thread nD τ) (Pipeline.ucRefs τ sig) (W6 m a0 st c) ∗ R c)
  post c := iprop(Tₙ m a0 st c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m a0 st c)
  hentry c := by
    rw [Pipeline.ownSems0_none]
    have hsplit := Pipeline.arrays_of_unscopedBufs (p := 1) (pcfgs (F := F)) (adm a0) (pdats m a0 st) winFacts1 arr_whole1 c
      ((pdats m a0 st 1 c).share_full fun _ => rfl) (V6 m a0 st c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 st 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a0 st 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a0) (Ix := Unit) (Name := ℕ) (U := UR sig nD τ) (Lvl := ℕ)
      winFacts1 arr_whole1 c (pdats m a0 st) ((pdats m a0 st 1 c).share_full fun _ => rfl)
      (V6 m a0 st c) (V7 m a0 st c) ((pdats m a0 st 1 c).arrAt · cfg1.N) (hF1 m a0 st c) (hrest1 m a0 st c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 7 segments in order: the statistics region, a host segment per stretch from its boundary's contents,
    the normalising region. -/
abbrev segs : List (Pipeline.Seg (pcfgs (F := F)) (adm a0) (pdats m a0 st) () defs₀ 𝒱₀ L lv) :=
  [ .region (reg0 m a0 st htab),
    .host (hseg hostOps1 hostOps1_sub hostOps1_fresh (W1 m a0 st)),
    .host (hseg hostOps1_1 hostOps1_1_sub hostOps1_1_fresh (W2 m a0 st)),
    .host (hseg hostOps1_2 hostOps1_2_sub hostOps1_2_fresh (W3 m a0 st)),
    .host (hseg hostOps1_3 hostOps1_3_sub hostOps1_3_fresh (W4 m a0 st)),
    .host (hseg hostOps1_4 hostOps1_4_sub hostOps1_4_fresh (W5 m a0 st)),
    .region (reg1 m a0 st) ]

include htab in
set_option backward.isDefEq.respectTransparency.types false in
/-- THE RUN: at the compiled mesh, from any memory with zero counters whose table is the admissible contents, every
    weakly fair execution of the program on the TensorCores terminates, nothing faulting, and every final state has
    every unscoped buffer at the last boundary's contents `W7`. -/
theorem run : θ_run defs (onTc (τ := τ) (main (F := F))) ⟨m, fun _ => 0, ρ⟩ (fun r => ∀ c : Dev nD,
      ∀ b ∈ Pipeline.ucRefs τ sig, r.2.mem ((c : Thread nD τ).1, b) = W7 m a0 st c b) :=
  Pipeline.θ_run_regions_kit (pcfgs (F := F)) (adm a0) (pdats m a0 st) () (cellOf_inj (adm a0)) emb₁ defs₀ 𝒱₀ L lv m ρ main (segs m a0 st htab)
    (fun c Q => by
      rewrite [main_chain c, Seg.run_eq_chain,
        show (segs m a0 st htab).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a0)) (cellOf_inj (adm a0))) (Pipeline.launchToks (Pipeline.pin (pcfgs (F := F)) (adm a0)) (cellOf_inj (adm a0))))
    (hu₀ := by
      iintro Hu; imodintro
      isplitl [Hu]
      · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
            ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m a0 st)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W7 m a0 st c b)
    (hfin := fun c s' => by
      iintro ⟨⟨Hh, -⟩, HSI⟩
      unfold StableHlo.held
      imodintro
      iapply (pointsTo_read_all (Pipeline.ucRefs τ sig) (fun b => (((c : Thread nD τ)).1, b)) (W7 m a0 st c) s')
      isplitl [Hh] <;> iassumption)
    (hQ := fun s h => h)

/-! ## Reading the boundaries -/

/-- A buffer no host stretch writes is, before the normalising region, as the statistics region left it. -/
theorem W6_of (c : Dev nD) (r : Ref sig .tc) (h1 : r ∉ hostOps1_W) (h2 : r ∉ hostOps1_1_W) (h3 : r ∉ hostOps1_2_W)
    (h4 : r ∉ hostOps1_3_W) (h5 : r ∉ hostOps1_4_W) :
    W6 m a0 st c (Proc.devRef .tc r) = W1 m a0 st c (Proc.devRef .tc r) :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  StableHlo.after_of_writes_sub hostOps1 _ hostOps1_writes h1

/-- The statistics region's two results are what its pipeline leaves in its windows 1 and 2. -/
theorem W1_main_v0_0 (c : Dev nD) : W1 m a0 st c (Proc.devRef .tc main_v0_0) = ((st (V0 m)).dat c).arrAt 1 (cfg0 a0).N :=
  W1_arr m a0 st c 1
theorem W1_main_v0_1 (c : Dev nD) : W1 m a0 st c (Proc.devRef .tc main_v0_1) = ((st (V0 m)).dat c).arrAt 2 (cfg0 a0).N :=
  W1_arr m a0 st c 2
/-- A buffer that is no array of the statistics region is, at its exit, the launch memory. -/
theorem W1_of_launch (c : Dev nD) (b : Ref sig .tc) (hb : ∀ w, Pipeline.arrRef spec0 w ≠ b) :
    W1 m a0 st c (Proc.devRef .tc b) = m ((c : Thread nD τ).loc b) :=
  (W1_of_ne m a0 st c b hb).trans rfl

/-- THE RESULT: the program's result buffer ends at what the normalising region's pipeline leaves in its window 8. -/
theorem result (c : Dev nD) : W7 m a0 st c (Proc.devRef .tc main_v57) = (ApplyRegion.dat (V6 m a0 st) c).arrAt 8 cfg1.N :=
  W7_arr m a0 st c 8

/-! ### The arguments end as launched -/

/-- `main_arg0` reaches the end as launched: both regions read it through an input window, which leaves its array as
    entered, and no host stretch writes it. -/
theorem W7_main_arg0 (c : Dev nD) : W7 m a0 st c (Proc.devRef .tc main_arg0) = m ((c : Thread nD τ).loc main_arg0) :=
  calc W7 m a0 st c (Proc.devRef .tc main_arg0)
    _ = W6 m a0 st c (Proc.devRef .tc main_arg0) :=
        (W7_arr m a0 st c 0).trans (((ApplyRegion.dat (V6 m a0 st) c).arrAt_in 0 rfl _).trans (ApplyRegion.A_eq (V6 m a0 st) c 0))
    _ = W1 m a0 st c (Proc.devRef .tc main_arg0) := W6_of m a0 st c main_arg0 (by decide) (by decide) (by decide) (by decide) (by decide)
    _ = W0 m c (Proc.devRef .tc main_arg0) :=
        (W1_arr m a0 st c 0).trans ((((st (V0 m)).dat c).arrAt_in 0 rfl _).trans ((st (V0 m)).A_eq c 0))
    _ = m ((c : Thread nD τ).loc main_arg0) := rfl
/-- `main_arg1` reaches the end as launched: no host stretch writes it and it is no array of either region. -/
theorem W7_main_arg1 (c : Dev nD) : W7 m a0 st c (Proc.devRef .tc main_arg1) = m ((c : Thread nD τ).loc main_arg1) :=
  (W7_of_ne m a0 st c main_arg1 (by decide)).trans <|
    (W6_of m a0 st c main_arg1 (by decide) (by decide) (by decide) (by decide) (by decide)).trans <|
    (W1_of_ne m a0 st c main_arg1 (by decide)).trans rfl
/-- `main_arg2` reaches the end as launched: no host stretch writes it and it is no array of either region. -/
theorem W7_main_arg2 (c : Dev nD) : W7 m a0 st c (Proc.devRef .tc main_arg2) = m ((c : Thread nD τ).loc main_arg2) :=
  (W7_of_ne m a0 st c main_arg2 (by decide)).trans <|
    (W6_of m a0 st c main_arg2 (by decide) (by decide) (by decide) (by decide) (by decide)).trans <|
    (W1_of_ne m a0 st c main_arg2 (by decide)).trans rfl
/-- `main_arg3` reaches the end as launched: no host stretch writes it and it is no array of either region. -/
theorem W7_main_arg3 (c : Dev nD) : W7 m a0 st c (Proc.devRef .tc main_arg3) = m ((c : Thread nD τ).loc main_arg3) :=
  (W7_of_ne m a0 st c main_arg3 (by decide)).trans <|
    (W6_of m a0 st c main_arg3 (by decide) (by decide) (by decide) (by decide) (by decide)).trans <|
    (W1_of_ne m a0 st c main_arg3 (by decide)).trans rfl
/-- `main_arg4` reaches the end as launched: no host stretch writes it and it is no array of either region. -/
theorem W7_main_arg4 (c : Dev nD) : W7 m a0 st c (Proc.devRef .tc main_arg4) = m ((c : Thread nD τ).loc main_arg4) :=
  (W7_of_ne m a0 st c main_arg4 (by decide)).trans <|
    (W6_of m a0 st c main_arg4 (by decide) (by decide) (by decide) (by decide) (by decide)).trans <|
    (W1_of_ne m a0 st c main_arg4 (by decide)).trans rfl
/-- `main_arg5` reaches the end as launched: no host stretch writes it and it is no array of either region. -/
theorem W7_main_arg5 (c : Dev nD) : W7 m a0 st c (Proc.devRef .tc main_arg5) = m ((c : Thread nD τ).loc main_arg5) :=
  (W7_of_ne m a0 st c main_arg5 (by decide)).trans <|
    (W6_of m a0 st c main_arg5 (by decide) (by decide) (by decide) (by decide) (by decide)).trans <|
    (W1_of_ne m a0 st c main_arg5 (by decide)).trans rfl
/-- `main_arg6` reaches the end as launched: no host stretch writes it and it is no array of either region. -/
theorem W7_main_arg6 (c : Dev nD) : W7 m a0 st c (Proc.devRef .tc main_arg6) = m ((c : Thread nD τ).loc main_arg6) :=
  (W7_of_ne m a0 st c main_arg6 (by decide)).trans <|
    (W6_of m a0 st c main_arg6 (by decide) (by decide) (by decide) (by decide) (by decide)).trans <|
    (W1_of_ne m a0 st c main_arg6 (by decide)).trans rfl
/-- `main_arg7` reaches the end as launched: no host stretch writes it and it is no array of either region. -/
theorem W7_main_arg7 (c : Dev nD) : W7 m a0 st c (Proc.devRef .tc main_arg7) = m ((c : Thread nD τ).loc main_arg7) :=
  (W7_of_ne m a0 st c main_arg7 (by decide)).trans <|
    (W6_of m a0 st c main_arg7 (by decide) (by decide) (by decide) (by decide) (by decide)).trans <|
    (W1_of_ne m a0 st c main_arg7 (by decide)).trans rfl

include a0 st htab in
/-- THE FRAME: every weakly fair execution terminates, nothing faulting, and every final state has the argument arrays as
    launched — the run, each argument read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W7_main_arg0 m a0 st c),
     (h c _ (mem_uc main_arg1 (by decide))).trans (W7_main_arg1 m a0 st c),
     (h c _ (mem_uc main_arg2 (by decide))).trans (W7_main_arg2 m a0 st c),
     (h c _ (mem_uc main_arg3 (by decide))).trans (W7_main_arg3 m a0 st c),
     (h c _ (mem_uc main_arg4 (by decide))).trans (W7_main_arg4 m a0 st c),
     (h c _ (mem_uc main_arg5 (by decide))).trans (W7_main_arg5 m a0 st c),
     (h c _ (mem_uc main_arg6 (by decide))).trans (W7_main_arg6 m a0 st c),
     (h c _ (mem_uc main_arg7 (by decide))).trans (W7_main_arg7 m a0 st c)⟩) (run m ρ a0 st htab)

end Cert.KernelIdeal.Run

end
-- ==== Proof.TableOkBits.lean ====
/-
  The side condition of the statistics region's prefetched table.

  The first region reads its input block through a table of 64 words: at grid point `(d, i)` it stages batch row
  `table[16·d + i]` of the `[64, 128, 64, 64]` array, a block of one whole row. The block lies inside the array exactly
  when that word, read unsigned, is below 64 — which holds of every word of a table whose words are in `[0, 64)` read
  signed (a nonnegative signed word is its unsigned value).
-/
import proofs.«159259_j85899346585_1_alg».proof.Kernel
import proofs.«159259_j85899346585_1_alg».proof.Proof.Gen.Kernel

set_option maxRecDepth 16384

noncomputable section

namespace Cert.Kernel.TableOk

open Cert.Kernel Cert.Kernel.Gen
open Idealize.ShloMosaic Idealize.SL.Sem

variable {F : FTy → Type} [FloatOps F]

/-- A word in `[0, 64)` read signed is below 64 read unsigned. -/
theorem toNat_lt_of_signed (w : BitVec 32) (h0 : 0 ≤ w.toInt) (h1 : w.toInt < 64) : w.toNat < 64 := by
  have h32 := w.isLt
  unfold BitVec.toInt at h0 h1
  split at h1 <;> omega

/-- A table all of whose words are below 64 satisfies the region's side condition: every staged row is a row of the array. -/
theorem ok0_of_lt (pf : pre0.Contents (Elt F)) (h : ∀ x, (pf 0 x).toNat < 64) : ok0 pf := by
  intro i
  obtain ⟨w, hw, e⟩ : ∃ w : BitVec 32, w.toNat < 64 ∧ cc0_transform_0 k0_off1_inb numel1_S1 pf i = ![w.toNat, 0, 0, 0] :=
    ⟨_, h _, rfl⟩
  refine ⟨fun a => ?_, Or.inl rfl⟩
  rw [e]
  fin_cases a <;> simp [S1x128x64x64, S64x128x64x64] <;> omega

end Cert.Kernel.TableOk

end
-- ==== Proof.PreGlueBits.lean ====
/-
  From the precondition to the statistics region's admissible table.

  The statistics region stages batch rows through the table of 64 words that the sorting index array is; its side condition
  asks every such word to name a row of the 64. The precondition says every word of that array is in `[0, 64)` read signed,
  hence below 64 read unsigned, so the table read off the launch memory (the program has one device) is admissible.
-/
import proofs.«159259_j85899346585_1_alg».proof.Defs
import proofs.«159259_j85899346585_1_alg».proof.Proof.IndexFacts
import proofs.«159259_j85899346585_1_alg».proof.Proof.TableOkBits

set_option maxRecDepth 16384

noncomputable section

namespace Cert.Kernel.PreGlue

open Cert.Kernel Cert.Kernel.Gen
open Idealize.ShloMosaic Idealize.ShloMosaic.TcCoe Idealize.SL.Sem

variable {F : FTy → Type} [FloatOps F]
variable (m : (ℓ : Loc nD τ sig) → Buf (Elt F) ℓ)

/-- The precondition of the printed predicate on every device, at any float instance. -/
abbrev Pre : Prop :=
  ∀ c : Dev nD,
    (Cert.Pre_finite_inputs.fn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) = (fun _ => 1#1)

/-- The table's contents, read off the launch memory on the program's one device. -/
def tbl : pre0.Contents (Elt F) := fun j => m (((0 : Dev nD) : Thread nD τ).loc (pre0.ref j))

/-- Under the precondition every word of the table is below 64. -/
theorem tbl_lt (h : Pre m) : ∀ x, (tbl m 0 x).toNat < 64 := fun x =>
  have hS := (Cert.IndexFacts.decode _ _ _ _ _ _ _ _ (h 0)).1 x
  Cert.Kernel.TableOk.toNat_lt_of_signed _ hS.1 hS.2

/-- The table as admissible contents of the statistics region's pipeline. -/
def adm (h : Pre m) : (pcfg0 (F := F)).Adm := ⟨tbl m, Cert.Kernel.TableOk.ok0_of_lt (tbl m) (tbl_lt m h)⟩

end Cert.Kernel.PreGlue

end
-- ==== Proof.IfaceBits.lean ====
/-
  What the statistics region's proof hands the run of the whole program.

  The statistics region (the first of the program's two kernel regions) runs its body at 64 points `(d, i)`, `d` a domain and `i`
  one of its 16 samples: it stages batch row `table[16·d + i]` of the input through a prefetched table of 64 words, adds the
  row's per-channel sum and sum of squares into two scratch accumulators it carries from point to point (cleared at `i = 0`),
  and at `i = 15` stores the two accumulators into row `d` of its two `[4, 128, 1, 1]` results. The run of the whole program
  needs of it: proof data for the pipeline pinned at admissible table contents `a`, entered from buffer contents `V`; the body
  obligation at every point; and that its invariant takes in, and gives back, the generator register, the table and the
  scoped buffers no window stages.
-/
import proofs.«159259_j85899346585_1_alg».proof.Proof.Gen.Kernel.Launch
import proofs.«159259_j85899346585_1_alg».proof.Proof.Gen.Kernel.Skeleton
import proofs.«159259_j85899346585_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Iface

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The table's buffer held whole at the admissible contents `a`, on core `c`. -/
abbrev tableHeld (a : (pcfg0 (F := F)).Adm) (c : Dev nD) : sProp 𝕄 :=
  Pipeline.prefHeld (Ix := Unit) (Name := ℕ) (U := UR sig nD τ) (Lvl := ℕ) (Val := Elt F) pre0 c (fun _ => fullShare) a.1

/-- The scoped buffers no window of the statistics region stages (its two scratch accumulators and the other region's staging
    buffers), each whole at some contents. -/
abbrev restHeld (c : Dev nD) : sProp 𝕄 :=
  Pipeline.scopedRest (Ix := Unit) (Name := ℕ) (U := UR sig nD τ) (Lvl := ℕ) (Val := Elt F) spec0 c

/-- What the statistics region supplies, at admissible table contents `a` and entry contents `V`. -/
structure Stats (a : (pcfg0 (F := F)).Adm) (V : (c : Dev nD) → (b : Ref sig .tc) → Buf (Elt F) ((c : Thread nD τ).loc b)) where
  /-- The proof data on each core. -/
  dat : (c : Dev nD) → Dat τ (Elt F) Unit ℕ (UR sig nD τ) ℕ (cfg0 a) c
  /-- Its arrays are the entry contents, held in full, and the body owes no one anything. -/
  A_eq : ∀ c w, (dat c).A w = V c (Pipeline.arrRef spec0 w)
  q_full : ∀ c w, (dat c).q w = fullShare
  owed_zero : ∀ c t, (dat c).owed t = 0
  /-- The body obligation at every point. -/
  body : ∀ c, BodyObligation (dat c) (defs₀ (F := F)) Variants.none () Set.univ
  /-- The invariant before the first point from the generator register, the table and the scoped rest; -/
  hin : ∀ c, (iprop((∃ r, prngReg c r) ∗ tableHeld a c ∗ restHeld c) : sProp 𝕄) ⊢ (dat c).Φ 0
  /-- and after the last point it gives all three back. -/
  hout : ∀ c, (dat c).Φ (Fin.last (cfg0 a).N) ⊢ (iprop(((∃ r, prngReg c r) ∗ tableHeld a c) ∗ restHeld c) : sProp 𝕄)

end Cert.Kernel.Iface

end
-- ==== Proof.StatsRunsBits.lean ====
/-
  The statistics region: what its three control cases share.

  The body runs at 64 points `t`, with coordinates `(t / 16, t % 16)`. Its first conditional (clear the two accumulators)
  is taken exactly where `t % 16 = 0`, its last (copy the accumulators to the two results) exactly where `t % 16 = 15`.
  The two result windows are idle, and not written back, exactly where the last conditional is not taken; the input window
  is never idle. Here: those facts in closed form over the grid, the memrefs the body is called with at a point, the
  input window's block at a point, and the invariant's scoped buffers opened to show the two accumulators.
-/
import proofs.«159259_j85899346585_1_alg».proof.Proof.IfaceBits

set_option maxRecDepth 16384

noncomputable section

namespace Cert.Kernel.StatsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, in closed form -/

/-- The first conditional's condition from the grid coordinates: the sample index is zero. -/
abbrev condFirst (i : grid0.Coords) : Prop :=
  (Scalar.cmpi .ne (Scalar.extui (Scalar.cmpi .eq (BitVec.ofNat 32 (i 1).val) 0#32)) 0#32) = 1#1
/-- It holds at the points whose sample index is zero. -/
theorem condFirst_iff : ∀ t : Fin grid0.N, condFirst (grid0.coords t) ↔ t.val % 16 = 0 := by decide +kernel

/-- The last conditional's condition from the grid coordinates: the sample index is fifteen. -/
abbrev condLast (i : grid0.Coords) : Prop := k0_cond2 i = 1#1
/-- It holds at the points whose sample index is fifteen. -/
theorem condLast_iff : ∀ t : Fin grid0.N, condLast (grid0.coords t) ↔ t.val % 16 = 15 := by decide +kernel

variable (a : (pcfg0 (F := F)).Adm)

/-! ## Where the windows are idle, at any admissible table contents -/

/-- The input window is never idle. -/
theorem live0 : ∀ i, (cfg0 a).idle 0 i = false := fun _ => rfl
/-- Away from the last sample of a domain the first result's window is idle -/
theorem idle1 : ∀ t : Fin (cfg0 a).N, ¬condLast (grid0.coords t) → (cfg0 a).idle 1 (grid0.coords t) = true :=
  (by decide +kernel : ∀ t : Fin grid0.N, ¬condLast (grid0.coords t) → idle0 1 (grid0.coords t) = true)
/-- and not written back; -/
theorem noFlush1 : ∀ t : Fin (cfg0 a).N, ¬condLast (grid0.coords t) → ((cfg0 a).win 1).flush t = false :=
  (by decide +kernel : ∀ t : Fin grid0.N, ¬condLast (grid0.coords t) → Pipeline.Window.flushOf grid0 true cc0_transform_1 t = false)
/-- at the last sample it is live. -/
theorem live1 : ∀ t : Fin (cfg0 a).N, condLast (grid0.coords t) → (cfg0 a).idle 1 (grid0.coords t) = false :=
  (by decide +kernel : ∀ t : Fin grid0.N, condLast (grid0.coords t) → idle0 1 (grid0.coords t) = false)
/-- The same of the second result's window. -/
theorem idle2 : ∀ t : Fin (cfg0 a).N, ¬condLast (grid0.coords t) → (cfg0 a).idle 2 (grid0.coords t) = true :=
  (by decide +kernel : ∀ t : Fin grid0.N, ¬condLast (grid0.coords t) → idle0 2 (grid0.coords t) = true)
theorem noFlush2 : ∀ t : Fin (cfg0 a).N, ¬condLast (grid0.coords t) → ((cfg0 a).win 2).flush t = false :=
  (by decide +kernel : ∀ t : Fin grid0.N, ¬condLast (grid0.coords t) → Pipeline.Window.flushOf grid0 true cc0_transform_2 t = false)
theorem live2 : ∀ t : Fin (cfg0 a).N, condLast (grid0.coords t) → (cfg0 a).idle 2 (grid0.coords t) = false :=
  (by decide +kernel : ∀ t : Fin grid0.N, condLast (grid0.coords t) → idle0 2 (grid0.coords t) = false)

/-! ## What the body is called with at a point -/

/-- Each window's current staging memref at point `t`, and its wholeness. -/
abbrev ms0 (t : Fin (cfg0 a).N) : Memref sig .tc .vmem S1x128x64x64 .f32 := spec0_0.stage ((cfg0 a).slots t 0)
abbrev hs0 (t : Fin (cfg0 a).N) : (ms0 a t).IsWhole := hstage0_0 (((cfg0 a).slots t 0).cast nbuf0_0)
abbrev ms1 (t : Fin (cfg0 a).N) : Memref sig .tc .vmem S1x128x1x1 .f32 := spec0_1.stage ((cfg0 a).slots t 1)
abbrev hs1 (t : Fin (cfg0 a).N) : (ms1 a t).IsWhole := hstage0_1 (((cfg0 a).slots t 1).cast nbuf0_1)
abbrev ms2 (t : Fin (cfg0 a).N) : Memref sig .tc .vmem S1x128x1x1 .f32 := spec0_2.stage ((cfg0 a).slots t 2)
abbrev hs2 (t : Fin (cfg0 a).N) : (ms2 a t).IsWhole := hstage0_2 (((cfg0 a).slots t 2).cast nbuf0_2)
/-- The two accumulators: whole scoped buffers of the kernel's own, passed beside the windows. -/
abbrev acc0M : Memref sig .tc .vmem S1x128x1x1 .f32 := Memref.whole cc0_scratch0
abbrev acc1M : Memref sig .tc .vmem S1x128x1x1 .f32 := Memref.whole cc0_scratch1

/-- The body at point `t`, on what the pipeline calls it with. -/
abbrev bodyAt (t : Fin (cfg0 a).N) : Prog (TpuEff nD τ sig (Elt F) Λ₀ .tc) PUnit :=
  cc0__stats_kernel (grid0.coords t) (Memref.whole main_arg1) (Memref.isWhole_whole _) (ms0 a t) (hs0 a t) (ms1 a t) (hs1 a t) (ms2 a t) (hs2 a t)
    acc0M (Memref.isWhole_whole _) acc1M (Memref.isWhole_whole _)

/-! ## The input window's block -/

variable (V : (c : Dev nD) → (b : Ref sig .tc) → Buf (Elt F) ((c : Thread nD τ).loc b))

/-- The input window's block at point `t`: the batch row the table names there, read off the input as the region finds it. -/
def iblk (c : Dev nD) (t : Fin (cfg0 a).N) : (((cfg0 a).win 0).xblock ((cfg0 a).grid.coords t)).Idx → Elt F ((cfg0 a).win 0).elt :=
  (((cfg0 a).win 0).blk t).view.read (Elt F) (V c (Pipeline.arrRef spec0 0))

/-- The input window's current staging buffer holds its block at every point, whether fetched there or not: where it is not
    fetched its block index has not moved. -/
theorem before0_of {c : Dev nD} (dat : Dat τ (Elt F) Unit ℕ (UR sig nD τ) ℕ (cfg0 a) c) (hA : dat.A 0 = V c (Pipeline.arrRef spec0 0))
    (hafter : ∀ t, dat.after 0 t = iblk a V c t) (t : Fin (cfg0 a).N) (d) : dat.before 0 t d = iblk a V c t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The scoped buffers no window stages, opened -/

/-- The sixteen staging buffers of the other region, each whole at some contents. -/
def otherHeld (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f))

/-- The scoped buffers no window of the region stages are the two accumulators, each owned whole at some contents, and the
    other region's staging buffers. -/
theorem restHeld_eq (c : Dev nD) :
    (Iface.restHeld c : sProp 𝕄)
      = iprop((∃ d, owns (c : Thread nD τ) acc0M fullShare d) ∗ (∃ d, owns (c : Thread nD τ) acc1M fullShare d) ∗ otherHeld c) := by
  unfold Iface.restHeld otherHeld; rw [scopedRest0_eq]; simp only [acc0M, acc1M, owns_whole]; try rfl

end Cert.Kernel.StatsRegion

end
-- ==== Proof.StatsCaseABits.lean ====
/-
  The statistics body where a domain begins (first conditional taken, last not), run once at symbolic operands.

  On whole memrefs — the input's staging buffer at the row `x`, the two results' at contents handed back untouched, the two
  accumulators at anything — the body clears both accumulators and adds the row's per-channel sum and sum of squares. What
  each accumulator ends with is the list of pieces its stores wrote, last first; the run finds them.
-/
import proofs.«159259_j85899346585_1_alg».proof.Proof.StatsRunsBits

set_option maxRecDepth 16384

noncomputable section

namespace Cert.Kernel.StatsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two results' staging buffers (none) and in the two accumulators where a
    domain begins, with the proof that the body runs to the continuation holding the input's buffer and the results' as they
    were and each accumulator with its pieces written. -/
noncomputable def runA (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)
    (hc0 : condFirst i) (hc1 : ¬condLast i) (x : Vec F S1x128x64x64 .f32) :
    Σ' (L1 : List (View.Piece (Elt F) S1x128x1x1 .f32)) (L2 : List (View.Piece (Elt F) S1x128x1x1 .f32)) (LS0 : List (View.Piece (Elt F) S1x128x1x1 .f32)), { LS1 : List (View.Piece (Elt F) S1x128x1x1 .f32) //
      ∀ (xi1 xi2 : Vec F S1x128x1x1 .f32) (E : Set ℕ) (K : PUnit → sProp 𝕄),
        iprop(owns (c : Thread nD τ) arg3 fullShare x ∗ owns (c : Thread nD τ) arg4 fullShare xi1 ∗ owns (c : Thread nD τ) arg5 fullShare xi2
            ∗ (∃ d, owns (c : Thread nD τ) arg6 fullShare d) ∗ (∃ d, owns (c : Thread nD τ) arg7 fullShare d)
            ∗ (iprop(owns (c : Thread nD τ) arg3 fullShare x ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%ds0, %fs0, -, HS0⟩, ⟨%ds1, %fs1, -, HS1⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.Kernel.StatsRegion

end
-- ==== Proof.StatsCaseBBits.lean ====
/-
  The statistics body inside a domain (neither conditional taken), run once at symbolic operands.

  On whole memrefs — the input's staging buffer at the row `x`, the two results' at contents handed back untouched, the two
  accumulators at what the point before left, `s0` and `s1` — the body adds the row's per-channel sum and sum of squares to
  the accumulators. What each accumulator ends with is the list of pieces its stores wrote, last first; the run finds them.
-/
import proofs.«159259_j85899346585_1_alg».proof.Proof.StatsCaseABits

set_option maxRecDepth 16384

noncomputable section

namespace Cert.Kernel.StatsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two results' staging buffers (none) and in the two accumulators inside a
    domain, with the proof that the body runs to the continuation holding the input's buffer and the results' as they were
    and each accumulator with its pieces written over what the point before left. -/
noncomputable def runB (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)
    (hc0 : ¬condFirst i) (hc1 : ¬condLast i) (x : Vec F S1x128x64x64 .f32) (s0 s1 : Vec F S1x128x1x1 .f32) :
    Σ' (L1 : List (View.Piece (Elt F) S1x128x1x1 .f32)) (L2 : List (View.Piece (Elt F) S1x128x1x1 .f32)) (LS0 : List (View.Piece (Elt F) S1x128x1x1 .f32)), { LS1 : List (View.Piece (Elt F) S1x128x1x1 .f32) //
      ∀ (xi1 xi2 : Vec F S1x128x1x1 .f32) (E : Set ℕ) (K : PUnit → sProp 𝕄),
        iprop(owns (c : Thread nD τ) arg3 fullShare x ∗ owns (c : Thread nD τ) arg4 fullShare xi1 ∗ owns (c : Thread nD τ) arg5 fullShare xi2
            ∗ owns (c : Thread nD τ) arg6 fullShare s0 ∗ owns (c : Thread nD τ) arg7 fullShare s1
            ∗ (iprop(owns (c : Thread nD τ) arg3 fullShare x ∗ owns (c : Thread nD τ) arg4 fullShare xi1 ∗ owns (c : Thread nD τ) arg5 fullShare xi2
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨[], [], ?_, ?_, fun xi1 xi2 E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%f1, %hf1, H1⟩, ⟨%f2, %hf2, H2⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [HS0]; · iexists _; iexact HS0
    iexists _; iexact HS1

end Cert.Kernel.StatsRegion

end
-- ==== Proof.StatsCaseCBits.lean ====
/-
  The statistics body where a domain ends (last conditional taken, first not), run once at symbolic operands.

  On whole memrefs — the input's staging buffer at the row `x`, the two results' at anything, the two accumulators at what
  the point before left, `s0` and `s1` — the body adds the row's per-channel sum and sum of squares to the accumulators
  and copies each accumulator whole into its result's staging buffer. What each of the four buffers ends with is the list
  of pieces its stores wrote, last first; the run finds them.
-/
import proofs.«159259_j85899346585_1_alg».proof.Proof.StatsCaseBBits

set_option maxRecDepth 16384

noncomputable section

namespace Cert.Kernel.StatsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The pieces the body's stores leave in the two results' staging buffers and in the two accumulators where a domain ends,
    with the proof that the body runs to the continuation holding the input's buffer as it was and each of the four with
    its pieces written. -/
noncomputable def runC (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)
    (hc0 : ¬condFirst i) (hc1 : condLast i) (x : Vec F S1x128x64x64 .f32) (s0 s1 : Vec F S1x128x1x1 .f32) :
    Σ' (L1 : List (View.Piece (Elt F) S1x128x1x1 .f32)) (L2 : List (View.Piece (Elt F) S1x128x1x1 .f32)) (LS0 : List (View.Piece (Elt F) S1x128x1x1 .f32)), { LS1 : List (View.Piece (Elt F) S1x128x1x1 .f32) //
      ∀ (E : Set ℕ) (K : PUnit → sProp 𝕄),
        iprop(owns (c : Thread nD τ) arg3 fullShare x ∗ (∃ d, owns (c : Thread nD τ) arg4 fullShare d) ∗ (∃ d, owns (c : Thread nD τ) arg5 fullShare d)
            ∗ owns (c : Thread nD τ) arg6 fullShare s0 ∗ owns (c : Thread nD τ) arg7 fullShare s1
            ∗ (iprop(owns (c : Thread nD τ) arg3 fullShare x ∗ (∃ f, arg4.view.loc (c : Thread nD τ) ↦[arg4.view.set]{fullShare} arg4.view.writes (Elt F) f L1) ∗ (∃ f, arg5.view.loc (c : Thread nD τ) ↦[arg5.view.set]{fullShare} arg5.view.writes (Elt F) f L2)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)) -∗ K ⟨⟩))
          ⊢ wp frame (wpE (defs₀ (F := F)) Variants.none c none) E (cc0__stats_kernel i arg2 harg2 arg3 harg3 arg4 harg4 arg5 harg5 arg6 harg6 arg7 harg7) K } := by
  refine ⟨?_, ?_, ?_, ?_, fun E K => ?run⟩
  case run =>
    simp only [cc0__stats_kernel_eq_skeleton]; unfold cc0__stats_kernel_skel
    simp only [k0_part1_eq_skeleton]; unfold k0_part1_skel
    unfold owns
    iintro ⟨⟨%f0, %hf0, H0⟩, ⟨%d1, %f1, -, H1⟩, ⟨%d2, %f2, -, H2⟩, ⟨%fs0, %hfs0, HS0⟩, ⟨%fs1, %hfs1, HS1⟩, Hk⟩
    obtain rfl := harg3.eq_unread hf0; obtain rfl := harg6.eq_unread hfs0; obtain rfl := harg7.eq_unread hfs1
    sl_exec (disch := first | exact hc0 | exact hc1)
    sl_step
    iapply Hk
    isplitl [H0]
    · iexists _; isplitr; · ipureintro; exact harg3.read_unread _
      iexact H0
    isplitl [H1]; · iexists _; iexact H1
    isplitl [H2]; · iexists _; iexact H2
    isplitl [HS0]; · iexists _; iexact HS0
    iexists _; iexact HS1

end Cert.Kernel.StatsRegion

end
-- ==== Proof.StatsRegionBits.lean ====
/-
  The statistics region's proof data, at admissible table contents `a` and the buffer contents `V` it is entered from.

  The body runs at 64 points `t = 16·d + i`. Point by point the two accumulators hold: after a domain's first sample the
  row's per-channel sum and sum of squares added to zero, after each later sample the same added to what the point before
  left; at a domain's last sample the two results' staging buffers receive the accumulators, and only there are they written
  back. The invariant before a point carries the two accumulators at what the point before left (before the first point,
  at anything), and, untouched throughout, the generator register, the table, and the other region's staging buffers.
-/
import proofs.«159259_j85899346585_1_alg».proof.Proof.StatsCaseCBits

set_option maxRecDepth 16384

noncomputable section

namespace Cert.Kernel.StatsRegion

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

/-! ## What each case's pieces cover -/

section Pieces
variable (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)

/-- The pieces the body leaves in the first accumulator where a domain begins tile it, so they cover it. -/
theorem coverA_acc0 (hc0 : condFirst i) (hc1 : ¬condLast i) (x : Vec F S1x128x64x64 .f32) (y : S1x128x1x1.Idx) :
    ∃ pc ∈ (runA c i arg2 harg2 arg3 harg3 arg4 harg4 arg5 harg5 arg6 harg6 arg7 harg7 hc0 hc1 x).2.2.1, y ∈ pc.1.set :=
  View.cover_of_tiledL (runA c i arg2 harg2 arg3 harg3 arg4 harg4 arg5 harg5 arg6 harg6 arg7 harg7 hc0 hc1 x).2.2.1 S1x128x1x1.size (by sl_kernel_rfl) y
/-- The pieces the body leaves in the second accumulator where a domain begins tile it, so they cover it. -/
theorem coverA_acc1 (hc0 : condFirst i) (hc1 : ¬condLast i) (x : Vec F S1x128x64x64 .f32) (y : S1x128x1x1.Idx) :
    ∃ pc ∈ (runA c i arg2 harg2 arg3 harg3 arg4 harg4 arg5 harg5 arg6 harg6 arg7 harg7 hc0 hc1 x).2.2.2.1, y ∈ pc.1.set :=
  View.cover_of_tiledL (runA c i arg2 harg2 arg3 harg3 arg4 harg4 arg5 harg5 arg6 harg6 arg7 harg7 hc0 hc1 x).2.2.2.1 S1x128x1x1.size (by sl_kernel_rfl) y
/-- The pieces the body leaves in the first accumulator inside a domain tile it, so they cover it. -/
theorem coverB_acc0 (hc0 : ¬condFirst i) (hc1 : ¬condLast i) (x : Vec F S1x128x64x64 .f32) (s0 s1 : Vec F S1x128x1x1 .f32) (y : S1x128x1x1.Idx) :
    ∃ pc ∈ (runB c i arg2 harg2 arg3 harg3 arg4 harg4 arg5 harg5 arg6 harg6 arg7 harg7 hc0 hc1 x s0 s1).2.2.1, y ∈ pc.1.set :=
  View.cover_of_tiledL (runB c i arg2 harg2 arg3 harg3 arg4 harg4 arg5 harg5 arg6 harg6 arg7 harg7 hc0 hc1 x s0 s1).2.2.1 S1x128x1x1.size (by sl_kernel_rfl) y
/-- The pieces the body leaves in the second accumulator inside a domain tile it, so they cover it. -/
theorem coverB_acc1 (hc0 : ¬condFirst i) (hc1 : ¬condLast i) (x : Vec F S1x128x64x64 .f32) (s0 s1 : Vec F S1x128x1x1 .f32) (y : S1x128x1x1.Idx) :
    ∃ pc ∈ (runB c i arg2 harg2 arg3 harg3 arg4 harg4 arg5 harg5 arg6 harg6 arg7 harg7 hc0 hc1 x s0 s1).2.2.2.1, y ∈ pc.1.set :=
  View.cover_of_tiledL (runB c i arg2 harg2 arg3 harg3 arg4 harg4 arg5 harg5 arg6 harg6 arg7 harg7 hc0 hc1 x s0 s1).2.2.2.1 S1x128x1x1.size (by sl_kernel_rfl) y
/-- The pieces the body leaves in the first result's staging buffer where a domain ends tile it, so they cover it. -/
theorem coverC_out1 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).1, y ∈ pc.1.set :=
  View.cover_of_tiledL (runC c i arg2 harg2 arg3 harg3 arg4 harg4 arg5 harg5 arg6 harg6 arg7 harg7 hc0 hc1 x s0 s1).1 S1x128x1x1.size (by sl_kernel_rfl) y
/-- The pieces the body leaves in the second result's staging buffer where a domain ends tile it, so they cover it. -/
theorem coverC_out2 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).2.1, y ∈ pc.1.set :=
  View.cover_of_tiledL (runC c i arg2 harg2 arg3 harg3 arg4 harg4 arg5 harg5 arg6 harg6 arg7 harg7 hc0 hc1 x s0 s1).2.1 S1x128x1x1.size (by sl_kernel_rfl) y
/-- The pieces the body leaves in the first accumulator where a domain ends tile it, so they cover it. -/
theorem coverC_acc0 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).2.2.1, y ∈ pc.1.set :=
  View.cover_of_tiledL (runC c i arg2 harg2 arg3 harg3 arg4 harg4 arg5 harg5 arg6 harg6 arg7 harg7 hc0 hc1 x s0 s1).2.2.1 S1x128x1x1.size (by sl_kernel_rfl) y
/-- The pieces the body leaves in the second accumulator where a domain ends tile it, so they cover it. -/
theorem coverC_acc1 (hc0 : ¬condFirst i) (hc1 : condLast i) (x : Vec F S1x128x64x64 .f32) (s0 s1 : Vec F S1x128x1x1 .f32) (y : S1x128x1x1.Idx) :
    ∃ pc ∈ (runC c i arg2 harg2 arg3 harg3 arg4 harg4 arg5 harg5 arg6 harg6 arg7 harg7 hc0 hc1 x s0 s1).2.2.2.1, y ∈ pc.1.set :=
  View.cover_of_tiledL (runC c i arg2 harg2 arg3 harg3 arg4 harg4 arg5 harg5 arg6 harg6 arg7 harg7 hc0 hc1 x s0 s1).2.2.2.1 S1x128x1x1.size (by sl_kernel_rfl) y

end Pieces

/-! ## The cases at a point -/

/-- The body's run where a domain begins, at point `t`'s memrefs and input block. -/
abbrev ptA (c : Dev nD) (t : Fin (cfg0 a).N) (h0 : t.val % 16 = 0) (h1 : ¬t.val % 16 = 15) :=
  runA (F := F) c (grid0.coords t) (Memref.whole main_arg1) (Memref.isWhole_whole _) (ms0 a t) (hs0 a t) (ms1 a t) (hs1 a t) (ms2 a t) (hs2 a t) acc0M (Memref.isWhole_whole _) acc1M (Memref.isWhole_whole _) ((condFirst_iff t).mpr h0) (fun h => h1 ((condLast_iff t).mp h)) (iblk a V c t)
/-- What it leaves: the two results' staging buffers, then the two accumulators, each at its pieces' canonical contents (the results' buffers get no piece there: a placeholder nothing consults, the windows being idle and not written back). -/
def leftA (c : Dev nD) (t : Fin (cfg0 a).N) (h0 : t.val % 16 = 0) (h1 : ¬t.val % 16 = 15) : Vec F S1x128x1x1 .f32 × Vec F S1x128x1x1 .f32 × Vec F S1x128x1x1 .f32 × Vec F S1x128x1x1 .f32 :=
  (View.canon (ptA a V c t h0 h1).1, View.canon (ptA a V c t h0 h1).2.1, View.canon (ptA a V c t h0 h1).2.2.1, View.canon (ptA a V c t h0 h1).2.2.2.1)
/-- The body's run inside a domain, at point `t`'s memrefs and input block, over accumulators at `s0` and `s1`. -/
abbrev ptB (c : Dev nD) (t : Fin (cfg0 a).N) (h0 : ¬t.val % 16 = 0) (h1 : ¬t.val % 16 = 15) (s0 s1 : Vec F S1x128x1x1 .f32) :=
  runB (F := F) c (grid0.coords t) (Memref.whole main_arg1) (Memref.isWhole_whole _) (ms0 a t) (hs0 a t) (ms1 a t) (hs1 a t) (ms2 a t) (hs2 a t) acc0M (Memref.isWhole_whole _) acc1M (Memref.isWhole_whole _) (fun h => h0 ((condFirst_iff t).mp h)) (fun h => h1 ((condLast_iff t).mp h)) (iblk a V c t) s0 s1
/-- What it leaves: the two results' staging buffers, then the two accumulators, each at its pieces' canonical contents (the results' buffers get no piece there: a placeholder nothing consults, the windows being idle and not written back). -/
def leftB (c : Dev nD) (t : Fin (cfg0 a).N) (h0 : ¬t.val % 16 = 0) (h1 : ¬t.val % 16 = 15) (s0 s1 : Vec F S1x128x1x1 .f32) : Vec F S1x128x1x1 .f32 × Vec F S1x128x1x1 .f32 × Vec F S1x128x1x1 .f32 × Vec F S1x128x1x1 .f32 :=
  (View.canon (ptB a V c t h0 h1 s0 s1).1, View.canon (ptB a V c t h0 h1 s0 s1).2.1, View.canon (ptB a V c t h0 h1 s0 s1).2.2.1, View.canon (ptB a V c t h0 h1 s0 s1).2.2.2.1)
/-- The body's run where a domain ends, at point `t`'s memrefs and input block, over accumulators at `s0` and `s1`. -/
abbrev ptC (c : Dev nD) (t : Fin (cfg0 a).N) (h0 : ¬t.val % 16 = 0) (h1 : t.val % 16 = 15) (s0 s1 : Vec F S1x128x1x1 .f32) :=
  runC (F := F) c (grid0.coords t) (Memref.whole main_arg1) (Memref.isWhole_whole _) (ms0 a t) (hs0 a t) (ms1 a t) (hs1 a t) (ms2 a t) (hs2 a t) acc0M (Memref.isWhole_whole _) acc1M (Memref.isWhole_whole _) (fun h => h0 ((condFirst_iff t).mp h)) ((condLast_iff t).mpr h1) (iblk a V c t) s0 s1
/-- What it leaves: the two results' staging buffers, then the two accumulators, each at its pieces' canonical contents. -/
def leftC (c : Dev nD) (t : Fin (cfg0 a).N) (h0 : ¬t.val % 16 = 0) (h1 : t.val % 16 = 15) (s0 s1 : Vec F S1x128x1x1 .f32) : Vec F S1x128x1x1 .f32 × Vec F S1x128x1x1 .f32 × Vec F S1x128x1x1 .f32 × Vec F S1x128x1x1 .f32 :=
  (View.canon (ptC a V c t h0 h1 s0 s1).1, View.canon (ptC a V c t h0 h1 s0 s1).2.1, View.canon (ptC a V c t h0 h1 s0 s1).2.2.1, View.canon (ptC a V c t h0 h1 s0 s1).2.2.2.1)

/-! ## What the four buffers hold after each point -/

/-- The accumulation. What the two results' staging buffers and the two accumulators hold after the body at position `n`:
    the case the closed forms select at `n`, run at the point's memrefs and input block, the accumulators at what this
    leaves at `n - 1`. An assignment of the conditions no point meets is no case. -/
def outsAt (c : Dev nD) : (n : ℕ) → n < (cfg0 a).N → Vec F S1x128x1x1 .f32 × Vec F S1x128x1x1 .f32 × Vec F S1x128x1x1 .f32 × Vec F S1x128x1x1 .f32
  | 0, hn => leftA a V c ⟨0, hn⟩ (Nat.zero_mod _) (show ¬(0 : ℕ) % 16 = 15 by decide)
  | n + 1, hn =>
    if h0 : (n + 1) % 16 = 0 then
      if h1 : (n + 1) % 16 = 15 then
        False.elim (by omega)
      else
        leftA a V c ⟨n + 1, hn⟩ h0 h1
    else
      if h1 : (n + 1) % 16 = 15 then
        leftC a V c ⟨n + 1, hn⟩ h0 h1 (outsAt c n (Nat.lt_of_succ_lt hn)).2.2.1 (outsAt c n (Nat.lt_of_succ_lt hn)).2.2.2
      else
        leftB a V c ⟨n + 1, hn⟩ h0 h1 (outsAt c n (Nat.lt_of_succ_lt hn)).2.2.1 (outsAt c n (Nat.lt_of_succ_lt hn)).2.2.2

/-- At a domain's first sample: that case's contents. -/
theorem outsAt_A (c : Dev nD) (t : Fin (cfg0 a).N) (h0 : t.val % 16 = 0) (h1 : ¬t.val % 16 = 15) :
    outsAt a V c t.val t.isLt = leftA a V c t h0 h1 := by
  obtain ⟨n, hn⟩ := t
  cases n with
  | zero => exact rfl
  | succ n => exact (dif_pos h0).trans ((dif_neg h1).trans rfl)

/-- Inside a domain: that case's contents, over what the point before left. -/
theorem outsAt_B (c : Dev nD) (t : Fin (cfg0 a).N) (h0 : ¬t.val % 16 = 0) (h1 : ¬t.val % 16 = 15) :
    outsAt a V c t.val t.isLt = leftB a V c t h0 h1 (outsAt a V c (t.val - 1) (Nat.lt_of_le_of_lt (Nat.sub_le _ _) t.isLt)).2.2.1 (outsAt a V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_neg h1).trans rfl)

/-- At a domain's last sample: that case's contents, over what the point before left. -/
theorem outsAt_C (c : Dev nD) (t : Fin (cfg0 a).N) (h0 : ¬t.val % 16 = 0) (h1 : t.val % 16 = 15) :
    outsAt a V c t.val t.isLt = leftC a V c t h0 h1 (outsAt a V c (t.val - 1) (Nat.lt_of_le_of_lt (Nat.sub_le _ _) t.isLt)).2.2.1 (outsAt a V c (t.val - 1) (Nat.lt_of_le_of_lt (Nat.sub_le _ _) t.isLt)).2.2.2 := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: the generator register at some state, the table held whole, and the scoped
    buffers no window stages — before the first point each at some contents; afterwards the two accumulators at what the
    point before left in them, the others at some contents. -/
def PhiS (c : Dev nD) : (n : ℕ) → n ≤ (cfg0 a).N → sProp 𝕄
  | 0, _ => iprop((∃ r, prngReg c r) ∗ Iface.tableHeld a c ∗ Iface.restHeld c)
  | n + 1, hn => iprop((∃ r, prngReg c r) ∗ Iface.tableHeld a c
      ∗ owns (c : Thread nD τ) acc0M fullShare (outsAt a V c n hn).2.2.1 ∗ owns (c : Thread nD τ) acc1M fullShare (outsAt a V c n hn).2.2.2 ∗ otherHeld c)

theorem PhiS_zero (c : Dev nD) (n : ℕ) (h : n ≤ (cfg0 a).N) (hz : n = 0) :
    PhiS a V c n h = iprop((∃ r, prngReg c r) ∗ Iface.tableHeld a c ∗ Iface.restHeld c) := by
  subst hz; rfl

/-- After point `n` (before point `n + 1`): the accumulators at that point's contents. -/
theorem PhiS_succ (c : Dev nD) (n : ℕ) (hn : n < (cfg0 a).N) :
    PhiS a V c (n + 1) hn = iprop((∃ r, prngReg c r) ∗ Iface.tableHeld a c
      ∗ owns (c : Thread nD τ) acc0M fullShare (outsAt a V c n hn).2.2.1 ∗ owns (c : Thread nD τ) acc1M fullShare (outsAt a V c n hn).2.2.2 ∗ otherHeld c) := rfl

/-- Before a point that is not the first: the accumulators at what the point before left. -/
theorem PhiS_pos (c : Dev nD) (n : ℕ) (h : n ≤ (cfg0 a).N) (hz : n ≠ 0) :
    PhiS a V c n h = iprop((∃ r, prngReg c r) ∗ Iface.tableHeld a c
      ∗ owns (c : Thread nD τ) acc0M fullShare (outsAt a V c (n - 1) (by omega)).2.2.1 ∗ owns (c : Thread nD τ) acc1M fullShare (outsAt a V c (n - 1) (by omega)).2.2.2 ∗ otherHeld c) := by
  cases n with
  | zero => exact absurd rfl hz
  | succ n => rfl

/-! ## The proof data -/

/-- The proof data on core `c`: the arrays as the region finds them; after the body at point `t` the input's buffer at its
    block and the two results' at `outsAt`'s first two components; the invariant `PhiS`; nothing owed; full shares. -/
def dat (c : Dev nD) : Dat τ (Elt F) Unit ℕ (UR sig nD τ) ℕ (cfg0 a) c where
  A w := V c (Pipeline.arrRef spec0 w)
  after w t := match w with
    | ⟨0, _⟩ => iblk a V c t
    | ⟨1, _⟩ => (outsAt a V c t.val t.isLt).1
    | ⟨2, _⟩ => (outsAt a V c t.val t.isLt).2.1
  Φ t := PhiS a V c t.val (Nat.le_of_lt_succ t.isLt)
  q _ := fullShare
  owed _ := 0

theorem A_eq (c : Dev nD) (w : Fin (cfg0 a).W) : (dat a V c).A w = V c (Pipeline.arrRef spec0 w) := by
  dsimp only [dat]

/-- The invariant at a point's start, restated at the point's position. -/
theorem PhiS_castSucc (c : Dev nD) (t : Fin (cfg0 a).N) :
    (dat a V c).Φ t.castSucc = PhiS a V c t.val (Nat.le_of_lt t.isLt) := by
  dsimp only [dat]; simp only [Fin.coe_castSucc]

theorem after0 (c : Dev nD) (t : Fin (cfg0 a).N) : (dat a V c).after 0 t = iblk a V c t := by dsimp only [dat]; try rfl
theorem after1 (c : Dev nD) (t : Fin (cfg0 a).N) : (dat a V c).after 1 t = (outsAt a V c t.val t.isLt).1 := by dsimp only [dat]; try rfl
theorem after2 (c : Dev nD) (t : Fin (cfg0 a).N) : (dat a V c).after 2 t = (outsAt a V c t.val t.isLt).2.1 := by dsimp only [dat]; try rfl

/-- The input's current staging buffer holds its block at every point, fetched there or not. -/
theorem before0 (c : Dev nD) (t : Fin (cfg0 a).N) (d) : (dat a V c).before 0 t d = iblk a V c t :=
  before0_of a V (dat a V c) (A_eq a V c 0) (after0 a V c) t d

/-! ## The body obligation -/

/-- What the body is called with at point `t`, the windows one by one, -/
def bodyPre (c : Dev nD) (t : Fin (cfg0 a).N) : sProp 𝕄 :=
  iprop((dat a V c).Φ t.castSucc ∗ (dat a V c).owesAt () t.castSucc
    ∗ (∃ d, owns (c : Thread nD τ) (ms0 a t) fullShare ((dat a V c).before 0 t d))
    ∗ (∃ d, owns (c : Thread nD τ) (ms1 a t) fullShare ((dat a V c).before 1 t d))
    ∗ (∃ d, owns (c : Thread nD τ) (ms2 a t) fullShare ((dat a V c).before 2 t d)))

/-- and what it returns. -/
def bodyPost (c : Dev nD) (t : Fin (cfg0 a).N) : sProp 𝕄 :=
  iprop((dat a V c).Φ t.succ ∗ (dat a V c).owesAt () t.succ
    ∗ (dat a V c).leavesExact 0 t
    ∗ (dat a V c).leavesExact 1 t
    ∗ (dat a V c).leavesExact 2 t)

set_option maxHeartbeats 4800000 in
/-- The body at any point. The input's memref holds its block; the closed forms say which case the point is in; the invariant
    hands the body the accumulators at what the point before left (at anything at the first point) and takes them back at
    this point's contents; where a domain does not end the results' buffers come back untouched, the windows being idle and
    not written back there; the register, the table, the other scoped buffers and the core's dues pass through unread. -/
theorem sound_body (c : Dev nD) (t : Fin (cfg0 a).N) :
    bodyPre a V c t ⊢ wp frame (wpE (defs₀ (F := F)) Variants.none c none) Set.univ (bodyAt a t) (fun _ => bodyPost a V c t) := by
  unfold bodyPre bodyPost bodyAt
  simp only [before0]
  rw [show (dat a V c).owesAt () t.succ = (dat a V c).owesAt () t.castSucc from rfl]
  rw [show (dat a V c).Φ t.succ = PhiS a V c (t.val + 1) t.isLt from rfl, PhiS_succ]
  have hN : t.val < 64 := lt_of_lt_of_eq t.isLt (show (cfg0 a).N = 64 from N_0)
  rw [show (dat a V c).leavesExact 0 t = owns (c : Thread nD τ) (ms0 a t) fullShare ((dat a V c).after 0 t) from (by
    unfold Dat.leavesExact; rw [live0 a]; try rfl), after0]
  by_cases h0 : t.val % 16 = 0
  · have h1 : ¬t.val % 16 = 15 := by omega
    rw [Dat.leavesExact_idle (dat a V c) 1 t (idle1 a t (fun h => h1 ((condLast_iff t).mp h))) (noFlush1 a t (fun h => h1 ((condLast_iff t).mp h)))]
    rw [Dat.leavesExact_idle (dat a V c) 2 t (idle2 a t (fun h => h1 ((condLast_iff t).mp h))) (noFlush2 a t (fun h => h1 ((condLast_iff t).mp h)))]
    rw [outsAt_A a V c t h0 h1]
    unfold leftA; (try dsimp only)
    by_cases hz : t.val = 0
    · rw [PhiS_castSucc a V c t, PhiS_zero a V c _ _ hz, restHeld_eq]
      iintro ⟨⟨Hg, HT, HS0, HS1, HR⟩, Ho, ⟨%d0, H0⟩, ⟨%d1, H1⟩, ⟨%d2, H2⟩⟩
      iapply ((ptA a V c t h0 h1).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [Hg HT HS0 HS1 HR]
      · isplitl [Hg]; · iexact Hg
        isplitl [HT]; · iexact HT
        isplitl [HS0]
        · unfold owns; iexists _; isplitr
          swap; · iexact HS0
          ipureintro; exact View.read_writes_eq_canon _ _ _ (coverA_acc0 c _ _ _ _ _ _ _ _ _ _ _ _ _ _ _ _)
        isplitl [HS1]
        · unfold owns; iexists _; isplitr
          swap; · iexact HS1
          ipureintro; exact View.read_writes_eq_canon _ _ _ (coverA_acc1 c _ _ _ _ _ _ _ _ _ _ _ _ _ _ _ _)
        iexact HR
      isplitl [Ho]; · iexact Ho
      isplitl [H0]; · iexact H0
      isplitl [H1]; · iexists _; iexact H1
      iexists _; iexact H2
    · rw [PhiS_castSucc a V c t, PhiS_pos a V c _ _ hz]
      iintro ⟨⟨Hg, HT, HS0, HS1, HR⟩, Ho, ⟨%d0, H0⟩, ⟨%d1, H1⟩, ⟨%d2, H2⟩⟩
      iapply ((ptA a V c t h0 h1).2.2.2.2 _ _ Set.univ _)
      isplitl [H0]; · iexact H0
      isplitl [H1]; · iexact H1
      isplitl [H2]; · iexact H2
      isplitl [HS0]; · iexists _; iexact HS0
      isplitl [HS1]; · iexists _; iexact HS1
      iintro ⟨H0, H1, H2, ⟨%es0, HS0⟩, ⟨%es1, HS1⟩⟩
      isplitl [Hg HT HS0 HS1 HR]
      · isplitl [Hg]; · iexact Hg
        isplitl [HT]; · iexact HT
        isplitl [HS0]
        · unfold owns; iexists _; isplitr
          swap; · iexact HS0
          ipureintro; exact View.read_writes_eq_canon _ _ _ (coverA_acc0 c _ _ _ _ _ _ _ _ _ _ _ _ _ _ _ _)
        isplitl [HS1]
        · unfold owns; iexists _; isplitr
          swap; · iexact HS1
          ipureintro; exact View.read_writes_eq_canon _ _ _ (coverA_acc1 c _ _ _ _ _ _ _ _ _ _ _ _ _ _ _ _)
        iexact HR
      isplitl [Ho]; · iexact Ho
      isplitl [H0]; · iexact H0
      isplitl [H1]; · iexists _; iexact H1
      iexists _; iexact H2
  · have hz : t.val ≠ 0 := fun h => h0 (by rw [h])
    by_cases h1 : t.val % 16 = 15
    · rw [show (dat a V c).leavesExact 1 t = owns (c : Thread nD τ) (ms1 a t) fullShare ((dat a V c).after 1 t) from (by
        unfold Dat.leavesExact; rw [live1 a t ((condLast_iff t).mpr h1)]; try rfl), after1]
      rw [show (dat a V c).leavesExact 2 t = owns (c : Thread nD τ) (ms2 a t) fullShare ((dat a V c).after 2 t) from (by
        unfold Dat.leavesExact; rw [live2 a t ((condLast_iff t).mpr h1)]; try rfl), after2]
      rw [outsAt_C a V c t h0 h1]
      unfold leftC; (try dsimp only)
      · rw [PhiS_castSucc a V c t, PhiS_pos a V c _ _ hz]
        iintro ⟨⟨Hg, HT, HS0, HS1, HR⟩, Ho, ⟨%d0, H0⟩, ⟨%d1, H1⟩, ⟨%d2, H2⟩⟩
        iapply ((ptC a V c t h0 h1 _ _).2.2.2.2 Set.univ _)
        isplitl [H0]; · iexact H0
        isplitl [H1]; · iexists _; iexact H1
        isplitl [H2]; · iexists _; iexact H2
        isplitl [HS0]; · iexact HS0
        isplitl [HS1]; · iexact HS1
        iintro ⟨H0, ⟨%e1, H1⟩, ⟨%e2, H2⟩, ⟨%es0, HS0⟩, ⟨%es1, HS1⟩⟩
        isplitl [Hg HT HS0 HS1 HR]
        · isplitl [Hg]; · iexact Hg
          isplitl [HT]; · iexact HT
          isplitl [HS0]
          · unfold owns; iexists _; isplitr
            swap; · iexact HS0
            ipureintro; exact View.read_writes_eq_canon _ _ _ (coverC_acc0 c _ _ _ _ _ _ _ _ _ _ _ _ _ _ _ _ _ _)
          isplitl [HS1]
          · unfold owns; iexists _; isplitr
            swap; · iexact HS1
            ipureintro; exact View.read_writes_eq_canon _ _ _ (coverC_acc1 c _ _ _ _ _ _ _ _ _ _ _ _ _ _ _ _ _ _)
          iexact HR
        isplitl [Ho]; · iexact Ho
        isplitl [H0]; · iexact H0
        isplitl [H1]
        · unfold owns; iexists _; isplitr
          swap; · iexact H1
          ipureintro; exact View.read_writes_eq_canon _ _ _ (coverC_out1 c _ _ _ _ _ _ _ _ _ _ _ _ _ _ _ _ _ _)
        unfold owns; iexists _; isplitr
        swap; · iexact H2
        ipureintro; exact View.read_writes_eq_canon _ _ _ (coverC_out2 c _ _ _ _ _ _ _ _ _ _ _ _ _ _ _ _ _ _)
    · rw [Dat.leavesExact_idle (dat a V c) 1 t (idle1 a t (fun h => h1 ((condLast_iff t).mp h))) (noFlush1 a t (fun h => h1 ((condLast_iff t).mp h)))]
      rw [Dat.leavesExact_idle (dat a V c) 2 t (idle2 a t (fun h => h1 ((condLast_iff t).mp h))) (noFlush2 a t (fun h => h1 ((condLast_iff t).mp h)))]
      rw [outsAt_B a V c t h0 h1]
      unfold leftB; (try dsimp only)
      · rw [PhiS_castSucc a V c t, PhiS_pos a V c _ _ hz]
        iintro ⟨⟨Hg, HT, HS0, HS1, HR⟩, Ho, ⟨%d0, H0⟩, ⟨%d1, H1⟩, ⟨%d2, H2⟩⟩
        iapply ((ptB a V c t h0 h1 _ _).2.2.2.2 _ _ Set.univ _)
        isplitl [H0]; · iexact H0
        isplitl [H1]; · iexact H1
        isplitl [H2]; · iexact H2
        isplitl [HS0]; · iexact HS0
        isplitl [HS1]; · iexact HS1
        iintro ⟨H0, H1, H2, ⟨%es0, HS0⟩, ⟨%es1, HS1⟩⟩
        isplitl [Hg HT HS0 HS1 HR]
        · isplitl [Hg]; · iexact Hg
          isplitl [HT]; · iexact HT
          isplitl [HS0]
          · unfold owns; iexists _; isplitr
            swap; · iexact HS0
            ipureintro; exact View.read_writes_eq_canon _ _ _ (coverB_acc0 c _ _ _ _ _ _ _ _ _ _ _ _ _ _ _ _ _ _)
          isplitl [HS1]
          · unfold owns; iexists _; isplitr
            swap; · iexact HS1
            ipureintro; exact View.read_writes_eq_canon _ _ _ (coverB_acc1 c _ _ _ _ _ _ _ _ _ _ _ _ _ _ _ _ _ _)
          iexact HR
        isplitl [Ho]; · iexact Ho
        isplitl [H0]; · iexact H0
        isplitl [H1]; · iexists _; iexact H1
        iexists _; iexact H2

/-- The body obligation, at every point. -/
theorem body_obligation (c : Dev nD) : BodyObligation (dat (F := F) a V c) (defs₀ (F := F)) Variants.none () Set.univ := fun t => by
  rw [bigSep_W0, bigSep_W0]
  exact sound_body a V c t

/-- The generator register, the table and the scoped rest are the invariant before the first point. -/
theorem hin (c : Dev nD) : (iprop((∃ r, prngReg c r) ∗ Iface.tableHeld a c ∗ Iface.restHeld c) : sProp 𝕄) ⊢ (dat a V c).Φ 0 := by
  rw [show (dat a V c).Φ 0 = PhiS a V c 0 (Nat.zero_le _) from rfl, PhiS_zero a V c 0 _ rfl]
  try exact Idealize.SL.BI.Entails.refl _

/-- After the last point the invariant gives all three back: the accumulators' named contents are forgotten. -/
theorem hout (c : Dev nD) : (dat a V c).Φ (Fin.last (cfg0 a).N) ⊢ (iprop(((∃ r, prngReg c r) ∗ Iface.tableHeld a c) ∗ Iface.restHeld c) : sProp 𝕄) := by
  have ht : (Fin.last (cfg0 a).N).val ≠ 0 := by rw [Fin.val_last]; have : (cfg0 a).N = 64 := N_0; omega
  rw [show (dat a V c).Φ (Fin.last (cfg0 a).N) = PhiS a V c (Fin.last (cfg0 a).N).val (Nat.le_of_lt_succ (Fin.last (cfg0 a).N).isLt) from rfl,
    PhiS_pos a V c _ _ ht, restHeld_eq]
  iintro ⟨Hg, HT, HS0, HS1, HR⟩
  isplitl [Hg HT]
  · isplitl [Hg]; · iexact Hg
    iexact HT
  isplitl [HS0]; · iexists _; iexact HS0
  isplitl [HS1]; · iexists _; iexact HS1
  iexact HR

/-! ## What the region hands the run of the whole program -/

/-- The statistics region's proof data, body obligation and invariant ends, at admissible table contents `a` and entry
    contents `V`. -/
def stats : Iface.Stats a V where
  dat := dat a V
  A_eq := A_eq a V
  q_full _ _ := rfl
  owed_zero _ _ := rfl
  body := body_obligation a V
  hin := hin a V
  hout := hout a V

end Cert.Kernel.StatsRegion

end
-- ==== Proof.ApplyBodyBits.lean ====
/-
  The normalising region's kernel body, run once at symbolic operands.

  The body loads its eight input blocks whole — the sample's `[1, 128, 64, 64]` block and seven `[1, 128, 1, 1]` per-channel
  columns (the batch statistics' mean and variance, the batch-norm weight and bias, the blend gate, the instance-norm weight
  and bias) — and stores one `[1, 128, 64, 64]` block whole: the gate times the batch-normalised sample plus one minus the
  gate times the instance-normalised sample, the instance statistics being the block's own mean and variance over its
  last two axes. What the output's buffer holds after the body is therefore that one stored value, as a function of the
  eight blocks read.
-/
import proofs.«159259_j85899346585_1_alg».proof.Proof.Gen.Kernel.Launch
import proofs.«159259_j85899346585_1_alg».proof.Proof.Gen.Kernel.Skeleton
import proofs.«159259_j85899346585_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.ApplyBody

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole of a sample block, and the whole of a per-channel column: the two rectangles the body reads and writes through. -/
abbrev rBlock : Rect S1x128x64x64 := Rect.unit (s := S1x128x64x64) ![0, 0, 0, 0] S1x128x64x64.size inb_S1x128x64x64_S1x128x64x64_0_0_0_0
abbrev rCol : Rect S1x128x1x1 := Rect.unit (s := S1x128x1x1) ![0, 0, 0, 0] S1x128x1x1.size inb_S1x128x1x1_S1x128x1x1_0_0_0_0

/-- The output block after the body, from the eight input blocks (sample, mean, variance, batch-norm weight and bias, gate,
    instance-norm weight and bias): its one store, the blend of the two normalisations of the sample. -/
def applied (x : Vec F S1x128x64x64 .f32) (mean var bnw bnb gate inw inb : Vec F S1x128x1x1 .f32) : Vec F S1x128x64x64 .f32 :=
  View.canon [⟨rBlock, k1_pay1 (View.ld x rBlock) (k1_pay2 (View.ld gate rCol)) (k1_pay3 (View.ld inw rCol)) (k1_pay4 (View.ld inb rCol))
    (k1_pay5 (View.ld x rBlock) (View.ld mean rCol) (View.ld var rCol) (View.ld bnw rCol) (View.ld bnb rCol))⟩]

/-- The one store writes the whole block, so it covers it. -/
theorem applied_cover (p0 : Vec F S1x128x64x64 .f32) (y : S1x128x64x64.Idx) :
    ∃ pc ∈ ([⟨rBlock, p0⟩] : List (View.Piece (Elt F) S1x128x64x64 .f32)), y ∈ pc.1.set :=
  View.cover_of_tiled [⟨rBlock, p0⟩] S1x128x64x64.size (by rfl) y

set_option maxHeartbeats 1000000 in
/-- The body on whole staging memrefs, the eight inputs' at read contents and the output's at anything, runs to the
    continuation holding the inputs' as they were and the output's at `applied` of them. -/
theorem sound_kernel (c : Dev nD) (E : Set ℕ) (i : grid1.Coords)
    (arg1 : Memref sig .tc .vmem S1x128x64x64 .f32) (harg1 : arg1.IsWhole) (arg2 : Memref sig .tc .vmem S1x128x1x1 .f32) (harg2 : arg2.IsWhole)
    (arg3 : Memref sig .tc .vmem S1x128x1x1 .f32) (harg3 : arg3.IsWhole) (arg4 : Memref sig .tc .vmem S1x128x1x1 .f32) (harg4 : arg4.IsWhole)
    (arg5 : Memref sig .tc .vmem S1x128x1x1 .f32) (harg5 : arg5.IsWhole) (arg6 : Memref sig .tc .vmem S1x128x1x1 .f32) (harg6 : arg6.IsWhole)
    (arg7 : Memref sig .tc .vmem S1x128x1x1 .f32) (harg7 : arg7.IsWhole) (arg8 : Memref sig .tc .vmem S1x128x1x1 .f32) (harg8 : arg8.IsWhole)
    (arg9 : Memref sig .tc .vmem S1x128x64x64 .f32) (harg9 : arg9.IsWhole)
    (x : Vec F S1x128x64x64 .f32) (mean var bnw bnb gate inw inb : Vec F S1x128x1x1 .f32) (K : PUnit → sProp 𝕄) :
    iprop(owns (c : Thread nD τ) arg1 fullShare x ∗ owns (c : Thread nD τ) arg2 fullShare mean ∗ owns (c : Thread nD τ) arg3 fullShare var
        ∗ owns (c : Thread nD τ) arg4 fullShare bnw ∗ owns (c : Thread nD τ) arg5 fullShare bnb ∗ owns (c : Thread nD τ) arg6 fullShare gate
        ∗ owns (c : Thread nD τ) arg7 fullShare inw ∗ owns (c : Thread nD τ) arg8 fullShare inb ∗ (∃ d, owns (c : Thread nD τ) arg9 fullShare d)
        ∗ (iprop(owns (c : Thread nD τ) arg1 fullShare x ∗ owns (c : Thread nD τ) arg2 fullShare mean ∗ owns (c : Thread nD τ) arg3 fullShare var
            ∗ owns (c : Thread nD τ) arg4 fullShare bnw ∗ owns (c : Thread nD τ) arg5 fullShare bnb ∗ owns (c : Thread nD τ) arg6 fullShare gate
            ∗ owns (c : Thread nD τ) arg7 fullShare inw ∗ owns (c : Thread nD τ) arg8 fullShare inb
            ∗ owns (c : Thread nD τ) arg9 fullShare (applied x mean var bnw bnb gate inw inb)) -∗ K ⟨⟩))
      ⊢ wp frame (wpE (defs₀ (F := F)) Variants.none c none) E
          (cc1__apply_kernel i arg1 harg1 arg2 harg2 arg3 harg3 arg4 harg4 arg5 harg5 arg6 harg6 arg7 harg7 arg8 harg8 arg9 harg9) K := by
  simp only [cc1__apply_kernel_eq_skeleton]; unfold cc1__apply_kernel_skel
  simp only [k1_part1_eq_skeleton]; unfold k1_part1_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf1 hf2 hf3 hf4 hf5 hf6 hf7 hf8
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (applied_cover _)

end Cert.Kernel.ApplyBody

end
-- ==== Proof.ApplyRegionBits.lean ====
/-
  The normalising region's proof data, at the buffer contents `V` the region is entered from.

  The region runs the body once per sample `b` (a grid of 64 points). Window 0 stages sample `b` of the input, windows 1–5
  row `b` of five `[64, 128, 1, 1]` arrays (that sample's batch mean, variance, batch-norm weight, bias and gate), windows 6
  and 7 the one row of the instance-norm weight and bias (fetched once: their block never moves), window 8 is sample `b` of
  the result, written back at every point. An input's buffer holds its array's block at the point whether or not the point
  fetches it, the body leaves the inputs as it found them, and the output's buffer ends at the blend of the eight blocks.
-/
import proofs.«159259_j85899346585_1_alg».proof.Proof.ApplyBodyBits

set_option maxRecDepth 16384

noncomputable section

namespace Cert.Kernel.ApplyRegion

open Cert.Kernel Cert.Kernel.Gen Cert.Kernel.ApplyBody
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether fetched there or not: where it is not
    fetched its block index has not moved. -/
theorem before0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, whether fetched there or not: where it is not
    fetched its block index has not moved. -/
theorem before1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, whether fetched there or not: where it is not
    fetched its block index has not moved. -/
theorem before2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, whether fetched there or not: where it is not
    fetched its block index has not moved. -/
theorem before3_of {c : Dev nD} (dat : Dat τ (Elt F) Unit ℕ (UR sig nD τ) ℕ cfg1 c) (hA : dat.A 3 = V c (Pipeline.arrRef spec1 3))
    (hafter : ∀ t, dat.after 3 t = iblk V c 3 t) (t : Fin cfg1.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, whether fetched there or not: where it is not
    fetched its block index has not moved. -/
theorem before4_of {c : Dev nD} (dat : Dat τ (Elt F) Unit ℕ (UR sig nD τ) ℕ cfg1 c) (hA : dat.A 4 = V c (Pipeline.arrRef spec1 4))
    (hafter : ∀ t, dat.after 4 t = iblk V c 4 t) (t : Fin cfg1.N) (d) : dat.before 4 t d = iblk V c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, whether fetched there or not: where it is not
    fetched its block index has not moved. -/
theorem before5_of {c : Dev nD} (dat : Dat τ (Elt F) Unit ℕ (UR sig nD τ) ℕ cfg1 c) (hA : dat.A 5 = V c (Pipeline.arrRef spec1 5))
    (hafter : ∀ t, dat.after 5 t = iblk V c 5 t) (t : Fin cfg1.N) (d) : dat.before 5 t d = iblk V c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, whether fetched there or not: where it is not
    fetched its block index has not moved. -/
theorem before6_of {c : Dev nD} (dat : Dat τ (Elt F) Unit ℕ (UR sig nD τ) ℕ cfg1 c) (hA : dat.A 6 = V c (Pipeline.arrRef spec1 6))
    (hafter : ∀ t, dat.after 6 t = iblk V c 6 t) (t : Fin cfg1.N) (d) : dat.before 6 t d = iblk V c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, whether fetched there or not: where it is not
    fetched its block index has not moved. -/
theorem before7_of {c : Dev nD} (dat : Dat τ (Elt F) Unit ℕ (UR sig nD τ) ℕ cfg1 c) (hA : dat.A 7 = V c (Pipeline.arrRef spec1 7))
    (hafter : ∀ t, dat.after 7 t = iblk V c 7 t) (t : Fin cfg1.N) (d) : dat.before 7 t d = iblk V c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The proof data on core `c`: the arrays as the region finds them; after the body at point `t` each input's buffer at its
    block and the output's at the blend of the eight blocks; the invariant the scoped buffers no window stages and the
    generator register, untouched; nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => iblk V c 7 t
    | ⟨8, _⟩ => applied (iblk V c 0 t) (iblk V c 1 t) (iblk V c 2 t) (iblk V c 3 t) (iblk V c 4 t) (iblk V c 5 t) (iblk V c 6 t) (iblk V c 7 t)
  Φ _ := Pipeline.ΦA spec1 c
  q _ := fullShare
  owed _ := 0

theorem A_eq (c : Dev nD) (w : Fin cfg1.W) : (dat V c).A w = V c (Pipeline.arrRef spec1 w) := by
  dsimp only [dat]

theorem after0 (c : Dev nD) (t : Fin cfg1.N) : (dat V c).after 0 t = iblk V c 0 t := by dsimp only [dat]
theorem after1 (c : Dev nD) (t : Fin cfg1.N) : (dat V c).after 1 t = iblk V c 1 t := by dsimp only [dat]
theorem after2 (c : Dev nD) (t : Fin cfg1.N) : (dat V c).after 2 t = iblk V c 2 t := by dsimp only [dat]
theorem after3 (c : Dev nD) (t : Fin cfg1.N) : (dat V c).after 3 t = iblk V c 3 t := by dsimp only [dat]
theorem after4 (c : Dev nD) (t : Fin cfg1.N) : (dat V c).after 4 t = iblk V c 4 t := by dsimp only [dat]
theorem after5 (c : Dev nD) (t : Fin cfg1.N) : (dat V c).after 5 t = iblk V c 5 t := by dsimp only [dat]
theorem after6 (c : Dev nD) (t : Fin cfg1.N) : (dat V c).after 6 t = iblk V c 6 t := by dsimp only [dat]
theorem after7 (c : Dev nD) (t : Fin cfg1.N) : (dat V c).after 7 t = iblk V c 7 t := by dsimp only [dat]
theorem after8 (c : Dev nD) (t : Fin cfg1.N) : (dat V c).after 8 t = applied (iblk V c 0 t) (iblk V c 1 t) (iblk V c 2 t) (iblk V c 3 t) (iblk V c 4 t) (iblk V c 5 t) (iblk V c 6 t) (iblk V c 7 t) := by dsimp only [dat]

theorem before0 (c : Dev nD) (t : Fin cfg1.N) (d) : (dat V c).before 0 t d = iblk V c 0 t :=
  before0_of V (dat V c) (A_eq V c 0) (after0 V c) t d
theorem before1 (c : Dev nD) (t : Fin cfg1.N) (d) : (dat V c).before 1 t d = iblk V c 1 t :=
  before1_of V (dat V c) (A_eq V c 1) (after1 V c) t d
theorem before2 (c : Dev nD) (t : Fin cfg1.N) (d) : (dat V c).before 2 t d = iblk V c 2 t :=
  before2_of V (dat V c) (A_eq V c 2) (after2 V c) t d
theorem before3 (c : Dev nD) (t : Fin cfg1.N) (d) : (dat V c).before 3 t d = iblk V c 3 t :=
  before3_of V (dat V c) (A_eq V c 3) (after3 V c) t d
theorem before4 (c : Dev nD) (t : Fin cfg1.N) (d) : (dat V c).before 4 t d = iblk V c 4 t :=
  before4_of V (dat V c) (A_eq V c 4) (after4 V c) t d
theorem before5 (c : Dev nD) (t : Fin cfg1.N) (d) : (dat V c).before 5 t d = iblk V c 5 t :=
  before5_of V (dat V c) (A_eq V c 5) (after5 V c) t d
theorem before6 (c : Dev nD) (t : Fin cfg1.N) (d) : (dat V c).before 6 t d = iblk V c 6 t :=
  before6_of V (dat V c) (A_eq V c 6) (after6 V c) t d
theorem before7 (c : Dev nD) (t : Fin cfg1.N) (d) : (dat V c).before 7 t d = iblk V c 7 t :=
  before7_of V (dat V c) (A_eq V c 7) (after7 V c) t d

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (st1_0 t) fullShare ((dat V c).before 0 t d))
    ∗ (∃ d, owns (c : Thread nD τ) (st1_1 t) fullShare ((dat V c).before 1 t d))
    ∗ (∃ d, owns (c : Thread nD τ) (st1_2 t) fullShare ((dat V c).before 2 t d))
    ∗ (∃ d, owns (c : Thread nD τ) (st1_3 t) fullShare ((dat V c).before 3 t d))
    ∗ (∃ d, owns (c : Thread nD τ) (st1_4 t) fullShare ((dat V c).before 4 t d))
    ∗ (∃ d, owns (c : Thread nD τ) (st1_5 t) fullShare ((dat V c).before 5 t d))
    ∗ (∃ d, owns (c : Thread nD τ) (st1_6 t) fullShare ((dat V c).before 6 t d))
    ∗ (∃ d, owns (c : Thread nD τ) (st1_7 t) fullShare ((dat V c).before 7 t d))
    ∗ (∃ d, owns (c : Thread nD τ) (st1_8 t) fullShare ((dat V c).before 8 t d)))

/-- and what it returns. -/
def bodyPost (c : Dev nD) (t : Fin cfg1.N) : sProp 𝕄 :=
  iprop((dat V c).Φ t.succ ∗ (dat V c).owesAt () t.succ
    ∗ owns (c : Thread nD τ) (st1_0 t) fullShare ((dat V c).after 0 t)
    ∗ owns (c : Thread nD τ) (st1_1 t) fullShare ((dat V c).after 1 t)
    ∗ owns (c : Thread nD τ) (st1_2 t) fullShare ((dat V c).after 2 t)
    ∗ owns (c : Thread nD τ) (st1_3 t) fullShare ((dat V c).after 3 t)
    ∗ owns (c : Thread nD τ) (st1_4 t) fullShare ((dat V c).after 4 t)
    ∗ owns (c : Thread nD τ) (st1_5 t) fullShare ((dat V c).after 5 t)
    ∗ owns (c : Thread nD τ) (st1_6 t) fullShare ((dat V c).after 6 t)
    ∗ owns (c : Thread nD τ) (st1_7 t) fullShare ((dat V c).after 7 t)
    ∗ owns (c : Thread nD τ) (st1_8 t) fullShare ((dat V c).after 8 t))

/-- The body at any point: the inputs' buffers hold their blocks, so the body's triple applies; the invariant and the
    core's dues pass through unread. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1, before2, before3, before4, before5, before6, before7]
  rw [show (dat V c).Φ t.succ = (dat V c).Φ t.castSucc from rfl,
    show (dat V c).owesAt () t.succ = (dat V c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel c Set.univ _ _ _ _ _ _ _ _ _ _ _ _ _ _ _ _ _ _ _ (iblk V c 0 t) (iblk V c 1 t) (iblk V c 2 t) (iblk V c 3 t) (iblk V c 4 t) (iblk V c 5 t) (iblk V c 6 t) (iblk V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body obligation, at every point. -/
theorem body_obligation (c : Dev nD) : BodyObligation (dat (F := F) V c) (defs₀ (F := F)) Variants.none () Set.univ := fun t => by
  rw [bigSep_W1, bigSep_W1]
  exact sound_body V c t

end Cert.Kernel.ApplyRegion

end
-- ==== Proof.RunBits.lean ====
/-
  The run of the whole program, given what the statistics region supplies.

  The program is two kernel regions with five stretches of host operations between them. The statistics region reads the
  input through a table of 64 row indices it prefetches and leaves per-channel sums and sums of squares in two small
  arrays; the host stretches turn those into per-sample means, variances, weights, biases and a gate; the normalising
  region blends them into the result. The thread state between two segments is every unscoped buffer held whole at
  the contents the segments so far leave there (a fold through the program from the launch memory), beside the
  generator register and the core's dues, at nothing. A region takes its arrays (the first also its table, whose contents are
  the admissible ones the statistics region's proof is given for) out of that state at its entry and puts them back,
  at what its pipeline leaves, at its exit. From the chain of segments: the program runs from any memory with zero counters
  whose table is admissible, and every final state has every unscoped buffer at the last contents of the fold — in
  particular each argument as launched, and the result at what the normalising region's pipeline leaves in its output
  window.
-/
import proofs.«159259_j85899346585_1_alg».proof.Proof.IfaceBits
import proofs.«159259_j85899346585_1_alg».proof.Proof.ApplyRegionBits
import proofs.«159259_j85899346585_1_alg».proof.Proof.Gen.Kernel.Regions

set_option maxRecDepth 16384

noncomputable section

namespace Cert.Kernel.Run

open Cert.Kernel Cert.Kernel.Gen Cert.Kernel.Iface
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)
variable (st : ∀ V : (c : Dev nD) → (b : Ref sig .tc) → Buf (Elt F) ((c : Thread nD τ).loc b), Stats a0 V)

/-! ## The buffer contents at each segment boundary: a fold through the program -/

/-- Core `c`'s buffers at launch. -/
abbrev W0 : Dev nD → Valuation τ sig (Elt F) := fun c b => m (c, b)
/-- The same read at the TensorCore's references (what the statistics region's proof data take). -/
abbrev V0 : (c : Dev nD) → (b : Ref sig .tc) → Buf (Elt F) ((c : Thread nD τ).loc b) := fun c b => W0 m c b
/-- At the statistics region's exit: its arrays at what the pipeline leaves, every other buffer as entered. -/
def W1 (c : Dev nD) : Valuation τ sig (Elt F) :=
  Pipeline.withArrays spec0 c (W0 m c) fun w => ((st (V0 m)).dat c).arrAt w (cfg0 a0).N
theorem W1_arr (c : Dev nD) (w : Fin (cfg0 a0).W) :
    W1 m a0 st c (Proc.devRef .tc (Pipeline.arrRef spec0 w)) = ((st (V0 m)).dat c).arrAt w (cfg0 a0).N := by
  unfold W1; exact Pipeline.withArrays_arr spec0 winFacts0.arr_inj c _ _ w
theorem W1_of_ne (c : Dev nD) (b : Ref sig .tc) (hb : ∀ w, Pipeline.arrRef spec0 w ≠ b) :
    W1 m a0 st c (Proc.devRef .tc b) = W0 m c (Proc.devRef .tc b) := by
  unfold W1; exact Pipeline.withArrays_of_ne spec0 c _ _ b hb
/-- The same read at the TensorCore's references. -/
abbrev V1 : (c : Dev nD) → (b : Ref sig .tc) → Buf (Elt F) ((c : Thread nD τ).loc b) := fun c b => W1 m a0 st c b
/-- After each of the five host stretches. -/
abbrev W2 : Dev nD → Valuation τ sig (Elt F) := fun c => StableHlo.after hostOps1 (W1 m a0 st c)
abbrev W3 : Dev nD → Valuation τ sig (Elt F) := fun c => StableHlo.after hostOps1_1 (W2 m a0 st c)
abbrev W4 : Dev nD → Valuation τ sig (Elt F) := fun c => StableHlo.after hostOps1_2 (W3 m a0 st c)
abbrev W5 : Dev nD → Valuation τ sig (Elt F) := fun c => StableHlo.after hostOps1_3 (W4 m a0 st c)
abbrev W6 : Dev nD → Valuation τ sig (Elt F) := fun c => StableHlo.after hostOps1_4 (W5 m a0 st c)
/-- The same read at the TensorCore's references (what the normalising region's proof data take). -/
abbrev V6 : (c : Dev nD) → (b : Ref sig .tc) → Buf (Elt F) ((c : Thread nD τ).loc b) := fun c b => W6 m a0 st c b
/-- At the normalising region's exit. -/
def W7 (c : Dev nD) : Valuation τ sig (Elt F) :=
  Pipeline.withArrays spec1 c (W6 m a0 st c) fun w => (ApplyRegion.dat (V6 m a0 st) c).arrAt w cfg1.N
theorem W7_arr (c : Dev nD) (w : Fin cfg1.W) :
    W7 m a0 st c (Proc.devRef .tc (Pipeline.arrRef spec1 w)) = (ApplyRegion.dat (V6 m a0 st) c).arrAt w cfg1.N := by
  unfold W7; exact Pipeline.withArrays_arr spec1 winFacts1.arr_inj c _ _ w
theorem W7_of_ne (c : Dev nD) (b : Ref sig .tc) (hb : ∀ w, Pipeline.arrRef spec1 w ≠ b) :
    W7 m a0 st c (Proc.devRef .tc b) = W6 m a0 st c (Proc.devRef .tc b) := by
  unfold W7; exact Pipeline.withArrays_of_ne spec1 c _ _ b hb
abbrev V7 : (c : Dev nD) → (b : Ref sig .tc) → Buf (Elt F) ((c : Thread nD τ).loc b) := fun c b => W7 m a0 st c b

/-! ## The proof data family and the thread state -/

/-- The prefetched tables' admissible contents: the statistics region's table at `a0`; the normalising region has none. -/
abbrev adm : (p : Fin 2) → (pcfgs (F := F) p).Adm
  | ⟨0, _⟩ => a0
  | ⟨1, _⟩ => cfg1.toPCfg_adm
/-- Every pipeline's proof data, each at its region's entry contents. -/
def pdats : (p : Fin 2) → (c : Dev nD) → Dat τ (Elt F) Unit ℕ (UR sig nD τ) ℕ (Pipeline.pin (pcfgs (F := F)) (adm a0) p) c
  | ⟨0, _⟩ => fun c => (st (V0 m)).dat c
  | ⟨1, _⟩ => fun c => ApplyRegion.dat (V6 m a0 st) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- The same at launch: the dues at nothing with no wait recorded yet. -/
abbrev R₀ (c : Dev nD) : sProp 𝕄 := iprop((∃ r, prngReg c r) ∗ owes (c : Thread nD τ) (0 : CellTallies nD τ sig Unit) ∅)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W7 m a0 st c) ∗ ∃ r, prngReg c r)

variable (htab : ∀ (c : Dev nD) (k : Fin pre0.K), a0.1 k = m ((c : Thread nD τ).loc (pre0.ref k)))

/-- At the statistics region's exit each of its arrays holds what the pipeline leaves and every other buffer what it
    held at entry. -/
theorem hF0 (c : Dev nD) (w : Fin (cfg0 a0).W) : ((st (V0 m)).dat c).arrAt w (cfg0 a0).N = V1 m a0 st c (Pipeline.arrRef spec0 w) :=
  (W1_arr m a0 st c w).symm
theorem hrest0 (c : Dev nD) : ∀ b, b ∉ Finset.univ.image (Pipeline.arrRef spec0) → V1 m a0 st c b = V0 m c b :=
  fun b hb => W1_of_ne m a0 st c b fun w e => hb (Finset.mem_image.mpr ⟨w, Finset.mem_univ _, e⟩)
theorem hF1 (c : Dev nD) (w : Fin cfg1.W) : (ApplyRegion.dat (V6 m a0 st) c).arrAt w cfg1.N = V7 m a0 st c (Pipeline.arrRef spec1 w) :=
  (W7_arr m a0 st c w).symm
theorem hrest1 (c : Dev nD) : ∀ b, b ∉ Finset.univ.image (Pipeline.arrRef spec1) → V7 m a0 st c b = V6 m a0 st c b :=
  fun b hb => W7_of_ne m a0 st c b fun w e => hb (Finset.mem_image.mpr ⟨w, Finset.mem_univ _, e⟩)

include htab in
/-- The table's contents read off the launch memory are the admissible contents. -/
theorem tab_eq (c : Dev nD) : (fun k => V0 m c (pre0.ref k)) = a0.1 := funext fun k => (htab c k).symm

include htab in
/-- The unscoped buffers that are no array of the statistics region are its table, at the admissible contents, and the rest. -/
theorem rest_split (c : Dev nD) :
    (Pipeline.unscopedRest (Ix := Unit) (Name := ℕ) (U := UR sig nD τ) (Lvl := ℕ) spec0 c (V0 m c) : sProp 𝕄)
      = iprop(tableHeld a0 c ∗ Pipeline.unscopedRestP pre0 spec0 c (V0 m c)) := by
  have h := Pipeline.unscopedRest_split (Ix := Unit) (Name := ℕ) (U := UR sig nD τ) (Lvl := ℕ) (Val := Elt F) preFacts0 c (V0 m c)
  rw [tab_eq m a0 htab c] at h
  exact h

/-! ## The regions as segments -/

set_option backward.isDefEq.respectTransparency.types false in
/-- The statistics region over the thread state: entered from every unscoped buffer at `W0`, left at `W1`. Its arrays
    and its table split out of the unscoped buffers and put back at the exit contents; the generator register and
    the table into the region's invariant and out; nothing owed; no semaphore of the kernel's own. -/
def reg0 : Pipeline.RegionSeg (pcfgs (F := F)) (adm a0) (pdats m a0 st) () defs₀ 𝒱₀ L lv 0 where
  win := winFacts0.to₀
  block_pos := block_pos0
  stage_whole := stage_whole0
  K := PEmpty
  osem k := k.elim
  ho := Pipeline.OwnSemFacts.none _
  hbody c := ((st (V0 m)).body c).loose
  hwaits := Pipeline.hwaits_of_owed_zero (pcfgs (F := F)) (adm a0) (pdats m a0 st) () L lv 0 fun c t => (st (V0 m)).owed_zero c t
  pre c := iprop(StableHlo.held (c : Thread nD τ) (Pipeline.ucRefs τ sig) (W0 m c) ∗ R₀ c)
  post c := iprop(StableHlo.held (c : Thread nD τ) (Pipeline.ucRefs τ sig) (W1 m a0 st c) ∗ R c)
  X c := iprop(∃ r, prngReg c r)
  Y c := iprop((∃ r, prngReg c r) ∗ tableHeld a0 c)
  Z c := Pipeline.unscopedRestP (Ix := Unit) (Name := ℕ) (U := UR sig nD τ) (Lvl := ℕ) pre0 spec0 c (V0 m c)
  hentry c := by
    rw [Pipeline.ownSems0_none]
    have hsplit := Pipeline.arrays_of_unscopedBufs (p := 0) (pcfgs (F := F)) (adm a0) (pdats m a0 st) winFacts0 arr_whole0 c
      ((pdats m a0 st 0 c).share_full fun w => (st (V0 m)).q_full c w) (V0 m c) fun w => (st (V0 m)).A_eq c w
    rw [Pipeline.unscopedBufs_held] at hsplit
    replace hsplit := hsplit.trans (sep_mono .rfl (Entails.of_eq (rest_split m a0 htab c)))
    iintro ⟨⟨Hub, Hp, HO⟩, -, -⟩
    ihave H := hsplit $$ Hub
    icases H with ⟨Ha, Htab, Hrest⟩
    imodintro
    isplitl [Ha]; · iexact Ha
    isplitl [Htab]; · iexact Htab
    isplitl [HO]
    · unfold Pipeline.Dat.owesAt Pipeline.owesWithin
      rw [show (pdats m a0 st 0 c).owed 0 = 0 from (st (V0 m)).owed_zero c 0]
      iexists ∅; isplitr; · ipureintro; rw [Finset.coe_empty]; exact Set.empty_subset _
      iexact HO
    isplitl [Hp]; · iexact Hp
    iexact Hrest
  hin c := (st (V0 m)).hin c
  hout c := by
    rw [Pipeline.ownSems0_none]
    refine ((st (V0 m)).hout c).trans ?_
    iintro ⟨HY, Hr⟩
    isplitl [HY]; · iexact HY
    isplitr; · iempintro
    iexact Hr
  hexit c := by
    have hjoin := Pipeline.unscopedBufs_of_arrays (p := 0) (pcfgs (F := F)) (adm a0) (Ix := Unit) (Name := ℕ) (U := UR sig nD τ) (Lvl := ℕ)
      winFacts0 arr_whole0 c (pdats m a0 st) ((pdats m a0 st 0 c).share_full fun w => (st (V0 m)).q_full c w)
      (V0 m c) (V1 m a0 st c) ((pdats m a0 st 0 c).arrAt · (cfg0 a0).N) (hF0 m a0 st c) (hrest0 m a0 st c)
    have hO : ((pdats m a0 st 0 c).owesAt () (Fin.last (cfg0 a0).N) : sProp 𝕄) ⊢ iprop(∃ W, owes (c : Thread nD τ) (0 : CellTallies nD τ sig Unit) W) := by
      unfold Pipeline.Dat.owesAt Pipeline.owesWithin
      rw [show (pdats m a0 st 0 c).owed (Fin.last (cfg0 a0).N) = 0 from (st (V0 m)).owed_zero c _]
      iintro ⟨%W, -, HO⟩; iexists W; iexact HO
    rw [Pipeline.unscopedBufs_held] at hjoin
    replace hjoin := (sep_mono .rfl (Entails.of_eq (rest_split m a0 htab c).symm)).trans hjoin
    iintro ⟨Ha, HO, ⟨Hp, Htab⟩, Hrest⟩
    imodintro
    isplitl [Ha Htab Hrest]
    · iapply hjoin; isplitl [Ha]; · iexact Ha
      isplitl [Htab]; · iexact Htab
      iexact Hrest
    isplitl [Hp]; · iexact Hp
    iapply hO; iexact HO

set_option backward.isDefEq.respectTransparency.types false in
/-- The normalising region over the thread state: entered from every unscoped buffer at `W6`, left at `W7` (what the
    launch reads at the end). Its arrays split out of the unscoped buffers and put back at the exit contents; the
    generator register into the region's invariant and out; nothing owed; no semaphore of the kernel's own. -/
def reg1 : Pipeline.RegionSeg (pcfgs (F := F)) (adm a0) (pdats m a0 st) () defs₀ 𝒱₀ L lv 1 where
  win := winFacts1.to₀
  block_pos := block_pos1
  stage_whole := stage_whole1
  K := PEmpty
  osem k := k.elim
  ho := Pipeline.OwnSemFacts.none _
  hbody c := (ApplyRegion.body_obligation (V6 m a0 st) c).loose
  hwaits := Pipeline.hwaits_of_owed_zero (pcfgs (F := F)) (adm a0) (pdats m a0 st) () L lv 1 fun _ _ => rfl
  pre c := iprop(StableHlo.held (c : Thread nD τ) (Pipeline.ucRefs τ sig) (W6 m a0 st c) ∗ R c)
  post c := iprop(Tₙ m a0 st c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V6 m a0 st c)
  hentry c := by
    rw [Pipeline.ownSems0_none]
    have hsplit := Pipeline.arrays_of_unscopedBufs (p := 1) (pcfgs (F := F)) (adm a0) (pdats m a0 st) winFacts1 arr_whole1 c
      ((pdats m a0 st 1 c).share_full fun _ => rfl) (V6 m a0 st c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m a0 st 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m a0 st 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm a0) (Ix := Unit) (Name := ℕ) (U := UR sig nD τ) (Lvl := ℕ)
      winFacts1 arr_whole1 c (pdats m a0 st) ((pdats m a0 st 1 c).share_full fun _ => rfl)
      (V6 m a0 st c) (V7 m a0 st c) ((pdats m a0 st 1 c).arrAt · cfg1.N) (hF1 m a0 st c) (hrest1 m a0 st c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 7 segments in order: the statistics region, a host segment per stretch from its boundary's contents,
    the normalising region. -/
abbrev segs : List (Pipeline.Seg (pcfgs (F := F)) (adm a0) (pdats m a0 st) () defs₀ 𝒱₀ L lv) :=
  [ .region (reg0 m a0 st htab),
    .host (hseg hostOps1 hostOps1_sub hostOps1_fresh (W1 m a0 st)),
    .host (hseg hostOps1_1 hostOps1_1_sub hostOps1_1_fresh (W2 m a0 st)),
    .host (hseg hostOps1_2 hostOps1_2_sub hostOps1_2_fresh (W3 m a0 st)),
    .host (hseg hostOps1_3 hostOps1_3_sub hostOps1_3_fresh (W4 m a0 st)),
    .host (hseg hostOps1_4 hostOps1_4_sub hostOps1_4_fresh (W5 m a0 st)),
    .region (reg1 m a0 st) ]

include htab in
set_option backward.isDefEq.respectTransparency.types false in
/-- THE RUN: at the compiled mesh, from any memory with zero counters whose table is the admissible contents, every
    weakly fair execution of the program on the TensorCores terminates, nothing faulting, and every final state has
    every unscoped buffer at the last boundary's contents `W7`. -/
theorem run : θ_run defs (onTc (τ := τ) (main (F := F))) ⟨m, fun _ => 0, ρ⟩ (fun r => ∀ c : Dev nD,
      ∀ b ∈ Pipeline.ucRefs τ sig, r.2.mem ((c : Thread nD τ).1, b) = W7 m a0 st c b) :=
  Pipeline.θ_run_regions_kit (pcfgs (F := F)) (adm a0) (pdats m a0 st) () (cellOf_inj (adm a0)) emb₁ defs₀ 𝒱₀ L lv m ρ main (segs m a0 st htab)
    (fun c Q => by
      rewrite [main_chain c, Seg.run_eq_chain,
        show (segs m a0 st htab).map Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (adm a0)) (cellOf_inj (adm a0))) (Pipeline.launchToks (Pipeline.pin (pcfgs (F := F)) (adm a0)) (cellOf_inj (adm a0))))
    (hu₀ := by
      iintro Hu; imodintro
      isplitl [Hu]
      · iapply (show (ownU (initOf (Pipeline.cells (Pipeline.pin (pcfgs (F := F)) (adm a0)) (cellOf_inj (adm a0))) (Pipeline.launchToks (Pipeline.pin (pcfgs (F := F)) (adm a0)) (cellOf_inj (adm a0)))) : sProp 𝕄)
            ⊢ BI.own (emb₁ (initOf (Pipeline.cells (Pipeline.pin (pcfgs (F := F)) (adm a0)) (cellOf_inj (adm a0))) (Pipeline.launchToks (Pipeline.pin (pcfgs (F := F)) (adm a0)) (cellOf_inj (adm a0))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R₀ c)) (Tₙ := Tₙ m a0 st)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexact HO)
    (QY := fun c s => ∀ b ∈ Pipeline.ucRefs τ sig, s.mem (((c : Thread nD τ)).1, b) = W7 m a0 st c b)
    (hfin := fun c s' => by
      iintro ⟨⟨Hh, -⟩, HSI⟩
      unfold StableHlo.held
      imodintro
      iapply (pointsTo_read_all (Pipeline.ucRefs τ sig) (fun b => (((c : Thread nD τ)).1, b)) (W7 m a0 st c) s')
      isplitl [Hh] <;> iassumption)
    (hQ := fun s h => h)

/-! ## Reading the boundaries -/

/-- A buffer no host stretch writes is, before the normalising region, as the statistics region left it. -/
theorem W6_of (c : Dev nD) (r : Ref sig .tc) (h1 : r ∉ hostOps1_W) (h2 : r ∉ hostOps1_1_W) (h3 : r ∉ hostOps1_2_W)
    (h4 : r ∉ hostOps1_3_W) (h5 : r ∉ hostOps1_4_W) :
    W6 m a0 st c (Proc.devRef .tc r) = W1 m a0 st c (Proc.devRef .tc r) :=
  (StableHlo.after_of_writes_sub hostOps1_4 _ hostOps1_4_writes h5).trans <|
  (StableHlo.after_of_writes_sub hostOps1_3 _ hostOps1_3_writes h4).trans <|
  (StableHlo.after_of_writes_sub hostOps1_2 _ hostOps1_2_writes h3).trans <|
  (StableHlo.after_of_writes_sub hostOps1_1 _ hostOps1_1_writes h2).trans <|
  StableHlo.after_of_writes_sub hostOps1 _ hostOps1_writes h1

/-- The statistics region's two results are what its pipeline leaves in its windows 1 and 2. -/
theorem W1_main_v0_0 (c : Dev nD) : W1 m a0 st c (Proc.devRef .tc main_v0_0) = ((st (V0 m)).dat c).arrAt 1 (cfg0 a0).N :=
  W1_arr m a0 st c 1
theorem W1_main_v0_1 (c : Dev nD) : W1 m a0 st c (Proc.devRef .tc main_v0_1) = ((st (V0 m)).dat c).arrAt 2 (cfg0 a0).N :=
  W1_arr m a0 st c 2
/-- A buffer that is no array of the statistics region is, at its exit, the launch memory. -/
theorem W1_of_launch (c : Dev nD) (b : Ref sig .tc) (hb : ∀ w, Pipeline.arrRef spec0 w ≠ b) :
    W1 m a0 st c (Proc.devRef .tc b) = m ((c : Thread nD τ).loc b) :=
  (W1_of_ne m a0 st c b hb).trans rfl

/-- THE RESULT: the program's result buffer ends at what the normalising region's pipeline leaves in its window 8. -/
theorem result (c : Dev nD) : W7 m a0 st c (Proc.devRef .tc main_v57) = (ApplyRegion.dat (V6 m a0 st) c).arrAt 8 cfg1.N :=
  W7_arr m a0 st c 8

/-! ### The arguments end as launched -/

/-- `main_arg0` reaches the end as launched: both regions read it through an input window, which leaves its array as
    entered, and no host stretch writes it. -/
theorem W7_main_arg0 (c : Dev nD) : W7 m a0 st c (Proc.devRef .tc main_arg0) = m ((c : Thread nD τ).loc main_arg0) :=
  calc W7 m a0 st c (Proc.devRef .tc main_arg0)
    _ = W6 m a0 st c (Proc.devRef .tc main_arg0) :=
        (W7_arr m a0 st c 0).trans (((ApplyRegion.dat (V6 m a0 st) c).arrAt_in 0 rfl _).trans (ApplyRegion.A_eq (V6 m a0 st) c 0))
    _ = W1 m a0 st c (Proc.devRef .tc main_arg0) := W6_of m a0 st c main_arg0 (by decide) (by decide) (by decide) (by decide) (by decide)
    _ = W0 m c (Proc.devRef .tc main_arg0) :=
        (W1_arr m a0 st c 0).trans ((((st (V0 m)).dat c).arrAt_in 0 rfl _).trans ((st (V0 m)).A_eq c 0))
    _ = m ((c : Thread nD τ).loc main_arg0) := rfl
/-- `main_arg1` reaches the end as launched: no host stretch writes it and it is no array of either region. -/
theorem W7_main_arg1 (c : Dev nD) : W7 m a0 st c (Proc.devRef .tc main_arg1) = m ((c : Thread nD τ).loc main_arg1) :=
  (W7_of_ne m a0 st c main_arg1 (by decide)).trans <|
    (W6_of m a0 st c main_arg1 (by decide) (by decide) (by decide) (by decide) (by decide)).trans <|
    (W1_of_ne m a0 st c main_arg1 (by decide)).trans rfl
/-- `main_arg2` reaches the end as launched: no host stretch writes it and it is no array of either region. -/
theorem W7_main_arg2 (c : Dev nD) : W7 m a0 st c (Proc.devRef .tc main_arg2) = m ((c : Thread nD τ).loc main_arg2) :=
  (W7_of_ne m a0 st c main_arg2 (by decide)).trans <|
    (W6_of m a0 st c main_arg2 (by decide) (by decide) (by decide) (by decide) (by decide)).trans <|
    (W1_of_ne m a0 st c main_arg2 (by decide)).trans rfl
/-- `main_arg3` reaches the end as launched: no host stretch writes it and it is no array of either region. -/
theorem W7_main_arg3 (c : Dev nD) : W7 m a0 st c (Proc.devRef .tc main_arg3) = m ((c : Thread nD τ).loc main_arg3) :=
  (W7_of_ne m a0 st c main_arg3 (by decide)).trans <|
    (W6_of m a0 st c main_arg3 (by decide) (by decide) (by decide) (by decide) (by decide)).trans <|
    (W1_of_ne m a0 st c main_arg3 (by decide)).trans rfl
/-- `main_arg4` reaches the end as launched: no host stretch writes it and it is no array of either region. -/
theorem W7_main_arg4 (c : Dev nD) : W7 m a0 st c (Proc.devRef .tc main_arg4) = m ((c : Thread nD τ).loc main_arg4) :=
  (W7_of_ne m a0 st c main_arg4 (by decide)).trans <|
    (W6_of m a0 st c main_arg4 (by decide) (by decide) (by decide) (by decide) (by decide)).trans <|
    (W1_of_ne m a0 st c main_arg4 (by decide)).trans rfl
/-- `main_arg5` reaches the end as launched: no host stretch writes it and it is no array of either region. -/
theorem W7_main_arg5 (c : Dev nD) : W7 m a0 st c (Proc.devRef .tc main_arg5) = m ((c : Thread nD τ).loc main_arg5) :=
  (W7_of_ne m a0 st c main_arg5 (by decide)).trans <|
    (W6_of m a0 st c main_arg5 (by decide) (by decide) (by decide) (by decide) (by decide)).trans <|
    (W1_of_ne m a0 st c main_arg5 (by decide)).trans rfl
/-- `main_arg6` reaches the end as launched: no host stretch writes it and it is no array of either region. -/
theorem W7_main_arg6 (c : Dev nD) : W7 m a0 st c (Proc.devRef .tc main_arg6) = m ((c : Thread nD τ).loc main_arg6) :=
  (W7_of_ne m a0 st c main_arg6 (by decide)).trans <|
    (W6_of m a0 st c main_arg6 (by decide) (by decide) (by decide) (by decide) (by decide)).trans <|
    (W1_of_ne m a0 st c main_arg6 (by decide)).trans rfl
/-- `main_arg7` reaches the end as launched: no host stretch writes it and it is no array of either region. -/
theorem W7_main_arg7 (c : Dev nD) : W7 m a0 st c (Proc.devRef .tc main_arg7) = m ((c : Thread nD τ).loc main_arg7) :=
  (W7_of_ne m a0 st c main_arg7 (by decide)).trans <|
    (W6_of m a0 st c main_arg7 (by decide) (by decide) (by decide) (by decide) (by decide)).trans <|
    (W1_of_ne m a0 st c main_arg7 (by decide)).trans rfl

include a0 st htab in
/-- THE FRAME: every weakly fair execution terminates, nothing faulting, and every final state has the argument arrays as
    launched — the run, each argument read off the last boundary's contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_arg0 (by decide))).trans (W7_main_arg0 m a0 st c),
     (h c _ (mem_uc main_arg1 (by decide))).trans (W7_main_arg1 m a0 st c),
     (h c _ (mem_uc main_arg2 (by decide))).trans (W7_main_arg2 m a0 st c),
     (h c _ (mem_uc main_arg3 (by decide))).trans (W7_main_arg3 m a0 st c),
     (h c _ (mem_uc main_arg4 (by decide))).trans (W7_main_arg4 m a0 st c),
     (h c _ (mem_uc main_arg5 (by decide))).trans (W7_main_arg5 m a0 st c),
     (h c _ (mem_uc main_arg6 (by decide))).trans (W7_main_arg6 m a0 st c),
     (h c _ (mem_uc main_arg7 (by decide))).trans (W7_main_arg7 m a0 st c)⟩) (run m ρ a0 st htab)

end Cert.Kernel.Run

end
-- ==== Proof.RefRunParts.lean ====
import proofs.«159259_j85899346585_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The reference's stages as pure functions of arrays

Each definition is one stretch of @main's operations composed: the names below are the mathematics
(a row gather, a slice of sixteen rows, a mean, a biased variance, a normalisation, a blend), the bodies
the operations as printed. -/

abbrev C64 (F : FTy → Type) := (⟨S64x128x64x64, .f32⟩ : BufTy).Contents (Elt F)
abbrev C16 (F : FTy → Type) := (⟨S16x128x64x64, .f32⟩ : BufTy).Contents (Elt F)
abbrev CI (F : FTy → Type) := (⟨S64, .i32⟩ : BufTy).Contents (Elt F)
abbrev CW (F : FTy → Type) := (⟨S4x128, .f32⟩ : BufTy).Contents (Elt F)
abbrev CV (F : FTy → Type) := (⟨S128, .f32⟩ : BufTy).Contents (Elt F)
abbrev CS (F : FTy → Type) := (⟨S1x128x1x1, .f32⟩ : BufTy).Contents (Elt F)
abbrev CT (F : FTy → Type) := (⟨S16x128x1x1, .f32⟩ : BufTy).Contents (Elt F)

/-- An index array made a column of start indices: a negative word has 64 added (the index counted from the end). -/
def fixIdx (s : CI F) : (⟨S64x1, .i32⟩ : BufTy).Contents (Elt F) :=
  broadcastInDim S64x1 ![0] bcast_S64_S64x1_0
    (select (cmpi .slt s (broadcastInDim S64 ![] bcast_S_S64 (constantI S_ 32 0#32)))
      (addi s (broadcastInDim S64 ![] bcast_S_S64 (constantI S_ 32 64#32))) s)

/-- The rows of `x` taken in the order `s` gives. -/
def rows (x : C64 F) (s : CI F) : C64 F :=
  Host.gather gather_S64x128x64x64_S64x1_S64x128x64x64_123_0_n_n_0_1_11286464 x (fixIdx s)

/-- Rows 0 … 15. -/
def sl0 (x : C64 F) : C16 F := extractStridedSlice S16x128x64x64 ![0, 0, 0, 0] x slices_S64x128x64x64_S16x128x64x64_0_0_0_0
/-- Rows 16 … 31. -/
def sl1 (x : C64 F) : C16 F := extractStridedSlice S16x128x64x64 ![16, 0, 0, 0] x slices_S64x128x64x64_S16x128x64x64_16_0_0_0
/-- Rows 32 … 47. -/
def sl2 (x : C64 F) : C16 F := extractStridedSlice S16x128x64x64 ![32, 0, 0, 0] x slices_S64x128x64x64_S16x128x64x64_32_0_0_0
/-- Rows 48 … 63. -/
def sl3 (x : C64 F) : C16 F := extractStridedSlice S16x128x64x64 ![48, 0, 0, 0] x slices_S64x128x64x64_S16x128x64x64_48_0_0_0

/-- Row 0 of a `[4, 128]` table as a vector. -/
def row0 (a : CW F) : CV F := fun i => shapeCast S128 (extractStridedSlice S1x128 ![0, 0] a slices_S4x128_S1x128_0_0) shapeCasts_S1x128_S128 i
/-- Row 1. -/
def row1 (a : CW F) : CV F := fun i => shapeCast S128 (extractStridedSlice S1x128 ![1, 0] a slices_S4x128_S1x128_1_0) shapeCasts_S1x128_S128 i
/-- Row 2. -/
def row2 (a : CW F) : CV F := fun i => shapeCast S128 (extractStridedSlice S1x128 ![2, 0] a slices_S4x128_S1x128_2_0) shapeCasts_S1x128_S128 i
/-- Row 3. -/
def row3 (a : CW F) : CV F := fun i => shapeCast S128 (extractStridedSlice S1x128 ![3, 0] a slices_S4x128_S1x128_3_0) shapeCasts_S1x128_S128 i

/-- A per-channel vector as a `[1, 128, 1, 1]` array. -/
def chan (v : CV F) : CS F := broadcastInDim S1x128x1x1 ![1] bcast_S128_S1x128x1x1_1 v
/-- A `[1, 128, 1, 1]` array spread over sixteen rows and the 64 × 64 positions. -/
def up16 (v : CS F) : C16 F := broadcastInDim S16x128x64x64 ![0, 1, 2, 3] bcast_S1x128x1x1_S16x128x64x64_0_1_2_3 v
/-- A scalar spread over `[1, 128, 1, 1]`. -/
def splatS (v : (⟨S_, .f32⟩ : BufTy).Contents (Elt F)) : CS F := broadcastInDim S1x128x1x1 ![] bcast_S_S1x128x1x1 v

/-- The per-channel sum over sixteen rows and all positions. -/
def sum16 (xg : C16 F) : CV F := Host.reduceAdd xg (constant S_ .f32 0x00000000#32) reducesTo_S16x128x64x64_S128_d0_2_3 h_S_
/-- The per-channel mean: that sum over 65536. -/
def mean16 (xg : C16 F) : CS F := Host.divf (chan (sum16 xg)) (splatS (constant S_ .f32 0x47800000#32))
/-- The deviation from the mean. -/
def dev16 (xg : C16 F) : C16 F := subf xg (up16 (mean16 xg))
/-- The count the variance divides by: 65536 less the (zero) correction. -/
def cnt16 : (⟨S_, .f32⟩ : BufTy).Contents (Elt F) := subf (constant S_ .f32 0x47800000#32) (sitofp .f32 (constantI S_ 32 0#32))
/-- The per-channel biased variance: the mean squared deviation where the count is positive, the NaN word otherwise. -/
def var16 (xg : C16 F) : CS F :=
  select (broadcastInDim S1x128x1x1 ![] bcast_S_S1x128x1x1 (cmpf .ogt (cnt16 (F := F)) (constant S_ .f32 0x00000000#32)))
    (Host.divf (chan (sum16 (mulf (dev16 xg) (dev16 xg)))) (splatS cnt16))
    (splatS (id (constant S_ .f32 0x7FC00000#32)))
/-- The deviation scaled by the reciprocal square root of variance plus epsilon. -/
def norm16 (xg : C16 F) : C16 F :=
  mulf (dev16 xg) (up16 (Host.rsqrt (addf (var16 xg) (splatS (constant S_ .f32 0x3727C5AC#32)))))
/-- One domain's batch norm with weight row `w` and bias row `b`. -/
def bn16 (xg : C16 F) (w b : CV F) : C16 F := addf (mulf (norm16 xg) (up16 (chan w))) (up16 (chan b))

/-- A `[16, 128]` array as `[16, 128, 1, 1]`. -/
def chanT (v : (⟨S16x128, .f32⟩ : BufTy).Contents (Elt F)) : CT F := broadcastInDim S16x128x1x1 ![0, 1] bcast_S16x128_S16x128x1x1_0_1 v
/-- A `[16, 128, 1, 1]` array spread over the 64 × 64 positions. -/
def upT (v : CT F) : C16 F := broadcastInDim S16x128x64x64 ![0, 1, 2, 3] bcast_S16x128x1x1_S16x128x64x64_0_1_2_3 v
/-- A scalar spread over `[16, 128, 1, 1]`. -/
def splatT (v : (⟨S_, .f32⟩ : BufTy).Contents (Elt F)) : CT F := broadcastInDim S16x128x1x1 ![] bcast_S_S16x128x1x1 v
/-- The per-row, per-channel sum over the positions. -/
def sumHW (xg : C16 F) : (⟨S16x128, .f32⟩ : BufTy).Contents (Elt F) :=
  Host.reduceAdd xg (constant S_ .f32 0x00000000#32) reducesTo_S16x128x64x64_S16x128_d2_3 h_S_
/-- The instance mean: that sum over 4096. -/
def meanHW (xg : C16 F) : CT F := Host.divf (chanT (sumHW xg)) (splatT (constant S_ .f32 0x45800000#32))
/-- The deviation from the instance mean. -/
def devHW (xg : C16 F) : C16 F := subf xg (upT (meanHW xg))
/-- 4096 less the (zero) correction. -/
def cntHW : (⟨S_, .f32⟩ : BufTy).Contents (Elt F) := subf (constant S_ .f32 0x45800000#32) (sitofp .f32 (constantI S_ 32 0#32))
/-- The instance variance. -/
def varHW (xg : C16 F) : CT F :=
  select (broadcastInDim S16x128x1x1 ![] bcast_S_S16x128x1x1 (cmpf .ogt (cntHW (F := F)) (constant S_ .f32 0x00000000#32)))
    (Host.divf (chanT (sumHW (mulf (devHW xg) (devHW xg)))) (splatT cntHW))
    (splatT (id (constant S_ .f32 0x7FC00000#32)))
/-- The instance norm with weight `w` and bias `b`. -/
def inn16 (xg : C16 F) (w b : CV F) : C16 F :=
  addf (mulf (mulf (devHW xg) (upT (Host.rsqrt (addf (varHW xg) (splatT (constant S_ .f32 0x3727C5AC#32)))))) (up16 (chan w))) (up16 (chan b))
/-- The logistic function as the program spells it: one over one plus the exponential of the negation. -/
def sigm (al : CV F) : CV F :=
  Host.divf (broadcastInDim S128 ![] bcast_S_S128 (constant S_ .f32 0x3F800000#32))
    (addf (broadcastInDim S128 ![] bcast_S_S128 (constant S_ .f32 0x3F800000#32)) (Host.exp (Host.negf al)))
/-- The last domain's blend `t · bn + (1 − t) · inn`, `t` the logistic of `al`. -/
def blend (al : CV F) (bn inn : C16 F) : C16 F :=
  addf (mulf (up16 (chan (sigm al))) bn)
    (mulf (up16 (subf (splatS (constant S_ .f32 0x3F800000#32)) (chan (sigm al)))) inn)
/-- Four blocks of sixteen rows stacked. -/
def cat4 (p0 p1 p2 p3 : C16 F) : C64 F :=
  concatenate S64x128x64x64 0 [⟨S16x128x64x64, p0⟩, ⟨S16x128x64x64, p1⟩, ⟨S16x128x64x64, p2⟩, ⟨S16x128x64x64, p3⟩]
    concatenates_S16x128x64x64_S16x128x64x64_S16x128x64x64_S16x128x64x64_S64x128x64x64_d0

/-- @main's result as a function of its eight argument arrays. -/
def result (a0 : C64 F) (a1 a2 : CI F) (a3 a4 : CW F) (a5 a6 a7 : CV F) : C64 F :=
  Host.gather gather_S64x128x64x64_S64x1_S64x128x64x64_123_0_n_n_0_1_11286464
    (cat4 (bn16 (sl0 (rows a0 a1)) (row0 a3) (row0 a4)) (bn16 (sl1 (rows a0 a1)) (row1 a3) (row1 a4))
      (bn16 (sl2 (rows a0 a1)) (row2 a3) (row2 a4))
      (blend a7 (bn16 (sl3 (rows a0 a1)) (row3 a3) (row3 a4)) (inn16 (sl3 (rows a0 a1)) a5 a6)))
    (fixIdx a2)

end Cert.ReferenceIdeal.HandRun

end
-- ==== Proof.RefRun.lean ====
import proofs.«159259_j85899346585_1_alg».proof.Proof.RefRunParts
import proofs.«159259_j85899346585_1_alg».proof.Defs
import proofs.«159259_j85899346585_1_alg».proof.Proof.Gen.Pre_finite_inputs
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The operations, window by window, and the contents after each window -/

/-- The buffer contents before the first operation. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl
theorem val0_main_arg2 (V0 : Valuation τ sig (Elt F)) : val0 V0 (no_index (Proc.devRef .tc main_arg2)) = V0 (Proc.devRef .tc main_arg2) := rfl
theorem val0_main_arg3 (V0 : Valuation τ sig (Elt F)) : val0 V0 (no_index (Proc.devRef .tc main_arg3)) = V0 (Proc.devRef .tc main_arg3) := rfl
theorem val0_main_arg4 (V0 : Valuation τ sig (Elt F)) : val0 V0 (no_index (Proc.devRef .tc main_arg4)) = V0 (Proc.devRef .tc main_arg4) := rfl
theorem val0_main_arg5 (V0 : Valuation τ sig (Elt F)) : val0 V0 (no_index (Proc.devRef .tc main_arg5)) = V0 (Proc.devRef .tc main_arg5) := rfl
theorem val0_main_arg6 (V0 : Valuation τ sig (Elt F)) : val0 V0 (no_index (Proc.devRef .tc main_arg6)) = V0 (Proc.devRef .tc main_arg6) := rfl
theorem val0_main_arg7 (V0 : Valuation τ sig (Elt F)) : val0 V0 (no_index (Proc.devRef .tc main_arg7)) = V0 (Proc.devRef .tc main_arg7) := rfl

/-- Operations 1 … 17 of the 276. -/
abbrev w0 : List (HloOp τ sig (Elt F)) :=
  [ nullary main_c (constantI S_ 32 0#32),
    unary main_c main_v0 (broadcastInDim S64 ![] bcast_S_S64 : (⟨S_, .i32⟩ : BufTy).Contents (Elt F) → (⟨S64, .i32⟩ : BufTy).Contents (Elt F)),
    binary main_arg1 main_v0 main_v1 (cmpi .slt : (⟨S64, .i32⟩ : BufTy).Contents (Elt F) → (⟨S64, .i32⟩ : BufTy).Contents (Elt F) → (⟨S64, .i1⟩ : BufTy).Contents (Elt F)),
    nullary main_c_0 (constantI S_ 32 64#32),
    unary main_c_0 main_v2 (broadcastInDim S64 ![] bcast_S_S64 : (⟨S_, .i32⟩ : BufTy).Contents (Elt F) → (⟨S64, .i32⟩ : BufTy).Contents (Elt F)),
    binary main_arg1 main_v2 main_v3 (addi : (⟨S64, .i32⟩ : BufTy).Contents (Elt F) → (⟨S64, .i32⟩ : BufTy).Contents (Elt F) → (⟨S64, .i32⟩ : BufTy).Contents (Elt F)),
    ternary main_v1 main_v3 main_arg1 main_v4 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v4 main_v5 (broadcastInDim S64x1 ![0] bcast_S64_S64x1_0 : (⟨S64, .i32⟩ : BufTy).Contents (Elt F) → (⟨S64x1, .i32⟩ : BufTy).Contents (Elt F)),
    binary main_arg0 main_v5 main_v6 ((fun x i => Host.gather gather_S64x128x64x64_S64x1_S64x128x64x64_123_0_n_n_0_1_11286464 x i) : (⟨S64x128x64x64, .f32⟩ : BufTy).Contents (Elt F) → (⟨S64x1, .i32⟩ : BufTy).Contents (Elt F) → (⟨S64x128x64x64, .f32⟩ : BufTy).Contents (Elt F)),
    unary main_v6 main_v7 ((extractStridedSlice S16x128x64x64 ![0, 0, 0, 0] · slices_S64x128x64x64_S16x128x64x64_0_0_0_0) : (⟨S64x128x64x64, .f32⟩ : BufTy).Contents (Elt F) → (⟨S16x128x64x64, .f32⟩ : BufTy).Contents (Elt F)),
    nullary main_cst (constant S_ .f32 0x00000000#32),
    binary main_v7 main_cst main_v8 ((fun x v => Host.reduceAdd x v reducesTo_S16x128x64x64_S128_d0_2_3 h_S_) : (⟨S16x128x64x64, .f32⟩ : BufTy).Contents (Elt F) → (⟨S_, .f32⟩ : BufTy).Contents (Elt F) → (⟨S128, .f32⟩ : BufTy).Contents (Elt F)),
    unary main_v8 main_v9 (broadcastInDim S1x128x1x1 ![1] bcast_S128_S1x128x1x1_1 : (⟨S128, .f32⟩ : BufTy).Contents (Elt F) → (⟨S1x128x1x1, .f32⟩ : BufTy).Contents (Elt F)),
    nullary main_cst_1 (constant S_ .f32 0x47800000#32),
    unary main_cst_1 main_v10 (broadcastInDim S1x128x1x1 ![] bcast_S_S1x128x1x1 : (⟨S_, .f32⟩ : BufTy).Contents (Elt F) → (⟨S1x128x1x1, .f32⟩ : BufTy).Contents (Elt F)),
    binary main_v9 main_v10 main_v11 (Host.divf : (⟨S1x128x1x1, .f32⟩ : BufTy).Contents (Elt F) → (⟨S1x128x1x1, .f32⟩ : BufTy).Contents (Elt F) → (⟨S1x128x1x1, .f32⟩ : BufTy).Contents (Elt F)),
    nullary main_c_2 (constantI S_ 32 0#32) ]

theorem w0_sub : (w0 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., binary_bufs_sub .., unary_bufs_sub .., nullary_bufs_sub .., unary_bufs_sub .., binary_bufs_sub .., nullary_bufs_sub ..⟩
theorem w0_fresh : ∀ op ∈ (w0 : List (HloOp τ sig (Elt F))), op.fresh = ∅ := by
  intro _ h; (repeat (cases h with | head => rfl | tail _ h => ?_)); exact nomatch h
/-- The buffers these operations write. -/
abbrev w0_W : List (Ref sig .tc) := [main_c, main_v0, main_v1, main_c_0, main_v2, main_v3, main_v4, main_v5, main_v6, main_v7, main_cst, main_v8, main_v9, main_cst_1, main_v10, main_v11, main_c_2]
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 17 operations. -/
def val1 (V0 : Valuation τ sig (Elt F)) : Valuation τ sig (Elt F) := after w0 (val0 V0)
theorem val1_keep (V0 : Valuation τ sig (Elt F)) (r : Ref sig .tc) (h : r ∉ w0_W) :
    val1 V0 (Proc.devRef .tc r) = val0 V0 (Proc.devRef .tc r) :=
  after_of_writes_sub w0 _ w0_writes h
theorem val1_main_arg0 (V0 : Valuation τ sig (Elt F)) : val1 V0 (no_index (Proc.devRef .tc main_arg0)) = V0 (Proc.devRef .tc main_arg0) :=
  (val1_keep V0 main_arg0 (by decide)).trans (val0_main_arg0 V0)
theorem val1_main_arg1 (V0 : Valuation τ sig (Elt F)) : val1 V0 (no_index (Proc.devRef .tc main_arg1)) = V0 (Proc.devRef .tc main_arg1) :=
  (val1_keep V0 main_arg1 (by decide)).trans (val0_main_arg1 V0)
theorem val1_main_arg2 (V0 : Valuation τ sig (Elt F)) : val1 V0 (no_index (Proc.devRef .tc main_arg2)) = V0 (Proc.devRef .tc main_arg2) :=
  (val1_keep V0 main_arg2 (by decide)).trans (val0_main_arg2 V0)
theorem val1_main_arg3 (V0 : Valuation τ sig (Elt F)) : val1 V0 (no_index (Proc.devRef .tc main_arg3)) = V0 (Proc.devRef .tc main_arg3) :=
  (val1_keep V0 main_arg3 (by decide)).trans (val0_main_arg3 V0)
theorem val1_main_arg4 (V0 : Valuation τ sig (Elt F)) : val1 V0 (no_index (Proc.devRef .tc main_arg4)) = V0 (Proc.devRef .tc main_arg4) :=
  (val1_keep V0 main_arg4 (by decide)).trans (val0_main_arg4 V0)
theorem val1_main_arg5 (V0 : Valuation τ sig (Elt F)) : val1 V0 (no_index (Proc.devRef .tc main_arg5)) = V0 (Proc.devRef .tc main_arg5) :=
  (val1_keep V0 main_arg5 (by decide)).trans (val0_main_arg5 V0)
theorem val1_main_arg6 (V0 : Valuation τ sig (Elt F)) : val1 V0 (no_index (Proc.devRef .tc main_arg6)) = V0 (Proc.devRef .tc main_arg6) :=
  (val1_keep V0 main_arg6 (by decide)).trans (val0_main_arg6 V0)
theorem val1_main_arg7 (V0 : Valuation τ sig (Elt F)) : val1 V0 (no_index (Proc.devRef .tc main_arg7)) = V0 (Proc.devRef .tc main_arg7) :=
  (val1_keep V0 main_arg7 (by decide)).trans (val0_main_arg7 V0)
set_option maxRecDepth 8192 in
set_option maxHeartbeats 1700000 in
theorem val1_main_v6 (V0 : Valuation τ sig (Elt F)) : val1 V0 (no_index (Proc.devRef .tc main_v6)) = rows (V0 (Proc.devRef .tc main_arg0)) (V0 (Proc.devRef .tc main_arg1)) := by
  unfold val1
  simp only [w0]
  after_results_simp
  simp only [val0_main_arg1, val0_main_arg0] <;> rfl
set_option maxRecDepth 8192 in
set_option maxHeartbeats 1700000 in
theorem val1_main_v7 (V0 : Valuation τ sig (Elt F)) : val1 V0 (no_index (Proc.devRef .tc main_v7)) = sl0 (rows (V0 (Proc.devRef .tc main_arg0)) (V0 (Proc.devRef .tc main_arg1))) := by
  unfold val1
  simp only [w0]
  after_results_simp
  simp only [val0_main_arg1, val0_main_arg0] <;> rfl
set_option maxRecDepth 8192 in
set_option maxHeartbeats 1700000 in
theorem val1_main_v11 (V0 : Valuation τ sig (Elt F)) : val1 V0 (no_index (Proc.devRef .tc main_v11)) = mean16 (sl0 (rows (V0 (Proc.devRef .tc main_arg0)) (V0 (Proc.devRef .tc main_arg1)))) := by
  unfold val1
  simp only [w0]
  after_results_simp
  simp only [val0_main_arg1, val0_main_arg0] <;> rfl
set_option maxRecDepth 8192 in
set_option maxHeartbeats 1700000 in
theorem val1_main_c_2 (V0 : Valuation τ sig (Elt F)) : val1 V0 (no_index (Proc.devRef .tc main_c_2)) = constantI S_ 32 0#32 := by
  unfold val1
  simp only [w0]
  after_results_simp
  all_goals rfl

/-- Operations 18 … 40 of the 276. -/
abbrev w1 : List (HloOp τ sig (Elt F)) :=
  [ TRef.nullary (.of main_call0_cst : TRef sig ⟨S_, .f32⟩) (constant S_ .f32 0x00000000#32),
    TRef.binary (.of main_v7 : TRef sig ⟨S16x128x64x64, .f32⟩) (.of main_call0_cst : TRef sig ⟨S_, .f32⟩) (.of main_call0_v0 : TRef sig ⟨S128, .f32⟩) (fun x v => Host.reduceAdd x v reducesTo_S16x128x64x64_S128_d0_2_3 h_S_),
    TRef.unary (.of main_call0_v0 : TRef sig ⟨S128, .f32⟩) (.of main_call0_v1 : TRef sig ⟨S1x128x1x1, .f32⟩) (broadcastInDim S1x128x1x1 ![1] bcast_S128_S1x128x1x1_1),
    TRef.nullary (.of main_call0_cst_0 : TRef sig ⟨S_, .f32⟩) (constant S_ .f32 0x47800000#32),
    TRef.unary (.of main_call0_cst_0 : TRef sig ⟨S_, .f32⟩) (.of main_call0_v2 : TRef sig ⟨S1x128x1x1, .f32⟩) (broadcastInDim S1x128x1x1 ![] bcast_S_S1x128x1x1),
    TRef.binary (.of main_call0_v1 : TRef sig ⟨S1x128x1x1, .f32⟩) (.of main_call0_v2 : TRef sig ⟨S1x128x1x1, .f32⟩) (.of main_call0_v3 : TRef sig ⟨S1x128x1x1, .f32⟩) Host.divf,
    TRef.unary (.of main_call0_v3 : TRef sig ⟨S1x128x1x1, .f32⟩) (.of main_call0_v4 : TRef sig ⟨S16x128x64x64, .f32⟩) (broadcastInDim S16x128x64x64 ![0, 1, 2, 3] bcast_S1x128x1x1_S16x128x64x64_0_1_2_3),
    TRef.binary (.of main_v7 : TRef sig ⟨S16x128x64x64, .f32⟩) (.of main_call0_v4 : TRef sig ⟨S16x128x64x64, .f32⟩) (.of main_call0_v5 : TRef sig ⟨S16x128x64x64, .f32⟩) subf,
    TRef.binary (.of main_call0_v5 : TRef sig ⟨S16x128x64x64, .f32⟩) (.of main_call0_v5 : TRef sig ⟨S16x128x64x64, .f32⟩) (.of main_call0_v6 : TRef sig ⟨S16x128x64x64, .f32⟩) mulf,
    TRef.unary (.of main_c_2 : TRef sig ⟨S_, .i32⟩) (.of main_call0_v7 : TRef sig ⟨S_, .f32⟩) (sitofp .f32),
    TRef.nullary (.of main_call0_cst_1 : TRef sig ⟨S_, .f32⟩) (constant S_ .f32 0x47800000#32),
    TRef.binary (.of main_call0_cst_1 : TRef sig ⟨S_, .f32⟩) (.of main_call0_v7 : TRef sig ⟨S_, .f32⟩) (.of main_call0_v8 : TRef sig ⟨S_, .f32⟩) subf,
    TRef.nullary (.of main_call0_cst_2 : TRef sig ⟨S_, .f32⟩) (constant S_ .f32 0x00000000#32),
    TRef.binary (.of main_call0_v6 : TRef sig ⟨S16x128x64x64, .f32⟩) (.of main_call0_cst_2 : TRef sig ⟨S_, .f32⟩) (.of main_call0_v9 : TRef sig ⟨S128, .f32⟩) (fun x v => Host.reduceAdd x v reducesTo_S16x128x64x64_S128_d0_2_3 h_S_),
    TRef.unary (.of main_call0_v9 : TRef sig ⟨S128, .f32⟩) (.of main_call0_v10 : TRef sig ⟨S1x128x1x1, .f32⟩) (broadcastInDim S1x128x1x1 ![1] bcast_S128_S1x128x1x1_1),
    TRef.unary (.of main_call0_v8 : TRef sig ⟨S_, .f32⟩) (.of main_call0_v11 : TRef sig ⟨S1x128x1x1, .f32⟩) (broadcastInDim S1x128x1x1 ![] bcast_S_S1x128x1x1),
    TRef.binary (.of main_call0_v10 : TRef sig ⟨S1x128x1x1, .f32⟩) (.of main_call0_v11 : TRef sig ⟨S1x128x1x1, .f32⟩) (.of main_call0_v12 : TRef sig ⟨S1x128x1x1, .f32⟩) Host.divf,
    TRef.nullary (.of main_call0_cst_3 : TRef sig ⟨S_, .f32⟩) (constant S_ .f32 0x00000000#32),
    TRef.binary (.of main_call0_v8 : TRef sig ⟨S_, .f32⟩) (.of main_call0_cst_3 : TRef sig ⟨S_, .f32⟩) (.of main_call0_v13 : TRef sig ⟨S_, .i1⟩) (cmpf .ogt),
    TRef.nullary (.of main_call0_cst_4 : TRef sig ⟨S_, .f32⟩) (constant S_ .f32 0x7FC00000#32),
    TRef.unary (.of main_call0_cst_4 : TRef sig ⟨S_, .f32⟩) (.of main_call0_call0_v0 : TRef sig ⟨S_, .f32⟩) id,
    TRef.unary (.of main_call0_call0_v0 : TRef sig ⟨S_, .f32⟩) (.of main_call0_call0_v1 : TRef sig ⟨S1x128x1x1, .f32⟩) (broadcastInDim S1x128x1x1 ![] bcast_S_S1x128x1x1),
    TRef.ternary (.of main_call0_v13 : TRef sig ⟨S_, .i1⟩) (.of main_call0_v12 : TRef sig ⟨S1x128x1x1, .f32⟩) (.of main_call0_call0_v1 : TRef sig ⟨S1x128x1x1, .f32⟩) (.of main_v12 : TRef sig ⟨S1x128x1x1, .f32⟩) (fun p a b => select (broadcastInDim S1x128x1x1 ![] bcast_S_S1x128x1x1 p) a b) ]

theorem w1_sub : (w1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w1_fresh : ∀ op ∈ (w1 : List (HloOp τ sig (Elt F))), op.fresh = ∅ := by
  intro _ h; (repeat (cases h with | head => rfl | tail _ h => ?_)); exact nomatch h
/-- The buffers these operations write. -/
abbrev w1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v12]
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 40 operations. -/
def val2 (V0 : Valuation τ sig (Elt F)) : Valuation τ sig (Elt F) := after w1 (val1 V0)
theorem val2_keep (V0 : Valuation τ sig (Elt F)) (r : Ref sig .tc) (h : r ∉ w1_W) :
    val2 V0 (Proc.devRef .tc r) = val1 V0 (Proc.devRef .tc r) :=
  after_of_writes_sub w1 _ w1_writes h
theorem val2_main_arg0 (V0 : Valuation τ sig (Elt F)) : val2 V0 (no_index (Proc.devRef .tc main_arg0)) = V0 (Proc.devRef .tc main_arg0) :=
  (val2_keep V0 main_arg0 (by decide)).trans (val1_main_arg0 V0)
theorem val2_main_arg1 (V0 : Valuation τ sig (Elt F)) : val2 V0 (no_index (Proc.devRef .tc main_arg1)) = V0 (Proc.devRef .tc main_arg1) :=
  (val2_keep V0 main_arg1 (by decide)).trans (val1_main_arg1 V0)
theorem val2_main_arg2 (V0 : Valuation τ sig (Elt F)) : val2 V0 (no_index (Proc.devRef .tc main_arg2)) = V0 (Proc.devRef .tc main_arg2) :=
  (val2_keep V0 main_arg2 (by decide)).trans (val1_main_arg2 V0)
theorem val2_main_arg3 (V0 : Valuation τ sig (Elt F)) : val2 V0 (no_index (Proc.devRef .tc main_arg3)) = V0 (Proc.devRef .tc main_arg3) :=
  (val2_keep V0 main_arg3 (by decide)).trans (val1_main_arg3 V0)
theorem val2_main_arg4 (V0 : Valuation τ sig (Elt F)) : val2 V0 (no_index (Proc.devRef .tc main_arg4)) = V0 (Proc.devRef .tc main_arg4) :=
  (val2_keep V0 main_arg4 (by decide)).trans (val1_main_arg4 V0)
theorem val2_main_arg5 (V0 : Valuation τ sig (Elt F)) : val2 V0 (no_index (Proc.devRef .tc main_arg5)) = V0 (Proc.devRef .tc main_arg5) :=
  (val2_keep V0 main_arg5 (by decide)).trans (val1_main_arg5 V0)
theorem val2_main_arg6 (V0 : Valuation τ sig (Elt F)) : val2 V0 (no_index (Proc.devRef .tc main_arg6)) = V0 (Proc.devRef .tc main_arg6) :=
  (val2_keep V0 main_arg6 (by decide)).trans (val1_main_arg6 V0)
theorem val2_main_arg7 (V0 : Valuation τ sig (Elt F)) : val2 V0 (no_index (Proc.devRef .tc main_arg7)) = V0 (Proc.devRef .tc main_arg7) :=
  (val2_keep V0 main_arg7 (by decide)).trans (val1_main_arg7 V0)
theorem val2_main_v6 (V0 : Valuation τ sig (Elt F)) : val2 V0 (no_index (Proc.devRef .tc main_v6)) = rows (V0 (Proc.devRef .tc main_arg0)) (V0 (Proc.devRef .tc main_arg1)) :=
  (val2_keep V0 main_v6 (by decide)).trans (val1_main_v6 V0)
theorem val2_main_v7 (V0 : Valuation τ sig (Elt F)) : val2 V0 (no_index (Proc.devRef .tc main_v7)) = sl0 (rows (V0 (Proc.devRef .tc main_arg0)) (V0 (Proc.devRef .tc main_arg1))) :=
  (val2_keep V0 main_v7 (by decide)).trans (val1_main_v7 V0)
theorem val2_main_v11 (V0 : Valuation τ sig (Elt F)) : val2 V0 (no_index (Proc.devRef .tc main_v11)) = mean16 (sl0 (rows (V0 (Proc.devRef .tc main_arg0)) (V0 (Proc.devRef .tc main_arg1)))) :=
  (val2_keep V0 main_v11 (by decide)).trans (val1_main_v11 V0)
set_option maxRecDepth 8192 in
set_option maxHeartbeats 2000000 in
theorem val2_main_v12 (V0 : Valuation τ sig (Elt F)) : val2 V0 (no_index (Proc.devRef .tc main_v12)) = var16 (sl0 (rows (V0 (Proc.devRef .tc main_arg0)) (V0 (Proc.devRef .tc main_arg1)))) := by
  unfold val2
  simp only [w1]
  after_results_simp
  simp only [val1_main_c_2, val1_main_v7] <;> rfl

/-- Operations 41 … 66 of the 276. -/
abbrev w2 : List (HloOp τ sig (Elt F)) :=
  [ unary main_v11 main_v13 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v7 main_v13 main_v14 (subf : (⟨S16x128x64x64, .f32⟩ : BufTy).Contents (Elt F) → (⟨S16x128x64x64, .f32⟩ : BufTy).Contents (Elt F) → (⟨S16x128x64x64, .f32⟩ : BufTy).Contents (Elt F)),
    nullary main_cst_3 (constant S_ .f32 0x3727C5AC#32),
    unary main_cst_3 main_v15 (broadcastInDim S1x128x1x1 ![] bcast_S_S1x128x1x1 : (⟨S_, .f32⟩ : BufTy).Contents (Elt F) → (⟨S1x128x1x1, .f32⟩ : BufTy).Contents (Elt F)),
    binary main_v12 main_v15 main_v16 (addf : (⟨S1x128x1x1, .f32⟩ : BufTy).Contents (Elt F) → (⟨S1x128x1x1, .f32⟩ : BufTy).Contents (Elt F) → (⟨S1x128x1x1, .f32⟩ : BufTy).Contents (Elt F)),
    unary main_v16 main_v17 (Host.rsqrt : (⟨S1x128x1x1, .f32⟩ : BufTy).Contents (Elt F) → (⟨S1x128x1x1, .f32⟩ : BufTy).Contents (Elt F)),
    unary main_v17 main_v18 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v14 main_v18 main_v19 (mulf : (⟨S16x128x64x64, .f32⟩ : BufTy).Contents (Elt F) → (⟨S16x128x64x64, .f32⟩ : BufTy).Contents (Elt F) → (⟨S16x128x64x64, .f32⟩ : BufTy).Contents (Elt F)),
    unary main_arg3 main_v20 ((extractStridedSlice S1x128 ![0, 0] · slices_S4x128_S1x128_0_0) : (⟨S4x128, .f32⟩ : BufTy).Contents (Elt F) → (⟨S1x128, .f32⟩ : BufTy).Contents (Elt F)),
    reshape main_v20 main_v21 rfl shapeCasts_S1x128_S128,
    unary main_v21 main_v22 (broadcastInDim S1x128x1x1 ![1] bcast_S128_S1x128x1x1_1 : (⟨S128, .f32⟩ : BufTy).Contents (Elt F) → (⟨S1x128x1x1, .f32⟩ : BufTy).Contents (Elt F)),
    unary main_v22 main_v23 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v19 main_v23 main_v24 (mulf : (⟨S16x128x64x64, .f32⟩ : BufTy).Contents (Elt F) → (⟨S16x128x64x64, .f32⟩ : BufTy).Contents (Elt F) → (⟨S16x128x64x64, .f32⟩ : BufTy).Contents (Elt F)),
    unary main_arg4 main_v25 ((extractStridedSlice S1x128 ![0, 0] · slices_S4x128_S1x128_0_0) : (⟨S4x128, .f32⟩ : BufTy).Contents (Elt F) → (⟨S1x128, .f32⟩ : BufTy).Contents (Elt F)),
    reshape main_v25 main_v26 rfl shapeCasts_S1x128_S128,
    unary main_v26 main_v27 (broadcastInDim S1x128x1x1 ![1] bcast_S128_S1x128x1x1_1 : (⟨S128, .f32⟩ : BufTy).Contents (Elt F) → (⟨S1x128x1x1, .f32⟩ : BufTy).Contents (Elt F)),
    unary main_v27 main_v28 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v24 main_v28 main_v29 (addf : (⟨S16x128x64x64, .f32⟩ : BufTy).Contents (Elt F) → (⟨S16x128x64x64, .f32⟩ : BufTy).Contents (Elt F) → (⟨S16x128x64x64, .f32⟩ : BufTy).Contents (Elt F)),
    unary main_v6 main_v30 ((extractStridedSlice S16x128x64x64 ![16, 0, 0, 0] · slices_S64x128x64x64_S16x128x64x64_16_0_0_0) : (⟨S64x128x64x64, .f32⟩ : BufTy).Contents (Elt F) → (⟨S16x128x64x64, .f32⟩ : BufTy).Contents (Elt F)),
    nullary main_cst_4 (constant S_ .f32 0x00000000#32),
    binary main_v30 main_cst_4 main_v31 ((fun x v => Host.reduceAdd x v reducesTo_S16x128x64x64_S128_d0_2_3 h_S_) : (⟨S16x128x64x64, .f32⟩ : BufTy).Contents (Elt F) → (⟨S_, .f32⟩ : BufTy).Contents (Elt F) → (⟨S128, .f32⟩ : BufTy).Contents (Elt F)),
    unary main_v31 main_v32 (broadcastInDim S1x128x1x1 ![1] bcast_S128_S1x128x1x1_1 : (⟨S128, .f32⟩ : BufTy).Contents (Elt F) → (⟨S1x128x1x1, .f32⟩ : BufTy).Contents (Elt F)),
    nullary main_cst_5 (constant S_ .f32 0x47800000#32),
    unary main_cst_5 main_v33 (broadcastInDim S1x128x1x1 ![] bcast_S_S1x128x1x1 : (⟨S_, .f32⟩ : BufTy).Contents (Elt F) → (⟨S1x128x1x1, .f32⟩ : BufTy).Contents (Elt F)),
    binary main_v32 main_v33 main_v34 (Host.divf : (⟨S1x128x1x1, .f32⟩ : BufTy).Contents (Elt F) → (⟨S1x128x1x1, .f32⟩ : BufTy).Contents (Elt F) → (⟨S1x128x1x1, .f32⟩ : BufTy).Contents (Elt F)),
    nullary main_c_6 (constantI S_ 32 0#32) ]

theorem w2_sub : (w2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., nullary_bufs_sub .., binary_bufs_sub .., unary_bufs_sub .., nullary_bufs_sub .., unary_bufs_sub .., binary_bufs_sub .., nullary_bufs_sub ..⟩
theorem w2_fresh : ∀ op ∈ (w2 : List (HloOp τ sig (Elt F))), op.fresh = ∅ := by
  intro _ h; (repeat (cases h with | head => rfl | tail _ h => ?_)); exact nomatch h
/-- The buffers these operations write. -/
abbrev w2_W : List (Ref sig .tc) := [main_v13, main_v14, main_cst_3, main_v15, main_v16, main_v17, main_v18, main_v19, main_v20, main_v21, main_v22, main_v23, main_v24, main_v25, main_v26, main_v27, main_v28, main_v29, main_v30, main_cst_4, main_v31, main_v32, main_cst_5, main_v33, main_v34, main_c_6]
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 66 operations. -/
def val3 (V0 : Valuation τ sig (Elt F)) : Valuation τ sig (Elt F) := after w2 (val2 V0)
theorem val3_keep (V0 : Valuation τ sig (Elt F)) (r : Ref sig .tc) (h : r ∉ w2_W) :
    val3 V0 (Proc.devRef .tc r) = val2 V0 (Proc.devRef .tc r) :=
  after_of_writes_sub w2 _ w2_writes h
theorem val3_main_arg0 (V0 : Valuation τ sig (Elt F)) : val3 V0 (no_index (Proc.devRef .tc main_arg0)) = V0 (Proc.devRef .tc main_arg0) :=
  (val3_keep V0 main_arg0 (by decide)).trans (val2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_main_arg1 V0)
theorem val3_main_arg2 (V0 : Valuation τ sig (Elt F)) : val3 V0 (no_index (Proc.devRef .tc main_arg2)) = V0 (Proc.devRef .tc main_arg2) :=
  (val3_keep V0 main_arg2 (by decide)).trans (val2_main_arg2 V0)
theorem val3_main_arg3 (V0 : Valuation τ sig (Elt F)) : val3 V0 (no_index (Proc.devRef .tc main_arg3)) = V0 (Proc.devRef .tc main_arg3) :=
  (val3_keep V0 main_arg3 (by decide)).trans (val2_main_arg3 V0)
theorem val3_main_arg4 (V0 : Valuation τ sig (Elt F)) : val3 V0 (no_index (Proc.devRef .tc main_arg4)) = V0 (Proc.devRef .tc main_arg4) :=
  (val3_keep V0 main_arg4 (by decide)).trans (val2_main_arg4 V0)
theorem val3_main_arg5 (V0 : Valuation τ sig (Elt F)) : val3 V0 (no_index (Proc.devRef .tc main_arg5)) = V0 (Proc.devRef .tc main_arg5) :=
  (val3_keep V0 main_arg5 (by decide)).trans (val2_main_arg5 V0)
theorem val3_main_arg6 (V0 : Valuation τ sig (Elt F)) : val3 V0 (no_index (Proc.devRef .tc main_arg6)) = V0 (Proc.devRef .tc main_arg6) :=
  (val3_keep V0 main_arg6 (by decide)).trans (val2_main_arg6 V0)
theorem val3_main_arg7 (V0 : Valuation τ sig (Elt F)) : val3 V0 (no_index (Proc.devRef .tc main_arg7)) = V0 (Proc.devRef .tc main_arg7) :=
  (val3_keep V0 main_arg7 (by decide)).trans (val2_main_arg7 V0)
theorem val3_main_v6 (V0 : Valuation τ sig (Elt F)) : val3 V0 (no_index (Proc.devRef .tc main_v6)) = rows (V0 (Proc.devRef .tc main_arg0)) (V0 (Proc.devRef .tc main_arg1)) :=
  (val3_keep V0 main_v6 (by decide)).trans (val2_main_v6 V0)
set_option maxRecDepth 8192 in
set_option maxHeartbeats 2000000 in
theorem val3_main_v29 (V0 : Valuation τ sig (Elt F)) : val3 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) := by
  unfold val3
  simp only [w2]
  after_results_simp
  simp only [val2_main_arg4, val2_main_arg3, val2_main_v12, val2_main_v11, val2_main_v7] <;> rfl
set_option maxRecDepth 8192 in
set_option maxHeartbeats 2000000 in
theorem val3_main_v30 (V0 : Valuation τ sig (Elt F)) : val3 V0 (no_index (Proc.devRef .tc main_v30)) = sl1 (rows (V0 (Proc.devRef .tc main_arg0)) (V0 (Proc.devRef .tc main_arg1))) := by
  unfold val3
  simp only [w2]
  after_results_simp
  simp only [val2_main_v6] <;> rfl
set_option maxRecDepth 8192 in
set_option maxHeartbeats 2000000 in
theorem val3_main_v34 (V0 : Valuation τ sig (Elt F)) : val3 V0 (no_index (Proc.devRef .tc main_v34)) = mean16 (sl1 (rows (V0 (Proc.devRef .tc main_arg0)) (V0 (Proc.devRef .tc main_arg1)))) := by
  unfold val3
  simp only [w2]
  after_results_simp
  simp only [val2_main_v6] <;> rfl
set_option maxRecDepth 8192 in
set_option maxHeartbeats 2000000 in
theorem val3_main_c_6 (V0 : Valuation τ sig (Elt F)) : val3 V0 (no_index (Proc.devRef .tc main_c_6)) = constantI S_ 32 0#32 := by
  unfold val3
  simp only [w2]
  after_results_simp
  all_goals rfl

/-- Operations 67 … 89 of the 276. -/
abbrev w3 : List (HloOp τ sig (Elt F)) :=
  [ TRef.nullary (.of main_call1_cst : TRef sig ⟨S_, .f32⟩) (constant S_ .f32 0x00000000#32),
    TRef.binary (.of main_v30 : TRef sig ⟨S16x128x64x64, .f32⟩) (.of main_call1_cst : TRef sig ⟨S_, .f32⟩) (.of main_call1_v0 : TRef sig ⟨S128, .f32⟩) (fun x v => Host.reduceAdd x v reducesTo_S16x128x64x64_S128_d0_2_3 h_S_),
    TRef.unary (.of main_call1_v0 : TRef sig ⟨S128, .f32⟩) (.of main_call1_v1 : TRef sig ⟨S1x128x1x1, .f32⟩) (broadcastInDim S1x128x1x1 ![1] bcast_S128_S1x128x1x1_1),
    TRef.nullary (.of main_call1_cst_0 : TRef sig ⟨S_, .f32⟩) (constant S_ .f32 0x47800000#32),
    TRef.unary (.of main_call1_cst_0 : TRef sig ⟨S_, .f32⟩) (.of main_call1_v2 : TRef sig ⟨S1x128x1x1, .f32⟩) (broadcastInDim S1x128x1x1 ![] bcast_S_S1x128x1x1),
    TRef.binary (.of main_call1_v1 : TRef sig ⟨S1x128x1x1, .f32⟩) (.of main_call1_v2 : TRef sig ⟨S1x128x1x1, .f32⟩) (.of main_call1_v3 : TRef sig ⟨S1x128x1x1, .f32⟩) Host.divf,
    TRef.unary (.of main_call1_v3 : TRef sig ⟨S1x128x1x1, .f32⟩) (.of main_call1_v4 : TRef sig ⟨S16x128x64x64, .f32⟩) (broadcastInDim S16x128x64x64 ![0, 1, 2, 3] bcast_S1x128x1x1_S16x128x64x64_0_1_2_3),
    TRef.binary (.of main_v30 : TRef sig ⟨S16x128x64x64, .f32⟩) (.of main_call1_v4 : TRef sig ⟨S16x128x64x64, .f32⟩) (.of main_call1_v5 : TRef sig ⟨S16x128x64x64, .f32⟩) subf,
    TRef.binary (.of main_call1_v5 : TRef sig ⟨S16x128x64x64, .f32⟩) (.of main_call1_v5 : TRef sig ⟨S16x128x64x64, .f32⟩) (.of main_call1_v6 : TRef sig ⟨S16x128x64x64, .f32⟩) mulf,
    TRef.unary (.of main_c_6 : TRef sig ⟨S_, .i32⟩) (.of main_call1_v7 : TRef sig ⟨S_, .f32⟩) (sitofp .f32),
    TRef.nullary (.of main_call1_cst_1 : TRef sig ⟨S_, .f32⟩) (constant S_ .f32 0x47800000#32),
    TRef.binary (.of main_call1_cst_1 : TRef sig ⟨S_, .f32⟩) (.of main_call1_v7 : TRef sig ⟨S_, .f32⟩) (.of main_call1_v8 : TRef sig ⟨S_, .f32⟩) subf,
    TRef.nullary (.of main_call1_cst_2 : TRef sig ⟨S_, .f32⟩) (constant S_ .f32 0x00000000#32),
    TRef.binary (.of main_call1_v6 : TRef sig ⟨S16x128x64x64, .f32⟩) (.of main_call1_cst_2 : TRef sig ⟨S_, .f32⟩) (.of main_call1_v9 : TRef sig ⟨S128, .f32⟩) (fun x v => Host.reduceAdd x v reducesTo_S16x128x64x64_S128_d0_2_3 h_S_),
    TRef.unary (.of main_call1_v9 : TRef sig ⟨S128, .f32⟩) (.of main_call1_v10 : TRef sig ⟨S1x128x1x1, .f32⟩) (broadcastInDim S1x128x1x1 ![1] bcast_S128_S1x128x1x1_1),
    TRef.unary (.of main_call1_v8 : TRef sig ⟨S_, .f32⟩) (.of main_call1_v11 : TRef sig ⟨S1x128x1x1, .f32⟩) (broadcastInDim S1x128x1x1 ![] bcast_S_S1x128x1x1),
    TRef.binary (.of main_call1_v10 : TRef sig ⟨S1x128x1x1, .f32⟩) (.of main_call1_v11 : TRef sig ⟨S1x128x1x1, .f32⟩) (.of main_call1_v12 : TRef sig ⟨S1x128x1x1, .f32⟩) Host.divf,
    TRef.nullary (.of main_call1_cst_3 : TRef sig ⟨S_, .f32⟩) (constant S_ .f32 0x00000000#32),
    TRef.binary (.of main_call1_v8 : TRef sig ⟨S_, .f32⟩) (.of main_call1_cst_3 : TRef sig ⟨S_, .f32⟩) (.of main_call1_v13 : TRef sig ⟨S_, .i1⟩) (cmpf .ogt),
    TRef.nullary (.of main_call1_cst_4 : TRef sig ⟨S_, .f32⟩) (constant S_ .f32 0x7FC00000#32),
    TRef.unary (.of main_call1_cst_4 : TRef sig ⟨S_, .f32⟩) (.of main_call1_call0_v0 : TRef sig ⟨S_, .f32⟩) id,
    TRef.unary (.of main_call1_call0_v0 : TRef sig ⟨S_, .f32⟩) (.of main_call1_call0_v1 : TRef sig ⟨S1x128x1x1, .f32⟩) (broadcastInDim S1x128x1x1 ![] bcast_S_S1x128x1x1),
    TRef.ternary (.of main_call1_v13 : TRef sig ⟨S_, .i1⟩) (.of main_call1_v12 : TRef sig ⟨S1x128x1x1, .f32⟩) (.of main_call1_call0_v1 : TRef sig ⟨S1x128x1x1, .f32⟩) (.of main_v35 : TRef sig ⟨S1x128x1x1, .f32⟩) (fun p a b => select (broadcastInDim S1x128x1x1 ![] bcast_S_S1x128x1x1 p) a b) ]

theorem w3_sub : (w3 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w3_fresh : ∀ op ∈ (w3 : List (HloOp τ sig (Elt F))), op.fresh = ∅ := by
  intro _ h; (repeat (cases h with | head => rfl | tail _ h => ?_)); exact nomatch h
/-- The buffers these operations write. -/
abbrev w3_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v35]
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 89 operations. -/
def val4 (V0 : Valuation τ sig (Elt F)) : Valuation τ sig (Elt F) := after w3 (val3 V0)
theorem val4_keep (V0 : Valuation τ sig (Elt F)) (r : Ref sig .tc) (h : r ∉ w3_W) :
    val4 V0 (Proc.devRef .tc r) = val3 V0 (Proc.devRef .tc r) :=
  after_of_writes_sub w3 _ w3_writes h
theorem val4_main_arg0 (V0 : Valuation τ sig (Elt F)) : val4 V0 (no_index (Proc.devRef .tc main_arg0)) = V0 (Proc.devRef .tc main_arg0) :=
  (val4_keep V0 main_arg0 (by decide)).trans (val3_main_arg0 V0)
theorem val4_main_arg1 (V0 : Valuation τ sig (Elt F)) : val4 V0 (no_index (Proc.devRef .tc main_arg1)) = V0 (Proc.devRef .tc main_arg1) :=
  (val4_keep V0 main_arg1 (by decide)).trans (val3_main_arg1 V0)
theorem val4_main_arg2 (V0 : Valuation τ sig (Elt F)) : val4 V0 (no_index (Proc.devRef .tc main_arg2)) = V0 (Proc.devRef .tc main_arg2) :=
  (val4_keep V0 main_arg2 (by decide)).trans (val3_main_arg2 V0)
theorem val4_main_arg3 (V0 : Valuation τ sig (Elt F)) : val4 V0 (no_index (Proc.devRef .tc main_arg3)) = V0 (Proc.devRef .tc main_arg3) :=
  (val4_keep V0 main_arg3 (by decide)).trans (val3_main_arg3 V0)
theorem val4_main_arg4 (V0 : Valuation τ sig (Elt F)) : val4 V0 (no_index (Proc.devRef .tc main_arg4)) = V0 (Proc.devRef .tc main_arg4) :=
  (val4_keep V0 main_arg4 (by decide)).trans (val3_main_arg4 V0)
theorem val4_main_arg5 (V0 : Valuation τ sig (Elt F)) : val4 V0 (no_index (Proc.devRef .tc main_arg5)) = V0 (Proc.devRef .tc main_arg5) :=
  (val4_keep V0 main_arg5 (by decide)).trans (val3_main_arg5 V0)
theorem val4_main_arg6 (V0 : Valuation τ sig (Elt F)) : val4 V0 (no_index (Proc.devRef .tc main_arg6)) = V0 (Proc.devRef .tc main_arg6) :=
  (val4_keep V0 main_arg6 (by decide)).trans (val3_main_arg6 V0)
theorem val4_main_arg7 (V0 : Valuation τ sig (Elt F)) : val4 V0 (no_index (Proc.devRef .tc main_arg7)) = V0 (Proc.devRef .tc main_arg7) :=
  (val4_keep V0 main_arg7 (by decide)).trans (val3_main_arg7 V0)
theorem val4_main_v6 (V0 : Valuation τ sig (Elt F)) : val4 V0 (no_index (Proc.devRef .tc main_v6)) = rows (V0 (Proc.devRef .tc main_arg0)) (V0 (Proc.devRef .tc main_arg1)) :=
  (val4_keep V0 main_v6 (by decide)).trans (val3_main_v6 V0)
theorem val4_main_v29 (V0 : Valuation τ sig (Elt F)) : val4 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val4_keep V0 main_v29 (by decide)).trans (val3_main_v29 V0)
theorem val4_main_v30 (V0 : Valuation τ sig (Elt F)) : val4 V0 (no_index (Proc.devRef .tc main_v30)) = sl1 (rows (V0 (Proc.devRef .tc main_arg0)) (V0 (Proc.devRef .tc main_arg1))) :=
  (val4_keep V0 main_v30 (by decide)).trans (val3_main_v30 V0)
theorem val4_main_v34 (V0 : Valuation τ sig (Elt F)) : val4 V0 (no_index (Proc.devRef .tc main_v34)) = mean16 (sl1 (rows (V0 (Proc.devRef .tc main_arg0)) (V0 (Proc.devRef .tc main_arg1)))) :=
  (val4_keep V0 main_v34 (by decide)).trans (val3_main_v34 V0)
set_option maxRecDepth 8192 in
set_option maxHeartbeats 2000000 in
theorem val4_main_v35 (V0 : Valuation τ sig (Elt F)) : val4 V0 (no_index (Proc.devRef .tc main_v35)) = var16 (sl1 (rows (V0 (Proc.devRef .tc main_arg0)) (V0 (Proc.devRef .tc main_arg1)))) := by
  unfold val4
  simp only [w3]
  after_results_simp
  simp only [val3_main_c_6, val3_main_v30] <;> rfl

/-- Operations 90 … 104 of the 276. -/
abbrev w4 : List (HloOp τ sig (Elt F)) :=
  [ unary main_v34 main_v36 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v30 main_v36 main_v37 (subf : (⟨S16x128x64x64, .f32⟩ : BufTy).Contents (Elt F) → (⟨S16x128x64x64, .f32⟩ : BufTy).Contents (Elt F) → (⟨S16x128x64x64, .f32⟩ : BufTy).Contents (Elt F)),
    nullary main_cst_7 (constant S_ .f32 0x3727C5AC#32),
    unary main_cst_7 main_v38 (broadcastInDim S1x128x1x1 ![] bcast_S_S1x128x1x1 : (⟨S_, .f32⟩ : BufTy).Contents (Elt F) → (⟨S1x128x1x1, .f32⟩ : BufTy).Contents (Elt F)),
    binary main_v35 main_v38 main_v39 (addf : (⟨S1x128x1x1, .f32⟩ : BufTy).Contents (Elt F) → (⟨S1x128x1x1, .f32⟩ : BufTy).Contents (Elt F) → (⟨S1x128x1x1, .f32⟩ : BufTy).Contents (Elt F)),
    unary main_v39 main_v40 (Host.rsqrt : (⟨S1x128x1x1, .f32⟩ : BufTy).Contents (Elt F) → (⟨S1x128x1x1, .f32⟩ : BufTy).Contents (Elt F)),
    unary main_v40 main_v41 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v37 main_v41 main_v42 (mulf : (⟨S16x128x64x64, .f32⟩ : BufTy).Contents (Elt F) → (⟨S16x128x64x64, .f32⟩ : BufTy).Contents (Elt F) → (⟨S16x128x64x64, .f32⟩ : BufTy).Contents (Elt F)),
    unary main_arg3 main_v43 ((extractStridedSlice S1x128 ![1, 0] · slices_S4x128_S1x128_1_0) : (⟨S4x128, .f32⟩ : BufTy).Contents (Elt F) → (⟨S1x128, .f32⟩ : BufTy).Contents (Elt F)),
    reshape main_v43 main_v44 rfl shapeCasts_S1x128_S128,
    unary main_v44 main_v45 (broadcastInDim S1x128x1x1 ![1] bcast_S128_S1x128x1x1_1 : (⟨S128, .f32⟩ : BufTy).Contents (Elt F) → (⟨S1x128x1x1, .f32⟩ : BufTy).Contents (Elt F)),
    unary main_v45 main_v46 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v42 main_v46 main_v47 (mulf : (⟨S16x128x64x64, .f32⟩ : BufTy).Contents (Elt F) → (⟨S16x128x64x64, .f32⟩ : BufTy).Contents (Elt F) → (⟨S16x128x64x64, .f32⟩ : BufTy).Contents (Elt F)),
    unary main_arg4 main_v48 ((extractStridedSlice S1x128 ![1, 0] · slices_S4x128_S1x128_1_0) : (⟨S4x128, .f32⟩ : BufTy).Contents (Elt F) → (⟨S1x128, .f32⟩ : BufTy).Contents (Elt F)),
    reshape main_v48 main_v49 rfl shapeCasts_S1x128_S128 ]

theorem w4_sub : (w4 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub ..⟩
theorem w4_fresh : ∀ op ∈ (w4 : List (HloOp τ sig (Elt F))), op.fresh = ∅ := by
  intro _ h; (repeat (cases h with | head => rfl | tail _ h => ?_)); exact nomatch h
/-- The buffers these operations write. -/
abbrev w4_W : List (Ref sig .tc) := [main_v36, main_v37, main_cst_7, main_v38, main_v39, main_v40, main_v41, main_v42, main_v43, main_v44, main_v45, main_v46, main_v47, main_v48, main_v49]
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 104 operations. -/
def val5 (V0 : Valuation τ sig (Elt F)) : Valuation τ sig (Elt F) := after w4 (val4 V0)
theorem val5_keep (V0 : Valuation τ sig (Elt F)) (r : Ref sig .tc) (h : r ∉ w4_W) :
    val5 V0 (Proc.devRef .tc r) = val4 V0 (Proc.devRef .tc r) :=
  after_of_writes_sub w4 _ w4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
theorem val5_main_arg2 (V0 : Valuation τ sig (Elt F)) : val5 V0 (no_index (Proc.devRef .tc main_arg2)) = V0 (Proc.devRef .tc main_arg2) :=
  (val5_keep V0 main_arg2 (by decide)).trans (val4_main_arg2 V0)
theorem val5_main_arg3 (V0 : Valuation τ sig (Elt F)) : val5 V0 (no_index (Proc.devRef .tc main_arg3)) = V0 (Proc.devRef .tc main_arg3) :=
  (val5_keep V0 main_arg3 (by decide)).trans (val4_main_arg3 V0)
theorem val5_main_arg4 (V0 : Valuation τ sig (Elt F)) : val5 V0 (no_index (Proc.devRef .tc main_arg4)) = V0 (Proc.devRef .tc main_arg4) :=
  (val5_keep V0 main_arg4 (by decide)).trans (val4_main_arg4 V0)
theorem val5_main_arg5 (V0 : Valuation τ sig (Elt F)) : val5 V0 (no_index (Proc.devRef .tc main_arg5)) = V0 (Proc.devRef .tc main_arg5) :=
  (val5_keep V0 main_arg5 (by decide)).trans (val4_main_arg5 V0)
theorem val5_main_arg6 (V0 : Valuation τ sig (Elt F)) : val5 V0 (no_index (Proc.devRef .tc main_arg6)) = V0 (Proc.devRef .tc main_arg6) :=
  (val5_keep V0 main_arg6 (by decide)).trans (val4_main_arg6 V0)
theorem val5_main_arg7 (V0 : Valuation τ sig (Elt F)) : val5 V0 (no_index (Proc.devRef .tc main_arg7)) = V0 (Proc.devRef .tc main_arg7) :=
  (val5_keep V0 main_arg7 (by decide)).trans (val4_main_arg7 V0)
theorem val5_main_v6 (V0 : Valuation τ sig (Elt F)) : val5 V0 (no_index (Proc.devRef .tc main_v6)) = rows (V0 (Proc.devRef .tc main_arg0)) (V0 (Proc.devRef .tc main_arg1)) :=
  (val5_keep V0 main_v6 (by decide)).trans (val4_main_v6 V0)
theorem val5_main_v29 (V0 : Valuation τ sig (Elt F)) : val5 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val5_keep V0 main_v29 (by decide)).trans (val4_main_v29 V0)
set_option maxRecDepth 8192 in
set_option maxHeartbeats 1500000 in
theorem val5_main_v47 (V0 : Valuation τ sig (Elt F)) : val5 V0 (no_index (Proc.devRef .tc main_v47)) = mulf (norm16 (sl1 (rows (V0 (Proc.devRef .tc main_arg0)) (V0 (Proc.devRef .tc main_arg1))))) (up16 (chan (row1 (V0 (Proc.devRef .tc main_arg3))))) := by
  unfold val5
  simp only [w4]
  after_results_simp
  simp only [val4_main_arg3, val4_main_v35, val4_main_v34, val4_main_v30] <;> rfl
set_option maxRecDepth 8192 in
set_option maxHeartbeats 1500000 in
theorem val5_main_v49 (V0 : Valuation τ sig (Elt F)) : val5 V0 (no_index (Proc.devRef .tc main_v49)) = row1 (V0 (Proc.devRef .tc main_arg4)) := by
  unfold val5
  simp only [w4]
  after_results_simp
  simp only [val4_main_arg4] <;> rfl

/-- Operations 105 … 115 of the 276. -/
abbrev w5 : List (HloOp τ sig (Elt F)) :=
  [ unary main_v49 main_v50 (broadcastInDim S1x128x1x1 ![1] bcast_S128_S1x128x1x1_1 : (⟨S128, .f32⟩ : BufTy).Contents (Elt F) → (⟨S1x128x1x1, .f32⟩ : BufTy).Contents (Elt F)),
    unary main_v50 main_v51 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v47 main_v51 main_v52 (addf : (⟨S16x128x64x64, .f32⟩ : BufTy).Contents (Elt F) → (⟨S16x128x64x64, .f32⟩ : BufTy).Contents (Elt F) → (⟨S16x128x64x64, .f32⟩ : BufTy).Contents (Elt F)),
    unary main_v6 main_v53 ((extractStridedSlice S16x128x64x64 ![32, 0, 0, 0] · slices_S64x128x64x64_S16x128x64x64_32_0_0_0) : (⟨S64x128x64x64, .f32⟩ : BufTy).Contents (Elt F) → (⟨S16x128x64x64, .f32⟩ : BufTy).Contents (Elt F)),
    nullary main_cst_8 (constant S_ .f32 0x00000000#32),
    binary main_v53 main_cst_8 main_v54 ((fun x v => Host.reduceAdd x v reducesTo_S16x128x64x64_S128_d0_2_3 h_S_) : (⟨S16x128x64x64, .f32⟩ : BufTy).Contents (Elt F) → (⟨S_, .f32⟩ : BufTy).Contents (Elt F) → (⟨S128, .f32⟩ : BufTy).Contents (Elt F)),
    unary main_v54 main_v55 (broadcastInDim S1x128x1x1 ![1] bcast_S128_S1x128x1x1_1 : (⟨S128, .f32⟩ : BufTy).Contents (Elt F) → (⟨S1x128x1x1, .f32⟩ : BufTy).Contents (Elt F)),
    nullary main_cst_9 (constant S_ .f32 0x47800000#32),
    unary main_cst_9 main_v56 (broadcastInDim S1x128x1x1 ![] bcast_S_S1x128x1x1 : (⟨S_, .f32⟩ : BufTy).Contents (Elt F) → (⟨S1x128x1x1, .f32⟩ : BufTy).Contents (Elt F)),
    binary main_v55 main_v56 main_v57 (Host.divf : (⟨S1x128x1x1, .f32⟩ : BufTy).Contents (Elt F) → (⟨S1x128x1x1, .f32⟩ : BufTy).Contents (Elt F) → (⟨S1x128x1x1, .f32⟩ : BufTy).Contents (Elt F)),
    nullary main_c_10 (constantI S_ 32 0#32) ]

theorem w5_sub : (w5 : List (HloOp τ sig (Elt F))).Forall fun op => op.bufs ⊆ tcRefs τ sig :=
  ⟨unary_bufs_sub .., unary_bufs_sub .., binary_bufs_sub .., unary_bufs_sub .., nullary_bufs_sub .., binary_bufs_sub .., unary_bufs_sub .., nullary_bufs_sub .., unary_bufs_sub .., binary_bufs_sub .., nullary_bufs_sub ..⟩
theorem w5_fresh : ∀ op ∈ (w5 : List (HloOp τ sig (Elt F))), op.fresh = ∅ := by
  intro _ h; (repeat (cases h with | head => rfl | tail _ h => ?_)); exact nomatch h
/-- The buffers these operations write. -/
abbrev w5_W : List (Ref sig .tc) := [main_v50, main_v51, main_v52, main_v53, main_cst_8, main_v54, main_v55, main_cst_9, main_v56, main_v57, main_c_10]
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 115 operations. -/
def val6 (V0 : Valuation τ sig (Elt F)) : Valuation τ sig (Elt F) := after w5 (val5 V0)
theorem val6_keep (V0 : Valuation τ sig (Elt F)) (r : Ref sig .tc) (h : r ∉ w5_W) :
    val6 V0 (Proc.devRef .tc r) = val5 V0 (Proc.devRef .tc r) :=
  after_of_writes_sub w5 _ w5_writes h
theorem val6_main_arg0 (V0 : Valuation τ sig (Elt F)) : val6 V0 (no_index (Proc.devRef .tc main_arg0)) = V0 (Proc.devRef .tc main_arg0) :=
  (val6_keep V0 main_arg0 (by decide)).trans (val5_main_arg0 V0)
theorem val6_main_arg1 (V0 : Valuation τ sig (Elt F)) : val6 V0 (no_index (Proc.devRef .tc main_arg1)) = V0 (Proc.devRef .tc main_arg1) :=
  (val6_keep V0 main_arg1 (by decide)).trans (val5_main_arg1 V0)
theorem val6_main_arg2 (V0 : Valuation τ sig (Elt F)) : val6 V0 (no_index (Proc.devRef .tc main_arg2)) = V0 (Proc.devRef .tc main_arg2) :=
  (val6_keep V0 main_arg2 (by decide)).trans (val5_main_arg2 V0)
theorem val6_main_arg3 (V0 : Valuation τ sig (Elt F)) : val6 V0 (no_index (Proc.devRef .tc main_arg3)) = V0 (Proc.devRef .tc main_arg3) :=
  (val6_keep V0 main_arg3 (by decide)).trans (val5_main_arg3 V0)
theorem val6_main_arg4 (V0 : Valuation τ sig (Elt F)) : val6 V0 (no_index (Proc.devRef .tc main_arg4)) = V0 (Proc.devRef .tc main_arg4) :=
  (val6_keep V0 main_arg4 (by decide)).trans (val5_main_arg4 V0)
theorem val6_main_arg5 (V0 : Valuation τ sig (Elt F)) : val6 V0 (no_index (Proc.devRef .tc main_arg5)) = V0 (Proc.devRef .tc main_arg5) :=
  (val6_keep V0 main_arg5 (by decide)).trans (val5_main_arg5 V0)
theorem val6_main_arg6 (V0 : Valuation τ sig (Elt F)) : val6 V0 (no_index (Proc.devRef .tc main_arg6)) = V0 (Proc.devRef .tc main_arg6) :=
  (val6_keep V0 main_arg6 (by decide)).trans (val5_main_arg6 V0)
theorem val6_main_arg7 (V0 : Valuation τ sig (Elt F)) : val6 V0 (no_index (Proc.devRef .tc main_arg7)) = V0 (Proc.devRef .tc main_arg7) :=
  (val6_keep V0 main_arg7 (by decide)).trans (val5_main_arg7 V0)
theorem val6_main_v6 (V0 : Valuation τ sig (Elt F)) : val6 V0 (no_index (Proc.devRef .tc main_v6)) = rows (V0 (Proc.devRef .tc main_arg0)) (V0 (Proc.devRef .tc main_arg1)) :=
  (val6_keep V0 main_v6 (by decide)).trans (val5_main_v6 V0)
theorem val6_main_v29 (V0 : Valuation τ sig (Elt F)) : val6 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val6_keep V0 main_v29 (by decide)).trans (val5_main_v29 V0)
set_option maxRecDepth 8192 in
set_option maxHeartbeats 1100000 in
theorem val6_main_v52 (V0 : Valuation τ sig (Elt F)) : val6 V0 (no_index (Proc.devRef .tc main_v52)) = bn16 (sl1 (rows (V0 (Proc.devRef .tc main_arg0)) (V0 (Proc.devRef .tc main_arg1)))) (row1 (V0 (Proc.devRef .tc main_arg3))) (row1 (V0 (Proc.devRef .tc main_arg4))) := by
  unfold val6
  simp only [w5]
  after_results_simp
  simp only [val5_main_v49, val5_main_v47] <;> rfl
set_option maxRecDepth 8192 in
set_option maxHeartbeats 1100000 in
theorem val6_main_v53 (V0 : Valuation τ sig (Elt F)) : val6 V0 (no_index (Proc.devRef .tc main_v53)) = sl2 (rows (V0 (Proc.devRef .tc main_arg0)) (V0 (Proc.devRef .tc main_arg1))) := by
  unfold val6
  simp only [w5]
  after_results_simp
  simp only [val5_main_v6] <;> rfl
set_option maxRecDepth 8192 in
set_option maxHeartbeats 1100000 in
theorem val6_main_v57 (V0 : Valuation τ sig (Elt F)) : val6 V0 (no_index (Proc.devRef .tc main_v57)) = mean16 (sl2 (rows (V0 (Proc.devRef .tc main_arg0)) (V0 (Proc.devRef .tc main_arg1)))) := by
  unfold val6
  simp only [w5]
  after_results_simp
  simp only [val5_main_v6] <;> rfl
set_option maxRecDepth 8192 in
set_option maxHeartbeats 1100000 in
theorem val6_main_c_10 (V0 : Valuation τ sig (Elt F)) : val6 V0 (no_index (Proc.devRef .tc main_c_10)) = constantI S_ 32 0#32 := by
  unfold val6
  simp only [w5]
  after_results_simp
  all_goals rfl

/-- Operations 116 … 138 of the 276. -/
abbrev w6 : List (HloOp τ sig (Elt F)) :=
  [ TRef.nullary (.of main_call2_cst : TRef sig ⟨S_, .f32⟩) (constant S_ .f32 0x00000000#32),
    TRef.binary (.of main_v53 : TRef sig ⟨S16x128x64x64, .f32⟩) (.of main_call2_cst : TRef sig ⟨S_, .f32⟩) (.of main_call2_v0 : TRef sig ⟨S128, .f32⟩) (fun x v => Host.reduceAdd x v reducesTo_S16x128x64x64_S128_d0_2_3 h_S_),
    TRef.unary (.of main_call2_v0 : TRef sig ⟨S128, .f32⟩) (.of main_call2_v1 : TRef sig ⟨S1x128x1x1, .f32⟩) (broadcastInDim S1x128x1x1 ![1] bcast_S128_S1x128x1x1_1),
    TRef.nullary (.of main_call2_cst_0 : TRef sig ⟨S_, .f32⟩) (constant S_ .f32 0x47800000#32),
    TRef.unary (.of main_call2_cst_0 : TRef sig ⟨S_, .f32⟩) (.of main_call2_v2 : TRef sig ⟨S1x128x1x1, .f32⟩) (broadcastInDim S1x128x1x1 ![] bcast_S_S1x128x1x1),
    TRef.binary (.of main_call2_v1 : TRef sig ⟨S1x128x1x1, .f32⟩) (.of main_call2_v2 : TRef sig ⟨S1x128x1x1, .f32⟩) (.of main_call2_v3 : TRef sig ⟨S1x128x1x1, .f32⟩) Host.divf,
    TRef.unary (.of main_call2_v3 : TRef sig ⟨S1x128x1x1, .f32⟩) (.of main_call2_v4 : TRef sig ⟨S16x128x64x64, .f32⟩) (broadcastInDim S16x128x64x64 ![0, 1, 2, 3] bcast_S1x128x1x1_S16x128x64x64_0_1_2_3),
    TRef.binary (.of main_v53 : TRef sig ⟨S16x128x64x64, .f32⟩) (.of main_call2_v4 : TRef sig ⟨S16x128x64x64, .f32⟩) (.of main_call2_v5 : TRef sig ⟨S16x128x64x64, .f32⟩) subf,
    TRef.binary (.of main_call2_v5 : TRef sig ⟨S16x128x64x64, .f32⟩) (.of main_call2_v5 : TRef sig ⟨S16x128x64x64, .f32⟩) (.of main_call2_v6 : TRef sig ⟨S16x128x64x64, .f32⟩) mulf,
    TRef.unary (.of main_c_10 : TRef sig ⟨S_, .i32⟩) (.of main_call2_v7 : TRef sig ⟨S_, .f32⟩) (sitofp .f32),
    TRef.nullary (.of main_call2_cst_1 : TRef sig ⟨S_, .f32⟩) (constant S_ .f32 0x47800000#32),
    TRef.binary (.of main_call2_cst_1 : TRef sig ⟨S_, .f32⟩) (.of main_call2_v7 : TRef sig ⟨S_, .f32⟩) (.of main_call2_v8 : TRef sig ⟨S_, .f32⟩) subf,
    TRef.nullary (.of main_call2_cst_2 : TRef sig ⟨S_, .f32⟩) (constant S_ .f32 0x00000000#32),
    TRef.binary (.of main_call2_v6 : TRef sig ⟨S16x128x64x64, .f32⟩) (.of main_call2_cst_2 : TRef sig ⟨S_, .f32⟩) (.of main_call2_v9 : TRef sig ⟨S128, .f32⟩) (fun x v => Host.reduceAdd x v reducesTo_S16x128x64x64_S128_d0_2_3 h_S_),
    TRef.unary (.of main_call2_v9 : TRef sig ⟨S128, .f32⟩) (.of main_call2_v10 : TRef sig ⟨S1x128x1x1, .f32⟩) (broadcastInDim S1x128x1x1 ![1] bcast_S128_S1x128x1x1_1),
    TRef.unary (.of main_call2_v8 : TRef sig ⟨S_, .f32⟩) (.of main_call2_v11 : TRef sig ⟨S1x128x1x1, .f32⟩) (broadcastInDim S1x128x1x1 ![] bcast_S_S1x128x1x1),
    TRef.binary (.of main_call2_v10 : TRef sig ⟨S1x128x1x1, .f32⟩) (.of main_call2_v11 : TRef sig ⟨S1x128x1x1, .f32⟩) (.of main_call2_v12 : TRef sig ⟨S1x128x1x1, .f32⟩) Host.divf,
    TRef.nullary (.of main_call2_cst_3 : TRef sig ⟨S_, .f32⟩) (constant S_ .f32 0x00000000#32),
    TRef.binary (.of main_call2_v8 : TRef sig ⟨S_, .f32⟩) (.of main_call2_cst_3 : TRef sig ⟨S_, .f32⟩) (.of main_call2_v13 : TRef sig ⟨S_, .i1⟩) (cmpf .ogt),
    TRef.nullary (.of main_call2_cst_4 : TRef sig ⟨S_, .f32⟩) (constant S_ .f32 0x7FC00000#32),
    TRef.unary (.of main_call2_cst_4 : TRef sig ⟨S_, .f32⟩) (.of main_call2_call0_v0 : TRef sig ⟨S_, .f32⟩) id,
    TRef.unary (.of main_call2_call0_v0 : TRef sig ⟨S_, .f32⟩) (.of main_call2_call0_v1 : TRef sig ⟨S1x128x1x1, .f32⟩) (broadcastInDim S1x128x1x1 ![] bcast_S_S1x128x1x1),
    TRef.ternary (.of main_call2_v13 : TRef sig ⟨S_, .i1⟩) (.of main_call2_v12 : TRef sig ⟨S1x128x1x1, .f32⟩) (.of main_call2_call0_v1 : TRef sig ⟨S1x128x1x1, .f32⟩) (.of main_v58 : TRef sig ⟨S1x128x1x1, .f32⟩) (fun p a b => select (broadcastInDim S1x128x1x1 ![] bcast_S_S1x128x1x1 p) a b) ]

theorem w6_sub : (w6 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w6_fresh : ∀ op ∈ (w6 : List (HloOp τ sig (Elt F))), op.fresh = ∅ := by
  intro _ h; (repeat (cases h with | head => rfl | tail _ h => ?_)); exact nomatch h
/-- The buffers these operations write. -/
abbrev w6_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v58]
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 138 operations. -/
def val7 (V0 : Valuation τ sig (Elt F)) : Valuation τ sig (Elt F) := after w6 (val6 V0)
theorem val7_keep (V0 : Valuation τ sig (Elt F)) (r : Ref sig .tc) (h : r ∉ w6_W) :
    val7 V0 (Proc.devRef .tc r) = val6 V0 (Proc.devRef .tc r) :=
  after_of_writes_sub w6 _ w6_writes h
theorem val7_main_arg0 (V0 : Valuation τ sig (Elt F)) : val7 V0 (no_index (Proc.devRef .tc main_arg0)) = V0 (Proc.devRef .tc main_arg0) :=
  (val7_keep V0 main_arg0 (by decide)).trans (val6_main_arg0 V0)
theorem val7_main_arg1 (V0 : Valuation τ sig (Elt F)) : val7 V0 (no_index (Proc.devRef .tc main_arg1)) = V0 (Proc.devRef .tc main_arg1) :=
  (val7_keep V0 main_arg1 (by decide)).trans (val6_main_arg1 V0)
theorem val7_main_arg2 (V0 : Valuation τ sig (Elt F)) : val7 V0 (no_index (Proc.devRef .tc main_arg2)) = V0 (Proc.devRef .tc main_arg2) :=
  (val7_keep V0 main_arg2 (by decide)).trans (val6_main_arg2 V0)
theorem val7_main_arg3 (V0 : Valuation τ sig (Elt F)) : val7 V0 (no_index (Proc.devRef .tc main_arg3)) = V0 (Proc.devRef .tc main_arg3) :=
  (val7_keep V0 main_arg3 (by decide)).trans (val6_main_arg3 V0)
theorem val7_main_arg4 (V0 : Valuation τ sig (Elt F)) : val7 V0 (no_index (Proc.devRef .tc main_arg4)) = V0 (Proc.devRef .tc main_arg4) :=
  (val7_keep V0 main_arg4 (by decide)).trans (val6_main_arg4 V0)
theorem val7_main_arg5 (V0 : Valuation τ sig (Elt F)) : val7 V0 (no_index (Proc.devRef .tc main_arg5)) = V0 (Proc.devRef .tc main_arg5) :=
  (val7_keep V0 main_arg5 (by decide)).trans (val6_main_arg5 V0)
theorem val7_main_arg6 (V0 : Valuation τ sig (Elt F)) : val7 V0 (no_index (Proc.devRef .tc main_arg6)) = V0 (Proc.devRef .tc main_arg6) :=
  (val7_keep V0 main_arg6 (by decide)).trans (val6_main_arg6 V0)
theorem val7_main_arg7 (V0 : Valuation τ sig (Elt F)) : val7 V0 (no_index (Proc.devRef .tc main_arg7)) = V0 (Proc.devRef .tc main_arg7) :=
  (val7_keep V0 main_arg7 (by decide)).trans (val6_main_arg7 V0)
theorem val7_main_v6 (V0 : Valuation τ sig (Elt F)) : val7 V0 (no_index (Proc.devRef .tc main_v6)) = rows (V0 (Proc.devRef .tc main_arg0)) (V0 (Proc.devRef .tc main_arg1)) :=
  (val7_keep V0 main_v6 (by decide)).trans (val6_main_v6 V0)
theorem val7_main_v29 (V0 : Valuation τ sig (Elt F)) : val7 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val7_keep V0 main_v29 (by decide)).trans (val6_main_v29 V0)
theorem val7_main_v52 (V0 : Valuation τ sig (Elt F)) : val7 V0 (no_index (Proc.devRef .tc main_v52)) = bn16 (sl1 (rows (V0 (Proc.devRef .tc main_arg0)) (V0 (Proc.devRef .tc main_arg1)))) (row1 (V0 (Proc.devRef .tc main_arg3))) (row1 (V0 (Proc.devRef .tc main_arg4))) :=
  (val7_keep V0 main_v52 (by decide)).trans (val6_main_v52 V0)
theorem val7_main_v53 (V0 : Valuation τ sig (Elt F)) : val7 V0 (no_index (Proc.devRef .tc main_v53)) = sl2 (rows (V0 (Proc.devRef .tc main_arg0)) (V0 (Proc.devRef .tc main_arg1))) :=
  (val7_keep V0 main_v53 (by decide)).trans (val6_main_v53 V0)
theorem val7_main_v57 (V0 : Valuation τ sig (Elt F)) : val7 V0 (no_index (Proc.devRef .tc main_v57)) = mean16 (sl2 (rows (V0 (Proc.devRef .tc main_arg0)) (V0 (Proc.devRef .tc main_arg1)))) :=
  (val7_keep V0 main_v57 (by decide)).trans (val6_main_v57 V0)
set_option maxRecDepth 8192 in
set_option maxHeartbeats 2000000 in
theorem val7_main_v58 (V0 : Valuation τ sig (Elt F)) : val7 V0 (no_index (Proc.devRef .tc main_v58)) = var16 (sl2 (rows (V0 (Proc.devRef .tc main_arg0)) (V0 (Proc.devRef .tc main_arg1)))) := by
  unfold val7
  simp only [w6]
  after_results_simp
  simp only [val6_main_c_10, val6_main_v53] <;> rfl

/-- Operations 139 … 164 of the 276. -/
abbrev w7 : List (HloOp τ sig (Elt F)) :=
  [ unary main_v57 main_v59 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v53 main_v59 main_v60 (subf : (⟨S16x128x64x64, .f32⟩ : BufTy).Contents (Elt F) → (⟨S16x128x64x64, .f32⟩ : BufTy).Contents (Elt F) → (⟨S16x128x64x64, .f32⟩ : BufTy).Contents (Elt F)),
    nullary main_cst_11 (constant S_ .f32 0x3727C5AC#32),
    unary main_cst_11 main_v61 (broadcastInDim S1x128x1x1 ![] bcast_S_S1x128x1x1 : (⟨S_, .f32⟩ : BufTy).Contents (Elt F) → (⟨S1x128x1x1, .f32⟩ : BufTy).Contents (Elt F)),
    binary main_v58 main_v61 main_v62 (addf : (⟨S1x128x1x1, .f32⟩ : BufTy).Contents (Elt F) → (⟨S1x128x1x1, .f32⟩ : BufTy).Contents (Elt F) → (⟨S1x128x1x1, .f32⟩ : BufTy).Contents (Elt F)),
    unary main_v62 main_v63 (Host.rsqrt : (⟨S1x128x1x1, .f32⟩ : BufTy).Contents (Elt F) → (⟨S1x128x1x1, .f32⟩ : BufTy).Contents (Elt F)),
    unary main_v63 main_v64 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v60 main_v64 main_v65 (mulf : (⟨S16x128x64x64, .f32⟩ : BufTy).Contents (Elt F) → (⟨S16x128x64x64, .f32⟩ : BufTy).Contents (Elt F) → (⟨S16x128x64x64, .f32⟩ : BufTy).Contents (Elt F)),
    unary main_arg3 main_v66 ((extractStridedSlice S1x128 ![2, 0] · slices_S4x128_S1x128_2_0) : (⟨S4x128, .f32⟩ : BufTy).Contents (Elt F) → (⟨S1x128, .f32⟩ : BufTy).Contents (Elt F)),
    reshape main_v66 main_v67 rfl shapeCasts_S1x128_S128,
    unary main_v67 main_v68 (broadcastInDim S1x128x1x1 ![1] bcast_S128_S1x128x1x1_1 : (⟨S128, .f32⟩ : BufTy).Contents (Elt F) → (⟨S1x128x1x1, .f32⟩ : BufTy).Contents (Elt F)),
    unary main_v68 main_v69 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v65 main_v69 main_v70 (mulf : (⟨S16x128x64x64, .f32⟩ : BufTy).Contents (Elt F) → (⟨S16x128x64x64, .f32⟩ : BufTy).Contents (Elt F) → (⟨S16x128x64x64, .f32⟩ : BufTy).Contents (Elt F)),
    unary main_arg4 main_v71 ((extractStridedSlice S1x128 ![2, 0] · slices_S4x128_S1x128_2_0) : (⟨S4x128, .f32⟩ : BufTy).Contents (Elt F) → (⟨S1x128, .f32⟩ : BufTy).Contents (Elt F)),
    reshape main_v71 main_v72 rfl shapeCasts_S1x128_S128,
    unary main_v72 main_v73 (broadcastInDim S1x128x1x1 ![1] bcast_S128_S1x128x1x1_1 : (⟨S128, .f32⟩ : BufTy).Contents (Elt F) → (⟨S1x128x1x1, .f32⟩ : BufTy).Contents (Elt F)),
    unary main_v73 main_v74 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v70 main_v74 main_v75 (addf : (⟨S16x128x64x64, .f32⟩ : BufTy).Contents (Elt F) → (⟨S16x128x64x64, .f32⟩ : BufTy).Contents (Elt F) → (⟨S16x128x64x64, .f32⟩ : BufTy).Contents (Elt F)),
    unary main_v6 main_v76 ((extractStridedSlice S16x128x64x64 ![48, 0, 0, 0] · slices_S64x128x64x64_S16x128x64x64_48_0_0_0) : (⟨S64x128x64x64, .f32⟩ : BufTy).Contents (Elt F) → (⟨S16x128x64x64, .f32⟩ : BufTy).Contents (Elt F)),
    nullary main_cst_12 (constant S_ .f32 0x00000000#32),
    binary main_v76 main_cst_12 main_v77 ((fun x v => Host.reduceAdd x v reducesTo_S16x128x64x64_S128_d0_2_3 h_S_) : (⟨S16x128x64x64, .f32⟩ : BufTy).Contents (Elt F) → (⟨S_, .f32⟩ : BufTy).Contents (Elt F) → (⟨S128, .f32⟩ : BufTy).Contents (Elt F)),
    unary main_v77 main_v78 (broadcastInDim S1x128x1x1 ![1] bcast_S128_S1x128x1x1_1 : (⟨S128, .f32⟩ : BufTy).Contents (Elt F) → (⟨S1x128x1x1, .f32⟩ : BufTy).Contents (Elt F)),
    nullary main_cst_13 (constant S_ .f32 0x47800000#32),
    unary main_cst_13 main_v79 (broadcastInDim S1x128x1x1 ![] bcast_S_S1x128x1x1 : (⟨S_, .f32⟩ : BufTy).Contents (Elt F) → (⟨S1x128x1x1, .f32⟩ : BufTy).Contents (Elt F)),
    binary main_v78 main_v79 main_v80 (Host.divf : (⟨S1x128x1x1, .f32⟩ : BufTy).Contents (Elt F) → (⟨S1x128x1x1, .f32⟩ : BufTy).Contents (Elt F) → (⟨S1x128x1x1, .f32⟩ : BufTy).Contents (Elt F)),
    nullary main_c_14 (constantI S_ 32 0#32) ]

theorem w7_sub : (w7 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., unary_bufs_sub .., nullary_bufs_sub .., binary_bufs_sub .., unary_bufs_sub .., nullary_bufs_sub .., unary_bufs_sub .., binary_bufs_sub .., nullary_bufs_sub ..⟩
theorem w7_fresh : ∀ op ∈ (w7 : List (HloOp τ sig (Elt F))), op.fresh = ∅ := by
  intro _ h; (repeat (cases h with | head => rfl | tail _ h => ?_)); exact nomatch h
/-- The buffers these operations write. -/
abbrev w7_W : List (Ref sig .tc) := [main_v59, main_v60, main_cst_11, main_v61, main_v62, main_v63, main_v64, main_v65, main_v66, main_v67, main_v68, main_v69, main_v70, main_v71, main_v72, main_v73, main_v74, main_v75, main_v76, main_cst_12, main_v77, main_v78, main_cst_13, main_v79, main_v80, main_c_14]
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 164 operations. -/
def val8 (V0 : Valuation τ sig (Elt F)) : Valuation τ sig (Elt F) := after w7 (val7 V0)
theorem val8_keep (V0 : Valuation τ sig (Elt F)) (r : Ref sig .tc) (h : r ∉ w7_W) :
    val8 V0 (Proc.devRef .tc r) = val7 V0 (Proc.devRef .tc r) :=
  after_of_writes_sub w7 _ w7_writes h
theorem val8_main_arg0 (V0 : Valuation τ sig (Elt F)) : val8 V0 (no_index (Proc.devRef .tc main_arg0)) = V0 (Proc.devRef .tc main_arg0) :=
  (val8_keep V0 main_arg0 (by decide)).trans (val7_main_arg0 V0)
theorem val8_main_arg1 (V0 : Valuation τ sig (Elt F)) : val8 V0 (no_index (Proc.devRef .tc main_arg1)) = V0 (Proc.devRef .tc main_arg1) :=
  (val8_keep V0 main_arg1 (by decide)).trans (val7_main_arg1 V0)
theorem val8_main_arg2 (V0 : Valuation τ sig (Elt F)) : val8 V0 (no_index (Proc.devRef .tc main_arg2)) = V0 (Proc.devRef .tc main_arg2) :=
  (val8_keep V0 main_arg2 (by decide)).trans (val7_main_arg2 V0)
theorem val8_main_arg3 (V0 : Valuation τ sig (Elt F)) : val8 V0 (no_index (Proc.devRef .tc main_arg3)) = V0 (Proc.devRef .tc main_arg3) :=
  (val8_keep V0 main_arg3 (by decide)).trans (val7_main_arg3 V0)
theorem val8_main_arg4 (V0 : Valuation τ sig (Elt F)) : val8 V0 (no_index (Proc.devRef .tc main_arg4)) = V0 (Proc.devRef .tc main_arg4) :=
  (val8_keep V0 main_arg4 (by decide)).trans (val7_main_arg4 V0)
theorem val8_main_arg5 (V0 : Valuation τ sig (Elt F)) : val8 V0 (no_index (Proc.devRef .tc main_arg5)) = V0 (Proc.devRef .tc main_arg5) :=
  (val8_keep V0 main_arg5 (by decide)).trans (val7_main_arg5 V0)
theorem val8_main_arg6 (V0 : Valuation τ sig (Elt F)) : val8 V0 (no_index (Proc.devRef .tc main_arg6)) = V0 (Proc.devRef .tc main_arg6) :=
  (val8_keep V0 main_arg6 (by decide)).trans (val7_main_arg6 V0)
theorem val8_main_arg7 (V0 : Valuation τ sig (Elt F)) : val8 V0 (no_index (Proc.devRef .tc main_arg7)) = V0 (Proc.devRef .tc main_arg7) :=
  (val8_keep V0 main_arg7 (by decide)).trans (val7_main_arg7 V0)
theorem val8_main_v29 (V0 : Valuation τ sig (Elt F)) : val8 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val8_keep V0 main_v29 (by decide)).trans (val7_main_v29 V0)
theorem val8_main_v52 (V0 : Valuation τ sig (Elt F)) : val8 V0 (no_index (Proc.devRef .tc main_v52)) = bn16 (sl1 (rows (V0 (Proc.devRef .tc main_arg0)) (V0 (Proc.devRef .tc main_arg1)))) (row1 (V0 (Proc.devRef .tc main_arg3))) (row1 (V0 (Proc.devRef .tc main_arg4))) :=
  (val8_keep V0 main_v52 (by decide)).trans (val7_main_v52 V0)
set_option maxRecDepth 8192 in
set_option maxHeartbeats 2000000 in
theorem val8_main_v75 (V0 : Valuation τ sig (Elt F)) : val8 V0 (no_index (Proc.devRef .tc main_v75)) = bn16 (sl2 (rows (V0 (Proc.devRef .tc main_arg0)) (V0 (Proc.devRef .tc main_arg1)))) (row2 (V0 (Proc.devRef .tc main_arg3))) (row2 (V0 (Proc.devRef .tc main_arg4))) := by
  unfold val8
  simp only [w7]
  after_results_simp
  simp only [val7_main_arg4, val7_main_arg3, val7_main_v58, val7_main_v57, val7_main_v53] <;> rfl
set_option maxRecDepth 8192 in
set_option maxHeartbeats 2000000 in
theorem val8_main_v76 (V0 : Valuation τ sig (Elt F)) : val8 V0 (no_index (Proc.devRef .tc main_v76)) = sl3 (rows (V0 (Proc.devRef .tc main_arg0)) (V0 (Proc.devRef .tc main_arg1))) := by
  unfold val8
  simp only [w7]
  after_results_simp
  simp only [val7_main_v6] <;> rfl
set_option maxRecDepth 8192 in
set_option maxHeartbeats 2000000 in
theorem val8_main_v80 (V0 : Valuation τ sig (Elt F)) : val8 V0 (no_index (Proc.devRef .tc main_v80)) = mean16 (sl3 (rows (V0 (Proc.devRef .tc main_arg0)) (V0 (Proc.devRef .tc main_arg1)))) := by
  unfold val8
  simp only [w7]
  after_results_simp
  simp only [val7_main_v6] <;> rfl
set_option maxRecDepth 8192 in
set_option maxHeartbeats 2000000 in
theorem val8_main_c_14 (V0 : Valuation τ sig (Elt F)) : val8 V0 (no_index (Proc.devRef .tc main_c_14)) = constantI S_ 32 0#32 := by
  unfold val8
  simp only [w7]
  after_results_simp
  all_goals rfl

/-- Operations 165 … 187 of the 276. -/
abbrev w8 : List (HloOp τ sig (Elt F)) :=
  [ TRef.nullary (.of main_call3_cst : TRef sig ⟨S_, .f32⟩) (constant S_ .f32 0x00000000#32),
    TRef.binary (.of main_v76 : TRef sig ⟨S16x128x64x64, .f32⟩) (.of main_call3_cst : TRef sig ⟨S_, .f32⟩) (.of main_call3_v0 : TRef sig ⟨S128, .f32⟩) (fun x v => Host.reduceAdd x v reducesTo_S16x128x64x64_S128_d0_2_3 h_S_),
    TRef.unary (.of main_call3_v0 : TRef sig ⟨S128, .f32⟩) (.of main_call3_v1 : TRef sig ⟨S1x128x1x1, .f32⟩) (broadcastInDim S1x128x1x1 ![1] bcast_S128_S1x128x1x1_1),
    TRef.nullary (.of main_call3_cst_0 : TRef sig ⟨S_, .f32⟩) (constant S_ .f32 0x47800000#32),
    TRef.unary (.of main_call3_cst_0 : TRef sig ⟨S_, .f32⟩) (.of main_call3_v2 : TRef sig ⟨S1x128x1x1, .f32⟩) (broadcastInDim S1x128x1x1 ![] bcast_S_S1x128x1x1),
    TRef.binary (.of main_call3_v1 : TRef sig ⟨S1x128x1x1, .f32⟩) (.of main_call3_v2 : TRef sig ⟨S1x128x1x1, .f32⟩) (.of main_call3_v3 : TRef sig ⟨S1x128x1x1, .f32⟩) Host.divf,
    TRef.unary (.of main_call3_v3 : TRef sig ⟨S1x128x1x1, .f32⟩) (.of main_call3_v4 : TRef sig ⟨S16x128x64x64, .f32⟩) (broadcastInDim S16x128x64x64 ![0, 1, 2, 3] bcast_S1x128x1x1_S16x128x64x64_0_1_2_3),
    TRef.binary (.of main_v76 : TRef sig ⟨S16x128x64x64, .f32⟩) (.of main_call3_v4 : TRef sig ⟨S16x128x64x64, .f32⟩) (.of main_call3_v5 : TRef sig ⟨S16x128x64x64, .f32⟩) subf,
    TRef.binary (.of main_call3_v5 : TRef sig ⟨S16x128x64x64, .f32⟩) (.of main_call3_v5 : TRef sig ⟨S16x128x64x64, .f32⟩) (.of main_call3_v6 : TRef sig ⟨S16x128x64x64, .f32⟩) mulf,
    TRef.unary (.of main_c_14 : TRef sig ⟨S_, .i32⟩) (.of main_call3_v7 : TRef sig ⟨S_, .f32⟩) (sitofp .f32),
    TRef.nullary (.of main_call3_cst_1 : TRef sig ⟨S_, .f32⟩) (constant S_ .f32 0x47800000#32),
    TRef.binary (.of main_call3_cst_1 : TRef sig ⟨S_, .f32⟩) (.of main_call3_v7 : TRef sig ⟨S_, .f32⟩) (.of main_call3_v8 : TRef sig ⟨S_, .f32⟩) subf,
    TRef.nullary (.of main_call3_cst_2 : TRef sig ⟨S_, .f32⟩) (constant S_ .f32 0x00000000#32),
    TRef.binary (.of main_call3_v6 : TRef sig ⟨S16x128x64x64, .f32⟩) (.of main_call3_cst_2 : TRef sig ⟨S_, .f32⟩) (.of main_call3_v9 : TRef sig ⟨S128, .f32⟩) (fun x v => Host.reduceAdd x v reducesTo_S16x128x64x64_S128_d0_2_3 h_S_),
    TRef.unary (.of main_call3_v9 : TRef sig ⟨S128, .f32⟩) (.of main_call3_v10 : TRef sig ⟨S1x128x1x1, .f32⟩) (broadcastInDim S1x128x1x1 ![1] bcast_S128_S1x128x1x1_1),
    TRef.unary (.of main_call3_v8 : TRef sig ⟨S_, .f32⟩) (.of main_call3_v11 : TRef sig ⟨S1x128x1x1, .f32⟩) (broadcastInDim S1x128x1x1 ![] bcast_S_S1x128x1x1),
    TRef.binary (.of main_call3_v10 : TRef sig ⟨S1x128x1x1, .f32⟩) (.of main_call3_v11 : TRef sig ⟨S1x128x1x1, .f32⟩) (.of main_call3_v12 : TRef sig ⟨S1x128x1x1, .f32⟩) Host.divf,
    TRef.nullary (.of main_call3_cst_3 : TRef sig ⟨S_, .f32⟩) (constant S_ .f32 0x00000000#32),
    TRef.binary (.of main_call3_v8 : TRef sig ⟨S_, .f32⟩) (.of main_call3_cst_3 : TRef sig ⟨S_, .f32⟩) (.of main_call3_v13 : TRef sig ⟨S_, .i1⟩) (cmpf .ogt),
    TRef.nullary (.of main_call3_cst_4 : TRef sig ⟨S_, .f32⟩) (constant S_ .f32 0x7FC00000#32),
    TRef.unary (.of main_call3_cst_4 : TRef sig ⟨S_, .f32⟩) (.of main_call3_call0_v0 : TRef sig ⟨S_, .f32⟩) id,
    TRef.unary (.of main_call3_call0_v0 : TRef sig ⟨S_, .f32⟩) (.of main_call3_call0_v1 : TRef sig ⟨S1x128x1x1, .f32⟩) (broadcastInDim S1x128x1x1 ![] bcast_S_S1x128x1x1),
    TRef.ternary (.of main_call3_v13 : TRef sig ⟨S_, .i1⟩) (.of main_call3_v12 : TRef sig ⟨S1x128x1x1, .f32⟩) (.of main_call3_call0_v1 : TRef sig ⟨S1x128x1x1, .f32⟩) (.of main_v81 : TRef sig ⟨S1x128x1x1, .f32⟩) (fun p a b => select (broadcastInDim S1x128x1x1 ![] bcast_S_S1x128x1x1 p) a b) ]

theorem w8_sub : (w8 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w8_fresh : ∀ op ∈ (w8 : List (HloOp τ sig (Elt F))), op.fresh = ∅ := by
  intro _ h; (repeat (cases h with | head => rfl | tail _ h => ?_)); exact nomatch h
/-- The buffers these operations write. -/
abbrev w8_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v81]
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 187 operations. -/
def val9 (V0 : Valuation τ sig (Elt F)) : Valuation τ sig (Elt F) := after w8 (val8 V0)
theorem val9_keep (V0 : Valuation τ sig (Elt F)) (r : Ref sig .tc) (h : r ∉ w8_W) :
    val9 V0 (Proc.devRef .tc r) = val8 V0 (Proc.devRef .tc r) :=
  after_of_writes_sub w8 _ w8_writes h
theorem val9_main_arg0 (V0 : Valuation τ sig (Elt F)) : val9 V0 (no_index (Proc.devRef .tc main_arg0)) = V0 (Proc.devRef .tc main_arg0) :=
  (val9_keep V0 main_arg0 (by decide)).trans (val8_main_arg0 V0)
theorem val9_main_arg1 (V0 : Valuation τ sig (Elt F)) : val9 V0 (no_index (Proc.devRef .tc main_arg1)) = V0 (Proc.devRef .tc main_arg1) :=
  (val9_keep V0 main_arg1 (by decide)).trans (val8_main_arg1 V0)
theorem val9_main_arg2 (V0 : Valuation τ sig (Elt F)) : val9 V0 (no_index (Proc.devRef .tc main_arg2)) = V0 (Proc.devRef .tc main_arg2) :=
  (val9_keep V0 main_arg2 (by decide)).trans (val8_main_arg2 V0)
theorem val9_main_arg3 (V0 : Valuation τ sig (Elt F)) : val9 V0 (no_index (Proc.devRef .tc main_arg3)) = V0 (Proc.devRef .tc main_arg3) :=
  (val9_keep V0 main_arg3 (by decide)).trans (val8_main_arg3 V0)
theorem val9_main_arg4 (V0 : Valuation τ sig (Elt F)) : val9 V0 (no_index (Proc.devRef .tc main_arg4)) = V0 (Proc.devRef .tc main_arg4) :=
  (val9_keep V0 main_arg4 (by decide)).trans (val8_main_arg4 V0)
theorem val9_main_arg5 (V0 : Valuation τ sig (Elt F)) : val9 V0 (no_index (Proc.devRef .tc main_arg5)) = V0 (Proc.devRef .tc main_arg5) :=
  (val9_keep V0 main_arg5 (by decide)).trans (val8_main_arg5 V0)
theorem val9_main_arg6 (V0 : Valuation τ sig (Elt F)) : val9 V0 (no_index (Proc.devRef .tc main_arg6)) = V0 (Proc.devRef .tc main_arg6) :=
  (val9_keep V0 main_arg6 (by decide)).trans (val8_main_arg6 V0)
theorem val9_main_arg7 (V0 : Valuation τ sig (Elt F)) : val9 V0 (no_index (Proc.devRef .tc main_arg7)) = V0 (Proc.devRef .tc main_arg7) :=
  (val9_keep V0 main_arg7 (by decide)).trans (val8_main_arg7 V0)
theorem val9_main_v29 (V0 : Valuation τ sig (Elt F)) : val9 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val9_keep V0 main_v29 (by decide)).trans (val8_main_v29 V0)
theorem val9_main_v52 (V0 : Valuation τ sig (Elt F)) : val9 V0 (no_index (Proc.devRef .tc main_v52)) = bn16 (sl1 (rows (V0 (Proc.devRef .tc main_arg0)) (V0 (Proc.devRef .tc main_arg1)))) (row1 (V0 (Proc.devRef .tc main_arg3))) (row1 (V0 (Proc.devRef .tc main_arg4))) :=
  (val9_keep V0 main_v52 (by decide)).trans (val8_main_v52 V0)
theorem val9_main_v75 (V0 : Valuation τ sig (Elt F)) : val9 V0 (no_index (Proc.devRef .tc main_v75)) = bn16 (sl2 (rows (V0 (Proc.devRef .tc main_arg0)) (V0 (Proc.devRef .tc main_arg1)))) (row2 (V0 (Proc.devRef .tc main_arg3))) (row2 (V0 (Proc.devRef .tc main_arg4))) :=
  (val9_keep V0 main_v75 (by decide)).trans (val8_main_v75 V0)
theorem val9_main_v76 (V0 : Valuation τ sig (Elt F)) : val9 V0 (no_index (Proc.devRef .tc main_v76)) = sl3 (rows (V0 (Proc.devRef .tc main_arg0)) (V0 (Proc.devRef .tc main_arg1))) :=
  (val9_keep V0 main_v76 (by decide)).trans (val8_main_v76 V0)
theorem val9_main_v80 (V0 : Valuation τ sig (Elt F)) : val9 V0 (no_index (Proc.devRef .tc main_v80)) = mean16 (sl3 (rows (V0 (Proc.devRef .tc main_arg0)) (V0 (Proc.devRef .tc main_arg1)))) :=
  (val9_keep V0 main_v80 (by decide)).trans (val8_main_v80 V0)
set_option maxRecDepth 8192 in
set_option maxHeartbeats 2000000 in
theorem val9_main_v81 (V0 : Valuation τ sig (Elt F)) : val9 V0 (no_index (Proc.devRef .tc main_v81)) = var16 (sl3 (rows (V0 (Proc.devRef .tc main_arg0)) (V0 (Proc.devRef .tc main_arg1)))) := by
  unfold val9
  simp only [w8]
  after_results_simp
  simp only [val8_main_c_14, val8_main_v76] <;> rfl

/-- Operations 188 … 208 of the 276. -/
abbrev w9 : List (HloOp τ sig (Elt F)) :=
  [ unary main_v80 main_v82 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v76 main_v82 main_v83 (subf : (⟨S16x128x64x64, .f32⟩ : BufTy).Contents (Elt F) → (⟨S16x128x64x64, .f32⟩ : BufTy).Contents (Elt F) → (⟨S16x128x64x64, .f32⟩ : BufTy).Contents (Elt F)),
    nullary main_cst_15 (constant S_ .f32 0x3727C5AC#32),
    unary main_cst_15 main_v84 (broadcastInDim S1x128x1x1 ![] bcast_S_S1x128x1x1 : (⟨S_, .f32⟩ : BufTy).Contents (Elt F) → (⟨S1x128x1x1, .f32⟩ : BufTy).Contents (Elt F)),
    binary main_v81 main_v84 main_v85 (addf : (⟨S1x128x1x1, .f32⟩ : BufTy).Contents (Elt F) → (⟨S1x128x1x1, .f32⟩ : BufTy).Contents (Elt F) → (⟨S1x128x1x1, .f32⟩ : BufTy).Contents (Elt F)),
    unary main_v85 main_v86 (Host.rsqrt : (⟨S1x128x1x1, .f32⟩ : BufTy).Contents (Elt F) → (⟨S1x128x1x1, .f32⟩ : BufTy).Contents (Elt F)),
    unary main_v86 main_v87 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v83 main_v87 main_v88 (mulf : (⟨S16x128x64x64, .f32⟩ : BufTy).Contents (Elt F) → (⟨S16x128x64x64, .f32⟩ : BufTy).Contents (Elt F) → (⟨S16x128x64x64, .f32⟩ : BufTy).Contents (Elt F)),
    unary main_arg3 main_v89 ((extractStridedSlice S1x128 ![3, 0] · slices_S4x128_S1x128_3_0) : (⟨S4x128, .f32⟩ : BufTy).Contents (Elt F) → (⟨S1x128, .f32⟩ : BufTy).Contents (Elt F)),
    reshape main_v89 main_v90 rfl shapeCasts_S1x128_S128,
    unary main_v90 main_v91 (broadcastInDim S1x128x1x1 ![1] bcast_S128_S1x128x1x1_1 : (⟨S128, .f32⟩ : BufTy).Contents (Elt F) → (⟨S1x128x1x1, .f32⟩ : BufTy).Contents (Elt F)),
    unary main_v91 main_v92 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v88 main_v92 main_v93 (mulf : (⟨S16x128x64x64, .f32⟩ : BufTy).Contents (Elt F) → (⟨S16x128x64x64, .f32⟩ : BufTy).Contents (Elt F) → (⟨S16x128x64x64, .f32⟩ : BufTy).Contents (Elt F)),
    unary main_arg4 main_v94 ((extractStridedSlice S1x128 ![3, 0] · slices_S4x128_S1x128_3_0) : (⟨S4x128, .f32⟩ : BufTy).Contents (Elt F) → (⟨S1x128, .f32⟩ : BufTy).Contents (Elt F)),
    reshape main_v94 main_v95 rfl shapeCasts_S1x128_S128,
    unary main_v95 main_v96 (broadcastInDim S1x128x1x1 ![1] bcast_S128_S1x128x1x1_1 : (⟨S128, .f32⟩ : BufTy).Contents (Elt F) → (⟨S1x128x1x1, .f32⟩ : BufTy).Contents (Elt F)),
    unary main_v96 main_v97 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v93 main_v97 main_v98 (addf : (⟨S16x128x64x64, .f32⟩ : BufTy).Contents (Elt F) → (⟨S16x128x64x64, .f32⟩ : BufTy).Contents (Elt F) → (⟨S16x128x64x64, .f32⟩ : BufTy).Contents (Elt F)),
    nullary main_cst_16 (constant S_ .f32 0x00000000#32),
    binary main_v76 main_cst_16 main_v99 ((fun x v => Host.reduceAdd x v reducesTo_S16x128x64x64_S16x128_d2_3 h_S_) : (⟨S16x128x64x64, .f32⟩ : BufTy).Contents (Elt F) → (⟨S_, .f32⟩ : BufTy).Contents (Elt F) → (⟨S16x128, .f32⟩ : BufTy).Contents (Elt F)),
    unary main_v99 main_v100 (broadcastInDim S16x128x1x1 ![0, 1] bcast_S16x128_S16x128x1x1_0_1 : (⟨S16x128, .f32⟩ : BufTy).Contents (Elt F) → (⟨S16x128x1x1, .f32⟩ : BufTy).Contents (Elt F)) ]

theorem w9_sub : (w9 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., reshape_bufs_sub .., unary_bufs_sub .., unary_bufs_sub .., binary_bufs_sub .., unary_bufs_sub .., reshape_bufs_sub .., unary_bufs_sub .., unary_bufs_sub .., binary_bufs_sub .., nullary_bufs_sub .., binary_bufs_sub .., unary_bufs_sub ..⟩
theorem w9_fresh : ∀ op ∈ (w9 : List (HloOp τ sig (Elt F))), op.fresh = ∅ := by
  intro _ h; (repeat (cases h with | head => rfl | tail _ h => ?_)); exact nomatch h
/-- The buffers these operations write. -/
abbrev w9_W : List (Ref sig .tc) := [main_v82, main_v83, main_cst_15, main_v84, main_v85, main_v86, main_v87, main_v88, main_v89, main_v90, main_v91, main_v92, main_v93, main_v94, main_v95, main_v96, main_v97, main_v98, main_cst_16, main_v99, main_v100]
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 208 operations. -/
def val10 (V0 : Valuation τ sig (Elt F)) : Valuation τ sig (Elt F) := after w9 (val9 V0)
theorem val10_keep (V0 : Valuation τ sig (Elt F)) (r : Ref sig .tc) (h : r ∉ w9_W) :
    val10 V0 (Proc.devRef .tc r) = val9 V0 (Proc.devRef .tc r) :=
  after_of_writes_sub w9 _ w9_writes h
theorem val10_main_arg0 (V0 : Valuation τ sig (Elt F)) : val10 V0 (no_index (Proc.devRef .tc main_arg0)) = V0 (Proc.devRef .tc main_arg0) :=
  (val10_keep V0 main_arg0 (by decide)).trans (val9_main_arg0 V0)
theorem val10_main_arg1 (V0 : Valuation τ sig (Elt F)) : val10 V0 (no_index (Proc.devRef .tc main_arg1)) = V0 (Proc.devRef .tc main_arg1) :=
  (val10_keep V0 main_arg1 (by decide)).trans (val9_main_arg1 V0)
theorem val10_main_arg2 (V0 : Valuation τ sig (Elt F)) : val10 V0 (no_index (Proc.devRef .tc main_arg2)) = V0 (Proc.devRef .tc main_arg2) :=
  (val10_keep V0 main_arg2 (by decide)).trans (val9_main_arg2 V0)
theorem val10_main_arg3 (V0 : Valuation τ sig (Elt F)) : val10 V0 (no_index (Proc.devRef .tc main_arg3)) = V0 (Proc.devRef .tc main_arg3) :=
  (val10_keep V0 main_arg3 (by decide)).trans (val9_main_arg3 V0)
theorem val10_main_arg4 (V0 : Valuation τ sig (Elt F)) : val10 V0 (no_index (Proc.devRef .tc main_arg4)) = V0 (Proc.devRef .tc main_arg4) :=
  (val10_keep V0 main_arg4 (by decide)).trans (val9_main_arg4 V0)
theorem val10_main_arg5 (V0 : Valuation τ sig (Elt F)) : val10 V0 (no_index (Proc.devRef .tc main_arg5)) = V0 (Proc.devRef .tc main_arg5) :=
  (val10_keep V0 main_arg5 (by decide)).trans (val9_main_arg5 V0)
theorem val10_main_arg6 (V0 : Valuation τ sig (Elt F)) : val10 V0 (no_index (Proc.devRef .tc main_arg6)) = V0 (Proc.devRef .tc main_arg6) :=
  (val10_keep V0 main_arg6 (by decide)).trans (val9_main_arg6 V0)
theorem val10_main_arg7 (V0 : Valuation τ sig (Elt F)) : val10 V0 (no_index (Proc.devRef .tc main_arg7)) = V0 (Proc.devRef .tc main_arg7) :=
  (val10_keep V0 main_arg7 (by decide)).trans (val9_main_arg7 V0)
theorem val10_main_v29 (V0 : Valuation τ sig (Elt F)) : val10 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val10_keep V0 main_v29 (by decide)).trans (val9_main_v29 V0)
theorem val10_main_v52 (V0 : Valuation τ sig (Elt F)) : val10 V0 (no_index (Proc.devRef .tc main_v52)) = bn16 (sl1 (rows (V0 (Proc.devRef .tc main_arg0)) (V0 (Proc.devRef .tc main_arg1)))) (row1 (V0 (Proc.devRef .tc main_arg3))) (row1 (V0 (Proc.devRef .tc main_arg4))) :=
  (val10_keep V0 main_v52 (by decide)).trans (val9_main_v52 V0)
theorem val10_main_v75 (V0 : Valuation τ sig (Elt F)) : val10 V0 (no_index (Proc.devRef .tc main_v75)) = bn16 (sl2 (rows (V0 (Proc.devRef .tc main_arg0)) (V0 (Proc.devRef .tc main_arg1)))) (row2 (V0 (Proc.devRef .tc main_arg3))) (row2 (V0 (Proc.devRef .tc main_arg4))) :=
  (val10_keep V0 main_v75 (by decide)).trans (val9_main_v75 V0)
theorem val10_main_v76 (V0 : Valuation τ sig (Elt F)) : val10 V0 (no_index (Proc.devRef .tc main_v76)) = sl3 (rows (V0 (Proc.devRef .tc main_arg0)) (V0 (Proc.devRef .tc main_arg1))) :=
  (val10_keep V0 main_v76 (by decide)).trans (val9_main_v76 V0)
set_option maxRecDepth 8192 in
set_option maxHeartbeats 2000000 in
theorem val10_main_v98 (V0 : Valuation τ sig (Elt F)) : val10 V0 (no_index (Proc.devRef .tc main_v98)) = bn16 (sl3 (rows (V0 (Proc.devRef .tc main_arg0)) (V0 (Proc.devRef .tc main_arg1)))) (row3 (V0 (Proc.devRef .tc main_arg3))) (row3 (V0 (Proc.devRef .tc main_arg4))) := by
  unfold val10
  simp only [w9]
  after_results_simp
  simp only [val9_main_arg4, val9_main_arg3, val9_main_v81, val9_main_v80, val9_main_v76] <;> rfl
set_option maxRecDepth 8192 in
set_option maxHeartbeats 2000000 in
theorem val10_main_v100 (V0 : Valuation τ sig (Elt F)) : val10 V0 (no_index (Proc.devRef .tc main_v100)) = chanT (sumHW (sl3 (rows (V0 (Proc.devRef .tc main_arg0)) (V0 (Proc.devRef .tc main_arg1))))) := by
  unfold val10
  simp only [w9]
  after_results_simp
  simp only [val9_main_v76] <;> rfl

/-- Operations 209 … 235 of the 276. -/
abbrev w10 : List (HloOp τ sig (Elt F)) :=
  [ nullary main_cst_17 (constant S_ .f32 0x45800000#32),
    unary main_cst_17 main_v101 (broadcastInDim S16x128x1x1 ![] bcast_S_S16x128x1x1 : (⟨S_, .f32⟩ : BufTy).Contents (Elt F) → (⟨S16x128x1x1, .f32⟩ : BufTy).Contents (Elt F)),
    binary main_v100 main_v101 main_v102 (Host.divf : (⟨S16x128x1x1, .f32⟩ : BufTy).Contents (Elt F) → (⟨S16x128x1x1, .f32⟩ : BufTy).Contents (Elt F) → (⟨S16x128x1x1, .f32⟩ : BufTy).Contents (Elt F)),
    nullary main_c_18 (constantI S_ 32 0#32),
    TRef.nullary (.of main_call4_cst : TRef sig ⟨S_, .f32⟩) (constant S_ .f32 0x00000000#32),
    TRef.binary (.of main_v76 : TRef sig ⟨S16x128x64x64, .f32⟩) (.of main_call4_cst : TRef sig ⟨S_, .f32⟩) (.of main_call4_v0 : TRef sig ⟨S16x128, .f32⟩) (fun x v => Host.reduceAdd x v reducesTo_S16x128x64x64_S16x128_d2_3 h_S_),
    TRef.unary (.of main_call4_v0 : TRef sig ⟨S16x128, .f32⟩) (.of main_call4_v1 : TRef sig ⟨S16x128x1x1, .f32⟩) (broadcastInDim S16x128x1x1 ![0, 1] bcast_S16x128_S16x128x1x1_0_1),
    TRef.nullary (.of main_call4_cst_0 : TRef sig ⟨S_, .f32⟩) (constant S_ .f32 0x45800000#32),
    TRef.unary (.of main_call4_cst_0 : TRef sig ⟨S_, .f32⟩) (.of main_call4_v2 : TRef sig ⟨S16x128x1x1, .f32⟩) (broadcastInDim S16x128x1x1 ![] bcast_S_S16x128x1x1),
    TRef.binary (.of main_call4_v1 : TRef sig ⟨S16x128x1x1, .f32⟩) (.of main_call4_v2 : TRef sig ⟨S16x128x1x1, .f32⟩) (.of main_call4_v3 : TRef sig ⟨S16x128x1x1, .f32⟩) Host.divf,
    TRef.unary (.of main_call4_v3 : TRef sig ⟨S16x128x1x1, .f32⟩) (.of main_call4_v4 : TRef sig ⟨S16x128x64x64, .f32⟩) (broadcastInDim S16x128x64x64 ![0, 1, 2, 3] bcast_S16x128x1x1_S16x128x64x64_0_1_2_3),
    TRef.binary (.of main_v76 : TRef sig ⟨S16x128x64x64, .f32⟩) (.of main_call4_v4 : TRef sig ⟨S16x128x64x64, .f32⟩) (.of main_call4_v5 : TRef sig ⟨S16x128x64x64, .f32⟩) subf,
    TRef.binary (.of main_call4_v5 : TRef sig ⟨S16x128x64x64, .f32⟩) (.of main_call4_v5 : TRef sig ⟨S16x128x64x64, .f32⟩) (.of main_call4_v6 : TRef sig ⟨S16x128x64x64, .f32⟩) mulf,
    TRef.unary (.of main_c_18 : TRef sig ⟨S_, .i32⟩) (.of main_call4_v7 : TRef sig ⟨S_, .f32⟩) (sitofp .f32),
    TRef.nullary (.of main_call4_cst_1 : TRef sig ⟨S_, .f32⟩) (constant S_ .f32 0x45800000#32),
    TRef.binary (.of main_call4_cst_1 : TRef sig ⟨S_, .f32⟩) (.of main_call4_v7 : TRef sig ⟨S_, .f32⟩) (.of main_call4_v8 : TRef sig ⟨S_, .f32⟩) subf,
    TRef.nullary (.of main_call4_cst_2 : TRef sig ⟨S_, .f32⟩) (constant S_ .f32 0x00000000#32),
    TRef.binary (.of main_call4_v6 : TRef sig ⟨S16x128x64x64, .f32⟩) (.of main_call4_cst_2 : TRef sig ⟨S_, .f32⟩) (.of main_call4_v9 : TRef sig ⟨S16x128, .f32⟩) (fun x v => Host.reduceAdd x v reducesTo_S16x128x64x64_S16x128_d2_3 h_S_),
    TRef.unary (.of main_call4_v9 : TRef sig ⟨S16x128, .f32⟩) (.of main_call4_v10 : TRef sig ⟨S16x128x1x1, .f32⟩) (broadcastInDim S16x128x1x1 ![0, 1] bcast_S16x128_S16x128x1x1_0_1),
    TRef.unary (.of main_call4_v8 : TRef sig ⟨S_, .f32⟩) (.of main_call4_v11 : TRef sig ⟨S16x128x1x1, .f32⟩) (broadcastInDim S16x128x1x1 ![] bcast_S_S16x128x1x1),
    TRef.binary (.of main_call4_v10 : TRef sig ⟨S16x128x1x1, .f32⟩) (.of main_call4_v11 : TRef sig ⟨S16x128x1x1, .f32⟩) (.of main_call4_v12 : TRef sig ⟨S16x128x1x1, .f32⟩) Host.divf,
    TRef.nullary (.of main_call4_cst_3 : TRef sig ⟨S_, .f32⟩) (constant S_ .f32 0x00000000#32),
    TRef.binary (.of main_call4_v8 : TRef sig ⟨S_, .f32⟩) (.of main_call4_cst_3 : TRef sig ⟨S_, .f32⟩) (.of main_call4_v13 : TRef sig ⟨S_, .i1⟩) (cmpf .ogt),
    TRef.nullary (.of main_call4_cst_4 : TRef sig ⟨S_, .f32⟩) (constant S_ .f32 0x7FC00000#32),
    TRef.unary (.of main_call4_cst_4 : TRef sig ⟨S_, .f32⟩) (.of main_call4_call0_v0 : TRef sig ⟨S_, .f32⟩) id,
    TRef.unary (.of main_call4_call0_v0 : TRef sig ⟨S_, .f32⟩) (.of main_call4_call0_v1 : TRef sig ⟨S16x128x1x1, .f32⟩) (broadcastInDim S16x128x1x1 ![] bcast_S_S16x128x1x1),
    TRef.ternary (.of main_call4_v13 : TRef sig ⟨S_, .i1⟩) (.of main_call4_v12 : TRef sig ⟨S16x128x1x1, .f32⟩) (.of main_call4_call0_v1 : TRef sig ⟨S16x128x1x1, .f32⟩) (.of main_v103 : TRef sig ⟨S16x128x1x1, .f32⟩) (fun p a b => select (broadcastInDim S16x128x1x1 ![] bcast_S_S16x128x1x1 p) a b) ]

theorem w10_sub : (w10 : List (HloOp τ sig (Elt F))).Forall fun op => op.bufs ⊆ tcRefs τ sig :=
  ⟨nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem w10_fresh : ∀ op ∈ (w10 : List (HloOp τ sig (Elt F))), op.fresh = ∅ := by
  intro _ h; (repeat (cases h with | head => rfl | tail _ h => ?_)); exact nomatch h
/-- The buffers these operations write. -/
abbrev w10_W : List (Ref sig .tc) := [main_cst_17, main_v101, main_v102, main_c_18, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_v12, main_call4_cst_3, main_call4_v13, main_call4_cst_4, main_call4_call0_v0, main_call4_call0_v1, main_v103]
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 235 operations. -/
def val11 (V0 : Valuation τ sig (Elt F)) : Valuation τ sig (Elt F) := after w10 (val10 V0)
theorem val11_keep (V0 : Valuation τ sig (Elt F)) (r : Ref sig .tc) (h : r ∉ w10_W) :
    val11 V0 (Proc.devRef .tc r) = val10 V0 (Proc.devRef .tc r) :=
  after_of_writes_sub w10 _ w10_writes h
theorem val11_main_arg0 (V0 : Valuation τ sig (Elt F)) : val11 V0 (no_index (Proc.devRef .tc main_arg0)) = V0 (Proc.devRef .tc main_arg0) :=
  (val11_keep V0 main_arg0 (by decide)).trans (val10_main_arg0 V0)
theorem val11_main_arg1 (V0 : Valuation τ sig (Elt F)) : val11 V0 (no_index (Proc.devRef .tc main_arg1)) = V0 (Proc.devRef .tc main_arg1) :=
  (val11_keep V0 main_arg1 (by decide)).trans (val10_main_arg1 V0)
theorem val11_main_arg2 (V0 : Valuation τ sig (Elt F)) : val11 V0 (no_index (Proc.devRef .tc main_arg2)) = V0 (Proc.devRef .tc main_arg2) :=
  (val11_keep V0 main_arg2 (by decide)).trans (val10_main_arg2 V0)
theorem val11_main_arg3 (V0 : Valuation τ sig (Elt F)) : val11 V0 (no_index (Proc.devRef .tc main_arg3)) = V0 (Proc.devRef .tc main_arg3) :=
  (val11_keep V0 main_arg3 (by decide)).trans (val10_main_arg3 V0)
theorem val11_main_arg4 (V0 : Valuation τ sig (Elt F)) : val11 V0 (no_index (Proc.devRef .tc main_arg4)) = V0 (Proc.devRef .tc main_arg4) :=
  (val11_keep V0 main_arg4 (by decide)).trans (val10_main_arg4 V0)
theorem val11_main_arg5 (V0 : Valuation τ sig (Elt F)) : val11 V0 (no_index (Proc.devRef .tc main_arg5)) = V0 (Proc.devRef .tc main_arg5) :=
  (val11_keep V0 main_arg5 (by decide)).trans (val10_main_arg5 V0)
theorem val11_main_arg6 (V0 : Valuation τ sig (Elt F)) : val11 V0 (no_index (Proc.devRef .tc main_arg6)) = V0 (Proc.devRef .tc main_arg6) :=
  (val11_keep V0 main_arg6 (by decide)).trans (val10_main_arg6 V0)
theorem val11_main_arg7 (V0 : Valuation τ sig (Elt F)) : val11 V0 (no_index (Proc.devRef .tc main_arg7)) = V0 (Proc.devRef .tc main_arg7) :=
  (val11_keep V0 main_arg7 (by decide)).trans (val10_main_arg7 V0)
theorem val11_main_v29 (V0 : Valuation τ sig (Elt F)) : val11 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val11_keep V0 main_v29 (by decide)).trans (val10_main_v29 V0)
theorem val11_main_v52 (V0 : Valuation τ sig (Elt F)) : val11 V0 (no_index (Proc.devRef .tc main_v52)) = bn16 (sl1 (rows (V0 (Proc.devRef .tc main_arg0)) (V0 (Proc.devRef .tc main_arg1)))) (row1 (V0 (Proc.devRef .tc main_arg3))) (row1 (V0 (Proc.devRef .tc main_arg4))) :=
  (val11_keep V0 main_v52 (by decide)).trans (val10_main_v52 V0)
theorem val11_main_v75 (V0 : Valuation τ sig (Elt F)) : val11 V0 (no_index (Proc.devRef .tc main_v75)) = bn16 (sl2 (rows (V0 (Proc.devRef .tc main_arg0)) (V0 (Proc.devRef .tc main_arg1)))) (row2 (V0 (Proc.devRef .tc main_arg3))) (row2 (V0 (Proc.devRef .tc main_arg4))) :=
  (val11_keep V0 main_v75 (by decide)).trans (val10_main_v75 V0)
theorem val11_main_v76 (V0 : Valuation τ sig (Elt F)) : val11 V0 (no_index (Proc.devRef .tc main_v76)) = sl3 (rows (V0 (Proc.devRef .tc main_arg0)) (V0 (Proc.devRef .tc main_arg1))) :=
  (val11_keep V0 main_v76 (by decide)).trans (val10_main_v76 V0)
theorem val11_main_v98 (V0 : Valuation τ sig (Elt F)) : val11 V0 (no_index (Proc.devRef .tc main_v98)) = bn16 (sl3 (rows (V0 (Proc.devRef .tc main_arg0)) (V0 (Proc.devRef .tc main_arg1)))) (row3 (V0 (Proc.devRef .tc main_arg3))) (row3 (V0 (Proc.devRef .tc main_arg4))) :=
  (val11_keep V0 main_v98 (by decide)).trans (val10_main_v98 V0)
set_option maxRecDepth 8192 in
set_option maxHeartbeats 2000000 in
theorem val11_main_v102 (V0 : Valuation τ sig (Elt F)) : val11 V0 (no_index (Proc.devRef .tc main_v102)) = meanHW (sl3 (rows (V0 (Proc.devRef .tc main_arg0)) (V0 (Proc.devRef .tc main_arg1)))) := by
  unfold val11
  simp only [w10]
  after_results_simp
  simp only [val10_main_v100] <;> rfl
set_option maxRecDepth 8192 in
set_option maxHeartbeats 2000000 in
theorem val11_main_v103 (V0 : Valuation τ sig (Elt F)) : val11 V0 (no_index (Proc.devRef .tc main_v103)) = varHW (sl3 (rows (V0 (Proc.devRef .tc main_arg0)) (V0 (Proc.devRef .tc main_arg1)))) := by
  unfold val11
  simp only [w10]
  after_results_simp
  simp only [val10_main_v76] <;> rfl

/-- Operations 236 … 266 of the 276. -/
abbrev w11 : List (HloOp τ sig (Elt F)) :=
  [ unary main_v102 main_v104 (broadcastInDim S16x128x64x64 ![0, 1, 2, 3] bcast_S16x128x1x1_S16x128x64x64_0_1_2_3 : (⟨S16x128x1x1, .f32⟩ : BufTy).Contents (Elt F) → (⟨S16x128x64x64, .f32⟩ : BufTy).Contents (Elt F)),
    binary main_v76 main_v104 main_v105 (subf : (⟨S16x128x64x64, .f32⟩ : BufTy).Contents (Elt F) → (⟨S16x128x64x64, .f32⟩ : BufTy).Contents (Elt F) → (⟨S16x128x64x64, .f32⟩ : BufTy).Contents (Elt F)),
    nullary main_cst_19 (constant S_ .f32 0x3727C5AC#32),
    unary main_cst_19 main_v106 (broadcastInDim S16x128x1x1 ![] bcast_S_S16x128x1x1 : (⟨S_, .f32⟩ : BufTy).Contents (Elt F) → (⟨S16x128x1x1, .f32⟩ : BufTy).Contents (Elt F)),
    binary main_v103 main_v106 main_v107 (addf : (⟨S16x128x1x1, .f32⟩ : BufTy).Contents (Elt F) → (⟨S16x128x1x1, .f32⟩ : BufTy).Contents (Elt F) → (⟨S16x128x1x1, .f32⟩ : BufTy).Contents (Elt F)),
    unary main_v107 main_v108 (Host.rsqrt : (⟨S16x128x1x1, .f32⟩ : BufTy).Contents (Elt F) → (⟨S16x128x1x1, .f32⟩ : BufTy).Contents (Elt F)),
    unary main_v108 main_v109 (broadcastInDim S16x128x64x64 ![0, 1, 2, 3] bcast_S16x128x1x1_S16x128x64x64_0_1_2_3 : (⟨S16x128x1x1, .f32⟩ : BufTy).Contents (Elt F) → (⟨S16x128x64x64, .f32⟩ : BufTy).Contents (Elt F)),
    binary main_v105 main_v109 main_v110 (mulf : (⟨S16x128x64x64, .f32⟩ : BufTy).Contents (Elt F) → (⟨S16x128x64x64, .f32⟩ : BufTy).Contents (Elt F) → (⟨S16x128x64x64, .f32⟩ : BufTy).Contents (Elt F)),
    unary main_arg5 main_v111 (broadcastInDim S1x128x1x1 ![1] bcast_S128_S1x128x1x1_1 : (⟨S128, .f32⟩ : BufTy).Contents (Elt F) → (⟨S1x128x1x1, .f32⟩ : BufTy).Contents (Elt F)),
    unary main_v111 main_v112 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v110 main_v112 main_v113 (mulf : (⟨S16x128x64x64, .f32⟩ : BufTy).Contents (Elt F) → (⟨S16x128x64x64, .f32⟩ : BufTy).Contents (Elt F) → (⟨S16x128x64x64, .f32⟩ : BufTy).Contents (Elt F)),
    unary main_arg6 main_v114 (broadcastInDim S1x128x1x1 ![1] bcast_S128_S1x128x1x1_1 : (⟨S128, .f32⟩ : BufTy).Contents (Elt F) → (⟨S1x128x1x1, .f32⟩ : BufTy).Contents (Elt F)),
    unary main_v114 main_v115 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v113 main_v115 main_v116 (addf : (⟨S16x128x64x64, .f32⟩ : BufTy).Contents (Elt F) → (⟨S16x128x64x64, .f32⟩ : BufTy).Contents (Elt F) → (⟨S16x128x64x64, .f32⟩ : BufTy).Contents (Elt F)),
    unary main_arg7 main_v117 (Host.negf : (⟨S128, .f32⟩ : BufTy).Contents (Elt F) → (⟨S128, .f32⟩ : BufTy).Contents (Elt F)),
    unary main_v117 main_v118 (Host.exp : (⟨S128, .f32⟩ : BufTy).Contents (Elt F) → (⟨S128, .f32⟩ : BufTy).Contents (Elt F)),
    nullary main_cst_20 (constant S_ .f32 0x3F800000#32),
    unary main_cst_20 main_v119 (broadcastInDim S128 ![] bcast_S_S128 : (⟨S_, .f32⟩ : BufTy).Contents (Elt F) → (⟨S128, .f32⟩ : BufTy).Contents (Elt F)),
    binary main_v119 main_v118 main_v120 (addf : (⟨S128, .f32⟩ : BufTy).Contents (Elt F) → (⟨S128, .f32⟩ : BufTy).Contents (Elt F) → (⟨S128, .f32⟩ : BufTy).Contents (Elt F)),
    nullary main_cst_21 (constant S_ .f32 0x3F800000#32),
    unary main_cst_21 main_v121 (broadcastInDim S128 ![] bcast_S_S128 : (⟨S_, .f32⟩ : BufTy).Contents (Elt F) → (⟨S128, .f32⟩ : BufTy).Contents (Elt F)),
    binary main_v121 main_v120 main_v122 (Host.divf : (⟨S128, .f32⟩ : BufTy).Contents (Elt F) → (⟨S128, .f32⟩ : BufTy).Contents (Elt F) → (⟨S128, .f32⟩ : BufTy).Contents (Elt F)),
    unary main_v122 main_v123 (broadcastInDim S1x128x1x1 ![1] bcast_S128_S1x128x1x1_1 : (⟨S128, .f32⟩ : BufTy).Contents (Elt F) → (⟨S1x128x1x1, .f32⟩ : BufTy).Contents (Elt F)),
    unary main_v123 main_v124 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v124 main_v98 main_v125 (mulf : (⟨S16x128x64x64, .f32⟩ : BufTy).Contents (Elt F) → (⟨S16x128x64x64, .f32⟩ : BufTy).Contents (Elt F) → (⟨S16x128x64x64, .f32⟩ : BufTy).Contents (Elt F)),
    nullary main_cst_22 (constant S_ .f32 0x3F800000#32),
    unary main_cst_22 main_v126 (broadcastInDim S1x128x1x1 ![] bcast_S_S1x128x1x1 : (⟨S_, .f32⟩ : BufTy).Contents (Elt F) → (⟨S1x128x1x1, .f32⟩ : BufTy).Contents (Elt F)),
    binary main_v126 main_v123 main_v127 (subf : (⟨S1x128x1x1, .f32⟩ : BufTy).Contents (Elt F) → (⟨S1x128x1x1, .f32⟩ : BufTy).Contents (Elt F) → (⟨S1x128x1x1, .f32⟩ : BufTy).Contents (Elt F)),
    unary main_v127 main_v128 (broadcastInDim S16x128x64x64 ![0, 1, 2, 3] bcast_S1x128x1x1_S16x128x64x64_0_1_2_3 : (⟨S1x128x1x1, .f32⟩ : BufTy).Contents (Elt F) → (⟨S16x128x64x64, .f32⟩ : BufTy).Contents (Elt F)),
    binary main_v128 main_v116 main_v129 (mulf : (⟨S16x128x64x64, .f32⟩ : BufTy).Contents (Elt F) → (⟨S16x128x64x64, .f32⟩ : BufTy).Contents (Elt F) → (⟨S16x128x64x64, .f32⟩ : BufTy).Contents (Elt F)),
    binary main_v125 main_v129 main_v130 (addf : (⟨S16x128x64x64, .f32⟩ : BufTy).Contents (Elt F) → (⟨S16x128x64x64, .f32⟩ : BufTy).Contents (Elt F) → (⟨S16x128x64x64, .f32⟩ : BufTy).Contents (Elt F)) ]

theorem w11_sub : (w11 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., binary_bufs_sub .., binary_bufs_sub ..⟩
theorem w11_fresh : ∀ op ∈ (w11 : List (HloOp τ sig (Elt F))), op.fresh = ∅ := by
  intro _ h; (repeat (cases h with | head => rfl | tail _ h => ?_)); exact nomatch h
/-- The buffers these operations write. -/
abbrev w11_W : List (Ref sig .tc) := [main_v104, main_v105, main_cst_19, main_v106, main_v107, main_v108, main_v109, main_v110, main_v111, main_v112, main_v113, main_v114, main_v115, main_v116, main_v117, main_v118, main_cst_20, main_v119, main_v120, main_cst_21, main_v121, main_v122, main_v123, main_v124, main_v125, main_cst_22, main_v126, main_v127, main_v128, main_v129, main_v130]
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 266 operations. -/
def val12 (V0 : Valuation τ sig (Elt F)) : Valuation τ sig (Elt F) := after w11 (val11 V0)
theorem val12_keep (V0 : Valuation τ sig (Elt F)) (r : Ref sig .tc) (h : r ∉ w11_W) :
    val12 V0 (Proc.devRef .tc r) = val11 V0 (Proc.devRef .tc r) :=
  after_of_writes_sub w11 _ w11_writes h
theorem val12_main_arg0 (V0 : Valuation τ sig (Elt F)) : val12 V0 (no_index (Proc.devRef .tc main_arg0)) = V0 (Proc.devRef .tc main_arg0) :=
  (val12_keep V0 main_arg0 (by decide)).trans (val11_main_arg0 V0)
theorem val12_main_arg1 (V0 : Valuation τ sig (Elt F)) : val12 V0 (no_index (Proc.devRef .tc main_arg1)) = V0 (Proc.devRef .tc main_arg1) :=
  (val12_keep V0 main_arg1 (by decide)).trans (val11_main_arg1 V0)
theorem val12_main_arg2 (V0 : Valuation τ sig (Elt F)) : val12 V0 (no_index (Proc.devRef .tc main_arg2)) = V0 (Proc.devRef .tc main_arg2) :=
  (val12_keep V0 main_arg2 (by decide)).trans (val11_main_arg2 V0)
theorem val12_main_arg3 (V0 : Valuation τ sig (Elt F)) : val12 V0 (no_index (Proc.devRef .tc main_arg3)) = V0 (Proc.devRef .tc main_arg3) :=
  (val12_keep V0 main_arg3 (by decide)).trans (val11_main_arg3 V0)
theorem val12_main_arg4 (V0 : Valuation τ sig (Elt F)) : val12 V0 (no_index (Proc.devRef .tc main_arg4)) = V0 (Proc.devRef .tc main_arg4) :=
  (val12_keep V0 main_arg4 (by decide)).trans (val11_main_arg4 V0)
theorem val12_main_arg5 (V0 : Valuation τ sig (Elt F)) : val12 V0 (no_index (Proc.devRef .tc main_arg5)) = V0 (Proc.devRef .tc main_arg5) :=
  (val12_keep V0 main_arg5 (by decide)).trans (val11_main_arg5 V0)
theorem val12_main_arg6 (V0 : Valuation τ sig (Elt F)) : val12 V0 (no_index (Proc.devRef .tc main_arg6)) = V0 (Proc.devRef .tc main_arg6) :=
  (val12_keep V0 main_arg6 (by decide)).trans (val11_main_arg6 V0)
theorem val12_main_arg7 (V0 : Valuation τ sig (Elt F)) : val12 V0 (no_index (Proc.devRef .tc main_arg7)) = V0 (Proc.devRef .tc main_arg7) :=
  (val12_keep V0 main_arg7 (by decide)).trans (val11_main_arg7 V0)
theorem val12_main_v29 (V0 : Valuation τ sig (Elt F)) : val12 V0 (no_index (Proc.devRef .tc main_v29)) = bn16 (sl0 (rows (V0 (Proc.devRef .tc main_arg0)) (V0 (Proc.devRef .tc main_arg1)))) (row0 (V0 (Proc.devRef .tc main_arg3))) (row0 (V0 (Proc.devRef .tc main_arg4))) :=
  (val12_keep V0 main_v29 (by decide)).trans (val11_main_v29 V0)
theorem val12_main_v52 (V0 : Valuation τ sig (Elt F)) : val12 V0 (no_index (Proc.devRef .tc main_v52)) = bn16 (sl1 (rows (V0 (Proc.devRef .tc main_arg0)) (V0 (Proc.devRef .tc main_arg1)))) (row1 (V0 (Proc.devRef .tc main_arg3))) (row1 (V0 (Proc.devRef .tc main_arg4))) :=
  (val12_keep V0 main_v52 (by decide)).trans (val11_main_v52 V0)
theorem val12_main_v75 (V0 : Valuation τ sig (Elt F)) : val12 V0 (no_index (Proc.devRef .tc main_v75)) = bn16 (sl2 (rows (V0 (Proc.devRef .tc main_arg0)) (V0 (Proc.devRef .tc main_arg1)))) (row2 (V0 (Proc.devRef .tc main_arg3))) (row2 (V0 (Proc.devRef .tc main_arg4))) :=
  (val12_keep V0 main_v75 (by decide)).trans (val11_main_v75 V0)
set_option maxRecDepth 8192 in
set_option maxHeartbeats 2000000 in
theorem val12_main_v130 (V0 : Valuation τ sig (Elt F)) : val12 V0 (no_index (Proc.devRef .tc main_v130)) = blend (V0 (Proc.devRef .tc main_arg7)) (bn16 (sl3 (rows (V0 (Proc.devRef .tc main_arg0)) (V0 (Proc.devRef .tc main_arg1)))) (row3 (V0 (Proc.devRef .tc main_arg3))) (row3 (V0 (Proc.devRef .tc main_arg4)))) (inn16 (sl3 (rows (V0 (Proc.devRef .tc main_arg0)) (V0 (Proc.devRef .tc main_arg1)))) (V0 (Proc.devRef .tc main_arg5)) (V0 (Proc.devRef .tc main_arg6))) := by
  unfold val12
  simp only [w11]
  after_results_simp
  simp only [val11_main_arg6, val11_main_arg5, val11_main_v103, val11_main_v102, val11_main_v76, val11_main_arg7, val11_main_v98] <;> rfl

/-- Operations 267 … 276 of the 276. -/
abbrev w12 : List (HloOp τ sig (Elt F)) :=
  [ nary ![main_v29, main_v52, main_v75, main_v130] main_v131 (fun u => concatenate S64x128x64x64 0 [⟨S16x128x64x64, u 0⟩, ⟨S16x128x64x64, u 1⟩, ⟨S16x128x64x64, u 2⟩, ⟨S16x128x64x64, u 3⟩] concatenates_S16x128x64x64_S16x128x64x64_S16x128x64x64_S16x128x64x64_S64x128x64x64_d0),
    nullary main_c_23 (constantI S_ 32 0#32),
    unary main_c_23 main_v132 (broadcastInDim S64 ![] bcast_S_S64 : (⟨S_, .i32⟩ : BufTy).Contents (Elt F) → (⟨S64, .i32⟩ : BufTy).Contents (Elt F)),
    binary main_arg2 main_v132 main_v133 (cmpi .slt : (⟨S64, .i32⟩ : BufTy).Contents (Elt F) → (⟨S64, .i32⟩ : BufTy).Contents (Elt F) → (⟨S64, .i1⟩ : BufTy).Contents (Elt F)),
    nullary main_c_24 (constantI S_ 32 64#32),
    unary main_c_24 main_v134 (broadcastInDim S64 ![] bcast_S_S64 : (⟨S_, .i32⟩ : BufTy).Contents (Elt F) → (⟨S64, .i32⟩ : BufTy).Contents (Elt F)),
    binary main_arg2 main_v134 main_v135 (addi : (⟨S64, .i32⟩ : BufTy).Contents (Elt F) → (⟨S64, .i32⟩ : BufTy).Contents (Elt F) → (⟨S64, .i32⟩ : BufTy).Contents (Elt F)),
    ternary main_v133 main_v135 main_arg2 main_v136 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v136 main_v137 (broadcastInDim S64x1 ![0] bcast_S64_S64x1_0 : (⟨S64, .i32⟩ : BufTy).Contents (Elt F) → (⟨S64x1, .i32⟩ : BufTy).Contents (Elt F)),
    binary main_v131 main_v137 main_v138 ((fun x i => Host.gather gather_S64x128x64x64_S64x1_S64x128x64x64_123_0_n_n_0_1_11286464 x i) : (⟨S64x128x64x64, .f32⟩ : BufTy).Contents (Elt F) → (⟨S64x1, .i32⟩ : BufTy).Contents (Elt F) → (⟨S64x128x64x64, .f32⟩ : BufTy).Contents (Elt F)) ]

theorem w12_sub : (w12 : List (HloOp τ sig (Elt F))).Forall fun op => op.bufs ⊆ tcRefs τ sig :=
  ⟨nary_bufs_sub .., nullary_bufs_sub .., unary_bufs_sub .., binary_bufs_sub .., nullary_bufs_sub .., unary_bufs_sub .., binary_bufs_sub .., ternary_bufs_sub .., unary_bufs_sub .., binary_bufs_sub ..⟩
theorem w12_fresh : ∀ op ∈ (w12 : List (HloOp τ sig (Elt F))), op.fresh = ∅ := by
  intro _ h; (repeat (cases h with | head => rfl | tail _ h => ?_)); exact nomatch h
/-- The buffers these operations write. -/
abbrev w12_W : List (Ref sig .tc) := [main_v131, main_c_23, main_v132, main_v133, main_c_24, main_v134, main_v135, main_v136, main_v137, main_v138]
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

/-- The buffer contents after the first 276 operations. -/
def val13 (V0 : Valuation τ sig (Elt F)) : Valuation τ sig (Elt F) := after w12 (val12 V0)
theorem val13_keep (V0 : Valuation τ sig (Elt F)) (r : Ref sig .tc) (h : r ∉ w12_W) :
    val13 V0 (Proc.devRef .tc r) = val12 V0 (Proc.devRef .tc r) :=
  after_of_writes_sub w12 _ w12_writes h
theorem val13_main_arg0 (V0 : Valuation τ sig (Elt F)) : val13 V0 (no_index (Proc.devRef .tc main_arg0)) = V0 (Proc.devRef .tc main_arg0) :=
  (val13_keep V0 main_arg0 (by decide)).trans (val12_main_arg0 V0)
theorem val13_main_arg1 (V0 : Valuation τ sig (Elt F)) : val13 V0 (no_index (Proc.devRef .tc main_arg1)) = V0 (Proc.devRef .tc main_arg1) :=
  (val13_keep V0 main_arg1 (by decide)).trans (val12_main_arg1 V0)
theorem val13_main_arg2 (V0 : Valuation τ sig (Elt F)) : val13 V0 (no_index (Proc.devRef .tc main_arg2)) = V0 (Proc.devRef .tc main_arg2) :=
  (val13_keep V0 main_arg2 (by decide)).trans (val12_main_arg2 V0)
theorem val13_main_arg3 (V0 : Valuation τ sig (Elt F)) : val13 V0 (no_index (Proc.devRef .tc main_arg3)) = V0 (Proc.devRef .tc main_arg3) :=
  (val13_keep V0 main_arg3 (by decide)).trans (val12_main_arg3 V0)
theorem val13_main_arg4 (V0 : Valuation τ sig (Elt F)) : val13 V0 (no_index (Proc.devRef .tc main_arg4)) = V0 (Proc.devRef .tc main_arg4) :=
  (val13_keep V0 main_arg4 (by decide)).trans (val12_main_arg4 V0)
theorem val13_main_arg5 (V0 : Valuation τ sig (Elt F)) : val13 V0 (no_index (Proc.devRef .tc main_arg5)) = V0 (Proc.devRef .tc main_arg5) :=
  (val13_keep V0 main_arg5 (by decide)).trans (val12_main_arg5 V0)
theorem val13_main_arg6 (V0 : Valuation τ sig (Elt F)) : val13 V0 (no_index (Proc.devRef .tc main_arg6)) = V0 (Proc.devRef .tc main_arg6) :=
  (val13_keep V0 main_arg6 (by decide)).trans (val12_main_arg6 V0)
theorem val13_main_arg7 (V0 : Valuation τ sig (Elt F)) : val13 V0 (no_index (Proc.devRef .tc main_arg7)) = V0 (Proc.devRef .tc main_arg7) :=
  (val13_keep V0 main_arg7 (by decide)).trans (val12_main_arg7 V0)
set_option maxRecDepth 8192 in
set_option maxHeartbeats 1000000 in
theorem val13_main_v138 (V0 : Valuation τ sig (Elt F)) : val13 V0 (no_index (Proc.devRef .tc main_v138)) = result (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) := by
  unfold val13
  simp only [w12]
  after_results_simp
  simp only [val12_main_arg2, val12_main_v130, val12_main_v75, val12_main_v52, val12_main_v29] <;> rfl

/-! ## The whole program and its run -/

/-- The operations of @main's first printed window, its calls inlined. -/
abbrev part0 : List (HloOp τ sig (Elt F)) := w0 ++ w1 ++ w2 ++ w3 ++ w4
/-- The operations of @main's second printed window, its calls inlined. -/
abbrev part1 : List (HloOp τ sig (Elt F)) := w5 ++ w6 ++ w7 ++ w8 ++ w9
/-- The operations of @main's third printed window, its calls inlined. -/
abbrev part2 : List (HloOp τ sig (Elt F)) := w10 ++ w11 ++ w12
/-- @main's 276 operations, in order: each outlined call's operations at the call site, over the call's buffers. -/
abbrev ops : List (HloOp τ sig (Elt F)) := part0 ++ (part1 ++ part2)

private theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
set_option maxHeartbeats 4000000 in
/-- The printed window is that straight line: the calls unfolded, sequencing reassociated. -/
theorem main_part0_eq (c : Dev nD) : main_part0 (F := F) c = seq part0 := by
  simp only [main_part0, fn_var.body, fn_where.body, part0, w0, w1, w2, w3, w4, List.cons_append, List.nil_append, seq, bind_assoc, pure_bind]
  rfl
set_option maxRecDepth 8192 in
set_option maxHeartbeats 4000000 in
/-- The printed window is that straight line: the calls unfolded, sequencing reassociated. -/
theorem main_part1_eq (c : Dev nD) : main_part1 (F := F) c = seq part1 := by
  simp only [main_part1, fn_var.body, fn_where.body, part1, w5, w6, w7, w8, w9, List.cons_append, List.nil_append, seq, bind_assoc, pure_bind]
  rfl
set_option maxRecDepth 8192 in
set_option maxHeartbeats 4000000 in
/-- The printed window is that straight line: the calls unfolded, sequencing reassociated. -/
theorem main_part2_eq (c : Dev nD) : main_part2 (F := F) c = seq part2 := by
  simp only [main_part2, fn_var_0.body, fn_where_1.body, part2, w10, w11, w12, List.cons_append, List.nil_append, seq, bind_assoc, pure_bind]
set_option maxRecDepth 8192 in
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  List.forall_iff_forall_mem.mpr fun op h => by
    simp only [ops, part0, part1, part2, List.mem_append] at h
    rcases h with ((((h | h) | h) | h) | h) | ((((h | h) | h) | h) | h) | ((h | h) | h)
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h]
theorem ops_fresh : ∀ op ∈ (ops : List (HloOp τ sig (Elt F))), op.fresh = ∅ := fun op h => by
  simp only [ops, part0, part1, part2, List.mem_append] at h
  rcases h with ((((h | h) | h) | h) | h) | ((((h | h) | h) | h) | h) | ((h | h) | h)
  exacts [w0_fresh op h, w1_fresh op h, w2_fresh op h, w3_fresh op h, w4_fresh op h, w5_fresh op h, w6_fresh op h, w7_fresh op h, w8_fresh op h, w9_fresh op h, w10_fresh op h, w11_fresh op h, w12_fresh op h]

theorem after_ops (V0 : Valuation τ sig (Elt F)) : after ops V0 = val13 V0 := by
  simp only [ops, part0, part1, part2, after_app]
  rfl

/-- On every device, for any float values, from any memory with zero counters: every weakly fair execution of @main
    terminates with the result at `result` of the arguments' launch contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v138) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v138).trans ((congrFun (after_ops _) _).trans (val13_main_v138 (launchContents m c))),
      (h c main_arg0).trans ((congrFun (after_ops _) _).trans (val13_main_arg0 (launchContents m c))),
      (h c main_arg1).trans ((congrFun (after_ops _) _).trans (val13_main_arg1 (launchContents m c))),
      (h c main_arg2).trans ((congrFun (after_ops _) _).trans (val13_main_arg2 (launchContents m c))),
      (h c main_arg3).trans ((congrFun (after_ops _) _).trans (val13_main_arg3 (launchContents m c))),
      (h c main_arg4).trans ((congrFun (after_ops _) _).trans (val13_main_arg4 (launchContents m c))),
      (h c main_arg5).trans ((congrFun (after_ops _) _).trans (val13_main_arg5 (launchContents m c))),
      (h c main_arg6).trans ((congrFun (after_ops _) _).trans (val13_main_arg6 (launchContents m c))),
      (h c main_arg7).trans ((congrFun (after_ops _) _).trans (val13_main_arg7 (launchContents m c)))⟩)
    (run_seq scopedRefs_eq scopedSems_eq defs main (fun _ => ops) main_eq (fun _ => ops_sub) m ρ (fun _ => ops_fresh))

/-- The reference terminates without a fault and leaves its arguments as they were: the run, its result dropped. -/
theorem frame [hPre_finite_inputs : Cert.Pre_finite_inputs.Facts] : Cert.frame_ReferenceIdeal :=
  fun m g _ => (θ_run (defs (F := Ideal)) _ _).mono (fun _ h c => (h c).2) (run (F := Ideal) m g)

end Cert.ReferenceIdeal.HandRun

end
-- ==== Proof.Frames.lean ====
/-
  The three programs run to their end, fault nowhere, and leave their arguments as they found them.

  For the kernel program, at the word-level and at the exact instance alike: the precondition bounds every word of the
  sorting index array, so the table the first kernel region stages its rows through is admissible; the first region's
  proof data, the second region's, and the host operations between them compose into a run of the whole program in which no
  segment writes an argument. For the reference: its host operations run in order, each writing only its own result.
-/
import proofs.«159259_j85899346585_1_alg».proof.Defs
import proofs.«159259_j85899346585_1_alg».proof.Proof.Gen.Kernel
import proofs.«159259_j85899346585_1_alg».proof.Proof.Gen.KernelIdeal
import proofs.«159259_j85899346585_1_alg».proof.Proof.Gen.ReferenceIdeal
import proofs.«159259_j85899346585_1_alg».proof.Proof.Gen.Pre_finite_inputs
import proofs.«159259_j85899346585_1_alg».proof.Proof.PreGlueIdeal
import proofs.«159259_j85899346585_1_alg».proof.Proof.StatsRegionIdeal
import proofs.«159259_j85899346585_1_alg».proof.Proof.RunIdeal
import proofs.«159259_j85899346585_1_alg».proof.Proof.PreGlueBits
import proofs.«159259_j85899346585_1_alg».proof.Proof.StatsRegionBits
import proofs.«159259_j85899346585_1_alg».proof.Proof.RunBits
import proofs.«159259_j85899346585_1_alg».proof.Proof.RefRun

noncomputable section

namespace Cert.Proof.Frames

open Idealize.ShloMosaic Idealize.ShloMosaic.TcCoe Idealize.SL.Sem

/-- The table read off the launch memory is the same on every device: there is one device. -/
theorem tab_ki (m : (ℓ : Loc Cert.KernelIdeal.nD Cert.KernelIdeal.τ Cert.KernelIdeal.sig) → Buf (Elt Ideal) ℓ) (h : Cert.Pre_KernelIdeal m) :
    ∀ (c : Dev Cert.KernelIdeal.nD) (k : Fin Cert.KernelIdeal.pre0.K),
      (Cert.KernelIdeal.PreGlue.adm m h).1 k = m ((c : Thread Cert.KernelIdeal.nD Cert.KernelIdeal.τ).loc (Cert.KernelIdeal.pre0.ref k)) := by
  intro c k
  obtain rfl : c = 0 := Subsingleton.elim _ _
  rfl

theorem tab_k (m : (ℓ : Loc Cert.Kernel.nD Cert.Kernel.τ Cert.Kernel.sig) → Buf (Elt Bits) ℓ) (h : Cert.Pre_Kernel m) :
    ∀ (c : Dev Cert.Kernel.nD) (k : Fin Cert.Kernel.pre0.K),
      (Cert.Kernel.PreGlue.adm m h).1 k = m ((c : Thread Cert.Kernel.nD Cert.Kernel.τ).loc (Cert.Kernel.pre0.ref k)) := by
  intro c k
  obtain rfl : c = 0 := Subsingleton.elim _ _
  rfl

/-- The kernel program at the word-level instance. -/
theorem frame_k : Cert.frame_Kernel := fun m ρ h =>
  Cert.Kernel.Run.frame m ρ (Cert.Kernel.PreGlue.adm m h) (fun V => Cert.Kernel.StatsRegion.stats _ V) (tab_k m h)

/-- The kernel program at the exact instance. -/
theorem frame_ki : Cert.frame_KernelIdeal := fun m ρ h =>
  Cert.KernelIdeal.Run.frame m ρ (Cert.KernelIdeal.PreGlue.adm m h) (fun V => Cert.KernelIdeal.StatsRegion.stats _ V) (tab_ki m h)

/-- The reference. -/
theorem frame_ri : Cert.frame_ReferenceIdeal := Cert.ReferenceIdeal.HandRun.frame

end Cert.Proof.Frames

end
-- ==== Proof.RunResultIdeal.lean ====
/-
  The run of the whole program read at its result: every final state has the result buffer at the last contents of the
  fold through the program, and each argument as launched; and the arguments as the normalising region finds them.
-/
import proofs.«159259_j85899346585_1_alg».proof.Proof.IfaceIdeal
import proofs.«159259_j85899346585_1_alg».proof.Proof.ApplyRegionIdeal
import proofs.«159259_j85899346585_1_alg».proof.Proof.Gen.KernelIdeal.Regions
import proofs.«159259_j85899346585_1_alg».proof.Proof.RunIdeal
set_option maxRecDepth 16384

noncomputable section

namespace Cert.KernelIdeal.Run

open Cert.KernelIdeal Cert.KernelIdeal.Gen Cert.KernelIdeal.Iface
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg) (a0 : (pcfg0 (F := F)).Adm)
variable (st : ∀ V : (c : Dev nD) → (b : Ref sig .tc) → Buf (Elt F) ((c : Thread nD τ).loc b), Stats a0 V)
variable (htab : ∀ (c : Dev nD) (k : Fin pre0.K), a0.1 k = m ((c : Thread nD τ).loc (pre0.ref k)))

include htab in
/-- THE RUN, READ AT THE RESULT: every weakly fair execution terminates, nothing faulting, and every final state has the
    result buffer at `v0` — any contents the last boundary's contents have there — and the argument arrays as launched. -/
theorem run_result (v0 : (c : Dev nD) → Buf (Elt F) ((c.tc : Thread nD τ).loc main_v57))
    (hv : ∀ c : Dev nD, W7 m a0 st c (Proc.devRef .tc main_v57) = v0 c) :
    θ_run defs (onTc (τ := τ) (main (F := F))) ⟨m, fun _ => 0, ρ⟩ (fun r => ∀ c : Dev nD,
      r.2.mem ((c.tc : Thread nD τ).loc main_v57) = v0 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c =>
    ⟨(h c _ (mem_uc main_v57 (by decide))).trans (hv c),
     (h c _ (mem_uc main_arg0 (by decide))).trans (W7_main_arg0 m a0 st c),
     (h c _ (mem_uc main_arg1 (by decide))).trans (W7_main_arg1 m a0 st c),
     (h c _ (mem_uc main_arg2 (by decide))).trans (W7_main_arg2 m a0 st c),
     (h c _ (mem_uc main_arg3 (by decide))).trans (W7_main_arg3 m a0 st c),
     (h c _ (mem_uc main_arg4 (by decide))).trans (W7_main_arg4 m a0 st c),
     (h c _ (mem_uc main_arg5 (by decide))).trans (W7_main_arg5 m a0 st c),
     (h c _ (mem_uc main_arg6 (by decide))).trans (W7_main_arg6 m a0 st c),
     (h c _ (mem_uc main_arg7 (by decide))).trans (W7_main_arg7 m a0 st c)⟩) (run m ρ a0 st htab)

/-! ## The arguments as the normalising region finds them -/

/-- Before the normalising region `main_arg0` is as launched: no host stretch writes it, and the statistics region reads it
    through an input window, which leaves its array as entered. -/
theorem V6_main_arg0 (c : Dev nD) : V6 m a0 st c main_arg0 = m ((c : Thread nD τ).loc main_arg0) :=
  (W6_of m a0 st c main_arg0 (by decide) (by decide) (by decide) (by decide) (by decide)).trans <|
    (W1_arr m a0 st c 0).trans ((((st (V0 m)).dat c).arrAt_in 0 rfl _).trans ((st (V0 m)).A_eq c 0))
/-- Before the normalising region `main_arg1` is as launched: no host stretch writes it and it is no array of the statistics region. -/
theorem V6_main_arg1 (c : Dev nD) : V6 m a0 st c main_arg1 = m ((c : Thread nD τ).loc main_arg1) :=
  (W6_of m a0 st c main_arg1 (by decide) (by decide) (by decide) (by decide) (by decide)).trans
    (W1_of_launch m a0 st c main_arg1 (by decide))
/-- Before the normalising region `main_arg2` is as launched: no host stretch writes it and it is no array of the statistics region. -/
theorem V6_main_arg2 (c : Dev nD) : V6 m a0 st c main_arg2 = m ((c : Thread nD τ).loc main_arg2) :=
  (W6_of m a0 st c main_arg2 (by decide) (by decide) (by decide) (by decide) (by decide)).trans
    (W1_of_launch m a0 st c main_arg2 (by decide))
/-- Before the normalising region `main_arg3` is as launched: no host stretch writes it and it is no array of the statistics region. -/
theorem V6_main_arg3 (c : Dev nD) : V6 m a0 st c main_arg3 = m ((c : Thread nD τ).loc main_arg3) :=
  (W6_of m a0 st c main_arg3 (by decide) (by decide) (by decide) (by decide) (by decide)).trans
    (W1_of_launch m a0 st c main_arg3 (by decide))
/-- Before the normalising region `main_arg4` is as launched: no host stretch writes it and it is no array of the statistics region. -/
theorem V6_main_arg4 (c : Dev nD) : V6 m a0 st c main_arg4 = m ((c : Thread nD τ).loc main_arg4) :=
  (W6_of m a0 st c main_arg4 (by decide) (by decide) (by decide) (by decide) (by decide)).trans
    (W1_of_launch m a0 st c main_arg4 (by decide))
/-- Before the normalising region `main_arg5` is as launched: no host stretch writes it and it is no array of the statistics region. -/
theorem V6_main_arg5 (c : Dev nD) : V6 m a0 st c main_arg5 = m ((c : Thread nD τ).loc main_arg5) :=
  (W6_of m a0 st c main_arg5 (by decide) (by decide) (by decide) (by decide) (by decide)).trans
    (W1_of_launch m a0 st c main_arg5 (by decide))
/-- Before the normalising region `main_arg6` is as launched: no host stretch writes it and it is no array of the statistics region. -/
theorem V6_main_arg6 (c : Dev nD) : V6 m a0 st c main_arg6 = m ((c : Thread nD τ).loc main_arg6) :=
  (W6_of m a0 st c main_arg6 (by decide) (by decide) (by decide) (by decide) (by decide)).trans
    (W1_of_launch m a0 st c main_arg6 (by decide))
/-- Before the normalising region `main_arg7` is as launched: no host stretch writes it and it is no array of the statistics region. -/
theorem V6_main_arg7 (c : Dev nD) : V6 m a0 st c main_arg7 = m ((c : Thread nD τ).loc main_arg7) :=
  (W6_of m a0 st c main_arg7 (by decide) (by decide) (by decide) (by decide) (by decide)).trans
    (W1_of_launch m a0 st c main_arg7 (by decide))

end Cert.KernelIdeal.Run

end
-- ==== Proof.ApplyBlocksIdeal.lean ====
/-
  The result array after the normalising region, block by block.

  The region writes sample `b` of the result at grid point `b` and nowhere else: the output window's block index is the point's
  number, so distinct points write disjoint blocks, and block `b` of the array after the region, read back through the window,
  is what point `b` wrote — the blend of the eight input blocks at that point.
-/
import proofs.«159259_j85899346585_1_alg».proof.Proof.ApplyRegionIdeal
import Idealize.ShloMosaic.Lib.Pipeline.Value

set_option maxRecDepth 16384

noncomputable section

namespace Cert.KernelIdeal.ApplyBlocks

open Cert.KernelIdeal Cert.KernelIdeal.Gen Cert.KernelIdeal.ApplyBody Cert.KernelIdeal.ApplyRegion
open Idealize.ShloMosaic Idealize.ShloMosaic.TcCoe
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- What point `t` writes back to the result: the blend of the point's eight input blocks. -/
theorem flushed8 (c : Dev nD) (t : Fin cfg1.N) :
    (dat V c).flushed 8 t = (cfg1.win 8).cut (grid1.coords t)
      (applied (iblk V c 0 t) (iblk V c 1 t) (iblk V c 2 t) (iblk V c 3 t) (iblk V c 4 t) (iblk V c 5 t) (iblk V c 6 t) (iblk V c 7 t)) := by
  show (cfg1.win 8).cut (grid1.coords t) ((dat V c).after 8 t) = _
  rw [after8]

/-- Distinct grid points write distinct blocks (decided over the 64 points). -/
theorem idx_inj8 : ∀ t t' : Fin cfg1.N, win1_8.index t = win1_8.index t' → t = t' :=
  (by decide +kernel : ∀ t t' : Fin grid1.N, win1_8.index t = win1_8.index t' → t = t')

/-- So two points' blocks share no index of the result. -/
theorem disjoint8 : ∀ t t' : Fin cfg1.N, (cfg1.win 8).flush t = true → (cfg1.win 8).flush t' = true → t ≠ t' →
    Disjoint ((cfg1.win 8).blk t).view.set ((cfg1.win 8).blk t').view.set :=
  fun t t' _ _ hne => (cfg1.win 8).disjoint_blk fun h => hne (idx_inj8 t t' h)

/-- Block `t` of the result after the region, read back through the window, is what point `t` wrote. -/
theorem blocks8 (c : Dev nD) (t : Fin cfg1.N) :
    ((cfg1.win 8).blk t).view.read (Elt F) ((dat V c).arrAt 8 cfg1.N) = (dat V c).flushed 8 t :=
  (dat V c).read_blk_arrAt_eq_flushed 8 disjoint8 cfg1.N t t.isLt (flush1_8 t)

end Cert.KernelIdeal.ApplyBlocks

end
-- ==== Proof.ApplyReadIdeal.lean ====
/-
  The result array after the normalising region, read at an index.

  Grid point `t` handles sample `t`: every window's block index is `(t, 0, 0, 0)` except the two whose array has one row. So the
  result at `(t, k, h, w)` is the body's stored blend at `(0, k, h, w)` of the blocks at point `t`; the sample block there is the
  input at `(t, k, h, w)`, each per-channel column its array at `(t, k, 0, 0)`, and the instance-norm weight and bias at `(0, k, 0, 0)`.
-/
import proofs.«159259_j85899346585_1_alg».proof.Proof.ApplyBlocksIdeal
import Idealize.ShloMosaic.Lib.ValueIdx

set_option maxRecDepth 16384

noncomputable section

namespace Cert.KernelIdeal.ApplyRead

open Cert.KernelIdeal Cert.KernelIdeal.Gen Cert.KernelIdeal.ApplyBody Cert.KernelIdeal.ApplyRegion Cert.KernelIdeal.ApplyBlocks
open Idealize.ShloMosaic Idealize.ShloMosaic.TcCoe Idealize.ShloMosaic.ValueIdx
open Idealize.SL Idealize.SL.Sem
open Idealize.ShloMosaic.Pipeline (Dat Cfg Window)

variable {F : FTy → Type} [FloatOps F]
variable (V : (c : Dev nD) → (b : Ref sig .tc) → Buf (Elt F) ((c : Thread nD τ).loc b))

/-- The sample a grid point handles. -/
abbrev row (t : Fin cfg1.N) : Fin 64 := ⟨t.val, lt_of_lt_of_eq t.isLt N_1⟩

/-- The windows' block indices at every point, decided over the 64 points. -/
theorem idx_facts : ∀ t : Fin cfg1.N, win1_0.index t (0 : Fin 4) = t.val
    ∧ win1_0.index t (1 : Fin 4) = 0
    ∧ win1_0.index t (2 : Fin 4) = 0
    ∧ win1_0.index t (3 : Fin 4) = 0
    ∧ win1_1.index t (0 : Fin 4) = t.val
    ∧ win1_1.index t (1 : Fin 4) = 0
    ∧ win1_1.index t (2 : Fin 4) = 0
    ∧ win1_1.index t (3 : Fin 4) = 0
    ∧ win1_2.index t (0 : Fin 4) = t.val
    ∧ win1_2.index t (1 : Fin 4) = 0
    ∧ win1_2.index t (2 : Fin 4) = 0
    ∧ win1_2.index t (3 : Fin 4) = 0
    ∧ win1_3.index t (0 : Fin 4) = t.val
    ∧ win1_3.index t (1 : Fin 4) = 0
    ∧ win1_3.index t (2 : Fin 4) = 0
    ∧ win1_3.index t (3 : Fin 4) = 0
    ∧ win1_4.index t (0 : Fin 4) = t.val
    ∧ win1_4.index t (1 : Fin 4) = 0
    ∧ win1_4.index t (2 : Fin 4) = 0
    ∧ win1_4.index t (3 : Fin 4) = 0
    ∧ win1_5.index t (0 : Fin 4) = t.val
    ∧ win1_5.index t (1 : Fin 4) = 0
    ∧ win1_5.index t (2 : Fin 4) = 0
    ∧ win1_5.index t (3 : Fin 4) = 0
    ∧ win1_6.index t (0 : Fin 4) = 0
    ∧ win1_6.index t (1 : Fin 4) = 0
    ∧ win1_6.index t (2 : Fin 4) = 0
    ∧ win1_6.index t (3 : Fin 4) = 0
    ∧ win1_7.index t (0 : Fin 4) = 0
    ∧ win1_7.index t (1 : Fin 4) = 0
    ∧ win1_7.index t (2 : Fin 4) = 0
    ∧ win1_7.index t (3 : Fin 4) = 0
    ∧ win1_8.index t (0 : Fin 4) = t.val
    ∧ win1_8.index t (1 : Fin 4) = 0
    ∧ win1_8.index t (2 : Fin 4) = 0
    ∧ win1_8.index t (3 : Fin 4) = 0 :=
  (by decide +kernel : ∀ t : Fin grid1.N, _)

/-- The result at an index of point `t`'s block is the stored blend there. -/
theorem result_at_block (c : Dev nD) (t : Fin cfg1.N) (j : S1x128x64x64.Idx) :
    (dat V c).arrAt 8 cfg1.N (((cfg1.win 8).blk t).view.emb j)
      = applied (iblk V c 0 t) (iblk V c 1 t) (iblk V c 2 t) (iblk V c 3 t) (iblk V c 4 t) (iblk V c 5 t) (iblk V c 6 t) (iblk V c 7 t) j := by
  have h := congrFun (blocks8 V c t) j
  rw [flushed8] at h
  exact h

/-- Point `t`'s block of the result is sample `t`. -/
theorem emb8 (t : Fin cfg1.N) (k : Fin 128) (h w : Fin 64) :
    ((cfg1.win 8).blk t).view.emb (ix4 (0 : Fin 1) k h w) = ix4 (row t) k h w := by
  have e := idx_facts t
  funext a; apply Fin.ext
  match a with
  | ⟨0, _⟩ => show win1_8.index t (0 : Fin 4) * 1 + 1 * 0 = t.val; omega
  | ⟨1, _⟩ => show win1_8.index t (1 : Fin 4) * 128 + 1 * k.val = k.val; omega
  | ⟨2, _⟩ => show win1_8.index t (2 : Fin 4) * 64 + 1 * h.val = h.val; omega
  | ⟨3, _⟩ => show win1_8.index t (3 : Fin 4) * 64 + 1 * w.val = w.val; omega

/-- THE RESULT AT AN INDEX: sample `t`, channel `k`, position `(h, w)` holds the blend of point `t`'s blocks at `(0, k, h, w)`. -/
theorem result_at (c : Dev nD) (t : Fin cfg1.N) (k : Fin 128) (h w : Fin 64) :
    (dat V c).arrAt 8 cfg1.N (ix4 (row t) k h w)
      = applied (iblk V c 0 t) (iblk V c 1 t) (iblk V c 2 t) (iblk V c 3 t) (iblk V c 4 t) (iblk V c 5 t) (iblk V c 6 t) (iblk V c 7 t) (ix4 (0 : Fin 1) k h w) := by
  rw [← emb8 t k h w]; exact result_at_block V c t _

/-- The sample block at point `t` is sample `t` of the input. -/
theorem x_at (c : Dev nD) (t : Fin cfg1.N) (k : Fin 128) (h w : Fin 64) :
    iblk V c 0 t (ix4 (0 : Fin 1) k h w) = V c main_arg0 (ix4 (row t) k h w) := by
  have e := idx_facts t
  show V c main_arg0 (((cfg1.win 0).blk t).view.emb (ix4 (0 : Fin 1) k h w)) = _
  congr 1; funext a; apply Fin.ext
  match a with
  | ⟨0, _⟩ => show win1_0.index t (0 : Fin 4) * 1 + 1 * 0 = t.val; omega
  | ⟨1, _⟩ => show win1_0.index t (1 : Fin 4) * 128 + 1 * k.val = k.val; omega
  | ⟨2, _⟩ => show win1_0.index t (2 : Fin 4) * 64 + 1 * h.val = h.val; omega
  | ⟨3, _⟩ => show win1_0.index t (3 : Fin 4) * 64 + 1 * w.val = w.val; omega

/-- Window 1's block at point `t` is row `t` of its `[64, 128, 1, 1]` array. -/
theorem col1_at (c : Dev nD) (t : Fin cfg1.N) (k : Fin 128) :
    iblk V c 1 t (ix4 (0 : Fin 1) k (0 : Fin 1) (0 : Fin 1)) = V c main_v50 (ix4 (row t) k (0 : Fin 1) (0 : Fin 1)) := by
  have e := idx_facts t
  show V c main_v50 (((cfg1.win 1).blk t).view.emb (ix4 (0 : Fin 1) k (0 : Fin 1) (0 : Fin 1))) = _
  congr 1; funext a; apply Fin.ext
  match a with
  | ⟨0, _⟩ => show win1_1.index t (0 : Fin 4) * 1 + 1 * 0 = t.val; omega
  | ⟨1, _⟩ => show win1_1.index t (1 : Fin 4) * 128 + 1 * k.val = k.val; omega
  | ⟨2, _⟩ => show win1_1.index t (2 : Fin 4) * 1 + 1 * 0 = 0; omega
  | ⟨3, _⟩ => show win1_1.index t (3 : Fin 4) * 1 + 1 * 0 = 0; omega

/-- Window 2's block at point `t` is row `t` of its `[64, 128, 1, 1]` array. -/
theorem col2_at (c : Dev nD) (t : Fin cfg1.N) (k : Fin 128) :
    iblk V c 2 t (ix4 (0 : Fin 1) k (0 : Fin 1) (0 : Fin 1)) = V c main_v51 (ix4 (row t) k (0 : Fin 1) (0 : Fin 1)) := by
  have e := idx_facts t
  show V c main_v51 (((cfg1.win 2).blk t).view.emb (ix4 (0 : Fin 1) k (0 : Fin 1) (0 : Fin 1))) = _
  congr 1; funext a; apply Fin.ext
  match a with
  | ⟨0, _⟩ => show win1_2.index t (0 : Fin 4) * 1 + 1 * 0 = t.val; omega
  | ⟨1, _⟩ => show win1_2.index t (1 : Fin 4) * 128 + 1 * k.val = k.val; omega
  | ⟨2, _⟩ => show win1_2.index t (2 : Fin 4) * 1 + 1 * 0 = 0; omega
  | ⟨3, _⟩ => show win1_2.index t (3 : Fin 4) * 1 + 1 * 0 = 0; omega

/-- Window 3's block at point `t` is row `t` of its `[64, 128, 1, 1]` array. -/
theorem col3_at (c : Dev nD) (t : Fin cfg1.N) (k : Fin 128) :
    iblk V c 3 t (ix4 (0 : Fin 1) k (0 : Fin 1) (0 : Fin 1)) = V c main_v52 (ix4 (row t) k (0 : Fin 1) (0 : Fin 1)) := by
  have e := idx_facts t
  show V c main_v52 (((cfg1.win 3).blk t).view.emb (ix4 (0 : Fin 1) k (0 : Fin 1) (0 : Fin 1))) = _
  congr 1; funext a; apply Fin.ext
  match a with
  | ⟨0, _⟩ => show win1_3.index t (0 : Fin 4) * 1 + 1 * 0 = t.val; omega
  | ⟨1, _⟩ => show win1_3.index t (1 : Fin 4) * 128 + 1 * k.val = k.val; omega
  | ⟨2, _⟩ => show win1_3.index t (2 : Fin 4) * 1 + 1 * 0 = 0; omega
  | ⟨3, _⟩ => show win1_3.index t (3 : Fin 4) * 1 + 1 * 0 = 0; omega

/-- Window 4's block at point `t` is row `t` of its `[64, 128, 1, 1]` array. -/
theorem col4_at (c : Dev nD) (t : Fin cfg1.N) (k : Fin 128) :
    iblk V c 4 t (ix4 (0 : Fin 1) k (0 : Fin 1) (0 : Fin 1)) = V c main_v53 (ix4 (row t) k (0 : Fin 1) (0 : Fin 1)) := by
  have e := idx_facts t
  show V c main_v53 (((cfg1.win 4).blk t).view.emb (ix4 (0 : Fin 1) k (0 : Fin 1) (0 : Fin 1))) = _
  congr 1; funext a; apply Fin.ext
  match a with
  | ⟨0, _⟩ => show win1_4.index t (0 : Fin 4) * 1 + 1 * 0 = t.val; omega
  | ⟨1, _⟩ => show win1_4.index t (1 : Fin 4) * 128 + 1 * k.val = k.val; omega
  | ⟨2, _⟩ => show win1_4.index t (2 : Fin 4) * 1 + 1 * 0 = 0; omega
  | ⟨3, _⟩ => show win1_4.index t (3 : Fin 4) * 1 + 1 * 0 = 0; omega

/-- Window 5's block at point `t` is row `t` of its `[64, 128, 1, 1]` array. -/
theorem col5_at (c : Dev nD) (t : Fin cfg1.N) (k : Fin 128) :
    iblk V c 5 t (ix4 (0 : Fin 1) k (0 : Fin 1) (0 : Fin 1)) = V c main_v54 (ix4 (row t) k (0 : Fin 1) (0 : Fin 1)) := by
  have e := idx_facts t
  show V c main_v54 (((cfg1.win 5).blk t).view.emb (ix4 (0 : Fin 1) k (0 : Fin 1) (0 : Fin 1))) = _
  congr 1; funext a; apply Fin.ext
  match a with
  | ⟨0, _⟩ => show win1_5.index t (0 : Fin 4) * 1 + 1 * 0 = t.val; omega
  | ⟨1, _⟩ => show win1_5.index t (1 : Fin 4) * 128 + 1 * k.val = k.val; omega
  | ⟨2, _⟩ => show win1_5.index t (2 : Fin 4) * 1 + 1 * 0 = 0; omega
  | ⟨3, _⟩ => show win1_5.index t (3 : Fin 4) * 1 + 1 * 0 = 0; omega

/-- Window 6's block at every point is the one row of its `[1, 128, 1, 1]` array. -/
theorem col6_at (c : Dev nD) (t : Fin cfg1.N) (k : Fin 128) :
    iblk V c 6 t (ix4 (0 : Fin 1) k (0 : Fin 1) (0 : Fin 1)) = V c main_v55 (ix4 (0 : Fin 1) k (0 : Fin 1) (0 : Fin 1)) := by
  have e := idx_facts t
  show V c main_v55 (((cfg1.win 6).blk t).view.emb (ix4 (0 : Fin 1) k (0 : Fin 1) (0 : Fin 1))) = _
  congr 1; funext a; apply Fin.ext
  match a with
  | ⟨0, _⟩ => show win1_6.index t (0 : Fin 4) * 1 + 1 * 0 = 0; omega
  | ⟨1, _⟩ => show win1_6.index t (1 : Fin 4) * 128 + 1 * k.val = k.val; omega
  | ⟨2, _⟩ => show win1_6.index t (2 : Fin 4) * 1 + 1 * 0 = 0; omega
  | ⟨3, _⟩ => show win1_6.index t (3 : Fin 4) * 1 + 1 * 0 = 0; omega

/-- Window 7's block at every point is the one row of its `[1, 128, 1, 1]` array. -/
theorem col7_at (c : Dev nD) (t : Fin cfg1.N) (k : Fin 128) :
    iblk V c 7 t (ix4 (0 : Fin 1) k (0 : Fin 1) (0 : Fin 1)) = V c main_v56 (ix4 (0 : Fin 1) k (0 : Fin 1) (0 : Fin 1)) := by
  have e := idx_facts t
  show V c main_v56 (((cfg1.win 7).blk t).view.emb (ix4 (0 : Fin 1) k (0 : Fin 1) (0 : Fin 1))) = _
  congr 1; funext a; apply Fin.ext
  match a with
  | ⟨0, _⟩ => show win1_7.index t (0 : Fin 4) * 1 + 1 * 0 = 0; omega
  | ⟨1, _⟩ => show win1_7.index t (1 : Fin 4) * 128 + 1 * k.val = k.val; omega
  | ⟨2, _⟩ => show win1_7.index t (2 : Fin 4) * 1 + 1 * 0 = 0; omega
  | ⟨3, _⟩ => show win1_7.index t (3 : Fin 4) * 1 + 1 * 0 = 0; omega

end Cert.KernelIdeal.ApplyRead

end
-- ==== Proof.LibPlaneSum.lean ====
/-
  The sum of each channel's plane, as a kernel computes it with keepdims.

  For a block `x` of shape `[1, C, H, W]`, `x.sum(axis=3, keepdims=True).sum(axis=2, keepdims=True)` is four vector operations: a
  reduction over the last axis to `[1, C, H]`, a cast to `[1, C, H, 1]`, a reduction over axis 2 to `[1, C, 1]`, a cast to
  `[1, C, 1, 1]`. Read at exact arithmetic at `(0, k, 0, 0)` it is the double sum `Σ_h Σ_w x(0, k, h, w)`: a cast keeps the
  row-major position, and a one-axis reduction at an index is the sum over that axis's coordinate inserted into the index.
-/
import Idealize.ShloMosaic.Lib.ValueIdx
import Idealize.ShloMosaic.Lib.Pipeline.Value
import Idealize.ShloMosaic.PureOps.Ideal.Laws

open scoped BigOperators

noncomputable section

namespace Cert.LibPlaneSum

open Idealize.ShloMosaic Idealize.ShloMosaic.ValueIdx

variable {C H W : ℕ}

/-- The index of `[1, C, H, W]` over `(0, k, h)` of `[1, C, H]` with last coordinate `w`. -/
theorem lift_last (r3 : (⟨4, ![1, C, H, W]⟩ : Shape).Reduces [(3 : Fin 4)] ⟨3, ![1, C, H]⟩) (k : Fin C) (h : Fin H) (w : Fin W) :
    r3.lift (ix3 (0 : Fin 1) k h) w = ix4 (0 : Fin 1) k h w := by
  funext c; apply Fin.ext
  match c with
  | ⟨0, _⟩ => rfl
  | ⟨1, _⟩ => rfl
  | ⟨2, _⟩ => rfl
  | ⟨3, _⟩ => rfl

/-- The index of `[1, C, H, 1]` over `(0, k, 0)` of `[1, C, 1]` with coordinate `h` on axis 2. -/
theorem lift_mid (r2 : (⟨4, ![1, C, H, 1]⟩ : Shape).Reduces [(2 : Fin 4)] ⟨3, ![1, C, 1]⟩) (k : Fin C) (h : Fin H) :
    r2.lift (ix3 (0 : Fin 1) k (0 : Fin 1)) h = ix4 (0 : Fin 1) k h (0 : Fin 1) := by
  funext c; apply Fin.ext
  match c with
  | ⟨0, _⟩ => rfl
  | ⟨1, _⟩ => rfl
  | ⟨2, _⟩ => rfl
  | ⟨3, _⟩ => rfl

/-- THE PLANE SUM: the keepdims sum over the last two axes of a `[1, C, H, W]` block, read at `(0, k, 0, 0)` at exact arithmetic. -/
theorem plane_sum (x : FVec Ideal ⟨4, ![1, C, H, W]⟩ .f32)
    (r3 : (⟨4, ![1, C, H, W]⟩ : Shape).Reduces [(3 : Fin 4)] ⟨3, ![1, C, H]⟩)
    (c1 : (⟨3, ![1, C, H]⟩ : Shape).ShapeCasts ⟨4, ![1, C, H, 1]⟩)
    (r2 : (⟨4, ![1, C, H, 1]⟩ : Shape).Reduces [(2 : Fin 4)] ⟨3, ![1, C, 1]⟩)
    (c2 : (⟨3, ![1, C, 1]⟩ : Shape).ShapeCasts ⟨4, ![1, C, 1, 1]⟩) (k : Fin C) :
    shapeCast ⟨4, ![1, C, 1, 1]⟩
        (multiReduction (F := Ideal) .add [(2 : Fin 4)] ⟨3, ![1, C, 1]⟩
          (shapeCast ⟨4, ![1, C, H, 1]⟩
            (multiReduction (F := Ideal) .add [(3 : Fin 4)] ⟨3, ![1, C, H]⟩ x 0x00000000#32 r3 (.inl rfl) rfl) c1)
          0x00000000#32 r2 (.inl rfl) rfl) c2 (ix4 (0 : Fin 1) k (0 : Fin 1) (0 : Fin 1))
      = ∑ h : Fin H, ∑ w : Fin W, x (ix4 (0 : Fin 1) k h w) := by
  refine (shapeCast_apply _ c2 _ (ix3 (0 : Fin 1) k (0 : Fin 1)) ?_).trans ?_
  · rw [Shape.rowMajor_val_three, Shape.rowMajor_val_four]
    show (0 * C + k.val) * 1 + 0 = ((0 * C + k.val) * 1 + 0) * 1 + 0
    omega
  refine (Ideal.multiReduction_add_single _ 0x00000000#32 r2 (.inl rfl) rfl _).trans ?_
  refine Finset.sum_congr rfl fun h _ => ?_
  rw [lift_mid r2 k h]
  refine (shapeCast_apply _ c1 _ (ix3 (0 : Fin 1) k h) ?_).trans ?_
  · rw [Shape.rowMajor_val_three, Shape.rowMajor_val_four]
    show (0 * C + k.val) * H + h.val = ((0 * C + k.val) * H + h.val) * 1 + 0
    omega
  refine (Ideal.multiReduction_add_single _ 0x00000000#32 r3 (.inl rfl) rfl _).trans ?_
  refine Finset.sum_congr rfl fun w _ => ?_
  rw [lift_last r3 k h w]

end Cert.LibPlaneSum

end
-- ==== Proof.ApplyMathIdeal.lean ====
/-
  The normalising body's stored value, read at an index at exact arithmetic.

  With `x` the sample block and `μ, σ², γ, β, g, γ', β'` the seven per-channel columns at channel `k` (batch mean and variance,
  batch-norm weight and bias, gate, instance-norm weight and bias), the value stored at `(0, k, h, w)` is
      g · ((x − μ) · rsqrt(σ² + ε) · γ + β)  +  (1 − g) · ((x − m) · rsqrt(v + ε) · γ' + β')
  where `m = (Σ_{h,w} x(0,k,h,w)) / 4096` is the plane's own mean and `v = (Σ_{h,w} (x(0,k,h,w) − m)²) / 4096` its variance.
  Every vector operation of the body is pointwise, a broadcast of a per-channel column to the block, or the keepdims sum of a
  plane; each is read at the index and the rest is the same expression on both sides.
-/
import proofs.«159259_j85899346585_1_alg».proof.Proof.ApplyBodyIdeal
import proofs.«159259_j85899346585_1_alg».proof.Proof.LibPlaneSum
import Idealize.ShloMosaic.Lib.ValueIdx
import Idealize.ShloMosaic.Lib.Pipeline.Value
import Idealize.ShloMosaic.PureOps.Ideal

set_option maxRecDepth 16384

open scoped BigOperators

noncomputable section

namespace Cert.KernelIdeal.ApplyMath

open Cert.KernelIdeal Cert.KernelIdeal.Gen Cert.KernelIdeal.ApplyBody
open Idealize.ShloMosaic Idealize.ShloMosaic.ValueIdx

/-- The three literals of the body: 4096, the epsilon, and one. -/
abbrev c4096 : EReal := Scalar.ofBits (F := Ideal) .f32 0x45800000#32
abbrev eps : EReal := Scalar.ofBits (F := Ideal) .f32 0x3727C5AC#32
abbrev one : EReal := Scalar.ofBits (F := Ideal) .f32 0x3F800000#32

/-- A plane's mean and variance as the body computes them. -/
def planeMean (p : Fin 64 → Fin 64 → EReal) : EReal := Ideal.div (∑ h : Fin 64, ∑ w : Fin 64, p h w) c4096
def planeVar (p : Fin 64 → Fin 64 → EReal) : EReal :=
  Ideal.div (∑ h : Fin 64, ∑ w : Fin 64, (p h w - planeMean p) * (p h w - planeMean p)) c4096

/-- The stored value as a function of the plane, the entry and the seven per-channel scalars. -/
def blend (p : Fin 64 → Fin 64 → EReal) (xv mean var bnw bnb gate inw inb : EReal) : EReal :=
  gate * ((xv - mean) * Ideal.rsqrt (var + eps) * bnw + bnb)
    + (one - gate) * ((xv - planeMean p) * Ideal.rsqrt (planeVar p + eps) * inw + inb)

theorem hz : (![0, 0, 0, 0] : Fin 4 → Nat) = fun _ => 0 := funext fun a => by fin_cases a <;> rfl

/-- A per-channel column broadcast to the block reads, at `(0, k, h, w)`, its entry `(0, k, 0, 0)`. -/
theorem col_at {α : Type} (v : S1x128x1x1.Idx → α) (k : Fin 128) (h w : Fin 64) :
    broadcastTo S1x128x64x64 v broadcasts_S1x128x1x1_S1x128x64x64 (ix4 (0 : Fin 1) k h w) = v (ix4 (0 : Fin 1) k (0 : Fin 1) (0 : Fin 1)) := by
  refine broadcastTo_apply _ _ _ _ ?_
  intro a
  match a with
  | ⟨0, _⟩ => rfl
  | ⟨1, _⟩ => rfl
  | ⟨2, _⟩ => rfl
  | ⟨3, _⟩ => rfl

/-- The keepdims sum of a block's plane, at this kernel's shapes. -/
theorem plane_at (v : FVec Ideal S1x128x64x64 .f32) (k : Fin 128) :
    shapeCast S1x128x1x1
        (multiReduction (F := Ideal) .add [2] S1x128x1
          (shapeCast S1x128x64x1 (multiReduction (F := Ideal) .add [3] S1x128x64 v 0x00000000#32 reduces_S1x128x64x64_S1x128x64 (.inl rfl) rfl) shapeCasts_S1x128x64_S1x128x64x1)
          0x00000000#32 reduces_S1x128x64x1_S1x128x1 (.inl rfl) rfl) shapeCasts_S1x128x1_S1x128x1x1 (ix4 (0 : Fin 1) k (0 : Fin 1) (0 : Fin 1))
      = ∑ h : Fin 64, ∑ w : Fin 64, v (ix4 (0 : Fin 1) k h w) :=
  Cert.LibPlaneSum.plane_sum v _ _ _ _ k

/-- The same with the reductions' format and neutral-element facts arbitrary (they are propositions: any two proofs agree). -/
theorem plane_at' (v : FVec Ideal S1x128x64x64 .f32) (k : Fin 128) (p1 p1' : FKind.Formats FTy.f32)
    (p2 : (0x00000000#32 : BitVec FTy.f32.bits) = FKind.add.neutral FTy.f32 p1)
    (p2' : (0x00000000#32 : BitVec FTy.f32.bits) = FKind.add.neutral FTy.f32 p1') :
    shapeCast S1x128x1x1
        (multiReduction (F := Ideal) .add [2] S1x128x1
          (shapeCast S1x128x64x1 (multiReduction (F := Ideal) .add [3] S1x128x64 v 0x00000000#32 reduces_S1x128x64x64_S1x128x64 p1 p2) shapeCasts_S1x128x64_S1x128x64x1)
          0x00000000#32 reduces_S1x128x64x1_S1x128x1 p1' p2') shapeCasts_S1x128x1_S1x128x1x1 (ix4 (0 : Fin 1) k (0 : Fin 1) (0 : Fin 1))
      = ∑ h : Fin 64, ∑ w : Fin 64, v (ix4 (0 : Fin 1) k h w) :=
  plane_at v k

/-- The keepdims plane sum as one vector operation. -/
def planeSumVec (v : FVec Ideal S1x128x64x64 .f32) : FVec Ideal S1x128x1x1 .f32 :=
  shapeCast S1x128x1x1
    (multiReduction (F := Ideal) .add [2] S1x128x1
      (shapeCast S1x128x64x1 (multiReduction (F := Ideal) .add [3] S1x128x64 v 0x00000000#32 reduces_S1x128x64x64_S1x128x64 (.inl rfl) rfl) shapeCasts_S1x128x64_S1x128x64x1)
      0x00000000#32 reduces_S1x128x64x1_S1x128x1 (.inl rfl) rfl) shapeCasts_S1x128x1_S1x128x1x1

theorem planeSumVec_at (v : FVec Ideal S1x128x64x64 .f32) (k : Fin 128) :
    planeSumVec v (ix4 (0 : Fin 1) k (0 : Fin 1) (0 : Fin 1)) = ∑ h : Fin 64, ∑ w : Fin 64, v (ix4 (0 : Fin 1) k h w) := by
  unfold planeSumVec; exact plane_at v k

/-- The block less its plane means, broadcast back. -/
def centred (v0 : FVec Ideal S1x128x64x64 .f32) : FVec Ideal S1x128x64x64 .f32 :=
  subf v0 (broadcastTo S1x128x64x64 (divf (planeSumVec v0) (broadcast S1x128x1x1 c4096)) broadcasts_S1x128x1x1_S1x128x64x64)

/-- The blend's payload over the named plane sums: the printed operations, with the two plane sums folded into `planeSumVec`. -/
theorem pay1_eq (v0 : FVec Ideal S1x128x64x64 .f32) (v10 v12 v14 : FVec Ideal S1x128x1x1 .f32) (v25 : FVec Ideal S1x128x64x64 .f32) :
    k1_pay1 (F := Ideal) v0 v10 v12 v14 v25
      = addf (mulf (broadcastTo S1x128x64x64 v10 broadcasts_S1x128x1x1_S1x128x64x64) v25)
          (mulf (broadcastTo S1x128x64x64 (subf (broadcast S1x128x1x1 one) v10) broadcasts_S1x128x1x1_S1x128x64x64)
            (addf (mulf (mulf (centred v0)
                (broadcastTo S1x128x64x64 (rsqrt (addf (divf (planeSumVec (mulf (centred v0) (centred v0))) (broadcast S1x128x1x1 c4096)) (broadcast S1x128x1x1 eps))) broadcasts_S1x128x1x1_S1x128x64x64))
                (broadcastTo S1x128x64x64 v12 broadcasts_S1x128x1x1_S1x128x64x64))
              (broadcastTo S1x128x64x64 v14 broadcasts_S1x128x1x1_S1x128x64x64))) := rfl

/-- THE STORED VALUE AT AN INDEX. -/
theorem applied_at (x : Vec Ideal S1x128x64x64 .f32) (mean var bnw bnb gate inw inb : Vec Ideal S1x128x1x1 .f32) (k : Fin 128) (h w : Fin 64) :
    applied (F := Ideal) x mean var bnw bnb gate inw inb (ix4 (0 : Fin 1) k h w)
      = blend (fun h' w' => x (ix4 (0 : Fin 1) k h' w')) (x (ix4 (0 : Fin 1) k h w))
          (mean (ix4 (0 : Fin 1) k (0 : Fin 1) (0 : Fin 1))) (var (ix4 (0 : Fin 1) k (0 : Fin 1) (0 : Fin 1)))
          (bnw (ix4 (0 : Fin 1) k (0 : Fin 1) (0 : Fin 1))) (bnb (ix4 (0 : Fin 1) k (0 : Fin 1) (0 : Fin 1)))
          (gate (ix4 (0 : Fin 1) k (0 : Fin 1) (0 : Fin 1))) (inw (ix4 (0 : Fin 1) k (0 : Fin 1) (0 : Fin 1)))
          (inb (ix4 (0 : Fin 1) k (0 : Fin 1) (0 : Fin 1))) := by
  unfold applied
  rw [View.canon_unit_zero hz]
  simp only [View.ld_unit_zero (S := S1x128x64x64) hz, View.ld_unit_zero (S := S1x128x1x1) hz]
  rw [pay1_eq]
  unfold k1_pay2 k1_pay3 k1_pay4 k1_pay5 centred
  dsimp only
  simp only [addf_apply, mulf_apply, subf_apply, divf_apply, broadcast_apply, col_at, shapeCast_self, planeSumVec_at, rsqrt, Ideal.rsqrt_def]
  unfold blend planeVar planeMean
  rfl

end Cert.KernelIdeal.ApplyMath

end
-- ==== Proof.KernelValueIdeal.lean ====
/-
  The kernel program's result at an index, from the buffer contents at the second region's entry.

  The result's entry `(b, k, h, w)` is written by grid point `b` of the normalising region: the blend of sample `b`'s plane at
  channel `k`, its entry at `(h, w)`, and the seven per-channel values the host prepared for sample `b` (the batch mean,
  variance, weight, bias and gate at row `b`; the instance-norm weight and bias).
-/
import proofs.«159259_j85899346585_1_alg».proof.Proof.RunIdeal
import proofs.«159259_j85899346585_1_alg».proof.Proof.ApplyReadIdeal
import proofs.«159259_j85899346585_1_alg».proof.Proof.ApplyMathIdeal

set_option maxRecDepth 16384

noncomputable section

namespace Cert.KernelIdeal.Value

open Cert.KernelIdeal Cert.KernelIdeal.Gen Cert.KernelIdeal.Iface Cert.KernelIdeal.Run
open Idealize.ShloMosaic Idealize.ShloMosaic.TcCoe Idealize.ShloMosaic.ValueIdx
open Idealize.SL Idealize.SL.Sem

variable (m : (ℓ : Loc nD τ sig) → Buf (Elt Ideal) ℓ) (a0 : (pcfg0 (F := Ideal)).Adm)
variable (st : ∀ V : (c : Dev nD) → (b : Ref sig .tc) → Buf (Elt Ideal) ((c : Thread nD τ).loc b), Stats a0 V)

/-- The grid point that handles sample `b`. -/
abbrev pointOf (b : Fin 64) : Fin cfg1.N := ⟨b.val, lt_of_lt_of_eq b.isLt N_1.symm⟩

/-- THE RESULT AT AN INDEX, over the contents at the second region's entry. -/
theorem out_at (c : Dev nD) (b : Fin 64) (k : Fin 128) (h w : Fin 64) :
    W7 m a0 st c (Proc.devRef .tc main_v57) (ix4 b k h w)
      = ApplyMath.blend (fun h' w' => V6 m a0 st c main_arg0 (ix4 b k h' w')) (V6 m a0 st c main_arg0 (ix4 b k h w))
          (V6 m a0 st c main_v50 (ix4 b k (0 : Fin 1) (0 : Fin 1))) (V6 m a0 st c main_v51 (ix4 b k (0 : Fin 1) (0 : Fin 1)))
          (V6 m a0 st c main_v52 (ix4 b k (0 : Fin 1) (0 : Fin 1))) (V6 m a0 st c main_v53 (ix4 b k (0 : Fin 1) (0 : Fin 1)))
          (V6 m a0 st c main_v54 (ix4 b k (0 : Fin 1) (0 : Fin 1))) (V6 m a0 st c main_v55 (ix4 (0 : Fin 1) k (0 : Fin 1) (0 : Fin 1)))
          (V6 m a0 st c main_v56 (ix4 (0 : Fin 1) k (0 : Fin 1) (0 : Fin 1))) := by
  rw [Run.result m a0 st c]
  have hr : ApplyRead.row (pointOf b) = b := Fin.ext rfl
  have e := ApplyRead.result_at (V6 m a0 st) c (pointOf b) k h w
  rw [hr] at e
  rw [e, ApplyMath.applied_at]
  simp only [ApplyRead.x_at, ApplyRead.col1_at, ApplyRead.col2_at, ApplyRead.col3_at, ApplyRead.col4_at, ApplyRead.col5_at,
    ApplyRead.col6_at, ApplyRead.col7_at, hr]

end Cert.KernelIdeal.Value

end
-- ==== Proof.SpecMath.lean ====
/-
  The arithmetic both programs compute, as scalar functions on the extended reals.

  For one sample, channel and position: the batch normalisation `(x − μ) · rsqrt(σ² + ε) · γ + β` with a domain's mean `μ` and
  variance `σ²` over its sixteen rows and all positions; the instance normalisation with the plane's own mean and variance;
  the logistic gate; and their blend. A domain's variance is written both ways the two programs take it: two-pass (the mean
  of squared deviations from the mean) and one-pass (the mean of squares less the squared mean).
-/
import Idealize.ShloMosaic.PureOps.Ideal

open scoped BigOperators

noncomputable section

namespace Cert.Spec

open Idealize.ShloMosaic

/-- The literals, as the programs print them: 65536, 4096, the epsilon, one. -/
abbrev c65536 : EReal := Ideal.ofBits .f32 0x47800000#32
abbrev c4096 : EReal := Ideal.ofBits .f32 0x45800000#32
abbrev eps : EReal := Ideal.ofBits .f32 0x3727C5AC#32
abbrev one : EReal := Ideal.ofBits .f32 0x3F800000#32

/-- A domain's values at one channel: row `i` of sixteen, position `(h, w)`. -/
abbrev Dom := Fin 16 → Fin 64 → Fin 64 → EReal
/-- One sample's plane at one channel. -/
abbrev Plane := Fin 64 → Fin 64 → EReal

def domSum (f : Dom) : EReal := ∑ i : Fin 16, ∑ h : Fin 64, ∑ w : Fin 64, f i h w
def domMean (f : Dom) : EReal := Ideal.div (domSum f) c65536
/-- Two-pass: the mean of squared deviations from the mean. -/
def domVar2 (f : Dom) : EReal := Ideal.div (∑ i : Fin 16, ∑ h : Fin 64, ∑ w : Fin 64, (f i h w - domMean f) * (f i h w - domMean f)) c65536
/-- One-pass: the mean of squares less the squared mean. -/
def domVar1 (f : Dom) : EReal := Ideal.div (∑ i : Fin 16, ∑ h : Fin 64, ∑ w : Fin 64, f i h w * f i h w) c65536 - domMean f * domMean f

def planeMean (p : Plane) : EReal := Ideal.div (∑ h : Fin 64, ∑ w : Fin 64, p h w) c4096
def planeVar (p : Plane) : EReal := Ideal.div (∑ h : Fin 64, ∑ w : Fin 64, (p h w - planeMean p) * (p h w - planeMean p)) c4096

/-- Batch normalisation of one entry. -/
def bn (xv mean var w b : EReal) : EReal := (xv - mean) * Ideal.rsqrt (var + eps) * w + b
/-- Instance normalisation of one entry of the plane `p`. -/
def inn (p : Plane) (xv w b : EReal) : EReal := (xv - planeMean p) * Ideal.rsqrt (planeVar p + eps) * w + b
/-- The logistic function as both programs spell it. -/
def sig (y : EReal) : EReal := Ideal.div one (one + Ideal.exp (-y))
/-- The blend with gate `g`. -/
def mix (g bnv innv : EReal) : EReal := g * bnv + (one - g) * innv

end Cert.Spec

end
-- ==== Proof.LibVariance.lean ====
/-
  The variance of finitely many real numbers, computed two ways on the extended reals.

  With `S = Σ x`, `N` the number of entries and `μ = S / N`, the mean of the squared deviations `(Σ (x − μ)²) / N` is the mean of
  the squares less the squared mean, `(Σ x²) / N − μ²`: expanding the square, `Σ (x − μ)² = Σ x² − 2 μ S + N μ² = Σ x² − N μ²`
  because `μ N = S`. Both sides are stated with the extended reals' arithmetic and their division `Ideal.div`, as a program read
  at exact arithmetic computes them; every entry is real, so every partial result is real and the identity is the real one
  (a finite sum of reals read as extended reals is the real sum; a division by a nonzero real is the product with its reciprocal).
-/
import Idealize.ShloMosaic.PureOps.Ideal

open scoped BigOperators

noncomputable section

namespace Cert.LibVariance

open Idealize.ShloMosaic

/-- A finite sum of real numbers read as extended reals is the real sum read as an extended real. -/
theorem coe_sum {ι : Type} (s : Finset ι) (f : ι → ℝ) : (∑ i ∈ s, ((f i : ℝ) : EReal)) = ((∑ i ∈ s, f i : ℝ) : EReal) := by
  classical
  refine Finset.induction_on s (by simp) ?_
  intro a s ha ih
  rw [Finset.sum_insert ha, Finset.sum_insert ha, ih, EReal.coe_add]

/-- The sum of squared deviations from a number `μ` with `μ N = Σ x`, over `N` entries, is the sum of squares less `N μ²`. -/
theorem sum_dev_sq {ι : Type} [Fintype ι] (x : ι → ℝ) (N μ : ℝ) (hcard : (Fintype.card ι : ℝ) = N) (hμ : μ * N = ∑ j, x j) :
    (∑ i, (x i - μ) * (x i - μ)) = (∑ i, x i * x i) - N * (μ * μ) := by
  have e : ∀ i, (x i - μ) * (x i - μ) = x i * x i - 2 * μ * x i + μ * μ := fun i => by ring
  simp only [e, Finset.sum_add_distrib, Finset.sum_sub_distrib, ← Finset.mul_sum, Finset.sum_const, Finset.card_univ,
    nsmul_eq_mul, hcard, ← hμ]
  ring

/-- The real identity: the mean of squared deviations from the mean is the mean of squares less the squared mean. -/
theorem real_var {ι : Type} [Fintype ι] (x : ι → ℝ) (N : ℝ) (hN : N ≠ 0) (hcard : (Fintype.card ι : ℝ) = N) :
    (∑ i, (x i - (∑ j, x j) * (1 / N)) * (x i - (∑ j, x j) * (1 / N))) * (1 / N)
      = (∑ i, x i * x i) * (1 / N) - (∑ j, x j) * (1 / N) * ((∑ j, x j) * (1 / N)) := by
  rw [sum_dev_sq x N ((∑ j, x j) * (1 / N)) hcard (by field_simp)]
  field_simp

/-- THE IDENTITY ON THE EXTENDED REALS, with the programs' division: for real entries `x` over an index type of `N` elements, the
    two-pass variance (deviations from the mean, squared, averaged) is the one-pass one (the mean of squares less the squared mean). -/
theorem var_two_ways {ι : Type} [Fintype ι] (x : ι → ℝ) (N : ℝ) (hN : N ≠ 0) (hcard : (Fintype.card ι : ℝ) = N) :
    Ideal.div (∑ i, (((x i : ℝ) : EReal) - Ideal.div (∑ j, ((x j : ℝ) : EReal)) (N : EReal))
        * (((x i : ℝ) : EReal) - Ideal.div (∑ j, ((x j : ℝ) : EReal)) (N : EReal))) (N : EReal)
      = Ideal.div (∑ i, ((x i : ℝ) : EReal) * ((x i : ℝ) : EReal)) (N : EReal)
        - Ideal.div (∑ j, ((x j : ℝ) : EReal)) (N : EReal) * Ideal.div (∑ j, ((x j : ℝ) : EReal)) (N : EReal) := by
  rw [Ideal.div_coe hN, Ideal.div_coe hN, Ideal.div_coe hN, coe_sum]
  simp only [← EReal.coe_mul, ← EReal.coe_sub, coe_sum]
  exact congrArg _ (real_var x N hN hcard)

end Cert.LibVariance

end
-- ==== Proof.BridgeMath.lean ====
/-
  Why the two programs' arithmetic agrees.

  Two facts join the kernel's expression to the reference's. First, a domain's variance: the kernel takes the mean of squares
  less the squared mean, the reference the mean of squared deviations; over real entries these are one number. Second, the
  gate: outside the last domain the kernel blends with gate one, and `1 · u + (1 − 1) · v = u` on the extended reals for any
  `v`, finite or not, since `0 · v = 0` there.
-/
import proofs.«159259_j85899346585_1_alg».proof.Proof.SpecMath
import proofs.«159259_j85899346585_1_alg».proof.Proof.LibVariance

open scoped BigOperators

noncomputable section

namespace Cert.BridgeMath

open Idealize.ShloMosaic Cert.Spec

/-- The word of one denotes 1, the word of 65536 the real 65536. -/
theorem one_eq : Cert.Spec.one = 1 := by
  simp [Ideal.ofBits, Ideal.ieee, -EReal.coe_mul]; norm_num
theorem c65536_eq : Cert.Spec.c65536 = ((65536 : ℝ) : EReal) := by
  simp [Ideal.ofBits, Ideal.ieee, -EReal.coe_mul]; norm_num

/-- On the extended reals one less one is zero (both are real). -/
theorem one_sub_one : (1 : EReal) - 1 = 0 := by
  rw [← EReal.coe_one, ← EReal.coe_sub, sub_self, EReal.coe_zero]

/-- A blend with gate one is its first operand. -/
theorem mix_one (u v : EReal) : Cert.Spec.mix Cert.Spec.one u v = u := by
  unfold Cert.Spec.mix
  rw [one_eq, one_mul, one_sub_one, zero_mul, add_zero]

/-- Nested sums over sixteen rows and the positions as one sum over the triples. -/
theorem nest (G : Fin 16 → Fin 64 → Fin 64 → EReal) :
    (∑ i : Fin 16, ∑ h : Fin 64, ∑ w : Fin 64, G i h w) = ∑ p : Fin 16 × Fin 64 × Fin 64, G p.1 p.2.1 p.2.2 := by
  simp only [Fintype.sum_prod_type]

/-- THE VARIANCE, one pass or two: equal when every entry is a real number. -/
theorem domVar_eq (f : Cert.Spec.Dom) (hf : ∀ i h w, ∃ r : ℝ, f i h w = (r : EReal)) :
    Cert.Spec.domVar1 f = Cert.Spec.domVar2 f := by
  choose g hg using hf
  have e : f = fun i h w => ((g i h w : ℝ) : EReal) := funext fun i => funext fun h => funext fun w => hg i h w
  subst e
  have key := Cert.LibVariance.var_two_ways (ι := Fin 16 × Fin 64 × Fin 64) (fun p => g p.1 p.2.1 p.2.2) 65536 (by norm_num)
    (by simp [Fintype.card_prod])
  unfold Cert.Spec.domVar1 Cert.Spec.domVar2 Cert.Spec.domMean Cert.Spec.domSum
  rw [c65536_eq, nest, nest, nest]
  exact key.symm

end Cert.BridgeMath

end
-- ==== Proof.Bridge.lean ====
/-
  The kernel's value and the reference's value, as formulas of the arguments, are equal.

  With `S` the sorting and `U` the un-sorting index array, both of 64 words below 64, sample `b` sits at position `j = U[b]` of the
  sorted order, in domain `d = j / 16`, and the reference reads it back as row `S[j]`. The precondition says `U` undoes `S`, so
  `S[U[b]] = b`: the reference normalises the very sample the kernel does. Both take domain `d`'s statistics over rows
  `S[16 d + i]`; the kernel's one-pass variance is the reference's two-pass one because every entry is real; and outside the
  last domain the kernel's blend has gate one, which returns the batch-normalised value.
-/
import proofs.«159259_j85899346585_1_alg».proof.Proof.BridgeMath
import Idealize.ShloMosaic.Lib.ValueIdx

open scoped BigOperators

noncomputable section

namespace Cert.Bridge

open Idealize.ShloMosaic Idealize.ShloMosaic.ValueIdx Cert.Spec

variable (x : (⟨4, ![64, 128, 64, 64]⟩ : Shape).Idx → EReal)
variable (S U : (⟨1, ![64]⟩ : Shape).Idx → BitVec 32)
variable (bnw bnb : (⟨2, ![4, 128]⟩ : Shape).Idx → EReal) (inw inb al : (⟨1, ![128]⟩ : Shape).Idx → EReal)
variable (hS : ∀ j, (S j).toNat < 64) (hU : ∀ b, (U b).toNat < 64)

/-- The row the sorted order's position `n` holds, and the position sample `b` sits at. -/
def rowS (n : Fin 64) : Fin 64 := ⟨(S (ix1 n)).toNat, hS _⟩
def posU (b : Fin 64) : Fin 64 := ⟨(U (ix1 b)).toNat, hU _⟩
/-- The domain of sample `b`. -/
def dom (b : Fin 64) : Fin 4 := ⟨(posU U hU b).val / 16, by have := (posU U hU b).isLt; omega⟩
/-- Domain `d`'s values at channel `k`: rows `S[16 d + i]`. -/
def fdom (d : Fin 4) (k : Fin 128) : Dom := fun i h w =>
  x (ix4 (rowS S hS ⟨16 * d.val + i.val, by have := d.isLt; have := i.isLt; omega⟩) k h w)

/-- The kernel's value at `(b, k, h, w)`. -/
def kernelOut (b : Fin 64) (k : Fin 128) (h w : Fin 64) : EReal :=
  mix (if (dom U hU b).val = 3 then sig (al (ix1 k)) else one)
    (bn (x (ix4 b k h w)) (domMean (fdom x S hS (dom U hU b) k)) (domVar1 (fdom x S hS (dom U hU b) k))
      (bnw (ix2 (dom U hU b) k)) (bnb (ix2 (dom U hU b) k)))
    (inn (fun h' w' => x (ix4 b k h' w')) (x (ix4 b k h w)) (inw (ix1 k)) (inb (ix1 k)))

/-- The reference's value at `(b, k, h, w)`: sample `S[U[b]]`, normalised in domain `U[b] / 16`, blended in the last domain only. -/
def refOut (b : Fin 64) (k : Fin 128) (h w : Fin 64) : EReal :=
  if (dom U hU b).val = 3 then
    mix (sig (al (ix1 k)))
      (bn (x (ix4 (rowS S hS (posU U hU b)) k h w)) (domMean (fdom x S hS (dom U hU b) k)) (domVar2 (fdom x S hS (dom U hU b) k))
        (bnw (ix2 (dom U hU b) k)) (bnb (ix2 (dom U hU b) k)))
      (inn (fun h' w' => x (ix4 (rowS S hS (posU U hU b)) k h' w')) (x (ix4 (rowS S hS (posU U hU b)) k h w)) (inw (ix1 k)) (inb (ix1 k)))
  else
    bn (x (ix4 (rowS S hS (posU U hU b)) k h w)) (domMean (fdom x S hS (dom U hU b) k)) (domVar2 (fdom x S hS (dom U hU b) k))
      (bnw (ix2 (dom U hU b) k)) (bnb (ix2 (dom U hU b) k))

/-- The un-sorting array undoes the sorting one: the row at sample `b`'s position is `b`. -/
theorem rowS_posU (hinv : ∀ b j : Fin 64, U (ix1 b) = BitVec.ofNat 32 j.val → S (ix1 j) = BitVec.ofNat 32 b.val) (b : Fin 64) :
    rowS S hS (posU U hU b) = b := by
  have e := hinv b (posU U hU b) (by show U (ix1 b) = BitVec.ofNat 32 (U (ix1 b)).toNat; rw [BitVec.ofNat_toNat, BitVec.setWidth_eq])
  apply Fin.ext
  show (S (ix1 (posU U hU b))).toNat = b.val
  rw [e, BitVec.toNat_ofNat]
  have := b.isLt
  omega

/-- THE TWO VALUES AGREE. -/
theorem kernelOut_eq_refOut (hinv : ∀ b j : Fin 64, U (ix1 b) = BitVec.ofNat 32 j.val → S (ix1 j) = BitVec.ofNat 32 b.val)
    (hx : ∀ i, ∃ r : ℝ, x i = (r : EReal)) (b : Fin 64) (k : Fin 128) (h w : Fin 64) :
    kernelOut x S U bnw bnb inw inb al hS hU b k h w = refOut x S U bnw bnb inw inb al hS hU b k h w := by
  unfold kernelOut refOut
  rw [rowS_posU S U hS hU hinv b, Cert.BridgeMath.domVar_eq (fdom x S hS (dom U hU b) k) (fun i h' w' => hx _)]
  split
  · rfl
  · exact Cert.BridgeMath.mix_one _ _

end Cert.Bridge

end
-- ==== Proof.LibGatherRows.lean ====
/-
  Rows of a matrix gathered by a column of indices, read at an index: with an operand `[N, C]`, start indices
  `[E, 1]` and a result `[E, C]` (the slice one whole row, the row axis collapsed, the start index naming the row
  axis), the result at `(e, j)` is the operand at `(r, j)`, where `r` is the index `idx[e, 0]` read signed and
  clamped into `[0, N − 1]`. The row `r` depends on the indices and on `N` alone, not on the column or on `C`.
-/
import Idealize.ShloMosaic.Lib.ValueIdx

namespace Cert.LibGatherRows

open Idealize.ShloMosaic Idealize.ShloMosaic.ValueIdx

variable {α : Type}

/-- The dimension numbers of a gather of whole rows by a column of indices. -/
abbrev rowDims (N E C : ℕ) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row entry `e` reads: its index read signed and clamped into `[0, N − 1]`. -/
def rowOf {N E w : ℕ} (hN : 0 < N) (idx : IVec ⟨2, ![E, 1]⟩ w) (e : Fin E) : Fin N :=
  ⟨min (idx (ix2 e (0 : Fin 1))).toInt.toNat (N - 1), by omega⟩

/-- The gather read at `(e, j)`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowDims N E C wf) x idx (ix2 e j) = x (ix2 (rowOf hN idx e) j) := by
  unfold Host.gather
  congr 1
  funext a
  refine Fin.ext ?_
  match a with
  | ⟨0, _⟩ =>
    show (rowDims N E C wf).start (ix2 e j) idx (0 : Fin 2) + (rowDims N E C wf).batchCoord (ix2 e j) (0 : Fin 2)
      + (rowDims N E C wf).offCoord (ix2 e j) (0 : Fin 2) = (rowOf hN idx e).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e j) ⟨List.idxOf (0 : Fin 2) (rowDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N E C wf).start (ix2 e j) idx (1 : Fin 2) + (rowDims N E C wf).batchCoord (ix2 e j) (1 : Fin 2)
      + (rowDims N E C wf).offCoord (ix2 e j) (1 : Fin 2) = j.val
    rw [GatherDims.batchCoord_eq_zero _ _ _ List.not_mem_nil]
    unfold GatherDims.start
    rw [dif_neg (show (1 : Fin 2) ∉ (rowDims N E C wf).startIndexMap from
      fun h => absurd (Fin.val_eq_of_eq (List.mem_singleton.mp h)) Nat.one_ne_zero)]
    unfold GatherDims.offCoord
    rw [dif_pos (show (1 : Fin 2) ∈ (rowDims N E C wf).sKept from
      (GatherDims.mem_sKept _ _).mpr ⟨fun h => absurd (Fin.val_eq_of_eq (List.mem_singleton.mp h)) Nat.one_ne_zero, List.not_mem_nil⟩)]
    simp only [Nat.zero_add, Nat.add_zero]
    rfl

end Cert.LibGatherRows
-- ==== Proof.HostStagesIdeal.lean ====
/-
  The host operations between the program's two kernel regions, read at an index, in exact arithmetic.

  Between the statistics region and the normalising region the program runs five stretches of whole-array operations:
    * it divides the per-domain sums and sums of squares (two `[4, 128, 1, 1]` arrays) by 65536 and forms the variance as the
      mean of squares less the squared mean, both reshaped to `[4, 128]`;
    * it divides each batch position of the un-sorting index vector by 16, rounding down, to a domain id;
    * it gathers, by that domain id, rows of the mean, the variance and the two `[4, 128]` parameter arrays into `[64, 128]`
      arrays, forms the logistic function `1 / (1 + exp (−α))` of the gate parameters, and compares the domain id with 3;
    * it selects the logistic row where the domain id is 3 and a row of ones elsewhere;
    * it reshapes the five `[64, 128]` arrays to `[64, 128, 1, 1]` and the two `[128]` instance-norm parameters to `[1, 128, 1, 1]`.

  A batch position is a word in `[0, 64)`. For such a word the quotient by 16 rounded toward zero is already the floor (the
  dividend is not negative, so the correction "less one where the signs differ and the remainder is not zero" never fires), the
  domain id lies in `[0, 4)`, so the wrap-around of a negative index does not fire and the gather's clamp into `[0, 3]` leaves
  it: the row gathered for batch row `b` is row `dom b = position b / 16`. These are finitely many facts about 32-bit words
  (64 positions, 4 domain ids) and are decided case by case.

  Each stretch is read separately from arbitrary contents before it: what it writes, at an index, in terms of what it reads, and
  that it leaves alone the buffers it does not write. The seven results are the compositions.
-/
import proofs.«159259_j85899346585_1_alg».proof.Proof.Gen.KernelIdeal.Launch
import proofs.«159259_j85899346585_1_alg».proof.Proof.LibGatherRows
import proofs.«159259_j85899346585_1_alg».proof.Proof.SpecMath
import Idealize.ShloMosaic.Lib.StableHlo.Run
import Idealize.ShloMosaic.Lib.ValueIdx
import Idealize.ShloMosaic.Lib.Pipeline.Value
import Idealize.ShloMosaic.Lib.Affine
import Idealize.ShloMosaic.Lib.IdealHost

set_option maxRecDepth 16384

noncomputable section

namespace Cert.KernelIdeal.HostStages

open Cert.KernelIdeal Cert.KernelIdeal.Gen
open Idealize.ShloMosaic Idealize.ShloMosaic.TcCoe Idealize.ShloMosaic.ValueIdx

/-- A valuation of the TensorCore buffers at exact arithmetic. -/
abbrev Val := Valuation τ sig (Elt Ideal)

/-! ## Shape casts that add or drop trailing unit axes, read at an index -/

/-- An `[a, b]` array cast to `[a, b, 1, 1]` reads, at `(i, j, u, v)`, the operand at `(i, j)`. -/
theorem cast_ab_ab11 {α : Type} {a b : ℕ} (x : (⟨2, ![a, b]⟩ : Shape).Idx → α)
    (h : (⟨2, ![a, b]⟩ : Shape).ShapeCasts ⟨4, ![a, b, 1, 1]⟩) (i : Fin a) (j : Fin b) (u v : Fin 1) :
    shapeCast ⟨4, ![a, b, 1, 1]⟩ x h (ix4 i j u v) = x (ix2 i j) :=
  shapeCast_apply x h _ _ (by
    have hu : u.val = 0 := by omega
    have hv : v.val = 0 := by omega
    rw [Shape.rowMajor_val_four, Shape.rowMajor_val_two]
    show i.val * b + j.val = ((i.val * b + j.val) * 1 + u.val) * 1 + v.val
    simp only [hu, hv, Nat.mul_one, Nat.add_zero])

/-- An `[a, b, 1, 1]` array cast to `[a, b]` reads, at `(i, j)`, the operand at `(i, j, 0, 0)`. -/
theorem cast_ab11_ab {α : Type} {a b : ℕ} (x : (⟨4, ![a, b, 1, 1]⟩ : Shape).Idx → α)
    (h : (⟨4, ![a, b, 1, 1]⟩ : Shape).ShapeCasts ⟨2, ![a, b]⟩) (i : Fin a) (j : Fin b) :
    shapeCast ⟨2, ![a, b]⟩ x h (ix2 i j) = x (ix4 i j (0 : Fin 1) (0 : Fin 1)) :=
  shapeCast_apply x h _ _ (by
    rw [Shape.rowMajor_val_four, Shape.rowMajor_val_two]
    show ((i.val * b + j.val) * 1 + 0) * 1 + 0 = i.val * b + j.val
    simp only [Nat.mul_one, Nat.add_zero])

/-- An `[a]` vector cast to `[1, a, 1, 1]` reads, at `(t, i, u, v)`, the operand at `i`. -/
theorem cast_a_1a11 {α : Type} {a : ℕ} (x : (⟨1, ![a]⟩ : Shape).Idx → α)
    (h : (⟨1, ![a]⟩ : Shape).ShapeCasts ⟨4, ![1, a, 1, 1]⟩) (t : Fin 1) (i : Fin a) (u v : Fin 1) :
    shapeCast ⟨4, ![1, a, 1, 1]⟩ x h (ix4 t i u v) = x (ix1 i) :=
  shapeCast_apply x h _ _ (by
    have ht : t.val = 0 := by omega
    have hu : u.val = 0 := by omega
    have hv : v.val = 0 := by omega
    rw [Shape.rowMajor_val_four, Shape.rowMajor_val_one]
    show i.val = ((t.val * a + i.val) * 1 + u.val) * 1 + v.val
    simp only [ht, hu, hv, Nat.zero_mul, Nat.zero_add, Nat.mul_one, Nat.add_zero])

/-! ## Word arithmetic on a batch position -/

/-- A word in `[0, 64)` read signed is below 64 read unsigned. -/
theorem toNat_lt (u : BitVec 32) (h0 : 0 ≤ u.toInt) (h1 : u.toInt < 64) : u.toNat < 64 := by
  rw [BitVec.toInt_eq_toNat_cond] at h0 h1
  have := u.isLt
  split at h0 <;> omega

/-- The floor division by 16 of each of the 64 batch positions, as the host spells it: the quotient rounded toward zero,
    less one where the signs differ and the remainder is not zero — which is nowhere, so it is the quotient. -/
theorem floorWord : ∀ n : Fin 64,
    Scalar.select (IntOp.andi
        (IntOp.cmpi .ne (if BitVec.ofNat 32 n.val = 0 then 0 else if (BitVec.ofNat 32 n.val).msb then -1 else 1 : BitVec 32)
          (if (16#32 : BitVec 32) = 0 then 0 else if (16#32 : BitVec 32).msb then -1 else 1))
        (IntOp.cmpi .ne (IntOp.remsi .host (BitVec.ofNat 32 n.val) 16#32) 0#32))
      (IntOp.subi (IntOp.divsi .host (BitVec.ofNat 32 n.val) 16#32) 1#32) (IntOp.divsi .host (BitVec.ofNat 32 n.val) 16#32)
    = BitVec.ofNat 32 (n.val / 16) := by decide

theorem floorWord' (u : BitVec 32) (hu : u.toNat < 64) :
    Scalar.select (IntOp.andi
        (IntOp.cmpi .ne (if u = 0 then 0 else if u.msb then -1 else 1 : BitVec 32)
          (if (16#32 : BitVec 32) = 0 then 0 else if (16#32 : BitVec 32).msb then -1 else 1))
        (IntOp.cmpi .ne (IntOp.remsi .host u 16#32) 0#32))
      (IntOp.subi (IntOp.divsi .host u 16#32) 1#32) (IntOp.divsi .host u 16#32)
    = BitVec.ofNat 32 (u.toNat / 16) := by
  obtain ⟨n, hn, rfl⟩ : ∃ n, n < 64 ∧ u = BitVec.ofNat 32 n :=
    ⟨u.toNat, hu, BitVec.eq_of_toNat_eq (by rw [BitVec.toNat_ofNat]; exact (Nat.mod_eq_of_lt u.isLt).symm)⟩
  have e : (BitVec.ofNat 32 n).toNat = n := by rw [BitVec.toNat_ofNat]; exact Nat.mod_eq_of_lt (by omega)
  rw [e]
  exact floorWord ⟨n, hn⟩

/-- A domain id in `[0, 4)` is not negative, so the wrap-around of a negative index leaves it, and clamped into
    `[0, 3]` it is itself. -/
theorem fixWord : ∀ d : Fin 4,
    min (Scalar.select (IntOp.cmpi .slt (BitVec.ofNat 32 d.val) 0#32) (IntOp.addi (BitVec.ofNat 32 d.val) 4#32)
      (BitVec.ofNat 32 d.val)).toInt.toNat (4 - 1) = d.val := by decide

/-- The comparison of a domain id with 3. -/
theorem eqWord : ∀ d : Fin 4, IntOp.cmpi .eq (BitVec.ofNat 32 d.val) 3#32 = if d.val = 3 then 1#1 else 0#1 := by decide

/-! ## The operations' terms read at an index -/

/-- The floor division of the index vector by the scalar 16, at a position whose word is below 64. -/
theorem floorDiv_apply (u9 : IVec S64 32) (c : IVec S_ 32) (hc : c = constantI S_ 32 16#32) (b : Fin 64)
    (hu : (u9 (ix1 b)).toNat < 64) :
    select (andi (cmpi .ne (signi u9) (broadcastInDim S64 ![] bcast_S_S64 (signi c)))
        (cmpi .ne (Host.remsi u9 (broadcastInDim S64 ![] bcast_S_S64 c)) (broadcastInDim S64 ![] bcast_S_S64 (constantI S_ 32 0#32))))
      (subi (Host.divsi u9 (broadcastInDim S64 ![] bcast_S_S64 c)) (broadcastInDim S64 ![] bcast_S_S64 (constantI S_ 32 1#32)))
      (Host.divsi u9 (broadcastInDim S64 ![] bcast_S_S64 c)) (ix1 b)
    = BitVec.ofNat 32 ((u9 (ix1 b)).toNat / 16) := by
  subst hc
  exact floorWord' (u9 (ix1 b)) hu

/-- The index column the gathers read, at row `b`: the domain id, its negative wrap-around not firing. -/
theorem fix_apply (d9 : IVec S64 32) (b : Fin 64) (d : Fin 4) (hd : d9 (ix1 b) = BitVec.ofNat 32 d.val) :
    min ((broadcastInDim S64x1 ![0] bcast_S64_S64x1_0
      (select (cmpi .slt d9 (broadcastInDim S64 ![] bcast_S_S64 (constantI S_ 32 0#32)))
        (addi d9 (broadcastInDim S64 ![] bcast_S_S64 (constantI S_ 32 4#32))) d9) : IVec S64x1 32) (ix2 b (0 : Fin 1))).toInt.toNat (4 - 1)
      = d.val := by
  have hi : (broadcastInDim S64x1 ![0] bcast_S64_S64x1_0
      (select (cmpi .slt d9 (broadcastInDim S64 ![] bcast_S_S64 (constantI S_ 32 0#32)))
        (addi d9 (broadcastInDim S64 ![] bcast_S_S64 (constantI S_ 32 4#32))) d9) : IVec S64x1 32) (ix2 b (0 : Fin 1))
      = Scalar.select (IntOp.cmpi .slt (d9 (ix1 b)) 0#32) (IntOp.addi (d9 (ix1 b)) 4#32) (d9 (ix1 b)) :=
    (broadcastInDim_apply _ _ _ (ix2 b (0 : Fin 1)) (ix1 b) (fun a => match a with | ⟨0, _⟩ => rfl)).trans rfl
  rw [hi, hd]
  exact fixWord d

/-- A gather of whole rows of a `[4, 128]` operand by a `[64, 1]` column whose entry `b`, clamped, names row `d`. -/
theorem gatherRow_apply (x : S4x128.Idx → EReal) (idx : IVec S64x1 32) (b : Fin 64) (k : Fin 128) (d : Fin 4)
    (h : min (idx (ix2 b (0 : Fin 1))).toInt.toNat (4 - 1) = d.val) :
    Host.gather gather_S4x128_S64x1_S64x128_1_0_n_n_0_1_1128 x idx (ix2 b k) = x (ix2 d k) :=
  (Cert.LibGatherRows.gather_rows_apply (N := 4) (E := 64) (C := 128) (by decide)
      gather_S4x128_S64x1_S64x128_1_0_n_n_0_1_1128_wf x idx b k).trans
    (congrArg (fun r => x (ix2 r k)) (Fin.ext h))

/-- The comparison with 3 made a column, at row `b`. -/
theorem eq3_apply (d9 : IVec S64 32) (b : Fin 64) :
    (broadcastInDim S64x1 ![0] bcast_S64_S64x1_0 (cmpi .eq d9 (broadcastInDim S64 ![] bcast_S_S64 (constantI S_ 32 3#32))) : IVec S64x1 1)
      (ix2 b (0 : Fin 1)) = IntOp.cmpi .eq (d9 (ix1 b)) 3#32 :=
  (broadcastInDim_apply _ _ _ (ix2 b (0 : Fin 1)) (ix1 b) (fun a => match a with | ⟨0, _⟩ => rfl)).trans rfl

/-- The logistic function of the gate parameters made a row, at column `k`. -/
theorem sig_apply (a7 : FVec Ideal S128 .f32) (k : Fin 128) :
    (broadcastInDim S1x128 ![1] bcast_S128_S1x128_1
      (Host.divf (broadcastInDim S128 ![] bcast_S_S128 (constant (F := Ideal) S_ .f32 0x3F800000#32))
        (addf (broadcastInDim S128 ![] bcast_S_S128 (constant (F := Ideal) S_ .f32 0x3F800000#32)) (Host.exp (Host.negf a7))))
      : FVec Ideal S1x128 .f32) (ix2 (0 : Fin 1) k) = Cert.Spec.sig (a7 (ix1 k)) :=
  (broadcastInDim_apply _ _ _ (ix2 (0 : Fin 1) k) (ix1 k) (fun a => match a with | ⟨0, _⟩ => rfl)).trans rfl

/-- The select of the gate, at `(b, k)`. -/
theorem where_apply {α : Type} (c : IVec S64x1 1) (x y : S1x128.Idx → α) (b : Fin 64) (k : Fin 128) :
    select (broadcastInDim S64x128 ![0, 1] bcast_S64x1_S64x128_0_1 c) (broadcastInDim S64x128 ![0, 1] bcast_S1x128_S64x128_0_1 x)
      (broadcastInDim S64x128 ![0, 1] bcast_S1x128_S64x128_0_1 y) (ix2 b k)
      = Scalar.select (c (ix2 b (0 : Fin 1))) (x (ix2 (0 : Fin 1) k)) (y (ix2 (0 : Fin 1) k)) := by
  show Scalar.select (broadcastInDim S64x128 ![0, 1] bcast_S64x1_S64x128_0_1 c (ix2 b k))
    (broadcastInDim S64x128 ![0, 1] bcast_S1x128_S64x128_0_1 x (ix2 b k))
    (broadcastInDim S64x128 ![0, 1] bcast_S1x128_S64x128_0_1 y (ix2 b k)) = _
  refine congr (congr (congrArg Scalar.select ?_) ?_) ?_
  · exact broadcastInDim_apply _ _ _ (ix2 b k) (ix2 b (0 : Fin 1)) (fun a => match a with | ⟨0, _⟩ => rfl | ⟨1, _⟩ => rfl)
  · exact broadcastInDim_apply _ _ _ (ix2 b k) (ix2 (0 : Fin 1) k) (fun a => match a with | ⟨0, _⟩ => rfl | ⟨1, _⟩ => rfl)
  · exact broadcastInDim_apply _ _ _ (ix2 b k) (ix2 (0 : Fin 1) k) (fun a => match a with | ⟨0, _⟩ => rfl | ⟨1, _⟩ => rfl)

/-! ## The five stretches, one by one, from arbitrary contents `V`

Each stretch's results are read at an index in terms of the contents before it; a buffer the stretch does not write keeps
its contents. -/

/-! ### The first stretch: the means and the one-pass variances -/

theorem s1_v7 (V : Val) (d : Fin 4) (k : Fin 128) :
    (StableHlo.after hostOps1 V (Proc.devRef .tc main_v7) : S4x128.Idx → EReal) (ix2 d k)
      = Ideal.div ((V (Proc.devRef .tc main_v0_0) : S4x128x1x1.Idx → EReal) (ix4 d k (0 : Fin 1) (0 : Fin 1))) Cert.Spec.c65536 := by
  dsimp only [hostOps1]
  after_results
  exact (cast_ab11_ab _ _ d k).trans rfl

theorem s1_v8 (V : Val) (d : Fin 4) (k : Fin 128) :
    (StableHlo.after hostOps1 V (Proc.devRef .tc main_v8) : S4x128.Idx → EReal) (ix2 d k)
      = Ideal.div ((V (Proc.devRef .tc main_v0_1) : S4x128x1x1.Idx → EReal) (ix4 d k (0 : Fin 1) (0 : Fin 1))) Cert.Spec.c65536
        - Ideal.div ((V (Proc.devRef .tc main_v0_0) : S4x128x1x1.Idx → EReal) (ix4 d k (0 : Fin 1) (0 : Fin 1))) Cert.Spec.c65536
          * Ideal.div ((V (Proc.devRef .tc main_v0_0) : S4x128x1x1.Idx → EReal) (ix4 d k (0 : Fin 1) (0 : Fin 1))) Cert.Spec.c65536 := by
  dsimp only [hostOps1]
  after_results
  exact (cast_ab11_ab _ _ d k).trans rfl

theorem s1_c (V : Val) :
    (StableHlo.after hostOps1 V (Proc.devRef .tc main_c) : IVec S_ 32) = constantI S_ 32 16#32 := by
  dsimp only [hostOps1]
  after_results

theorem p1_arg2 (V : Val) :
    (StableHlo.after hostOps1 V (Proc.devRef .tc main_arg2) : IVec S64 32) = V (Proc.devRef .tc main_arg2) := by
  dsimp only [hostOps1]
  after_results

theorem p1_arg3 (V : Val) :
    (StableHlo.after hostOps1 V (Proc.devRef .tc main_arg3) : S4x128.Idx → EReal) = V (Proc.devRef .tc main_arg3) := by
  dsimp only [hostOps1]
  after_results

theorem p1_arg4 (V : Val) :
    (StableHlo.after hostOps1 V (Proc.devRef .tc main_arg4) : S4x128.Idx → EReal) = V (Proc.devRef .tc main_arg4) := by
  dsimp only [hostOps1]
  after_results

theorem p1_arg5 (V : Val) :
    (StableHlo.after hostOps1 V (Proc.devRef .tc main_arg5) : S128.Idx → EReal) = V (Proc.devRef .tc main_arg5) := by
  dsimp only [hostOps1]
  after_results

theorem p1_arg6 (V : Val) :
    (StableHlo.after hostOps1 V (Proc.devRef .tc main_arg6) : S128.Idx → EReal) = V (Proc.devRef .tc main_arg6) := by
  dsimp only [hostOps1]
  after_results

theorem p1_arg7 (V : Val) :
    (StableHlo.after hostOps1 V (Proc.devRef .tc main_arg7) : S128.Idx → EReal) = V (Proc.devRef .tc main_arg7) := by
  dsimp only [hostOps1]
  after_results

/-! ### The second stretch: the domain id, the floor division of the batch position by 16 -/

theorem s2_v9 (V : Val) (hc : (V (Proc.devRef .tc main_c) : IVec S_ 32) = constantI S_ 32 16#32) (b : Fin 64)
    (hu : ((V (Proc.devRef .tc main_arg2) : IVec S64 32) (ix1 b)).toNat < 64) :
    (StableHlo.after hostOps1_1 V (Proc.devRef .tc main_v9) : IVec S64 32) (ix1 b)
      = BitVec.ofNat 32 (((V (Proc.devRef .tc main_arg2) : IVec S64 32) (ix1 b)).toNat / 16) := by
  dsimp only [hostOps1_1]
  after_results_simp
  exact floorDiv_apply (V (Proc.devRef .tc main_arg2)) (V (Proc.devRef .tc main_c)) hc b hu

theorem p2_v7 (V : Val) :
    (StableHlo.after hostOps1_1 V (Proc.devRef .tc main_v7) : S4x128.Idx → EReal) = V (Proc.devRef .tc main_v7) := by
  dsimp only [hostOps1_1]
  after_results

theorem p2_v8 (V : Val) :
    (StableHlo.after hostOps1_1 V (Proc.devRef .tc main_v8) : S4x128.Idx → EReal) = V (Proc.devRef .tc main_v8) := by
  dsimp only [hostOps1_1]
  after_results

theorem p2_arg3 (V : Val) :
    (StableHlo.after hostOps1_1 V (Proc.devRef .tc main_arg3) : S4x128.Idx → EReal) = V (Proc.devRef .tc main_arg3) := by
  dsimp only [hostOps1_1]
  after_results

theorem p2_arg4 (V : Val) :
    (StableHlo.after hostOps1_1 V (Proc.devRef .tc main_arg4) : S4x128.Idx → EReal) = V (Proc.devRef .tc main_arg4) := by
  dsimp only [hostOps1_1]
  after_results

theorem p2_arg5 (V : Val) :
    (StableHlo.after hostOps1_1 V (Proc.devRef .tc main_arg5) : S128.Idx → EReal) = V (Proc.devRef .tc main_arg5) := by
  dsimp only [hostOps1_1]
  after_results

theorem p2_arg6 (V : Val) :
    (StableHlo.after hostOps1_1 V (Proc.devRef .tc main_arg6) : S128.Idx → EReal) = V (Proc.devRef .tc main_arg6) := by
  dsimp only [hostOps1_1]
  after_results

theorem p2_arg7 (V : Val) :
    (StableHlo.after hostOps1_1 V (Proc.devRef .tc main_arg7) : S128.Idx → EReal) = V (Proc.devRef .tc main_arg7) := by
  dsimp only [hostOps1_1]
  after_results

/-! ### The third stretch: the four row gathers, the logistic gate and the comparison with 3 -/

theorem s3_v16 (V : Val) (b : Fin 64) (k : Fin 128) (d : Fin 4)
    (hd : (V (Proc.devRef .tc main_v9) : IVec S64 32) (ix1 b) = BitVec.ofNat 32 d.val) :
    (StableHlo.after hostOps1_2 V (Proc.devRef .tc main_v16) : S64x128.Idx → EReal) (ix2 b k)
      = (V (Proc.devRef .tc main_v7) : S4x128.Idx → EReal) (ix2 d k) := by
  dsimp only [hostOps1_2]
  after_results_simp
  exact gatherRow_apply _ _ b k d (fix_apply _ b d hd)

theorem s3_v23 (V : Val) (b : Fin 64) (k : Fin 128) (d : Fin 4)
    (hd : (V (Proc.devRef .tc main_v9) : IVec S64 32) (ix1 b) = BitVec.ofNat 32 d.val) :
    (StableHlo.after hostOps1_2 V (Proc.devRef .tc main_v23) : S64x128.Idx → EReal) (ix2 b k)
      = (V (Proc.devRef .tc main_v8) : S4x128.Idx → EReal) (ix2 d k) := by
  dsimp only [hostOps1_2]
  after_results_simp
  exact gatherRow_apply _ _ b k d (fix_apply _ b d hd)

theorem s3_v30 (V : Val) (b : Fin 64) (k : Fin 128) (d : Fin 4)
    (hd : (V (Proc.devRef .tc main_v9) : IVec S64 32) (ix1 b) = BitVec.ofNat 32 d.val) :
    (StableHlo.after hostOps1_2 V (Proc.devRef .tc main_v30) : S64x128.Idx → EReal) (ix2 b k)
      = (V (Proc.devRef .tc main_arg3) : S4x128.Idx → EReal) (ix2 d k) := by
  dsimp only [hostOps1_2]
  after_results_simp
  exact gatherRow_apply _ _ b k d (fix_apply _ b d hd)

theorem s3_v37 (V : Val) (b : Fin 64) (k : Fin 128) (d : Fin 4)
    (hd : (V (Proc.devRef .tc main_v9) : IVec S64 32) (ix1 b) = BitVec.ofNat 32 d.val) :
    (StableHlo.after hostOps1_2 V (Proc.devRef .tc main_v37) : S64x128.Idx → EReal) (ix2 b k)
      = (V (Proc.devRef .tc main_arg4) : S4x128.Idx → EReal) (ix2 d k) := by
  dsimp only [hostOps1_2]
  after_results_simp
  exact gatherRow_apply _ _ b k d (fix_apply _ b d hd)

theorem s3_v46 (V : Val) (b : Fin 64) :
    (StableHlo.after hostOps1_2 V (Proc.devRef .tc main_v46) : IVec S64x1 1) (ix2 b (0 : Fin 1))
      = IntOp.cmpi .eq ((V (Proc.devRef .tc main_v9) : IVec S64 32) (ix1 b)) 3#32 := by
  dsimp only [hostOps1_2]
  after_results_simp
  exact eq3_apply _ b

theorem s3_v47 (V : Val) (k : Fin 128) :
    (StableHlo.after hostOps1_2 V (Proc.devRef .tc main_v47) : S1x128.Idx → EReal) (ix2 (0 : Fin 1) k) = Cert.Spec.one := by
  dsimp only [hostOps1_2]
  after_results_simp
  rfl

theorem s3_v48 (V : Val) (k : Fin 128) :
    (StableHlo.after hostOps1_2 V (Proc.devRef .tc main_v48) : S1x128.Idx → EReal) (ix2 (0 : Fin 1) k)
      = Cert.Spec.sig ((V (Proc.devRef .tc main_arg7) : S128.Idx → EReal) (ix1 k)) := by
  dsimp only [hostOps1_2]
  after_results_simp
  exact sig_apply _ k

theorem p3_arg5 (V : Val) :
    (StableHlo.after hostOps1_2 V (Proc.devRef .tc main_arg5) : S128.Idx → EReal) = V (Proc.devRef .tc main_arg5) := by
  dsimp only [hostOps1_2]
  after_results_simp

theorem p3_arg6 (V : Val) :
    (StableHlo.after hostOps1_2 V (Proc.devRef .tc main_arg6) : S128.Idx → EReal) = V (Proc.devRef .tc main_arg6) := by
  dsimp only [hostOps1_2]
  after_results_simp

/-! ### The fourth stretch: the select of the gate -/

theorem s4_v49 (V : Val) (b : Fin 64) (k : Fin 128) :
    (StableHlo.after hostOps1_3 V (Proc.devRef .tc main_v49) : S64x128.Idx → EReal) (ix2 b k)
      = Scalar.select ((V (Proc.devRef .tc main_v46) : IVec S64x1 1) (ix2 b (0 : Fin 1)))
          ((V (Proc.devRef .tc main_v48) : S1x128.Idx → EReal) (ix2 (0 : Fin 1) k))
          ((V (Proc.devRef .tc main_v47) : S1x128.Idx → EReal) (ix2 (0 : Fin 1) k)) := by
  dsimp only [hostOps1_3]
  after_results
  exact where_apply _ _ _ b k

theorem p4_v16 (V : Val) :
    (StableHlo.after hostOps1_3 V (Proc.devRef .tc main_v16) : S64x128.Idx → EReal) = V (Proc.devRef .tc main_v16) := by
  dsimp only [hostOps1_3]
  after_results

theorem p4_v23 (V : Val) :
    (StableHlo.after hostOps1_3 V (Proc.devRef .tc main_v23) : S64x128.Idx → EReal) = V (Proc.devRef .tc main_v23) := by
  dsimp only [hostOps1_3]
  after_results

theorem p4_v30 (V : Val) :
    (StableHlo.after hostOps1_3 V (Proc.devRef .tc main_v30) : S64x128.Idx → EReal) = V (Proc.devRef .tc main_v30) := by
  dsimp only [hostOps1_3]
  after_results

theorem p4_v37 (V : Val) :
    (StableHlo.after hostOps1_3 V (Proc.devRef .tc main_v37) : S64x128.Idx → EReal) = V (Proc.devRef .tc main_v37) := by
  dsimp only [hostOps1_3]
  after_results

theorem p4_arg5 (V : Val) :
    (StableHlo.after hostOps1_3 V (Proc.devRef .tc main_arg5) : S128.Idx → EReal) = V (Proc.devRef .tc main_arg5) := by
  dsimp only [hostOps1_3]
  after_results

theorem p4_arg6 (V : Val) :
    (StableHlo.after hostOps1_3 V (Proc.devRef .tc main_arg6) : S128.Idx → EReal) = V (Proc.devRef .tc main_arg6) := by
  dsimp only [hostOps1_3]
  after_results

/-! ### The fifth stretch: the reshapes to rank four -/

theorem s5_v50 (V : Val) (b : Fin 64) (k : Fin 128) (u v : Fin 1) :
    (StableHlo.after hostOps1_4 V (Proc.devRef .tc main_v50) : S64x128x1x1.Idx → EReal) (ix4 b k u v)
      = (V (Proc.devRef .tc main_v16) : S64x128.Idx → EReal) (ix2 b k) := by
  dsimp only [hostOps1_4]
  after_results
  exact cast_ab_ab11 _ _ b k u v

theorem s5_v51 (V : Val) (b : Fin 64) (k : Fin 128) (u v : Fin 1) :
    (StableHlo.after hostOps1_4 V (Proc.devRef .tc main_v51) : S64x128x1x1.Idx → EReal) (ix4 b k u v)
      = (V (Proc.devRef .tc main_v23) : S64x128.Idx → EReal) (ix2 b k) := by
  dsimp only [hostOps1_4]
  after_results
  exact cast_ab_ab11 _ _ b k u v

theorem s5_v52 (V : Val) (b : Fin 64) (k : Fin 128) (u v : Fin 1) :
    (StableHlo.after hostOps1_4 V (Proc.devRef .tc main_v52) : S64x128x1x1.Idx → EReal) (ix4 b k u v)
      = (V (Proc.devRef .tc main_v30) : S64x128.Idx → EReal) (ix2 b k) := by
  dsimp only [hostOps1_4]
  after_results
  exact cast_ab_ab11 _ _ b k u v

theorem s5_v53 (V : Val) (b : Fin 64) (k : Fin 128) (u v : Fin 1) :
    (StableHlo.after hostOps1_4 V (Proc.devRef .tc main_v53) : S64x128x1x1.Idx → EReal) (ix4 b k u v)
      = (V (Proc.devRef .tc main_v37) : S64x128.Idx → EReal) (ix2 b k) := by
  dsimp only [hostOps1_4]
  after_results
  exact cast_ab_ab11 _ _ b k u v

theorem s5_v54 (V : Val) (b : Fin 64) (k : Fin 128) (u v : Fin 1) :
    (StableHlo.after hostOps1_4 V (Proc.devRef .tc main_v54) : S64x128x1x1.Idx → EReal) (ix4 b k u v)
      = (V (Proc.devRef .tc main_v49) : S64x128.Idx → EReal) (ix2 b k) := by
  dsimp only [hostOps1_4]
  after_results
  exact cast_ab_ab11 _ _ b k u v

theorem s5_v55 (V : Val) (t : Fin 1) (k : Fin 128) (u v : Fin 1) :
    (StableHlo.after hostOps1_4 V (Proc.devRef .tc main_v55) : S1x128x1x1.Idx → EReal) (ix4 t k u v)
      = (V (Proc.devRef .tc main_arg5) : S128.Idx → EReal) (ix1 k) := by
  dsimp only [hostOps1_4]
  after_results
  exact cast_a_1a11 _ _ t k u v

theorem s5_v56 (V : Val) (t : Fin 1) (k : Fin 128) (u v : Fin 1) :
    (StableHlo.after hostOps1_4 V (Proc.devRef .tc main_v56) : S1x128x1x1.Idx → EReal) (ix4 t k u v)
      = (V (Proc.devRef .tc main_arg6) : S128.Idx → EReal) (ix1 k) := by
  dsimp only [hostOps1_4]
  after_results
  exact cast_a_1a11 _ _ t k u v

/-! ## The five stretches composed -/

/-- The contents after the five stretches of host operations, from contents `W`. -/
abbrev W6 (W : Val) : Val :=
  StableHlo.after hostOps1_4 (StableHlo.after hostOps1_3 (StableHlo.after hostOps1_2 (StableHlo.after hostOps1_1 (StableHlo.after hostOps1 W))))

/-- The domain of batch row `b`: its batch position, a word in `[0, 64)`, divided by 16. -/
def dom (U : IVec S64 32) (hU : ∀ b : S64.Idx, 0 ≤ (U b).toInt ∧ (U b).toInt < 64) (b : Fin 64) : Fin 4 :=
  ⟨(U (ix1 b)).toNat / 16, by have := toNat_lt _ (hU (ix1 b)).1 (hU (ix1 b)).2; omega⟩

section Composed

variable (W : Val) (hU : ∀ b : S64.Idx, 0 ≤ ((W (Proc.devRef .tc main_arg2) : IVec S64 32) b).toInt
  ∧ ((W (Proc.devRef .tc main_arg2) : IVec S64 32) b).toInt < 64)

/-- After the second stretch the domain-id vector holds, at `b`, the word of `dom b`. -/
theorem dom_word (b : Fin 64) :
    (StableHlo.after hostOps1_1 (StableHlo.after hostOps1 W) (Proc.devRef .tc main_v9) : IVec S64 32) (ix1 b)
      = BitVec.ofNat 32 (dom (W (Proc.devRef .tc main_arg2)) hU b).val := by
  have e := congrFun (p1_arg2 W) (ix1 b)
  have hu : ((StableHlo.after hostOps1 W (Proc.devRef .tc main_arg2) : IVec S64 32) (ix1 b)).toNat < 64 := by
    rw [e]; exact toNat_lt _ (hU (ix1 b)).1 (hU (ix1 b)).2
  exact (s2_v9 (StableHlo.after hostOps1 W) (s1_c W) b hu).trans
    (congrArg (fun u : BitVec 32 => BitVec.ofNat 32 (u.toNat / 16)) e)

/-- (1) The gathered mean: region 0's sum of domain `dom b`, channel `k`, divided by 65536. -/
theorem v50_apply (b : Fin 64) (k : Fin 128) :
    (W6 W (Proc.devRef .tc main_v50) : S64x128x1x1.Idx → EReal) (ix4 b k (0 : Fin 1) (0 : Fin 1))
      = Ideal.div ((W (Proc.devRef .tc main_v0_0) : S4x128x1x1.Idx → EReal)
          (ix4 (dom (W (Proc.devRef .tc main_arg2)) hU b) k (0 : Fin 1) (0 : Fin 1))) Cert.Spec.c65536 :=
  (s5_v50 _ b k 0 0).trans ((congrFun (p4_v16 _) _).trans ((s3_v16 _ b k _ (dom_word W hU b)).trans
    ((congrFun (p2_v7 _) _).trans (s1_v7 W _ k))))

/-- (2) The gathered one-pass variance: the mean of squares less the squared mean. -/
theorem v51_apply (b : Fin 64) (k : Fin 128) :
    (W6 W (Proc.devRef .tc main_v51) : S64x128x1x1.Idx → EReal) (ix4 b k (0 : Fin 1) (0 : Fin 1))
      = Ideal.div ((W (Proc.devRef .tc main_v0_1) : S4x128x1x1.Idx → EReal)
          (ix4 (dom (W (Proc.devRef .tc main_arg2)) hU b) k (0 : Fin 1) (0 : Fin 1))) Cert.Spec.c65536
        - Ideal.div ((W (Proc.devRef .tc main_v0_0) : S4x128x1x1.Idx → EReal)
            (ix4 (dom (W (Proc.devRef .tc main_arg2)) hU b) k (0 : Fin 1) (0 : Fin 1))) Cert.Spec.c65536
          * Ideal.div ((W (Proc.devRef .tc main_v0_0) : S4x128x1x1.Idx → EReal)
            (ix4 (dom (W (Proc.devRef .tc main_arg2)) hU b) k (0 : Fin 1) (0 : Fin 1))) Cert.Spec.c65536 :=
  (s5_v51 _ b k 0 0).trans ((congrFun (p4_v23 _) _).trans ((s3_v23 _ b k _ (dom_word W hU b)).trans
    ((congrFun (p2_v8 _) _).trans (s1_v8 W _ k))))

/-- (3) The gathered weight row. -/
theorem v52_apply (b : Fin 64) (k : Fin 128) :
    (W6 W (Proc.devRef .tc main_v52) : S64x128x1x1.Idx → EReal) (ix4 b k (0 : Fin 1) (0 : Fin 1))
      = (W (Proc.devRef .tc main_arg3) : S4x128.Idx → EReal) (ix2 (dom (W (Proc.devRef .tc main_arg2)) hU b) k) :=
  (s5_v52 _ b k 0 0).trans ((congrFun (p4_v30 _) _).trans ((s3_v30 _ b k _ (dom_word W hU b)).trans
    ((congrFun (p2_arg3 _) _).trans (congrFun (p1_arg3 W) _))))

/-- (4) The gathered bias row. -/
theorem v53_apply (b : Fin 64) (k : Fin 128) :
    (W6 W (Proc.devRef .tc main_v53) : S64x128x1x1.Idx → EReal) (ix4 b k (0 : Fin 1) (0 : Fin 1))
      = (W (Proc.devRef .tc main_arg4) : S4x128.Idx → EReal) (ix2 (dom (W (Proc.devRef .tc main_arg2)) hU b) k) :=
  (s5_v53 _ b k 0 0).trans ((congrFun (p4_v37 _) _).trans ((s3_v37 _ b k _ (dom_word W hU b)).trans
    ((congrFun (p2_arg4 _) _).trans (congrFun (p1_arg4 W) _))))

/-- (5) The gate: the logistic function of the gate parameter in the last domain, one elsewhere. -/
theorem v54_apply (b : Fin 64) (k : Fin 128) :
    (W6 W (Proc.devRef .tc main_v54) : S64x128x1x1.Idx → EReal) (ix4 b k (0 : Fin 1) (0 : Fin 1))
      = if (dom (W (Proc.devRef .tc main_arg2)) hU b).val = 3
          then Cert.Spec.sig ((W (Proc.devRef .tc main_arg7) : S128.Idx → EReal) (ix1 k)) else Cert.Spec.one := by
  refine (s5_v54 _ b k 0 0).trans ((s4_v49 _ b k).trans ?_)
  refine (congr (congr (congrArg Scalar.select
      ((s3_v46 _ b).trans ((congrArg (fun w : BitVec 32 => IntOp.cmpi .eq w 3#32) (dom_word W hU b)).trans (eqWord _))))
      ((s3_v48 _ k).trans (congrArg Cert.Spec.sig ((congrFun (p2_arg7 _) _).trans (congrFun (p1_arg7 W) _)))))
      (s3_v47 _ k)).trans ?_
  by_cases h : (dom (W (Proc.devRef .tc main_arg2)) hU b).val = 3
  · rw [if_pos h, if_pos h]; exact select_one _ _
  · rw [if_neg h, if_neg h]; exact select_zero _ _

/-- (6) The instance-norm weight, reshaped. -/
theorem v55_apply (k : Fin 128) :
    (W6 W (Proc.devRef .tc main_v55) : S1x128x1x1.Idx → EReal) (ix4 (0 : Fin 1) k (0 : Fin 1) (0 : Fin 1))
      = (W (Proc.devRef .tc main_arg5) : S128.Idx → EReal) (ix1 k) :=
  (s5_v55 _ 0 k 0 0).trans ((congrFun (p4_arg5 _) _).trans ((congrFun (p3_arg5 _) _).trans
    ((congrFun (p2_arg5 _) _).trans (congrFun (p1_arg5 W) _))))

/-- (7) The instance-norm bias, reshaped. -/
theorem v56_apply (k : Fin 128) :
    (W6 W (Proc.devRef .tc main_v56) : S1x128x1x1.Idx → EReal) (ix4 (0 : Fin 1) k (0 : Fin 1) (0 : Fin 1))
      = (W (Proc.devRef .tc main_arg6) : S128.Idx → EReal) (ix1 k) :=
  (s5_v56 _ 0 k 0 0).trans ((congrFun (p4_arg6 _) _).trans ((congrFun (p3_arg6 _) _).trans
    ((congrFun (p2_arg6 _) _).trans (congrFun (p1_arg6 W) _))))

end Composed

end Cert.KernelIdeal.HostStages

end
-- ==== Proof.KernelAtIdeal.lean ====
/-
  The kernel program's result at an index, as a formula of the arguments.

  Sample `b` sits at position `U[b]` of the sorted order, in domain `d = U[b] / 16`. The statistics region leaves, for each
  domain and channel, the sum and the sum of squares over the domain's sixteen rows `S[16 d + i]` and all positions; the host
  stretches turn them into the mean and the one-pass variance and look up, for each sample, its domain's mean, variance,
  weight, bias and gate; the normalising region blends the batch-normalised and the instance-normalised entry. Each buffer
  the last region reads is traced back through the fold of buffer contents to the launch memory, and what comes out is the
  stated formula.
-/
import proofs.«159259_j85899346585_1_alg».proof.Proof.KernelValueIdeal
import proofs.«159259_j85899346585_1_alg».proof.Proof.RunResultIdeal
import proofs.«159259_j85899346585_1_alg».proof.Proof.Bridge
import proofs.«159259_j85899346585_1_alg».proof.Proof.HostStagesIdeal

set_option maxRecDepth 16384

open scoped BigOperators

noncomputable section

namespace Cert.KernelIdeal.Value

open Cert.KernelIdeal Cert.KernelIdeal.Gen Cert.KernelIdeal.Iface Cert.KernelIdeal.Run
open Idealize.ShloMosaic Idealize.ShloMosaic.TcCoe Idealize.ShloMosaic.ValueIdx
open Idealize.SL Idealize.SL.Sem

variable (m : (ℓ : Loc nD τ sig) → Buf (Elt Ideal) ℓ) (a0 : (pcfg0 (F := Ideal)).Adm)
variable (st : ∀ V : (c : Dev nD) → (b : Ref sig .tc) → Buf (Elt Ideal) ((c : Thread nD τ).loc b), Stats a0 V)
variable (htab : ∀ (c : Dev nD) (k : Fin pre0.K), a0.1 k = m ((c : Thread nD τ).loc (pre0.ref k)))

/-- The input array on core `c`, as launched. -/
abbrev xIn (c : Dev nD) : S64x128x64x64.Idx → EReal := m ((c : Thread nD τ).loc main_arg0)

include htab in
/-- THE KERNEL'S VALUE AT AN INDEX, given what the host stretches compute (`h50` … `h56`: the seven per-sample columns the
    normalising region reads, over the contents `W1` the statistics region leaves, `dW b` the domain of sample `b` read off
    those contents) and what the statistics region leaves (`hs1`, `hs2`: a domain's sum and sum of squares over its rows
    `rowA d i`, the table's words). -/
theorem kernel_at_of (c : Dev nD)
    (hS : ∀ j, (m ((c : Thread nD τ).loc main_arg1) j).toNat < 64) (hU : ∀ j, (m ((c : Thread nD τ).loc main_arg2) j).toNat < 64)
    (dW : Fin 64 → Fin 4)
    (hdW : ∀ b, (dW b).val = (W1 m a0 st c (Proc.devRef .tc main_arg2) (ix1 b)).toNat / 16)
    (h50 : ∀ (b : Fin 64) (k : Fin 128), W6 m a0 st c (Proc.devRef .tc main_v50) (ix4 b k (0 : Fin 1) (0 : Fin 1))
      = Ideal.div (W1 m a0 st c (Proc.devRef .tc main_v0_0) (ix4 (dW b) k (0 : Fin 1) (0 : Fin 1))) Cert.Spec.c65536)
    (h51 : ∀ (b : Fin 64) (k : Fin 128), W6 m a0 st c (Proc.devRef .tc main_v51) (ix4 b k (0 : Fin 1) (0 : Fin 1))
      = Ideal.div (W1 m a0 st c (Proc.devRef .tc main_v0_1) (ix4 (dW b) k (0 : Fin 1) (0 : Fin 1))) Cert.Spec.c65536
        - Ideal.div (W1 m a0 st c (Proc.devRef .tc main_v0_0) (ix4 (dW b) k (0 : Fin 1) (0 : Fin 1))) Cert.Spec.c65536
          * Ideal.div (W1 m a0 st c (Proc.devRef .tc main_v0_0) (ix4 (dW b) k (0 : Fin 1) (0 : Fin 1))) Cert.Spec.c65536)
    (h52 : ∀ (b : Fin 64) (k : Fin 128), W6 m a0 st c (Proc.devRef .tc main_v52) (ix4 b k (0 : Fin 1) (0 : Fin 1))
      = W1 m a0 st c (Proc.devRef .tc main_arg3) (ix2 (dW b) k))
    (h53 : ∀ (b : Fin 64) (k : Fin 128), W6 m a0 st c (Proc.devRef .tc main_v53) (ix4 b k (0 : Fin 1) (0 : Fin 1))
      = W1 m a0 st c (Proc.devRef .tc main_arg4) (ix2 (dW b) k))
    (h54 : ∀ (b : Fin 64) (k : Fin 128), W6 m a0 st c (Proc.devRef .tc main_v54) (ix4 b k (0 : Fin 1) (0 : Fin 1))
      = if (dW b).val = 3 then Cert.Spec.sig (W1 m a0 st c (Proc.devRef .tc main_arg7) (ix1 k)) else Cert.Spec.one)
    (h55 : ∀ k : Fin 128, W6 m a0 st c (Proc.devRef .tc main_v55) (ix4 (0 : Fin 1) k (0 : Fin 1) (0 : Fin 1))
      = W1 m a0 st c (Proc.devRef .tc main_arg5) (ix1 k))
    (h56 : ∀ k : Fin 128, W6 m a0 st c (Proc.devRef .tc main_v56) (ix4 (0 : Fin 1) k (0 : Fin 1) (0 : Fin 1))
      = W1 m a0 st c (Proc.devRef .tc main_arg6) (ix1 k))
    (rowA : Fin 4 → Fin 16 → Fin 64)
    (hrowA : ∀ (d : Fin 4) (i : Fin 16), (rowA d i).val
      = (a0.1 0 (ix1 (⟨16 * d.val + i.val, by have := d.isLt; have := i.isLt; omega⟩ : Fin 64))).toNat)
    (hs1 : ∀ (d : Fin 4) (k : Fin 128), (((st (Run.V0 m)).dat c).arrAt 1 (cfg0 a0).N : S4x128x1x1.Idx → EReal) (ix4 d k (0 : Fin 1) (0 : Fin 1))
      = Cert.Spec.domSum fun i h w => xIn m c (ix4 (rowA d i) k h w))
    (hs2 : ∀ (d : Fin 4) (k : Fin 128), (((st (Run.V0 m)).dat c).arrAt 2 (cfg0 a0).N : S4x128x1x1.Idx → EReal) (ix4 d k (0 : Fin 1) (0 : Fin 1))
      = ∑ i : Fin 16, ∑ h : Fin 64, ∑ w : Fin 64, xIn m c (ix4 (rowA d i) k h w) * xIn m c (ix4 (rowA d i) k h w))
    (b : Fin 64) (k : Fin 128) (h w : Fin 64) :
    W7 m a0 st c (Proc.devRef .tc main_v57) (ix4 b k h w)
      = Cert.Bridge.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          hS hU b k h w := by
  -- the domain of sample `b`, read off the contents the statistics region leaves, is the one read off the launch memory
  have hU2 : W1 m a0 st c (Proc.devRef .tc main_arg2) = m ((c : Thread nD τ).loc main_arg2) := W1_of_launch m a0 st c main_arg2 (by decide)
  have hd : dW b = Cert.Bridge.dom (m ((c : Thread nD τ).loc main_arg2)) hU b := Fin.ext (by
    rw [hdW b, hU2]; rfl)
  -- the rows of a domain are the table's words, which are the sorting array's
  have hT : a0.1 0 = m ((c : Thread nD τ).loc main_arg1) := htab c 0
  have hrow : ∀ (d : Fin 4) (i : Fin 16), rowA d i
      = Cert.Bridge.rowS (m ((c : Thread nD τ).loc main_arg1)) hS ⟨16 * d.val + i.val, by have := d.isLt; have := i.isLt; omega⟩ :=
    fun d i => Fin.ext (by rw [hrowA d i, hT]; rfl)
  have hf : ∀ d : Fin 4, (fun (i : Fin 16) (h w : Fin 64) => xIn m c (ix4 (rowA d i) k h w))
      = Cert.Bridge.fdom (m ((c : Thread nD τ).loc main_arg0)) (m ((c : Thread nD τ).loc main_arg1)) hS d k :=
    fun d => funext fun i => funext fun h => funext fun w => by rw [hrow d i]; rfl
  rw [out_at m a0 st c b k h w]
  have e0 : V6 m a0 st c main_arg0 = m ((c : Thread nD τ).loc main_arg0) := V6_main_arg0 m a0 st c
  have e50 : V6 m a0 st c main_v50 (ix4 b k (0 : Fin 1) (0 : Fin 1))
      = Cert.Spec.domMean (Cert.Bridge.fdom (m ((c : Thread nD τ).loc main_arg0)) (m ((c : Thread nD τ).loc main_arg1)) hS
          (Cert.Bridge.dom (m ((c : Thread nD τ).loc main_arg2)) hU b) k) := by
    rw [← hf, ← hd]; unfold Cert.Spec.domMean
    rw [← hs1 (dW b) k, ← W1_main_v0_0 m a0 st c]; exact h50 b k
  have e51 : V6 m a0 st c main_v51 (ix4 b k (0 : Fin 1) (0 : Fin 1))
      = Cert.Spec.domVar1 (Cert.Bridge.fdom (m ((c : Thread nD τ).loc main_arg0)) (m ((c : Thread nD τ).loc main_arg1)) hS
          (Cert.Bridge.dom (m ((c : Thread nD τ).loc main_arg2)) hU b) k) := by
    rw [← hf, ← hd]; unfold Cert.Spec.domVar1 Cert.Spec.domMean
    rw [← hs1 (dW b) k, ← hs2 (dW b) k, ← W1_main_v0_0 m a0 st c, ← W1_main_v0_1 m a0 st c]; exact h51 b k
  have e52 : V6 m a0 st c main_v52 (ix4 b k (0 : Fin 1) (0 : Fin 1))
      = m ((c : Thread nD τ).loc main_arg3) (ix2 (Cert.Bridge.dom (m ((c : Thread nD τ).loc main_arg2)) hU b) k) := by
    rw [← hd, ← W1_of_launch m a0 st c main_arg3 (by decide)]; exact h52 b k
  have e53 : V6 m a0 st c main_v53 (ix4 b k (0 : Fin 1) (0 : Fin 1))
      = m ((c : Thread nD τ).loc main_arg4) (ix2 (Cert.Bridge.dom (m ((c : Thread nD τ).loc main_arg2)) hU b) k) := by
    rw [← hd, ← W1_of_launch m a0 st c main_arg4 (by decide)]; exact h53 b k
  have e54 : V6 m a0 st c main_v54 (ix4 b k (0 : Fin 1) (0 : Fin 1))
      = if (Cert.Bridge.dom (m ((c : Thread nD τ).loc main_arg2)) hU b).val = 3
          then Cert.Spec.sig (m ((c : Thread nD τ).loc main_arg7) (ix1 k)) else Cert.Spec.one := by
    rw [← hd, ← W1_of_launch m a0 st c main_arg7 (by decide)]; exact h54 b k
  have e55 : V6 m a0 st c main_v55 (ix4 (0 : Fin 1) k (0 : Fin 1) (0 : Fin 1)) = m ((c : Thread nD τ).loc main_arg5) (ix1 k) := by
    rw [← W1_of_launch m a0 st c main_arg5 (by decide)]; exact h55 k
  have e56 : V6 m a0 st c main_v56 (ix4 (0 : Fin 1) k (0 : Fin 1) (0 : Fin 1)) = m ((c : Thread nD τ).loc main_arg6) (ix1 k) := by
    rw [← W1_of_launch m a0 st c main_arg6 (by decide)]; exact h56 k
  rw [e0, e50, e51, e52, e53, e54, e55, e56]
  rfl

/-- A word below 64 read unsigned is in `[0, 64)` read signed. -/
theorem signed_of_lt (u : BitVec 32) (h : u.toNat < 64) : 0 ≤ u.toInt ∧ u.toInt < 64 := by
  unfold BitVec.toInt
  split <;> omega

include htab in
/-- THE KERNEL'S VALUE AT AN INDEX, given what the statistics region leaves: the host stretches' seven columns are read off
    the contents the statistics region leaves, where the un-sorting array is still the launch memory's. -/
theorem kernel_at_of_stats (c : Dev nD)
    (hS : ∀ j, (m ((c : Thread nD τ).loc main_arg1) j).toNat < 64) (hU : ∀ j, (m ((c : Thread nD τ).loc main_arg2) j).toNat < 64)
    (rowA : Fin 4 → Fin 16 → Fin 64)
    (hrowA : ∀ (d : Fin 4) (i : Fin 16), (rowA d i).val
      = (a0.1 0 (ix1 (⟨16 * d.val + i.val, by have := d.isLt; have := i.isLt; omega⟩ : Fin 64))).toNat)
    (hs1 : ∀ (d : Fin 4) (k : Fin 128), (((st (Run.V0 m)).dat c).arrAt 1 (cfg0 a0).N : S4x128x1x1.Idx → EReal) (ix4 d k (0 : Fin 1) (0 : Fin 1))
      = Cert.Spec.domSum fun i h w => xIn m c (ix4 (rowA d i) k h w))
    (hs2 : ∀ (d : Fin 4) (k : Fin 128), (((st (Run.V0 m)).dat c).arrAt 2 (cfg0 a0).N : S4x128x1x1.Idx → EReal) (ix4 d k (0 : Fin 1) (0 : Fin 1))
      = ∑ i : Fin 16, ∑ h : Fin 64, ∑ w : Fin 64, xIn m c (ix4 (rowA d i) k h w) * xIn m c (ix4 (rowA d i) k h w))
    (b : Fin 64) (k : Fin 128) (h w : Fin 64) :
    W7 m a0 st c (Proc.devRef .tc main_v57) (ix4 b k h w)
      = Cert.Bridge.kernelOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          hS hU b k h w := by
  have hU2 : W1 m a0 st c (Proc.devRef .tc main_arg2) = m ((c : Thread nD τ).loc main_arg2) := W1_of_launch m a0 st c main_arg2 (by decide)
  have hUs : ∀ j : S64.Idx, 0 ≤ ((W1 m a0 st c (Proc.devRef .tc main_arg2) : IVec S64 32) j).toInt
      ∧ ((W1 m a0 st c (Proc.devRef .tc main_arg2) : IVec S64 32) j).toInt < 64 := fun j => by
    rw [hU2]; exact signed_of_lt _ (hU j)
  exact kernel_at_of m a0 st htab c hS hU (fun b => HostStages.dom (W1 m a0 st c (Proc.devRef .tc main_arg2)) hUs b) (fun b => rfl)
    (HostStages.v50_apply (W1 m a0 st c) hUs) (HostStages.v51_apply (W1 m a0 st c) hUs) (HostStages.v52_apply (W1 m a0 st c) hUs)
    (HostStages.v53_apply (W1 m a0 st c) hUs) (HostStages.v54_apply (W1 m a0 st c) hUs) (HostStages.v55_apply (W1 m a0 st c))
    (HostStages.v56_apply (W1 m a0 st c)) rowA hrowA hs1 hs2 b k h w

end Cert.KernelIdeal.Value

end
-- ==== Proof.StatsValueCasesIdeal.lean ====
/-
  The statistics region's accumulators, point by point, in closed form.

  Each case's pieces are one covering store per buffer, so what a buffer ends with is that store's value: the row's
  per-channel sum (or sum of squares) added to what the accumulator held — to zeros where a domain begins —, and where a
  domain ends the results' staging buffers receive exactly that. So the accumulators after position `n` are a running fold
  that restarts at every sixteenth position, and a result's staging buffer at a domain's last sample holds the fold there.
-/
import proofs.«159259_j85899346585_1_alg».proof.Proof.StatsRegionIdeal
import Idealize.ShloMosaic.Lib.Pipeline.Value

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (a : (pcfg0 (F := F)).Adm)
variable (V : (c : Dev nD) → (b : Ref sig .tc) → Buf (Elt F) ((c : Thread nD τ).loc b))

theorem hz4 : (![0, 0, 0, 0] : Fin 4 → Nat) = fun _ => 0 := funext fun a => by fin_cases a <;> rfl

/-! ## Each case's pieces as values -/

section Pieces
variable (c : Dev nD) (i : grid0.Coords)
    (arg2 : Memref sig .tc .smem S64 .i32) (harg2 : arg2.IsWhole)
    (arg3 : Memref sig .tc .vmem S1x128x64x64 .f32) (harg3 : arg3.IsWhole)
    (arg4 : Memref sig .tc .vmem S1x128x1x1 .f32) (harg4 : arg4.IsWhole) (arg5 : Memref sig .tc .vmem S1x128x1x1 .f32) (harg5 : arg5.IsWhole)
    (arg6 : Memref sig .tc .vmem S1x128x1x1 .f32) (harg6 : arg6.IsWhole) (arg7 : Memref sig .tc .vmem S1x128x1x1 .f32) (harg7 : arg7.IsWhole)

/-- Where a domain begins the body leaves in the first accumulator the row's per-channel sum added to the zeros it has just stored there. -/
theorem acc0A_eq (hc0 : condFirst i) (hc1 : ¬condLast i) (x : Vec F S1x128x64x64 .f32) :
    View.canon (runA c i arg2 harg2 arg3 harg3 arg4 harg4 arg5 harg5 arg6 harg6 arg7 harg7 hc0 hc1 x).2.2.1 = k0_pay3 x (k0_pay1 (F := F)) := by
  unfold runA
  dsimp only
  sl_unfold_words
  rw [View.canon_cons_unit_zero (S := S1x128x1x1) hz4, View.readCov_unit_zero (S := S1x128x1x1) _ hz4]
  simp only [View.readAt_eq_ld, harg3.read_unread, View.ld_unit_zero (S := S1x128x64x64) hz4]

/-- Where a domain begins the body leaves in the second accumulator the row's per-channel sum of squares added to the zeros it has just stored there. -/
theorem acc1A_eq (hc0 : condFirst i) (hc1 : ¬condLast i) (x : Vec F S1x128x64x64 .f32) :
    View.canon (runA c i arg2 harg2 arg3 harg3 arg4 harg4 arg5 harg5 arg6 harg6 arg7 harg7 hc0 hc1 x).2.2.2.1 = k0_pay4 x (k0_pay2 (F := F)) := by
  unfold runA
  dsimp only
  sl_unfold_words
  rw [View.canon_cons_unit_zero (S := S1x128x1x1) hz4, View.readCov_unit_zero (S := S1x128x1x1) _ hz4]
  simp only [View.readAt_eq_ld, harg3.read_unread, View.ld_unit_zero (S := S1x128x64x64) hz4]

/-- Inside a domain the body leaves in the first accumulator the row's per-channel sum added to what it held. -/
theorem acc0B_eq (hc0 : ¬condFirst i) (hc1 : ¬condLast i) (x : Vec F S1x128x64x64 .f32) (s0 s1 : Vec F S1x128x1x1 .f32) :
    View.canon (runB c i arg2 harg2 arg3 harg3 arg4 harg4 arg5 harg5 arg6 harg6 arg7 harg7 hc0 hc1 x s0 s1).2.2.1 = k0_pay3 x s0 := by
  unfold runB
  dsimp only
  try sl_unfold_words
  rw [View.canon_unit_zero hz4]
  simp only [View.readAt_eq_ld, harg3.read_unread, harg6.read_unread, View.ld_unit_zero (S := S1x128x64x64) hz4, View.ld_unit_zero (S := S1x128x1x1) hz4]

/-- Inside a domain the body leaves in the second accumulator the row's per-channel sum of squares added to what it held. -/
theorem acc1B_eq (hc0 : ¬condFirst i) (hc1 : ¬condLast i) (x : Vec F S1x128x64x64 .f32) (s0 s1 : Vec F S1x128x1x1 .f32) :
    View.canon (runB c i arg2 harg2 arg3 harg3 arg4 harg4 arg5 harg5 arg6 harg6 arg7 harg7 hc0 hc1 x s0 s1).2.2.2.1 = k0_pay4 x s1 := by
  unfold runB
  dsimp only
  try sl_unfold_words
  rw [View.canon_unit_zero hz4]
  simp only [View.readAt_eq_ld, harg3.read_unread, harg7.read_unread, View.ld_unit_zero (S := S1x128x64x64) hz4, View.ld_unit_zero (S := S1x128x1x1) hz4]

/-- Where a domain ends the body leaves in the first result's staging buffer the first accumulator's new contents. -/
theorem out1C_eq (hc0 : ¬condFirst i) (hc1 : condLast i) (x : Vec F S1x128x64x64 .f32) (s0 s1 : Vec F S1x128x1x1 .f32) :
    View.canon (runC c i arg2 harg2 arg3 harg3 arg4 harg4 arg5 harg5 arg6 harg6 arg7 harg7 hc0 hc1 x s0 s1).1 = k0_pay3 x s0 := by
  unfold runC
  dsimp only
  sl_unfold_words
  rw [View.canon_unit_zero hz4, View.readCov_unit_zero (S := S1x128x1x1) _ hz4]
  simp only [View.readAt_eq_ld, harg3.read_unread, harg6.read_unread, View.ld_unit_zero (S := S1x128x64x64) hz4, View.ld_unit_zero (S := S1x128x1x1) hz4]

/-- Where a domain ends the body leaves in the second result's staging buffer the second accumulator's new contents. -/
theorem out2C_eq (hc0 : ¬condFirst i) (hc1 : condLast i) (x : Vec F S1x128x64x64 .f32) (s0 s1 : Vec F S1x128x1x1 .f32) :
    View.canon (runC c i arg2 harg2 arg3 harg3 arg4 harg4 arg5 harg5 arg6 harg6 arg7 harg7 hc0 hc1 x s0 s1).2.1 = k0_pay4 x s1 := by
  unfold runC
  dsimp only
  sl_unfold_words
  rw [View.canon_unit_zero hz4, View.readCov_unit_zero (S := S1x128x1x1) _ hz4]
  simp only [View.readAt_eq_ld, harg3.read_unread, harg7.read_unread, View.ld_unit_zero (S := S1x128x64x64) hz4, View.ld_unit_zero (S := S1x128x1x1) hz4]

/-- Where a domain ends the body leaves in the first accumulator the row's per-channel sum added to what it held, -/
theorem acc0C_eq (hc0 : ¬condFirst i) (hc1 : condLast i) (x : Vec F S1x128x64x64 .f32) (s0 s1 : Vec F S1x128x1x1 .f32) :
    View.canon (runC c i arg2 harg2 arg3 harg3 arg4 harg4 arg5 harg5 arg6 harg6 arg7 harg7 hc0 hc1 x s0 s1).2.2.1 = k0_pay3 x s0 := by
  unfold runC
  dsimp only
  try sl_unfold_words
  rw [View.canon_unit_zero hz4]
  simp only [View.readAt_eq_ld, harg3.read_unread, harg6.read_unread, View.ld_unit_zero (S := S1x128x64x64) hz4, View.ld_unit_zero (S := S1x128x1x1) hz4]

/-- Where a domain ends the body leaves in the second accumulator the row's per-channel sum of squares added to what it held, -/
theorem acc1C_eq (hc0 : ¬condFirst i) (hc1 : condLast i) (x : Vec F S1x128x64x64 .f32) (s0 s1 : Vec F S1x128x1x1 .f32) :
    View.canon (runC c i arg2 harg2 arg3 harg3 arg4 harg4 arg5 harg5 arg6 harg6 arg7 harg7 hc0 hc1 x s0 s1).2.2.2.1 = k0_pay4 x s1 := by
  unfold runC
  dsimp only
  try sl_unfold_words
  rw [View.canon_unit_zero hz4]
  simp only [View.readAt_eq_ld, harg3.read_unread, harg7.read_unread, View.ld_unit_zero (S := S1x128x64x64) hz4, View.ld_unit_zero (S := S1x128x1x1) hz4]

end Pieces

/-! ## The running folds -/

/-- The first accumulator after position `n`: the row's per-channel sum added to zeros at a domain's first sample, to the
    fold so far elsewhere. -/
def sumAt (c : Dev nD) : (n : ℕ) → n < (cfg0 a).N → Vec F S1x128x1x1 .f32
  | 0, hn => k0_pay3 (iblk a V c ⟨0, hn⟩) (k0_pay1 (F := F))
  | n + 1, hn =>
    if (n + 1) % 16 = 0 then k0_pay3 (iblk a V c ⟨n + 1, hn⟩) (k0_pay1 (F := F))
    else k0_pay3 (iblk a V c ⟨n + 1, hn⟩) (sumAt c n (Nat.lt_of_succ_lt hn))

/-- The second accumulator after position `n`: the same fold of the rows' per-channel sums of squares. -/
def sqAt (c : Dev nD) : (n : ℕ) → n < (cfg0 a).N → Vec F S1x128x1x1 .f32
  | 0, hn => k0_pay4 (iblk a V c ⟨0, hn⟩) (k0_pay2 (F := F))
  | n + 1, hn =>
    if (n + 1) % 16 = 0 then k0_pay4 (iblk a V c ⟨n + 1, hn⟩) (k0_pay2 (F := F))
    else k0_pay4 (iblk a V c ⟨n + 1, hn⟩) (sqAt c n (Nat.lt_of_succ_lt hn))

theorem sumAt_first (c : Dev nD) (n : ℕ) (hn : n + 1 < (cfg0 a).N) (h0 : (n + 1) % 16 = 0) :
    sumAt a V c (n + 1) hn = k0_pay3 (iblk a V c ⟨n + 1, hn⟩) (k0_pay1 (F := F)) := by
  rw [sumAt, if_pos h0]
theorem sumAt_next (c : Dev nD) (n : ℕ) (hn : n + 1 < (cfg0 a).N) (h0 : ¬(n + 1) % 16 = 0) :
    sumAt a V c (n + 1) hn = k0_pay3 (iblk a V c ⟨n + 1, hn⟩) (sumAt a V c n (Nat.lt_of_succ_lt hn)) := by
  rw [sumAt, if_neg h0]
theorem sqAt_first (c : Dev nD) (n : ℕ) (hn : n + 1 < (cfg0 a).N) (h0 : (n + 1) % 16 = 0) :
    sqAt a V c (n + 1) hn = k0_pay4 (iblk a V c ⟨n + 1, hn⟩) (k0_pay2 (F := F)) := by
  rw [sqAt, if_pos h0]
theorem sqAt_next (c : Dev nD) (n : ℕ) (hn : n + 1 < (cfg0 a).N) (h0 : ¬(n + 1) % 16 = 0) :
    sqAt a V c (n + 1) hn = k0_pay4 (iblk a V c ⟨n + 1, hn⟩) (sqAt a V c n (Nat.lt_of_succ_lt hn)) := by
  rw [sqAt, if_neg h0]

/-- What the accumulators hold after position `n` is the running folds — by induction on the position. -/
theorem accs_eq (c : Dev nD) : ∀ (n : ℕ) (hn : n < (cfg0 a).N),
    (outsAt a V c n hn).2.2.1 = sumAt a V c n hn ∧ (outsAt a V c n hn).2.2.2 = sqAt a V c n hn
  | 0, hn => by
    have e : outsAt a V c 0 hn = _ := outsAt_A a V c ⟨0, hn⟩ (Nat.zero_mod _) (show ¬(0 : ℕ) % 16 = 15 by decide)
    rw [e]; unfold leftA; dsimp only
    exact ⟨acc0A_eq .., acc1A_eq ..⟩
  | n + 1, hn => by
    by_cases h0 : (n + 1) % 16 = 0
    · have h1 : ¬(n + 1) % 16 = 15 := by omega
      have e : outsAt a V c (n + 1) hn = _ := outsAt_A a V c ⟨n + 1, hn⟩ h0 h1
      rw [e, sumAt_first a V c n hn h0, sqAt_first a V c n hn h0]; unfold leftA; dsimp only
      exact ⟨acc0A_eq .., acc1A_eq ..⟩
    · obtain ⟨ih0, ih1⟩ := accs_eq c n (Nat.lt_of_succ_lt hn)
      rw [sumAt_next a V c n hn h0, sqAt_next a V c n hn h0, ← ih0, ← ih1]
      by_cases h1 : (n + 1) % 16 = 15
      · have e : outsAt a V c (n + 1) hn = _ := outsAt_C a V c ⟨n + 1, hn⟩ h0 h1
        rw [e]; unfold leftC; dsimp only
        exact ⟨acc0C_eq .., acc1C_eq ..⟩
      · have e : outsAt a V c (n + 1) hn = _ := outsAt_B a V c ⟨n + 1, hn⟩ h0 h1
        rw [e]; unfold leftB; dsimp only
        exact ⟨acc0B_eq .., acc1B_eq ..⟩

/-- At a domain's last sample the results' staging buffers hold the running folds there. -/
theorem outs_last (c : Dev nD) (t : Fin (cfg0 a).N) (h1 : t.val % 16 = 15) :
    (outsAt a V c t.val t.isLt).1 = sumAt a V c t.val t.isLt ∧ (outsAt a V c t.val t.isLt).2.1 = sqAt a V c t.val t.isLt := by
  obtain ⟨n, hn⟩ := t
  cases n with
  | zero => exact absurd h1 (show ¬(0 : ℕ) % 16 = 15 by decide)
  | succ n =>
    have h0 : ¬(n + 1) % 16 = 0 := by dsimp only at h1; omega
    obtain ⟨ih0, ih1⟩ := accs_eq a V c n (Nat.lt_of_succ_lt hn)
    have e : outsAt a V c (n + 1) hn = _ := outsAt_C a V c ⟨n + 1, hn⟩ h0 h1
    show (outsAt a V c (n + 1) hn).1 = sumAt a V c (n + 1) hn ∧ (outsAt a V c (n + 1) hn).2.1 = sqAt a V c (n + 1) hn
    rw [sumAt_next a V c n hn h0, sqAt_next a V c n hn h0, ← ih0, ← ih1, e]; unfold leftC; dsimp only
    exact ⟨out1C_eq .., out2C_eq ..⟩

end Cert.KernelIdeal.StatsRegion

end
-- ==== Proof.StatsValueFoldIdeal.lean ====
/-
  The statistics region's accumulators at exact arithmetic, channel by channel.

  At exact arithmetic the value the body adds to the first accumulator at channel `k` is the plane sum
  `Σ_h Σ_w x(0, k, h, w)` of the staged row `x`, and to the second the plane sum of squares. The accumulators restart from
  zero at a domain's first sample, so after sample `i` of domain `d` they hold the sums of the planes of samples `0 … i`
  of that domain; after the last sample, of all sixteen.
-/
import proofs.«159259_j85899346585_1_alg».proof.Proof.StatsValueCasesIdeal
import proofs.«159259_j85899346585_1_alg».proof.Proof.LibPlaneSum
import Idealize.ShloMosaic.Lib.ValueIdx
import Idealize.ShloMosaic.PureOps.Ideal.Laws

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (a : (pcfg0 (F := Ideal)).Adm)
variable (V : (c : Dev nD) → (b : Ref sig .tc) → Buf (Elt Ideal) ((c : Thread nD τ).loc b))

/-- Channel `k`'s entry of a per-channel column. -/
abbrev col0 (k : Fin 128) : S1x128x1x1.Idx := ix4 (0 : Fin 1) k (0 : Fin 1) (0 : Fin 1)

/-! ## What the body adds, at an index -/

/-- The keepdims sum of a block's planes as one vector operation: a reduction over the last axis, a cast, a reduction over
    the axis before it, a cast. -/
def planeSumVec (v : FVec Ideal S1x128x64x64 .f32) : FVec Ideal S1x128x1x1 .f32 :=
  shapeCast S1x128x1x1
    (multiReduction (F := Ideal) .add [2] S1x128x1
      (shapeCast S1x128x64x1 (multiReduction (F := Ideal) .add [3] S1x128x64 v 0x00000000#32 reduces_S1x128x64x64_S1x128x64 (.inl rfl) rfl) shapeCasts_S1x128x64_S1x128x64x1)
      0x00000000#32 reduces_S1x128x64x1_S1x128x1 (.inl rfl) rfl) shapeCasts_S1x128x1_S1x128x1x1

/-- At channel `k` it is the double sum over the plane. -/
theorem planeSumVec_at (v : FVec Ideal S1x128x64x64 .f32) (k : Fin 128) :
    planeSumVec v (col0 k) = ∑ h : Fin 64, ∑ w : Fin 64, v (ix4 (0 : Fin 1) k h w) := by
  unfold planeSumVec; exact Cert.LibPlaneSum.plane_sum v _ _ _ _ k

/-- The zeros the body stores where a domain begins. -/
theorem pay1_at (k : Fin 128) : k0_pay1 (F := Ideal) (col0 k) = 0 := by
  unfold k0_pay1; rw [shapeCast_self]; exact Ideal.ofBits_zero_f32
theorem pay2_at (k : Fin 128) : k0_pay2 (F := Ideal) (col0 k) = 0 := by
  unfold k0_pay2; rw [shapeCast_self]; exact Ideal.ofBits_zero_f32

/-- The first accumulator's new value is what it held plus the planes' sums; -/
theorem pay3_eq (x : Vec Ideal S1x128x64x64 .f32) (s : Vec Ideal S1x128x1x1 .f32) :
    k0_pay3 (F := Ideal) x s = shapeCast S1x128x1x1 (addf s (planeSumVec x)) shapeCasts_S1x128x1x1_S1x128x1x1 := rfl
theorem pay3_at (x : Vec Ideal S1x128x64x64 .f32) (s : Vec Ideal S1x128x1x1 .f32) (k : Fin 128) :
    k0_pay3 (F := Ideal) x s (col0 k) = s (col0 k) + ∑ h : Fin 64, ∑ w : Fin 64, x (ix4 (0 : Fin 1) k h w) := by
  rw [pay3_eq, shapeCast_self, addf_apply, planeSumVec_at]

/-- the second's, what it held plus the planes' sums of squares. -/
theorem pay4_eq (x : Vec Ideal S1x128x64x64 .f32) (s : Vec Ideal S1x128x1x1 .f32) :
    k0_pay4 (F := Ideal) x s = shapeCast S1x128x1x1 (addf s (planeSumVec (mulf x x))) shapeCasts_S1x128x1x1_S1x128x1x1 := rfl
theorem pay4_at (x : Vec Ideal S1x128x64x64 .f32) (s : Vec Ideal S1x128x1x1 .f32) (k : Fin 128) :
    k0_pay4 (F := Ideal) x s (col0 k) = s (col0 k) + ∑ h : Fin 64, ∑ w : Fin 64, x (ix4 (0 : Fin 1) k h w) * x (ix4 (0 : Fin 1) k h w) := by
  rw [pay4_eq, shapeCast_self, addf_apply, planeSumVec_at]
  simp only [mulf_apply]

/-! ## The folds, channel by channel -/

/-- The staged row at position `n` as a block. -/
abbrev rowAt (c : Dev nD) (n : ℕ) (hn : n < (cfg0 a).N) : Vec Ideal S1x128x64x64 .f32 := iblk a V c ⟨n, hn⟩

/-- Channel `k`'s plane sum of the row staged at position `n` (zero past the grid), -/
def plane (c : Dev nD) (k : Fin 128) (n : ℕ) : EReal :=
  if hn : n < (cfg0 a).N then ∑ h : Fin 64, ∑ w : Fin 64, rowAt a V c n hn (ix4 (0 : Fin 1) k h w) else 0
/-- and its plane sum of squares. -/
def planeSq (c : Dev nD) (k : Fin 128) (n : ℕ) : EReal :=
  if hn : n < (cfg0 a).N then ∑ h : Fin 64, ∑ w : Fin 64, rowAt a V c n hn (ix4 (0 : Fin 1) k h w) * rowAt a V c n hn (ix4 (0 : Fin 1) k h w) else 0

/-- At a domain's first sample the accumulators hold that sample's plane sums; -/
theorem sum_first (c : Dev nD) (k : Fin 128) (n : ℕ) (hn : n < (cfg0 a).N) (h0 : n % 16 = 0) :
    sumAt a V c n hn (col0 k) = plane a V c k n := by
  unfold plane; rw [dif_pos hn]
  cases n with
  | zero => rw [sumAt]; exact (pay3_at _ _ k).trans (by rw [pay1_at, zero_add])
  | succ n => rw [sumAt_first a V c n hn h0]; exact (pay3_at _ _ k).trans (by rw [pay1_at, zero_add])
theorem sq_first (c : Dev nD) (k : Fin 128) (n : ℕ) (hn : n < (cfg0 a).N) (h0 : n % 16 = 0) :
    sqAt a V c n hn (col0 k) = planeSq a V c k n := by
  unfold planeSq; rw [dif_pos hn]
  cases n with
  | zero => rw [sqAt]; exact (pay4_at _ _ k).trans (by rw [pay2_at, zero_add])
  | succ n => rw [sqAt_first a V c n hn h0]; exact (pay4_at _ _ k).trans (by rw [pay2_at, zero_add])

/-- at a later sample, what they held plus that sample's. -/
theorem sum_next (c : Dev nD) (k : Fin 128) (n : ℕ) (hn : n + 1 < (cfg0 a).N) (h0 : ¬(n + 1) % 16 = 0) :
    sumAt a V c (n + 1) hn (col0 k) = sumAt a V c n (Nat.lt_of_succ_lt hn) (col0 k) + plane a V c k (n + 1) := by
  unfold plane; rw [dif_pos hn, sumAt_next a V c n hn h0]; exact pay3_at _ _ k
theorem sq_next (c : Dev nD) (k : Fin 128) (n : ℕ) (hn : n + 1 < (cfg0 a).N) (h0 : ¬(n + 1) % 16 = 0) :
    sqAt a V c (n + 1) hn (col0 k) = sqAt a V c n (Nat.lt_of_succ_lt hn) (col0 k) + planeSq a V c k (n + 1) := by
  unfold planeSq; rw [dif_pos hn, sqAt_next a V c n hn h0]; exact pay4_at _ _ k

/-- So after sample `i` of domain `d` the first accumulator holds the plane sums of samples `0 … i` of the domain, -/
theorem sum_dom (c : Dev nD) (k : Fin 128) (d : ℕ) : ∀ (i : ℕ) (hi : i < 16) (hn : 16 * d + i < (cfg0 a).N),
    sumAt a V c (16 * d + i) hn (col0 k) = ∑ j ∈ Finset.range (i + 1), plane a V c k (16 * d + j)
  | 0, _, hn => by
    rw [Finset.sum_range_one]
    exact sum_first a V c k (16 * d + 0) hn (by omega)
  | i + 1, hi, hn => by
    rw [Finset.sum_range_succ, ← sum_dom c k d i (by omega) (by omega)]
    exact sum_next a V c k (16 * d + i) hn (by omega)
/-- and the second the plane sums of squares. -/
theorem sq_dom (c : Dev nD) (k : Fin 128) (d : ℕ) : ∀ (i : ℕ) (hi : i < 16) (hn : 16 * d + i < (cfg0 a).N),
    sqAt a V c (16 * d + i) hn (col0 k) = ∑ j ∈ Finset.range (i + 1), planeSq a V c k (16 * d + j)
  | 0, _, hn => by
    rw [Finset.sum_range_one]
    exact sq_first a V c k (16 * d + 0) hn (by omega)
  | i + 1, hi, hn => by
    rw [Finset.sum_range_succ, ← sq_dom c k d i (by omega) (by omega)]
    exact sq_next a V c k (16 * d + i) hn (by omega)

/-- After a domain's last sample: all sixteen. -/
theorem sum_last (c : Dev nD) (k : Fin 128) (d : ℕ) (hn : 16 * d + 15 < (cfg0 a).N) :
    sumAt a V c (16 * d + 15) hn (col0 k) = ∑ i : Fin 16, plane a V c k (16 * d + i.val) := by
  rw [sum_dom a V c k d 15 (by omega) hn, Finset.sum_range]
theorem sq_last (c : Dev nD) (k : Fin 128) (d : ℕ) (hn : 16 * d + 15 < (cfg0 a).N) :
    sqAt a V c (16 * d + 15) hn (col0 k) = ∑ i : Fin 16, planeSq a V c k (16 * d + i.val) := by
  rw [sq_dom a V c k d 15 (by omega) hn, Finset.sum_range]

end Cert.KernelIdeal.StatsRegion

end
-- ==== Proof.StatsValueIdeal.lean ====
/-
  What the statistics region's two results hold after the region, at exact arithmetic.

  Point `t = 16·d + i` stages batch row `table[t]` (the word read unsigned) of the input, and writes the two results' row `d`
  back at the domain's last sample. So after the region the first result at `(d, k, 0, 0)` is the sum over the domain's
  sixteen staged rows and all positions of the input at channel `k`, and the second the same sum of squares.
-/
import proofs.«159259_j85899346585_1_alg».proof.Proof.StatsValueFoldIdeal
import proofs.«159259_j85899346585_1_alg».proof.Proof.SpecMath

set_option maxRecDepth 16384

noncomputable section

namespace Cert.KernelIdeal.StatsRegion

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open scoped BigOperators

variable (a : (pcfg0 (F := Ideal)).Adm)
variable (V : (c : Dev nD) → (b : Ref sig .tc) → Buf (Elt Ideal) ((c : Thread nD τ).loc b))

/-! ## The index maps over the grid -/

/-- The table position the input's index map reads at point `t` is `t`. -/
theorem off1_eq : ∀ t : Fin grid0.N, k0_off1 (grid0.coords t) 0 = t.val := by decide +kernel
/-- The results' block index at point `t` is the domain `t / 16`. -/
theorem tr1_eq : ∀ t : Fin grid0.N, cc0_transform_1 (grid0.coords t) = ![t.val / 16, 0, 0, 0] := by decide +kernel
theorem tr2_eq : ∀ t : Fin grid0.N, cc0_transform_2 (grid0.coords t) = ![t.val / 16, 0, 0, 0] := by decide +kernel
/-- The results are written back exactly at a domain's last sample. -/
theorem flush1_iff : ∀ t : Fin (cfg0 a).N, ((cfg0 a).win 1).flush t = true ↔ t.val % 16 = 15 :=
  (by decide +kernel : ∀ t : Fin grid0.N, Pipeline.Window.flushOf grid0 true cc0_transform_1 t = true ↔ t.val % 16 = 15)
theorem flush2_iff : ∀ t : Fin (cfg0 a).N, ((cfg0 a).win 2).flush t = true ↔ t.val % 16 = 15 :=
  (by decide +kernel : ∀ t : Fin grid0.N, Pipeline.Window.flushOf grid0 true cc0_transform_2 t = true ↔ t.val % 16 = 15)

theorem t_lt (t : Fin grid0.N) : t.val < 64 := lt_of_lt_of_eq t.isLt N_0

/-- The table word the input's index map reads at point `t`. -/
abbrev wordAt (pf : pre0.Contents (Elt Ideal)) (t : Fin grid0.N) : BitVec 32 := pf 0 (ix1 (⟨t.val, t_lt t⟩ : Fin 64))

theorem word_at (pf : pre0.Contents (Elt Ideal)) (t : Fin grid0.N) :
    pf.at 0 (Rect.unit (s := S64) (k0_off1 (grid0.coords t)) S1.size (k0_off1_inb _)) numel1_S1 = wordAt pf t := by
  show pf 0 _ = pf 0 _
  congr 1
  funext b; apply Fin.ext
  match b with
  | ⟨0, _⟩ =>
    show k0_off1 (grid0.coords t) 0 + 1 * 0 = t.val
    rw [off1_eq t]; omega

/-- The input's block index at point `t`: the table's word there read unsigned, then zeros. -/
theorem tr0_eq (pf : pre0.Contents (Elt Ideal)) (t : Fin grid0.N) :
    cc0_transform_0 k0_off1_inb numel1_S1 pf (grid0.coords t) = ![(wordAt pf t).toNat, 0, 0, 0] := by
  show ![(pf.at 0 (Rect.unit (s := S64) (k0_off1 (grid0.coords t)) S1.size (k0_off1_inb _)) numel1_S1).toNat, 0, 0, 0] = _
  rw [word_at]

/-- An admissible table's words are rows of the input. -/
theorem word_lt (t : Fin grid0.N) : (wordAt a.1 t).toNat < 64 := by
  obtain ⟨h, -⟩ := a.2 (grid0.coords t)
  have h0 := h 0
  rw [tr0_eq] at h0
  have : ((wordAt a.1 t).toNat + 1) * 1 ≤ 64 := h0
  omega

/-- The batch row staged at point `t`. -/
def rowOf (t : Fin grid0.N) : Fin 64 := ⟨(wordAt a.1 t).toNat, word_lt a t⟩

/-- The staged row at point `t`, entry by entry, is that batch row of the input as the region finds it. -/
theorem iblk_at (c : Dev nD) (t : Fin (cfg0 a).N) (k : Fin 128) (h w : Fin 64) :
    (iblk a V c t : Vec Ideal S1x128x64x64 .f32) (ix4 (0 : Fin 1) k h w) = V c main_arg0 (ix4 (rowOf a t) k h w) := by
  unfold iblk
  show V c main_arg0 _ = V c main_arg0 _
  congr 1
  funext b; apply Fin.ext
  match b with
  | ⟨0, _⟩ =>
    show cc0_transform_0 k0_off1_inb numel1_S1 a.1 (grid0.coords t) 0 * 1 + 1 * 0 = (wordAt a.1 t).toNat
    rw [tr0_eq]; show (wordAt a.1 t).toNat * 1 + 1 * 0 = _; omega
  | ⟨1, _⟩ =>
    show cc0_transform_0 k0_off1_inb numel1_S1 a.1 (grid0.coords t) 1 * 128 + 1 * k.val = k.val
    rw [tr0_eq]; show 0 * 128 + 1 * k.val = _; omega
  | ⟨2, _⟩ =>
    show cc0_transform_0 k0_off1_inb numel1_S1 a.1 (grid0.coords t) 2 * 64 + 1 * h.val = h.val
    rw [tr0_eq]; show 0 * 64 + 1 * h.val = _; omega
  | ⟨3, _⟩ =>
    show cc0_transform_0 k0_off1_inb numel1_S1 a.1 (grid0.coords t) 3 * 64 + 1 * w.val = w.val
    rw [tr0_eq]; show 0 * 64 + 1 * w.val = _; omega

/-! ## The first result -/

/-- Channel `kn`'s entry of domain `dn`'s row of the first result: the domain's sixteen plane sums (zero off the array). -/
def dom1 (c : Dev nD) (kn dn : ℕ) : EReal :=
  if hk : kn < 128 then ∑ i : Fin 16, plane a V c ⟨kn, hk⟩ (16 * dn + i.val) else 0

/-- The first result after the region, as contents of its array. -/
def G1 (c : Dev nD) : Buf (Elt Ideal) ((c : Thread nD τ).loc main_v0_0) := fun (j : S4x128x1x1.Idx) => dom1 a V c (j 1).val (j 0).val

theorem sumAt_congr (c : Dev nD) {n n' : ℕ} (e : n = n') (hn : n < (cfg0 a).N) (hn' : n' < (cfg0 a).N) :
    sumAt a V c n hn = sumAt a V c n' hn' := by subst e; rfl

set_option maxHeartbeats 1000000 in
/-- What a domain's last sample writes back is the domain's row of it. -/
theorem flushed1_eq (c : Dev nD) (t : Fin (cfg0 a).N) (hf : ((cfg0 a).win 1).flush t = true) :
    (dat a V c).flushed 1 t = (((cfg0 a).win 1).blk t).view.read (Elt Ideal) (G1 a V c) := by
  have h15 : t.val % 16 = 15 := (flush1_iff a t).mp hf
  have hN : (cfg0 a).N = 64 := N_0
  have ht := t.isLt
  refine funext fun (y : S1x128x1x1.Idx) => ?_
  have y0 : (y 0).val < 1 := (y 0).isLt
  have y1 : (y 1).val < 128 := (y 1).isLt
  have y2 : (y 2).val < 1 := (y 2).isLt
  have y3 : (y 3).val < 1 := (y 3).isLt
  have hy : y = col0 ⟨(y 1).val, y1⟩ := by
    funext b; apply Fin.ext
    match b with
    | ⟨0, _⟩ => show (y 0).val = 0; omega
    | ⟨1, _⟩ => rfl
    | ⟨2, _⟩ => show (y 2).val = 0; omega
    | ⟨3, _⟩ => show (y 3).val = 0; omega
  have e : t.val = 16 * (t.val / 16) + 15 := by omega
  show (dat a V c).after 1 t y = G1 a V c ((((cfg0 a).win 1).blk t).view.emb y)
  have e0 : ((@id S4x128x1x1.Idx ((((cfg0 a).win 1).blk t).view.emb y)) 0).val = t.val / 16 := by
    show cc0_transform_1 (grid0.coords t) 0 * 1 + 1 * (y 0).val = t.val / 16
    rw [tr1_eq t]; show t.val / 16 * 1 + 1 * (y 0).val = _; omega
  have e1 : ((@id S4x128x1x1.Idx ((((cfg0 a).win 1).blk t).view.emb y)) 1).val = (y 1).val := by
    show cc0_transform_1 (grid0.coords t) 1 * 128 + 1 * (y 1).val = (y 1).val
    rw [tr1_eq t]; show 0 * 128 + 1 * (y 1).val = _; omega
  show _ = dom1 a V c ((@id S4x128x1x1.Idx ((((cfg0 a).win 1).blk t).view.emb y)) 1).val ((@id S4x128x1x1.Idx ((((cfg0 a).win 1).blk t).view.emb y)) 0).val
  rw [e0, e1, after1, (outs_last a V c t h15).1, hy]
  unfold dom1; rw [dif_pos y1]
  rw [sumAt_congr a V c e t.isLt (by omega)]
  exact sum_last a V c _ (t.val / 16) _

set_option maxHeartbeats 1000000 in
/-- The domains' last samples cover the array. -/
theorem cover1 (c : Dev nD) (j : S4x128x1x1.Idx) :
    ∃ t : Fin (cfg0 a).N, ((cfg0 a).win 1).flush t = true ∧ j ∈ (((cfg0 a).win 1).blk t).view.set := by
  have j0 : (j 0).val < 4 := (j 0).isLt
  have j1 : (j 1).val < 128 := (j 1).isLt
  have j2 : (j 2).val < 1 := (j 2).isLt
  have j3 : (j 3).val < 1 := (j 3).isLt
  have hN : (cfg0 a).N = 64 := N_0
  have hT : 16 * (j 0).val + 15 < (cfg0 a).N := by omega
  refine ⟨⟨16 * (j 0).val + 15, hT⟩, (flush1_iff a _).mpr (by show (16 * (j 0).val + 15) % 16 = 15; omega), ?_⟩
  have hj : (((cfg0 a).win 1).blk ⟨16 * (j 0).val + 15, hT⟩).view.emb (col0 ⟨(j 1).val, j1⟩) = j := by
    funext b; apply Fin.ext
    match b with
    | ⟨0, _⟩ =>
      show cc0_transform_1 (grid0.coords ⟨16 * (j 0).val + 15, hT⟩) 0 * 1 + 1 * 0 = (j 0).val
      rw [tr1_eq]; show (16 * (j 0).val + 15) / 16 * 1 + 1 * 0 = (j 0).val; omega
    | ⟨1, _⟩ =>
      show cc0_transform_1 (grid0.coords ⟨16 * (j 0).val + 15, hT⟩) 1 * 128 + 1 * (j 1).val = (j 1).val
      rw [tr1_eq]; show 0 * 128 + 1 * (j 1).val = (j 1).val; omega
    | ⟨2, _⟩ =>
      show cc0_transform_1 (grid0.coords ⟨16 * (j 0).val + 15, hT⟩) 2 * 1 + 1 * 0 = (j 2).val
      rw [tr1_eq]; show 0 * 1 + 1 * 0 = (j 2).val; omega
    | ⟨3, _⟩ =>
      show cc0_transform_1 (grid0.coords ⟨16 * (j 0).val + 15, hT⟩) 3 * 1 + 1 * 0 = (j 3).val
      rw [tr1_eq]; show 0 * 1 + 1 * 0 = (j 3).val; omega
  have hm := (((cfg0 a).win 1).blk ⟨16 * (j 0).val + 15, hT⟩).view.emb_mem_set (col0 ⟨(j 1).val, j1⟩)
  rw [hj] at hm
  exact hm

/-- So after the region the first result's array holds `G1`. -/
theorem result1 (c : Dev nD) : (dat a V c).arrAt 1 (cfg0 a).N = G1 a V c :=
  (dat a V c).arrAt_eq_of_cover 1 (G1 a V c) (flushed1_eq a V c) (cover1 a c)

/-! ## The second result -/

/-- Channel `kn`'s entry of domain `dn`'s row of the second result: the domain's sixteen plane sums of squares (zero off the array). -/
def dom2 (c : Dev nD) (kn dn : ℕ) : EReal :=
  if hk : kn < 128 then ∑ i : Fin 16, planeSq a V c ⟨kn, hk⟩ (16 * dn + i.val) else 0

/-- The second result after the region, as contents of its array. -/
def G2 (c : Dev nD) : Buf (Elt Ideal) ((c : Thread nD τ).loc main_v0_1) := fun (j : S4x128x1x1.Idx) => dom2 a V c (j 1).val (j 0).val

theorem sqAt_congr (c : Dev nD) {n n' : ℕ} (e : n = n') (hn : n < (cfg0 a).N) (hn' : n' < (cfg0 a).N) :
    sqAt a V c n hn = sqAt a V c n' hn' := by subst e; rfl

set_option maxHeartbeats 1000000 in
/-- What a domain's last sample writes back is the domain's row of it. -/
theorem flushed2_eq (c : Dev nD) (t : Fin (cfg0 a).N) (hf : ((cfg0 a).win 2).flush t = true) :
    (dat a V c).flushed 2 t = (((cfg0 a).win 2).blk t).view.read (Elt Ideal) (G2 a V c) := by
  have h15 : t.val % 16 = 15 := (flush2_iff a t).mp hf
  have hN : (cfg0 a).N = 64 := N_0
  have ht := t.isLt
  refine funext fun (y : S1x128x1x1.Idx) => ?_
  have y0 : (y 0).val < 1 := (y 0).isLt
  have y1 : (y 1).val < 128 := (y 1).isLt
  have y2 : (y 2).val < 1 := (y 2).isLt
  have y3 : (y 3).val < 1 := (y 3).isLt
  have hy : y = col0 ⟨(y 1).val, y1⟩ := by
    funext b; apply Fin.ext
    match b with
    | ⟨0, _⟩ => show (y 0).val = 0; omega
    | ⟨1, _⟩ => rfl
    | ⟨2, _⟩ => show (y 2).val = 0; omega
    | ⟨3, _⟩ => show (y 3).val = 0; omega
  have e : t.val = 16 * (t.val / 16) + 15 := by omega
  show (dat a V c).after 2 t y = G2 a V c ((((cfg0 a).win 2).blk t).view.emb y)
  have e0 : ((@id S4x128x1x1.Idx ((((cfg0 a).win 2).blk t).view.emb y)) 0).val = t.val / 16 := by
    show cc0_transform_2 (grid0.coords t) 0 * 1 + 1 * (y 0).val = t.val / 16
    rw [tr2_eq t]; show t.val / 16 * 1 + 1 * (y 0).val = _; omega
  have e1 : ((@id S4x128x1x1.Idx ((((cfg0 a).win 2).blk t).view.emb y)) 1).val = (y 1).val := by
    show cc0_transform_2 (grid0.coords t) 1 * 128 + 1 * (y 1).val = (y 1).val
    rw [tr2_eq t]; show 0 * 128 + 1 * (y 1).val = _; omega
  show _ = dom2 a V c ((@id S4x128x1x1.Idx ((((cfg0 a).win 2).blk t).view.emb y)) 1).val ((@id S4x128x1x1.Idx ((((cfg0 a).win 2).blk t).view.emb y)) 0).val
  rw [e0, e1, after2, (outs_last a V c t h15).2, hy]
  unfold dom2; rw [dif_pos y1]
  rw [sqAt_congr a V c e t.isLt (by omega)]
  exact sq_last a V c _ (t.val / 16) _

set_option maxHeartbeats 1000000 in
/-- The domains' last samples cover the array. -/
theorem cover2 (c : Dev nD) (j : S4x128x1x1.Idx) :
    ∃ t : Fin (cfg0 a).N, ((cfg0 a).win 2).flush t = true ∧ j ∈ (((cfg0 a).win 2).blk t).view.set := by
  have j0 : (j 0).val < 4 := (j 0).isLt
  have j1 : (j 1).val < 128 := (j 1).isLt
  have j2 : (j 2).val < 1 := (j 2).isLt
  have j3 : (j 3).val < 1 := (j 3).isLt
  have hN : (cfg0 a).N = 64 := N_0
  have hT : 16 * (j 0).val + 15 < (cfg0 a).N := by omega
  refine ⟨⟨16 * (j 0).val + 15, hT⟩, (flush2_iff a _).mpr (by show (16 * (j 0).val + 15) % 16 = 15; omega), ?_⟩
  have hj : (((cfg0 a).win 2).blk ⟨16 * (j 0).val + 15, hT⟩).view.emb (col0 ⟨(j 1).val, j1⟩) = j := by
    funext b; apply Fin.ext
    match b with
    | ⟨0, _⟩ =>
      show cc0_transform_2 (grid0.coords ⟨16 * (j 0).val + 15, hT⟩) 0 * 1 + 1 * 0 = (j 0).val
      rw [tr2_eq]; show (16 * (j 0).val + 15) / 16 * 1 + 1 * 0 = (j 0).val; omega
    | ⟨1, _⟩ =>
      show cc0_transform_2 (grid0.coords ⟨16 * (j 0).val + 15, hT⟩) 1 * 128 + 1 * (j 1).val = (j 1).val
      rw [tr2_eq]; show 0 * 128 + 1 * (j 1).val = (j 1).val; omega
    | ⟨2, _⟩ =>
      show cc0_transform_2 (grid0.coords ⟨16 * (j 0).val + 15, hT⟩) 2 * 1 + 1 * 0 = (j 2).val
      rw [tr2_eq]; show 0 * 1 + 1 * 0 = (j 2).val; omega
    | ⟨3, _⟩ =>
      show cc0_transform_2 (grid0.coords ⟨16 * (j 0).val + 15, hT⟩) 3 * 1 + 1 * 0 = (j 3).val
      rw [tr2_eq]; show 0 * 1 + 1 * 0 = (j 3).val; omega
  have hm := (((cfg0 a).win 2).blk ⟨16 * (j 0).val + 15, hT⟩).view.emb_mem_set (col0 ⟨(j 1).val, j1⟩)
  rw [hj] at hm
  exact hm

/-- So after the region the second result's array holds `G2`. -/
theorem result2 (c : Dev nD) : (dat a V c).arrAt 2 (cfg0 a).N = G2 a V c :=
  (dat a V c).arrAt_eq_of_cover 2 (G2 a V c) (flushed2_eq a V c) (cover2 a c)

/-! ## The two results, entry by entry -/

theorem dom_lt (d : Fin 4) (i : Fin 16) : 16 * d.val + i.val < grid0.N := by
  have := d.isLt; have := i.isLt; have : grid0.N = 64 := N_0; omega

/-- The batch row staged for sample `i` of domain `d`: the table's word at `16·d + i` read unsigned. -/
abbrev rowAtDom (d : Fin 4) (i : Fin 16) : Fin 64 := rowOf a ⟨16 * d.val + i.val, dom_lt d i⟩

/-- A domain's values at channel `k`: sample `i`, position `(h, w)` of the input as the region finds it. -/
abbrev domVals (c : Dev nD) (d : Fin 4) (k : Fin 128) : Cert.Spec.Dom := fun i h w => V c main_arg0 (ix4 (rowAtDom a d i) k h w)

theorem plane_dom (c : Dev nD) (d : Fin 4) (k : Fin 128) (i : Fin 16) :
    plane a V c k (16 * d.val + i.val) = ∑ h : Fin 64, ∑ w : Fin 64, domVals a V c d k i h w := by
  unfold plane; rw [dif_pos (dom_lt d i)]
  refine Finset.sum_congr rfl fun h _ => Finset.sum_congr rfl fun w _ => ?_
  exact iblk_at a V c ⟨16 * d.val + i.val, dom_lt d i⟩ k h w
theorem planeSq_dom (c : Dev nD) (d : Fin 4) (k : Fin 128) (i : Fin 16) :
    planeSq a V c k (16 * d.val + i.val) = ∑ h : Fin 64, ∑ w : Fin 64, domVals a V c d k i h w * domVals a V c d k i h w := by
  unfold planeSq; rw [dif_pos (dom_lt d i)]
  refine Finset.sum_congr rfl fun h _ => Finset.sum_congr rfl fun w _ => ?_
  rw [show rowAt a V c (16 * d.val + i.val) (dom_lt d i) (ix4 (0 : Fin 1) k h w) = domVals a V c d k i h w from
    iblk_at a V c ⟨16 * d.val + i.val, dom_lt d i⟩ k h w]

/-- After the region the first result at `(d, k, 0, 0)` is the sum of the input at channel `k` over the domain's sixteen
    staged rows and all positions; -/
theorem stats_sum (c : Dev nD) (d : Fin 4) (k : Fin 128) :
    ((stats a V).dat c).arrAt 1 (cfg0 a).N (ix4 d k (0 : Fin 1) (0 : Fin 1)) = Cert.Spec.domSum (domVals a V c d k) := by
  show (dat a V c).arrAt 1 (cfg0 a).N (ix4 d k (0 : Fin 1) (0 : Fin 1)) = _
  rw [result1]
  show dom1 a V c k.val d.val = _
  unfold dom1 Cert.Spec.domSum; rw [dif_pos k.isLt]
  exact Finset.sum_congr rfl fun i _ => plane_dom a V c d k i

/-- and the second the sum of its squares. -/
theorem stats_sumsq (c : Dev nD) (d : Fin 4) (k : Fin 128) :
    ((stats a V).dat c).arrAt 2 (cfg0 a).N (ix4 d k (0 : Fin 1) (0 : Fin 1))
      = ∑ i : Fin 16, ∑ h : Fin 64, ∑ w : Fin 64, domVals a V c d k i h w * domVals a V c d k i h w := by
  show (dat a V c).arrAt 2 (cfg0 a).N (ix4 d k (0 : Fin 1) (0 : Fin 1)) = _
  rw [result2]
  show dom2 a V c k.val d.val = _
  unfold dom2; rw [dif_pos k.isLt]
  exact Finset.sum_congr rfl fun i _ => planeSq_dom a V c d k i

end Cert.KernelIdeal.StatsRegion

end
-- ==== Proof.RefReadRows.lean ====
import proofs.«159259_j85899346585_1_alg».proof.Proof.RefRunParts
import Idealize.ShloMosaic.Lib.ValueIdx
import Idealize.ShloMosaic.Lib.Pipeline.Value
import Idealize.ShloMosaic.PureOps.Ideal.Laws

open scoped BigOperators

noncomputable section

namespace Cert.ReferenceIdeal.HandRun

open Cert.ReferenceIdeal Cert.ReferenceIdeal.Gen Idealize.ShloMosaic Idealize.ShloMosaic.ValueIdx

/-! ## The reference's layout stages read at an index: the row gather, the slices of sixteen rows, the table rows -/

/-- The gather's dimension numbers: whole `[128, 64, 64]` rows of a `[64, 128, 64, 64]` array by a column of 64 indices. -/
abbrev G := gather_S64x128x64x64_S64x1_S64x128x64x64_123_0_n_n_0_1_11286464

/-- The gather read at `(b, k, h, w)`: the operand's row named by the index `idx[b, 0]`, read signed and clamped into `[0, 63]`. -/
theorem gather_apply {α : Type} (x : S64x128x64x64.Idx → α) (idx : IVec S64x1 32) (b : Fin 64) (k : Fin 128) (h w : Fin 64) :
    Host.gather G x idx (ix4 b k h w) = x (ix4 (⟨min (idx (ix2 b (0 : Fin 1))).toInt.toNat 63, by omega⟩ : Fin 64) k h w) := by
  unfold Host.gather
  congr 1
  funext a
  refine Fin.ext ?_
  show G.start (ix4 b k h w) idx a + G.batchCoord (ix4 b k h w) a + G.offCoord (ix4 b k h w) a = _
  rw [GatherDims.batchCoord_eq_zero _ _ _ List.not_mem_nil, Nat.add_zero]
  match a with
  | ⟨0, _⟩ =>
    show G.start (ix4 b k h w) idx (0 : Fin 4) + G.offCoord (ix4 b k h w) (0 : Fin 4) = min (idx (ix2 b (0 : Fin 1))).toInt.toNat 63
    rw [GatherDims.offCoord_eq_zero _ _ _ (fun h => ((GatherDims.mem_sKept _ _).mp h).1 (List.mem_singleton.mpr rfl)), Nat.add_zero]
    unfold GatherDims.start
    rw [dif_pos (show (0 : Fin 4) ∈ G.startIndexMap from List.mem_singleton.mpr rfl)]
    have hsi : G.siIdx (ix4 b k h w) ⟨List.idxOf (0 : Fin 4) G.startIndexMap,
        List.idxOf_lt_length_iff.2 (List.mem_singleton.mpr rfl)⟩ = ix2 b (0 : Fin 1) := by
      funext c; refine Fin.ext ?_
      match c with
      | ⟨0, _⟩ => rfl
      | ⟨1, _⟩ => rfl
    rw [hsi]
    rfl
  | ⟨1, _⟩ =>
    show G.start (ix4 b k h w) idx (1 : Fin 4) + G.offCoord (ix4 b k h w) (1 : Fin 4) = k.val
    unfold GatherDims.start
    rw [dif_neg (show (1 : Fin 4) ∉ G.startIndexMap from by decide)]
    unfold GatherDims.offCoord
    rw [dif_pos (show (1 : Fin 4) ∈ G.sKept from by decide)]
    simp only [Nat.zero_add]
    rfl
  | ⟨2, _⟩ =>
    show G.start (ix4 b k h w) idx (2 : Fin 4) + G.offCoord (ix4 b k h w) (2 : Fin 4) = h.val
    unfold GatherDims.start
    rw [dif_neg (show (2 : Fin 4) ∉ G.startIndexMap from by decide)]
    unfold GatherDims.offCoord
    rw [dif_pos (show (2 : Fin 4) ∈ G.sKept from by decide)]
    simp only [Nat.zero_add]
    rfl
  | ⟨3, _⟩ =>
    show G.start (ix4 b k h w) idx (3 : Fin 4) + G.offCoord (ix4 b k h w) (3 : Fin 4) = w.val
    unfold GatherDims.start
    rw [dif_neg (show (3 : Fin 4) ∉ G.startIndexMap from by decide)]
    unfold GatherDims.offCoord
    rw [dif_pos (show (3 : Fin 4) ∈ G.sKept from by decide)]
    simp only [Nat.zero_add]
    rfl

/-- A word in `[0, 64)` read signed is its own natural number, and the clamp leaves it. -/
theorem clamp_word (v : BitVec 32) (h0 : 0 ≤ v.toInt) (h1 : v.toInt < 64) : min v.toInt.toNat 63 = v.toNat := by
  have hlt : v.toNat < 2 ^ 32 := v.isLt
  have e := BitVec.toInt_eq_toNat_cond v
  split at e <;> omega

/-- The column of start indices at `(b, 0)` is the word itself when it is not negative. -/
theorem fixIdx_apply (s : CI Ideal) (b : Fin 64) (h0 : 0 ≤ (s (ix1 b)).toInt) : fixIdx s (ix2 b (0 : Fin 1)) = s (ix1 b) := by
  unfold fixIdx
  rw [broadcastInDim_apply _ _ _ (ix2 b (0 : Fin 1)) (ix1 b) (by intro a; match a with | ⟨0, _⟩ => rfl)]
  rw [select_apply]
  have hc : cmpi .slt s (broadcastInDim S64 ![] bcast_S_S64 (constantI S_ 32 0#32)) (ix1 b) = 0#1 := by
    show IntOp.cmpi .slt (s (ix1 b)) _ = 0#1
    rw [broadcastInDim_apply _ _ _ (ix1 b) ix0 (by intro a; exact a.elim0)]
    refine eq_zero_of_ne_one fun hh => ?_
    have := IntOp.cmpi_slt.mp hh
    have z : (constantI S_ 32 0#32 ix0).toInt = 0 := by decide
    omega
  rw [hc, select_zero]

/-- The rows of `x` in the order `s`, at `(b, k, h, w)`: row `s[b]` of `x`, when that word is in `[0, 64)`. -/
theorem rows_apply (x : C64 Ideal) (s : CI Ideal) (b : Fin 64) (hs : 0 ≤ (s (ix1 b)).toInt ∧ (s (ix1 b)).toInt < 64)
    (k : Fin 128) (h w : Fin 64) :
    rows x s (ix4 b k h w)
      = x (ix4 (⟨(s (ix1 b)).toNat, by have := clamp_word _ hs.1 hs.2; omega⟩ : Fin 64) k h w) := by
  unfold rows
  rw [gather_apply]
  congr 2
  refine Fin.ext ?_
  show min (fixIdx s (ix2 b (0 : Fin 1))).toInt.toNat 63 = (s (ix1 b)).toNat
  rw [fixIdx_apply s b hs.1]
  exact clamp_word _ hs.1 hs.2

/-- Rows 0 … 15 read at `(i, k, h, w)`: row `0 + i`. -/
theorem sl0_apply (x : C64 Ideal) (i : Fin 16) (k : Fin 128) (h w : Fin 64) :
    sl0 x (ix4 i k h w) = x (ix4 (⟨16 * 0 + i.val, by omega⟩ : Fin 64) k h w) := by
  unfold sl0
  refine extractStridedSlice_apply _ x _ (ix4 i k h w) _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Row 0 of a `[4, 128]` table read at `k`. -/
theorem row0_apply (a : CW Ideal) (k : Fin 128) : row0 a (ix1 k) = a (ix2 (0 : Fin 4) k) := by
  unfold row0
  refine (shapeCast_apply _ _ (ix1 k) (ix2 (0 : Fin 1) k) ?_).trans
    (extractStridedSlice_apply _ a _ (ix2 (0 : Fin 1) k) _ fun c => ?_)
  · rw [Shape.rowMajor_val_two, Shape.rowMajor_val_one]; simp
  · match c with
    | ⟨0, _⟩ => rfl
    | ⟨1, _⟩ => exact (Nat.zero_add _).symm

/-- Rows 16 … 31 read at `(i, k, h, w)`: row `16 + i`. -/
theorem sl1_apply (x : C64 Ideal) (i : Fin 16) (k : Fin 128) (h w : Fin 64) :
    sl1 x (ix4 i k h w) = x (ix4 (⟨16 * 1 + i.val, by omega⟩ : Fin 64) k h w) := by
  unfold sl1
  refine extractStridedSlice_apply _ x _ (ix4 i k h w) _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Row 1 of a `[4, 128]` table read at `k`. -/
theorem row1_apply (a : CW Ideal) (k : Fin 128) : row1 a (ix1 k) = a (ix2 (1 : Fin 4) k) := by
  unfold row1
  refine (shapeCast_apply _ _ (ix1 k) (ix2 (0 : Fin 1) k) ?_).trans
    (extractStridedSlice_apply _ a _ (ix2 (0 : Fin 1) k) _ fun c => ?_)
  · rw [Shape.rowMajor_val_two, Shape.rowMajor_val_one]; simp
  · match c with
    | ⟨0, _⟩ => rfl
    | ⟨1, _⟩ => exact (Nat.zero_add _).symm

/-- Rows 32 … 47 read at `(i, k, h, w)`: row `32 + i`. -/
theorem sl2_apply (x : C64 Ideal) (i : Fin 16) (k : Fin 128) (h w : Fin 64) :
    sl2 x (ix4 i k h w) = x (ix4 (⟨16 * 2 + i.val, by omega⟩ : Fin 64) k h w) := by
  unfold sl2
  refine extractStridedSlice_apply _ x _ (ix4 i k h w) _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Row 2 of a `[4, 128]` table read at `k`. -/
theorem row2_apply (a : CW Ideal) (k : Fin 128) : row2 a (ix1 k) = a (ix2 (2 : Fin 4) k) := by
  unfold row2
  refine (shapeCast_apply _ _ (ix1 k) (ix2 (0 : Fin 1) k) ?_).trans
    (extractStridedSlice_apply _ a _ (ix2 (0 : Fin 1) k) _ fun c => ?_)
  · rw [Shape.rowMajor_val_two, Shape.rowMajor_val_one]; simp
  · match c with
    | ⟨0, _⟩ => rfl
    | ⟨1, _⟩ => exact (Nat.zero_add _).symm

/-- Rows 48 … 63 read at `(i, k, h, w)`: row `48 + i`. -/
theorem sl3_apply (x : C64 Ideal) (i : Fin 16) (k : Fin 128) (h w : Fin 64) :
    sl3 x (ix4 i k h w) = x (ix4 (⟨16 * 3 + i.val, by omega⟩ : Fin 64) k h w) := by
  unfold sl3
  refine extractStridedSlice_apply _ x _ (ix4 i k h w) _ fun a => ?_
  match a with
  | ⟨0, _⟩ => rfl
  | ⟨1, _⟩ => exact (Nat.zero_add _).symm
  | ⟨2, _⟩ => exact (Nat.zero_add _).symm
  | ⟨3, _⟩ => exact (Nat.zero_add _).symm

/-- Row 3 of a `[4, 128]` table read at `k`. -/
theorem row3_apply (a : CW Ideal) (k : Fin 128) : row3 a (ix1 k) = a (ix2 (3 : Fin 4) k) := by
  unfold row3
  refine (shapeCast_apply _ _ (ix1 k) (ix2 (0 : Fin 1) k) ?_).trans
    (extractStridedSlice_apply _ a _ (ix2 (0 : Fin 1) k) _ fun c => ?_)
  · rw [Shape.rowMajor_val_two, Shape.rowMajor_val_one]; simp
  · match c with
    | ⟨0, _⟩ => rfl
    | ⟨1, _⟩ => exact (Nat.zero_add _).symm

end Cert.ReferenceIdeal.HandRun

end
-- ==== Proof.RefReadMath.lean ====
import proofs.«159259_j85899346585_1_alg».proof.Proof.RefRunParts
import proofs.«159259_j85899346585_1_alg».proof.Proof.SpecMath
import Idealize.ShloMosaic.Lib.ValueIdx
import Idealize.ShloMosaic.Lib.Pipeline.Value
import Idealize.ShloMosaic.PureOps.Ideal.Laws

open scoped BigOperators

noncomputable section

namespace Cert.ReferenceIdeal.HandRun

open Cert.ReferenceIdeal Cert.ReferenceIdeal.Gen Idealize.ShloMosaic Idealize.ShloMosaic.ValueIdx

/-! ## The reference's arithmetic stages read at an index of a block of sixteen rows, at the ideal values -/

/-! ### Sums -/

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The sum over the indices a predicate picks by their channel `k`: over the sixteen rows and the positions. -/
theorem sum_chan (f : S16x128x64x64.Idx → EReal) (k : Fin 128) (p : S16x128x64x64.Idx → Prop) [DecidablePred p]
    (hp : ∀ (a : Fin 16) (b : Fin 128) (c d : Fin 64), p (ix4 a b c d) ↔ b = k) :
    ∑ j ∈ Finset.univ.filter p, f j = ∑ i : Fin 16, ∑ h : Fin 64, ∑ w : Fin 64, f (ix4 i k h w) := by
  rw [Finset.sum_filter, sum_idx4]
  refine Finset.sum_congr rfl fun a _ => ?_
  rw [Finset.sum_eq_single k]
  · exact Finset.sum_congr rfl fun c _ => Finset.sum_congr rfl fun d _ => if_pos ((hp a k c d).mpr rfl)
  · intro b _ hb
    exact Finset.sum_eq_zero fun c _ => Finset.sum_eq_zero fun d _ => if_neg fun e => hb ((hp a b c d).mp e)
  · intro hk; exact absurd (Finset.mem_univ k) hk

/-- The sum over the indices a predicate picks by their row `i` and channel `k`: over the positions. -/
theorem sum_plane (f : S16x128x64x64.Idx → EReal) (i : Fin 16) (k : Fin 128) (p : S16x128x64x64.Idx → Prop) [DecidablePred p]
    (hp : ∀ (a : Fin 16) (b : Fin 128) (c d : Fin 64), p (ix4 a b c d) ↔ a = i ∧ b = k) :
    ∑ j ∈ Finset.univ.filter p, f j = ∑ h : Fin 64, ∑ w : Fin 64, f (ix4 i k h w) := by
  rw [Finset.sum_filter, sum_idx4, Finset.sum_eq_single i]
  · rw [Finset.sum_eq_single k]
    · exact Finset.sum_congr rfl fun c _ => Finset.sum_congr rfl fun d _ => if_pos ((hp i k c d).mpr ⟨rfl, rfl⟩)
    · intro b _ hb
      exact Finset.sum_eq_zero fun c _ => Finset.sum_eq_zero fun d _ => if_neg fun e => hb ((hp i b c d).mp e).2
    · intro hk; exact absurd (Finset.mem_univ k) hk
  · intro a _ ha
    exact Finset.sum_eq_zero fun b _ => Finset.sum_eq_zero fun c _ => Finset.sum_eq_zero fun d _ =>
      if_neg fun e => ha ((hp a b c d).mp e).1
  · intro hi; exact absurd (Finset.mem_univ i) hi

/-- Dropping rows and positions leaves the channel. -/
theorem drop_chan (r : S16x128x64x64.ReducesTo [0, 2, 3] S128) (j : S16x128x64x64.Idx) (k : Fin 128) :
    r.drop j = ix1 k ↔ j 1 = k := by
  have e : (r.drop j 0 : Nat) = j 1 := Shape.ReducesTo.drop_apply_val_of_eq r j 0 1
  constructor
  · intro hh
    refine Fin.ext ?_
    rw [← e, hh]
  · intro hh
    funext c
    match c with
    | ⟨0, _⟩ => exact Fin.ext (by rw [← hh]; exact e)

/-- Dropping the positions leaves the row and the channel. -/
theorem drop_plane (r : S16x128x64x64.ReducesTo [2, 3] S16x128) (j : S16x128x64x64.Idx) (i : Fin 16) (k : Fin 128) :
    r.drop j = ix2 i k ↔ j 0 = i ∧ j 1 = k := by
  have e0 : (r.drop j 0 : Nat) = j 0 := Shape.ReducesTo.drop_apply_val_of_eq r j 0 0
  have e1 : (r.drop j 1 : Nat) = j 1 := Shape.ReducesTo.drop_apply_val_of_eq r j 1 1
  constructor
  · intro hh
    exact ⟨Fin.ext (by rw [← e0, hh]), Fin.ext (by rw [← e1, hh])⟩
  · intro hh
    funext c
    match c with
    | ⟨0, _⟩ => exact Fin.ext (by rw [← hh.1]; exact e0)
    | ⟨1, _⟩ => exact Fin.ext (by rw [← hh.2]; exact e1)

/-- The per-channel sum at channel `k`. -/
theorem sum16_apply (xg : C16 Ideal) (k : Fin 128) :
    sum16 xg (ix1 k) = Cert.Spec.domSum fun i h w => xg (ix4 i k h w) := by
  show Ideal.hostReduceAdd reducesTo_S16x128x64x64_S128_d0_2_3 xg (Ideal.ofBits .f32 0x00000000#32) (ix1 k) = _
  unfold Ideal.hostReduceAdd Cert.Spec.domSum
  rw [Ideal.ofBits_zero_f32, zero_add]
  exact sum_chan xg k _ fun a b c d => drop_chan _ (ix4 a b c d) k

/-- The per-row, per-channel sum at `(i, k)`. -/
theorem sumHW_apply (xg : C16 Ideal) (i : Fin 16) (k : Fin 128) :
    sumHW xg (ix2 i k) = ∑ h : Fin 64, ∑ w : Fin 64, xg (ix4 i k h w) := by
  show Ideal.hostReduceAdd reducesTo_S16x128x64x64_S16x128_d2_3 xg (Ideal.ofBits .f32 0x00000000#32) (ix2 i k) = _
  unfold Ideal.hostReduceAdd
  rw [Ideal.ofBits_zero_f32, zero_add]
  exact sum_plane xg i k _ fun a b c d => drop_plane _ (ix4 a b c d) i k

/-! ### Broadcasts -/

theorem chan_apply (v : CV Ideal) (k : Fin 128) : chan v (ix4 (0 : Fin 1) k (0 : Fin 1) (0 : Fin 1)) = v (ix1 k) := by
  unfold chan
  exact broadcastInDim_apply _ _ _ (ix4 (0 : Fin 1) k (0 : Fin 1) (0 : Fin 1)) (ix1 k) (by intro a; match a with | ⟨0, _⟩ => rfl)
theorem up16_apply (v : CS Ideal) (i : Fin 16) (k : Fin 128) (h w : Fin 64) :
    up16 v (ix4 i k h w) = v (ix4 (0 : Fin 1) k (0 : Fin 1) (0 : Fin 1)) := by
  unfold up16
  exact broadcastInDim_apply _ _ _ (ix4 i k h w) (ix4 (0 : Fin 1) k (0 : Fin 1) (0 : Fin 1)) (by intro a; match a with | ⟨0, _⟩ => rfl | ⟨1, _⟩ => rfl | ⟨2, _⟩ => rfl | ⟨3, _⟩ => rfl)
theorem splatS_apply (c : (⟨S_, .f32⟩ : BufTy).Contents (Elt Ideal)) (j : S1x128x1x1.Idx) : splatS c j = c ix0 := by
  unfold splatS
  exact broadcastInDim_apply _ _ _ j ix0 (by intro a; exact a.elim0)
theorem chanT_apply (v : (⟨S16x128, .f32⟩ : BufTy).Contents (Elt Ideal)) (i : Fin 16) (k : Fin 128) :
    chanT v (ix4 i k (0 : Fin 1) (0 : Fin 1)) = v (ix2 i k) := by
  unfold chanT
  exact broadcastInDim_apply _ _ _ (ix4 i k (0 : Fin 1) (0 : Fin 1)) (ix2 i k) (by intro a; match a with | ⟨0, _⟩ => rfl | ⟨1, _⟩ => rfl)
theorem upT_apply (v : CT Ideal) (i : Fin 16) (k : Fin 128) (h w : Fin 64) :
    upT v (ix4 i k h w) = v (ix4 i k (0 : Fin 1) (0 : Fin 1)) := by
  unfold upT
  exact broadcastInDim_apply _ _ _ (ix4 i k h w) (ix4 i k (0 : Fin 1) (0 : Fin 1)) (by intro a; match a with | ⟨0, _⟩ => rfl | ⟨1, _⟩ => rfl | ⟨2, _⟩ => rfl | ⟨3, _⟩ => rfl)
theorem splatT_apply (c : (⟨S_, .f32⟩ : BufTy).Contents (Elt Ideal)) (j : S16x128x1x1.Idx) : splatT c j = c ix0 := by
  unfold splatT
  exact broadcastInDim_apply _ _ _ j ix0 (by intro a; exact a.elim0)

/-! ### The literals and the counts -/

/-- The words of 65536 and 4096 denote those reals. -/
theorem c65536_eq : Cert.Spec.c65536 = ((65536 : ℝ) : EReal) := by
  simp [Ideal.ofBits, Ideal.ieee, -EReal.coe_mul]; norm_num
theorem c4096_eq : Cert.Spec.c4096 = ((4096 : ℝ) : EReal) := by
  simp [Ideal.ofBits, Ideal.ieee, -EReal.coe_mul]; norm_num

/-- The zero word read signed, as a real, is zero. -/
theorem sitofp_zero : (((0#32 : BitVec 32).toInt : ℝ) : EReal) = 0 := by
  have z : (0#32 : BitVec 32).toInt = 0 := by decide
  rw [z, Int.cast_zero, EReal.coe_zero]

/-- The count of a domain, 65536 less the zero correction, is 65536. -/
theorem cnt16_apply : cnt16 (F := Ideal) ix0 = Cert.Spec.c65536 := by
  show Ideal.ofBits .f32 0x47800000#32 - (((0#32 : BitVec 32).toInt : ℝ) : EReal) = _
  rw [sitofp_zero, sub_zero]
/-- The count of a plane is 4096. -/
theorem cntHW_apply : cntHW (F := Ideal) ix0 = Cert.Spec.c4096 := by
  show Ideal.ofBits .f32 0x45800000#32 - (((0#32 : BitVec 32).toInt : ℝ) : EReal) = _
  rw [sitofp_zero, sub_zero]

/-- Both counts are positive, so the variance's select takes the quotient. -/
theorem cnt16_pos : Ideal.cmp .ogt (cnt16 (F := Ideal) ix0) (Ideal.ofBits .f32 0x00000000#32) = 1#1 := by
  rw [cnt16_apply, Ideal.ofBits_zero_f32, c65536_eq]
  have hpos : (0 : EReal) < ((65536 : ℝ) : EReal) := by exact_mod_cast (by norm_num : (0 : ℝ) < 65536)
  simp [Ideal.cmp, hpos]
theorem cntHW_pos : Ideal.cmp .ogt (cntHW (F := Ideal) ix0) (Ideal.ofBits .f32 0x00000000#32) = 1#1 := by
  rw [cntHW_apply, Ideal.ofBits_zero_f32, c4096_eq]
  have hpos : (0 : EReal) < ((4096 : ℝ) : EReal) := by exact_mod_cast (by norm_num : (0 : ℝ) < 4096)
  simp [Ideal.cmp, hpos]

/-! ### A domain's mean, variance and batch normalisation -/

/-- The per-channel mean at channel `k`. -/
theorem mean16_apply (xg : C16 Ideal) (k : Fin 128) :
    mean16 xg (ix4 (0 : Fin 1) k (0 : Fin 1) (0 : Fin 1)) = Cert.Spec.domMean fun i h w => xg (ix4 i k h w) := by
  unfold mean16 Cert.Spec.domMean
  show Ideal.div (chan (sum16 xg) (ix4 (0 : Fin 1) k (0 : Fin 1) (0 : Fin 1))) (splatS (F := Ideal) (constant (F := Ideal) S_ .f32 0x47800000#32) (ix4 (0 : Fin 1) k (0 : Fin 1) (0 : Fin 1))) = _
  rw [chan_apply, splatS_apply, sum16_apply]
  rfl

/-- The deviation from the mean at `(i, k, h, w)`. -/
theorem dev16_apply (xg : C16 Ideal) (i : Fin 16) (k : Fin 128) (h w : Fin 64) :
    dev16 xg (ix4 i k h w) = xg (ix4 i k h w) - Cert.Spec.domMean fun i' h' w' => xg (ix4 i' k h' w') := by
  unfold dev16
  show xg (ix4 i k h w) - up16 (mean16 xg) (ix4 i k h w) = _
  rw [up16_apply, mean16_apply]

/-- The per-channel variance at channel `k`: the two-pass form (the select takes the quotient, the count being positive). -/
theorem var16_apply (xg : C16 Ideal) (k : Fin 128) :
    var16 xg (ix4 (0 : Fin 1) k (0 : Fin 1) (0 : Fin 1)) = Cert.Spec.domVar2 fun i h w => xg (ix4 i k h w) := by
  unfold var16
  rw [select_apply]
  have hc : broadcastInDim S1x128x1x1 ![] bcast_S_S1x128x1x1
      (cmpf (F := Ideal) .ogt (cnt16 (F := Ideal)) (constant (F := Ideal) S_ .f32 0x00000000#32)) (ix4 (0 : Fin 1) k (0 : Fin 1) (0 : Fin 1)) = 1#1 := by
    rw [broadcastInDim_apply _ _ _ (ix4 (0 : Fin 1) k (0 : Fin 1) (0 : Fin 1)) ix0 (by intro a; exact a.elim0)]
    exact cnt16_pos
  rw [hc, select_one]
  show Ideal.div (chan (sum16 (mulf (dev16 xg) (dev16 xg))) (ix4 (0 : Fin 1) k (0 : Fin 1) (0 : Fin 1))) (splatS (cnt16 (F := Ideal)) (ix4 (0 : Fin 1) k (0 : Fin 1) (0 : Fin 1))) = _
  rw [chan_apply, splatS_apply, sum16_apply, cnt16_apply]
  unfold Cert.Spec.domVar2 Cert.Spec.domSum
  congr 1
  refine Finset.sum_congr rfl fun i _ => Finset.sum_congr rfl fun h _ => Finset.sum_congr rfl fun w _ => ?_
  show dev16 xg (ix4 i k h w) * dev16 xg (ix4 i k h w) = _
  rw [dev16_apply]

/-- One domain's batch normalisation at `(i, k, h, w)`. -/
theorem bn16_apply (xg : C16 Ideal) (wv bv : CV Ideal) (i : Fin 16) (k : Fin 128) (h w : Fin 64) :
    bn16 xg wv bv (ix4 i k h w)
      = Cert.Spec.bn (xg (ix4 i k h w)) (Cert.Spec.domMean fun i' h' w' => xg (ix4 i' k h' w'))
          (Cert.Spec.domVar2 fun i' h' w' => xg (ix4 i' k h' w')) (wv (ix1 k)) (bv (ix1 k)) := by
  unfold bn16 norm16 Cert.Spec.bn
  rw [addf_apply, mulf_apply, mulf_apply, dev16_apply, up16_apply, up16_apply, up16_apply, chan_apply, chan_apply]
  refine congrArg₂ (· + ·) (congrArg₂ (· * ·) (congrArg₂ (· * ·) rfl ?_) rfl) rfl
  show Ideal.rsqrt (var16 xg (ix4 (0 : Fin 1) k (0 : Fin 1) (0 : Fin 1)) + splatS (constant (F := Ideal) S_ .f32 0x3727C5AC#32) (ix4 (0 : Fin 1) k (0 : Fin 1) (0 : Fin 1))) = _
  rw [var16_apply, splatS_apply]
  rfl

/-! ### The instance normalisation of the last domain -/

/-- The instance mean at `(i, k)`. -/
theorem meanHW_apply (xg : C16 Ideal) (i : Fin 16) (k : Fin 128) :
    meanHW xg (ix4 i k (0 : Fin 1) (0 : Fin 1)) = Cert.Spec.planeMean fun h w => xg (ix4 i k h w) := by
  unfold meanHW Cert.Spec.planeMean
  show Ideal.div (chanT (sumHW xg) (ix4 i k (0 : Fin 1) (0 : Fin 1))) (splatT (F := Ideal) (constant (F := Ideal) S_ .f32 0x45800000#32) (ix4 i k (0 : Fin 1) (0 : Fin 1))) = _
  rw [chanT_apply, splatT_apply, sumHW_apply]
  rfl

/-- The deviation from the instance mean. -/
theorem devHW_apply (xg : C16 Ideal) (i : Fin 16) (k : Fin 128) (h w : Fin 64) :
    devHW xg (ix4 i k h w) = xg (ix4 i k h w) - Cert.Spec.planeMean fun h' w' => xg (ix4 i k h' w') := by
  unfold devHW
  show xg (ix4 i k h w) - upT (meanHW xg) (ix4 i k h w) = _
  rw [upT_apply, meanHW_apply]

/-- The instance variance at `(i, k)`. -/
theorem varHW_apply (xg : C16 Ideal) (i : Fin 16) (k : Fin 128) :
    varHW xg (ix4 i k (0 : Fin 1) (0 : Fin 1)) = Cert.Spec.planeVar fun h w => xg (ix4 i k h w) := by
  unfold varHW
  rw [select_apply]
  have hc : broadcastInDim S16x128x1x1 ![] bcast_S_S16x128x1x1
      (cmpf (F := Ideal) .ogt (cntHW (F := Ideal)) (constant (F := Ideal) S_ .f32 0x00000000#32)) (ix4 i k (0 : Fin 1) (0 : Fin 1)) = 1#1 := by
    rw [broadcastInDim_apply _ _ _ (ix4 i k (0 : Fin 1) (0 : Fin 1)) ix0 (by intro a; exact a.elim0)]
    exact cntHW_pos
  rw [hc, select_one]
  show Ideal.div (chanT (sumHW (mulf (devHW xg) (devHW xg))) (ix4 i k (0 : Fin 1) (0 : Fin 1))) (splatT (cntHW (F := Ideal)) (ix4 i k (0 : Fin 1) (0 : Fin 1))) = _
  rw [chanT_apply, splatT_apply, sumHW_apply, cntHW_apply]
  unfold Cert.Spec.planeVar
  congr 1
  refine Finset.sum_congr rfl fun h _ => Finset.sum_congr rfl fun w _ => ?_
  show devHW xg (ix4 i k h w) * devHW xg (ix4 i k h w) = _
  rw [devHW_apply]

/-- The instance normalisation at `(i, k, h, w)`. -/
theorem inn16_apply (xg : C16 Ideal) (wv bv : CV Ideal) (i : Fin 16) (k : Fin 128) (h w : Fin 64) :
    inn16 xg wv bv (ix4 i k h w)
      = Cert.Spec.inn (fun h' w' => xg (ix4 i k h' w')) (xg (ix4 i k h w)) (wv (ix1 k)) (bv (ix1 k)) := by
  unfold inn16 Cert.Spec.inn
  rw [addf_apply, mulf_apply, mulf_apply, devHW_apply, upT_apply, up16_apply, up16_apply, chan_apply, chan_apply]
  refine congrArg₂ (· + ·) (congrArg₂ (· * ·) (congrArg₂ (· * ·) rfl ?_) rfl) rfl
  show Ideal.rsqrt (varHW xg (ix4 i k (0 : Fin 1) (0 : Fin 1)) + splatT (constant (F := Ideal) S_ .f32 0x3727C5AC#32) (ix4 i k (0 : Fin 1) (0 : Fin 1))) = _
  rw [varHW_apply, splatT_apply]
  rfl

/-! ### The gate and the blend -/

/-- The logistic gate at channel `k`. -/
theorem sigm_apply (al : CV Ideal) (k : Fin 128) : sigm al (ix1 k) = Cert.Spec.sig (al (ix1 k)) := by
  unfold sigm Cert.Spec.sig
  show Ideal.div (broadcastInDim S128 ![] bcast_S_S128 (constant (F := Ideal) S_ .f32 0x3F800000#32) (ix1 k))
      (broadcastInDim S128 ![] bcast_S_S128 (constant (F := Ideal) S_ .f32 0x3F800000#32) (ix1 k) + Ideal.exp (-(al (ix1 k)))) = _
  rw [broadcastInDim_apply _ _ _ (ix1 k) ix0 (by intro a; exact a.elim0)]
  rfl

/-- The blend at `(i, k, h, w)`. -/
theorem blend_apply (al : CV Ideal) (bnA innA : C16 Ideal) (i : Fin 16) (k : Fin 128) (h w : Fin 64) :
    blend al bnA innA (ix4 i k h w)
      = Cert.Spec.mix (Cert.Spec.sig (al (ix1 k))) (bnA (ix4 i k h w)) (innA (ix4 i k h w)) := by
  unfold blend Cert.Spec.mix
  show up16 (chan (sigm al)) (ix4 i k h w) * bnA (ix4 i k h w)
      + up16 (subf (splatS (constant (F := Ideal) S_ .f32 0x3F800000#32)) (chan (sigm al))) (ix4 i k h w) * innA (ix4 i k h w) = _
  rw [up16_apply, up16_apply, chan_apply]
  show _ + (splatS (constant (F := Ideal) S_ .f32 0x3F800000#32) (ix4 (0 : Fin 1) k (0 : Fin 1) (0 : Fin 1)) - chan (sigm al) (ix4 (0 : Fin 1) k (0 : Fin 1) (0 : Fin 1))) * _ = _
  rw [splatS_apply, chan_apply, sigm_apply]
  rfl

end Cert.ReferenceIdeal.HandRun

end
-- ==== Proof.RefReadLayout.lean ====
/-
  The reference's stack of four blocks read at an index.

  The reference normalises four blocks of sixteen rows and stacks them along the row axis into a `[64, 128, 64, 64]`
  array. Read at row `16 d + i` (`d` one of the four blocks, `i` one of its sixteen rows) and any channel and position,
  the stack is block `d` at row `i`, the same channel and position: the blocks before `d` take up `16 d` rows.
-/
import proofs.«159259_j85899346585_1_alg».proof.Proof.RefRunParts
import Idealize.ShloMosaic.Lib.ValueIdx
import Idealize.ShloMosaic.Lib.Pipeline.Value

noncomputable section

namespace Cert.ReferenceIdeal.HandRead

open Cert.ReferenceIdeal Cert.ReferenceIdeal.Gen Cert.ReferenceIdeal.HandRun
open Idealize.ShloMosaic Idealize.ShloMosaic.TcCoe Idealize.SL.Sem Idealize.ShloMosaic.StableHlo Idealize.ShloMosaic.ValueIdx

variable {F : FTy → Type} [FloatOps F]

/-- Block `d` of four. -/
def piece4 (p0 p1 p2 p3 : C16 F) : Fin 4 → C16 F
  | ⟨0, _⟩ => p0
  | ⟨1, _⟩ => p1
  | ⟨2, _⟩ => p2
  | ⟨3, _⟩ => p3

/-- Off the row axis an index of a block and the index of the stack at the same channel and position agree. -/
theorem off_row (r : Fin 64) (i : Fin 16) (k : Fin 128) (h w : Fin 64) :
    ∀ b : Fin S16x128x64x64.rank, b.cast (rfl : S16x128x64x64.rank = S64x128x64x64.rank) ≠ (0 : Fin S64x128x64x64.rank) →
      ((ix4 i k h w : S16x128x64x64.Idx) b).val = ((ix4 r k h w : S64x128x64x64.Idx) (b.cast rfl)).val := fun b hb => by
  match b with
  | ⟨0, _⟩ => exact absurd rfl hb
  | ⟨1, _⟩ => rfl
  | ⟨2, _⟩ => rfl
  | ⟨3, _⟩ => rfl

/-- The stack read in its first block: rows 0 … 15. -/
theorem cat4_apply0 (p0 p1 p2 p3 : C16 F) (i : Fin 16) (k : Fin 128) (h w : Fin 64) :
    cat4 p0 p1 p2 p3 (ix4 ⟨16 * 0 + i.val, by omega⟩ k h w) = p0 (ix4 i k h w) := by
  unfold cat4
  exact concatenate_apply_piece (t := S64x128x64x64) 0 _ _ _ 0 (by show (0 : ℕ) < 4; omega) S16x128x64x64 p0 rfl rfl (16 * 0) rfl (ix4 i k h w)
    (off_row _ i k h w) rfl
/-- The stack read in its second block: rows 16 … 31. -/
theorem cat4_apply1 (p0 p1 p2 p3 : C16 F) (i : Fin 16) (k : Fin 128) (h w : Fin 64) :
    cat4 p0 p1 p2 p3 (ix4 ⟨16 * 1 + i.val, by omega⟩ k h w) = p1 (ix4 i k h w) := by
  unfold cat4
  exact concatenate_apply_piece (t := S64x128x64x64) 0 _ _ _ 1 (by show (1 : ℕ) < 4; omega) S16x128x64x64 p1 rfl rfl (16 * 1) rfl (ix4 i k h w)
    (off_row _ i k h w) rfl
/-- The stack read in its third block: rows 32 … 47. -/
theorem cat4_apply2 (p0 p1 p2 p3 : C16 F) (i : Fin 16) (k : Fin 128) (h w : Fin 64) :
    cat4 p0 p1 p2 p3 (ix4 ⟨16 * 2 + i.val, by omega⟩ k h w) = p2 (ix4 i k h w) := by
  unfold cat4
  exact concatenate_apply_piece (t := S64x128x64x64) 0 _ _ _ 2 (by show (2 : ℕ) < 4; omega) S16x128x64x64 p2 rfl rfl (16 * 2) rfl (ix4 i k h w)
    (off_row _ i k h w) rfl
/-- The stack read in its fourth block: rows 48 … 63. -/
theorem cat4_apply3 (p0 p1 p2 p3 : C16 F) (i : Fin 16) (k : Fin 128) (h w : Fin 64) :
    cat4 p0 p1 p2 p3 (ix4 ⟨16 * 3 + i.val, by omega⟩ k h w) = p3 (ix4 i k h w) := by
  unfold cat4
  exact concatenate_apply_piece (t := S64x128x64x64) 0 _ _ _ 3 (by show (3 : ℕ) < 4; omega) S16x128x64x64 p3 rfl rfl (16 * 3) rfl (ix4 i k h w)
    (off_row _ i k h w) rfl

/-- THE STACK READ AT AN INDEX: at row `16 d + i` it is block `d` at row `i`. -/
theorem cat4_apply (p0 p1 p2 p3 : C16 F) (d : Fin 4) (i : Fin 16) (k : Fin 128) (h w : Fin 64) :
    cat4 p0 p1 p2 p3 (ix4 ⟨16 * d.val + i.val, by omega⟩ k h w) = piece4 p0 p1 p2 p3 d (ix4 i k h w) := by
  match d with
  | ⟨0, _⟩ => exact cat4_apply0 p0 p1 p2 p3 i k h w
  | ⟨1, _⟩ => exact cat4_apply1 p0 p1 p2 p3 i k h w
  | ⟨2, _⟩ => exact cat4_apply2 p0 p1 p2 p3 i k h w
  | ⟨3, _⟩ => exact cat4_apply3 p0 p1 p2 p3 i k h w

/-- The same at any row `j`: block `j / 16` at row `j % 16`. -/
theorem cat4_apply_row (p0 p1 p2 p3 : C16 F) (j : Fin 64) (k : Fin 128) (h w : Fin 64) :
    cat4 p0 p1 p2 p3 (ix4 j k h w) = piece4 p0 p1 p2 p3 ⟨j.val / 16, by omega⟩ (ix4 ⟨j.val % 16, by omega⟩ k h w) := by
  have e : j = ⟨16 * (⟨j.val / 16, by omega⟩ : Fin 4).val + (⟨j.val % 16, by omega⟩ : Fin 16).val, by omega⟩ :=
    Fin.ext (by show j.val = 16 * (j.val / 16) + j.val % 16; omega)
  conv_lhs => rw [e]
  exact cat4_apply p0 p1 p2 p3 _ _ k h w

end Cert.ReferenceIdeal.HandRead

end
-- ==== Proof.RefRead.lean ====
import proofs.«159259_j85899346585_1_alg».proof.Proof.RefReadRows
import proofs.«159259_j85899346585_1_alg».proof.Proof.RefReadMath
import proofs.«159259_j85899346585_1_alg».proof.Proof.RefReadLayout
import proofs.«159259_j85899346585_1_alg».proof.Proof.Bridge

open scoped BigOperators

noncomputable section

namespace Cert.ReferenceIdeal.HandRun

open Cert.ReferenceIdeal Cert.ReferenceIdeal.Gen Idealize.ShloMosaic Idealize.ShloMosaic.ValueIdx
open Cert.ReferenceIdeal.HandRead (piece4 cat4_apply_row)
open Cert.Bridge (rowS posU dom fdom refOut)

/-! ## The reference's result read at an index: the stages composed -/

/-- A word below 64 read signed is in `[0, 64)`. -/
theorem signed_of_lt (v : BitVec 32) (hv : v.toNat < 64) : 0 ≤ v.toInt ∧ v.toInt < 64 := by
  have e := BitVec.toInt_eq_toNat_cond v
  split at e <;> omega

/-- The sorted rows read: position `n` holds row `a1[n]` of `a0`. -/
theorem rows_rowS (a0 : C64 Ideal) (a1 : CI Ideal) (hS : ∀ j, (a1 j).toNat < 64) (n : Fin 64) (k : Fin 128) (h w : Fin 64) :
    rows a0 a1 (ix4 n k h w) = a0 (ix4 (rowS a1 hS n) k h w) :=
  rows_apply a0 a1 n (signed_of_lt _ (hS _)) k h w

/-- Domain 0's batch normalisation read at `(i, k, h, w)`. -/
theorem dom0_apply (a0 : C64 Ideal) (a1 : CI Ideal) (hS : ∀ j, (a1 j).toNat < 64) (a3 a4 : CW Ideal) (i : Fin 16) (k : Fin 128) (h w : Fin 64) :
    bn16 (sl0 (rows a0 a1)) (row0 a3) (row0 a4) (ix4 i k h w)
      = Cert.Spec.bn (a0 (ix4 (rowS a1 hS ⟨16 * 0 + i.val, by omega⟩) k h w))
          (Cert.Spec.domMean (fdom a0 a1 hS (0 : Fin 4) k)) (Cert.Spec.domVar2 (fdom a0 a1 hS (0 : Fin 4) k))
          (a3 (ix2 (0 : Fin 4) k)) (a4 (ix2 (0 : Fin 4) k)) := by
  have e : ∀ (i' : Fin 16) (h' w' : Fin 64),
      sl0 (rows a0 a1) (ix4 i' k h' w') = a0 (ix4 (rowS a1 hS ⟨16 * 0 + i'.val, by omega⟩) k h' w') := fun i' h' w' => by
    rw [sl0_apply, rows_rowS a0 a1 hS]
  rw [bn16_apply, row0_apply, row0_apply]
  simp only [e]
  rfl

/-- Domain 1's batch normalisation read at `(i, k, h, w)`. -/
theorem dom1_apply (a0 : C64 Ideal) (a1 : CI Ideal) (hS : ∀ j, (a1 j).toNat < 64) (a3 a4 : CW Ideal) (i : Fin 16) (k : Fin 128) (h w : Fin 64) :
    bn16 (sl1 (rows a0 a1)) (row1 a3) (row1 a4) (ix4 i k h w)
      = Cert.Spec.bn (a0 (ix4 (rowS a1 hS ⟨16 * 1 + i.val, by omega⟩) k h w))
          (Cert.Spec.domMean (fdom a0 a1 hS (1 : Fin 4) k)) (Cert.Spec.domVar2 (fdom a0 a1 hS (1 : Fin 4) k))
          (a3 (ix2 (1 : Fin 4) k)) (a4 (ix2 (1 : Fin 4) k)) := by
  have e : ∀ (i' : Fin 16) (h' w' : Fin 64),
      sl1 (rows a0 a1) (ix4 i' k h' w') = a0 (ix4 (rowS a1 hS ⟨16 * 1 + i'.val, by omega⟩) k h' w') := fun i' h' w' => by
    rw [sl1_apply, rows_rowS a0 a1 hS]
  rw [bn16_apply, row1_apply, row1_apply]
  simp only [e]
  rfl

/-- Domain 2's batch normalisation read at `(i, k, h, w)`. -/
theorem dom2_apply (a0 : C64 Ideal) (a1 : CI Ideal) (hS : ∀ j, (a1 j).toNat < 64) (a3 a4 : CW Ideal) (i : Fin 16) (k : Fin 128) (h w : Fin 64) :
    bn16 (sl2 (rows a0 a1)) (row2 a3) (row2 a4) (ix4 i k h w)
      = Cert.Spec.bn (a0 (ix4 (rowS a1 hS ⟨16 * 2 + i.val, by omega⟩) k h w))
          (Cert.Spec.domMean (fdom a0 a1 hS (2 : Fin 4) k)) (Cert.Spec.domVar2 (fdom a0 a1 hS (2 : Fin 4) k))
          (a3 (ix2 (2 : Fin 4) k)) (a4 (ix2 (2 : Fin 4) k)) := by
  have e : ∀ (i' : Fin 16) (h' w' : Fin 64),
      sl2 (rows a0 a1) (ix4 i' k h' w') = a0 (ix4 (rowS a1 hS ⟨16 * 2 + i'.val, by omega⟩) k h' w') := fun i' h' w' => by
    rw [sl2_apply, rows_rowS a0 a1 hS]
  rw [bn16_apply, row2_apply, row2_apply]
  simp only [e]
  rfl

/-- Domain 3's batch normalisation read at `(i, k, h, w)`. -/
theorem dom3_apply (a0 : C64 Ideal) (a1 : CI Ideal) (hS : ∀ j, (a1 j).toNat < 64) (a3 a4 : CW Ideal) (i : Fin 16) (k : Fin 128) (h w : Fin 64) :
    bn16 (sl3 (rows a0 a1)) (row3 a3) (row3 a4) (ix4 i k h w)
      = Cert.Spec.bn (a0 (ix4 (rowS a1 hS ⟨16 * 3 + i.val, by omega⟩) k h w))
          (Cert.Spec.domMean (fdom a0 a1 hS (3 : Fin 4) k)) (Cert.Spec.domVar2 (fdom a0 a1 hS (3 : Fin 4) k))
          (a3 (ix2 (3 : Fin 4) k)) (a4 (ix2 (3 : Fin 4) k)) := by
  have e : ∀ (i' : Fin 16) (h' w' : Fin 64),
      sl3 (rows a0 a1) (ix4 i' k h' w') = a0 (ix4 (rowS a1 hS ⟨16 * 3 + i'.val, by omega⟩) k h' w') := fun i' h' w' => by
    rw [sl3_apply, rows_rowS a0 a1 hS]
  rw [bn16_apply, row3_apply, row3_apply]
  simp only [e]
  rfl

/-- The last domain's instance normalisation read at `(i, k, h, w)`. -/
theorem inst3_apply (a0 : C64 Ideal) (a1 : CI Ideal) (hS : ∀ j, (a1 j).toNat < 64) (a5 a6 : CV Ideal) (i : Fin 16) (k : Fin 128) (h w : Fin 64) :
    inn16 (sl3 (rows a0 a1)) a5 a6 (ix4 i k h w)
      = Cert.Spec.inn (fun h' w' => a0 (ix4 (rowS a1 hS ⟨16 * 3 + i.val, by omega⟩) k h' w'))
          (a0 (ix4 (rowS a1 hS ⟨16 * 3 + i.val, by omega⟩) k h w)) (a5 (ix1 k)) (a6 (ix1 k)) := by
  have e : ∀ (i' : Fin 16) (h' w' : Fin 64),
      sl3 (rows a0 a1) (ix4 i' k h' w') = a0 (ix4 (rowS a1 hS ⟨16 * 3 + i'.val, by omega⟩) k h' w') := fun i' h' w' => by
    rw [sl3_apply, rows_rowS a0 a1 hS]
  rw [inn16_apply]
  simp only [e]

/-- Block `d` of the four stacked blocks at row `i` of the block, that row being position `j = 16 d + i` of the sorted order. -/
theorem block_at (a0 : C64 Ideal) (a1 : CI Ideal) (a3 a4 : CW Ideal) (a5 a6 a7 : CV Ideal) (hS : ∀ j, (a1 j).toNat < 64)
    (d : Fin 4) (i : Fin 16) (j : Fin 64) (hj : j.val = 16 * d.val + i.val) (k : Fin 128) (h w : Fin 64) :
    piece4 (bn16 (sl0 (rows a0 a1)) (row0 a3) (row0 a4))
      (bn16 (sl1 (rows a0 a1)) (row1 a3) (row1 a4))
      (bn16 (sl2 (rows a0 a1)) (row2 a3) (row2 a4))
      (blend a7 (bn16 (sl3 (rows a0 a1)) (row3 a3) (row3 a4)) (inn16 (sl3 (rows a0 a1)) a5 a6)) d (ix4 i k h w)
      = if d.val = 3 then
          Cert.Spec.mix (Cert.Spec.sig (a7 (ix1 k))) (Cert.Spec.bn (a0 (ix4 (rowS a1 hS j) k h w)) (Cert.Spec.domMean (fdom a0 a1 hS d k)) (Cert.Spec.domVar2 (fdom a0 a1 hS d k))
          (a3 (ix2 d k)) (a4 (ix2 d k)))
            (Cert.Spec.inn (fun h' w' => a0 (ix4 (rowS a1 hS j) k h' w')) (a0 (ix4 (rowS a1 hS j) k h w)) (a5 (ix1 k)) (a6 (ix1 k)))
        else (Cert.Spec.bn (a0 (ix4 (rowS a1 hS j) k h w)) (Cert.Spec.domMean (fdom a0 a1 hS d k)) (Cert.Spec.domVar2 (fdom a0 a1 hS d k))
          (a3 (ix2 d k)) (a4 (ix2 d k))) := by
  have hlt : 16 * d.val + i.val < 64 := by have := d.isLt; have := i.isLt; clear hj; omega
  obtain rfl : j = ⟨16 * d.val + i.val, hlt⟩ := Fin.ext hj
  match d with
  | ⟨0, _⟩ => rw [if_neg (by show ¬ (0 : ℕ) = 3; omega)]; exact dom0_apply a0 a1 hS a3 a4 i k h w
  | ⟨1, _⟩ => rw [if_neg (by show ¬ (1 : ℕ) = 3; omega)]; exact dom1_apply a0 a1 hS a3 a4 i k h w
  | ⟨2, _⟩ => rw [if_neg (by show ¬ (2 : ℕ) = 3; omega)]; exact dom2_apply a0 a1 hS a3 a4 i k h w
  | ⟨3, _⟩ =>
    rw [if_pos rfl]
    show blend a7 (bn16 (sl3 (rows a0 a1)) (row3 a3) (row3 a4)) (inn16 (sl3 (rows a0 a1)) a5 a6) (ix4 i k h w) = _
    rw [blend_apply, dom3_apply a0 a1 hS, inst3_apply a0 a1 hS]
    rfl

/-- THE REFERENCE'S RESULT AT `(b, k, h, w)`: sample `a1[a2[b]]`, normalised in domain `a2[b] / 16`, blended with its instance
    normalisation in the last domain only. -/
theorem result_at (a0 : C64 Ideal) (a1 a2 : CI Ideal) (a3 a4 : CW Ideal) (a5 a6 a7 : CV Ideal)
    (hS : ∀ j, (a1 j).toNat < 64) (hU : ∀ b, (a2 b).toNat < 64) (b : Fin 64) (k : Fin 128) (h w : Fin 64) :
    result a0 a1 a2 a3 a4 a5 a6 a7 (ix4 b k h w) = refOut a0 a1 a2 a3 a4 a5 a6 a7 hS hU b k h w := by
  show rows (cat4 (bn16 (sl0 (rows a0 a1)) (row0 a3) (row0 a4))
      (bn16 (sl1 (rows a0 a1)) (row1 a3) (row1 a4))
      (bn16 (sl2 (rows a0 a1)) (row2 a3) (row2 a4))
      (blend a7 (bn16 (sl3 (rows a0 a1)) (row3 a3) (row3 a4)) (inn16 (sl3 (rows a0 a1)) a5 a6))) a2 (ix4 b k h w) = _
  rw [rows_rowS _ a2 hU, cat4_apply_row]
  exact block_at a0 a1 a3 a4 a5 a6 a7 hS (dom a2 hU b) ⟨(posU a2 hU b).val % 16, by omega⟩ (posU a2 hU b)
    (by show (posU a2 hU b).val = 16 * ((posU a2 hU b).val / 16) + (posU a2 hU b).val % 16; omega) k h w

end Cert.ReferenceIdeal.HandRun

end
-- ==== Proof.FiniteFacts.lean ====
/-
  What the precondition says of the input array: every entry is a real number.

  The precondition's first conjunct is `|x| < +∞` at every entry, reduced by `and`. At exact arithmetic `|x|` is `max x (−x)` on
  the extended reals and the word of `+∞` denotes `⊤`; `max x (−x) < ⊤` fails at `x = ⊤` and at `x = ⊥` (where `−x = ⊤`), so
  `x` is neither and is a real number.
-/
import proofs.«159259_j85899346585_1_alg».proof.Proof.IndexFacts
import Idealize.ShloMosaic.PureOps.Ideal

noncomputable section

namespace Cert.FiniteFacts

open Idealize.ShloMosaic Idealize.ShloMosaic.ValueIdx Cert.Pre_finite_inputs Cert.IndexFacts

variable [Cert.Pre_finite_inputs.Facts]
open Cert.Pre_finite_inputs.Facts

/-- The word of positive infinity denotes `⊤`. -/
theorem inf_word : Ideal.ofBits .f32 0x7F800000#32 = (⊤ : EReal) := by
  simp [Ideal.ofBits, Ideal.ieee]

/-- An extended real whose absolute value is below `⊤` is a real number. -/
theorem real_of_abs_lt (x : EReal) (h : max x (-x) < (⊤ : EReal)) : ∃ r : ℝ, x = (r : EReal) := by
  have ht : x ≠ ⊤ := by rintro rfl; simp at h
  have hb : x ≠ ⊥ := by rintro rfl; simp at h
  exact ⟨x.toReal, (EReal.coe_toReal ht hb).symm⟩

/-- Under the precondition every entry of the input array is a real number. -/
theorem x_real (a0 : FVec Ideal S64x128x64x64 .f32) (S U : IVec S64 32) (a3 a4 : FVec Ideal S4x128 .f32)
    (a5 a6 a7 : FVec Ideal S128 .f32) (h : fn (F := Ideal) a0 S U a3 a4 a5 a6 a7 = fun _ => 1#1) (i : S64x128x64x64.Idx) :
    ∃ r : ℝ, a0 i = (r : EReal) := by
  have e := congrFun h ix0
  dsimp only [fn, fn_part1, fn_part2, fn_part3] at e
  obtain ⟨e1, -⟩ := IntOp.andi_eq_one.mp e
  obtain ⟨e2, -⟩ := IntOp.andi_eq_one.mp e1
  obtain ⟨e3, -⟩ := IntOp.andi_eq_one.mp e2
  obtain ⟨e4, -⟩ := IntOp.andi_eq_one.mp e3
  obtain ⟨e5, -⟩ := IntOp.andi_eq_one.mp e4
  obtain ⟨e6, -⟩ := IntOp.andi_eq_one.mp e5
  obtain ⟨e7, -⟩ := IntOp.andi_eq_one.mp e6
  obtain ⟨e8, -⟩ := IntOp.andi_eq_one.mp e7
  have hx := Host.reduce_andi_all _ _ _ _ _ e8 i
  clear e e1 e2 e3 e4 e5 e6 e7 e8 h
  have h2 : Ideal.cmp .olt (max (a0 i) (-(a0 i))) (Ideal.ofBits .f32 0x7F800000#32) = 1#1 := hx
  unfold Ideal.cmp at h2
  rw [inf_word] at h2
  refine real_of_abs_lt (a0 i) ?_
  by_contra hn
  simp [hn] at h2

end Cert.FiniteFacts

end
-- ==== Proof.Algebraic.lean ====
/-
  At exact arithmetic the kernel program and the reference compute the same array.

  The kernel's result at `(b, k, h, w)` is written by the second region's point `b`: the blend of sample `b`'s batch
  normalisation, with the statistics the first region summed for the domain `U[b] / 16` over rows `S[16 d + i]`, and its
  instance normalisation, gated by the logistic of `alpha` in the last domain and by one elsewhere. The reference's result
  there is the row it gathers back at position `U[b]` of the concatenated domains: sample `S[U[b]]` normalised in the same
  domain with the same statistics, blended in the last domain only. Under the precondition `S[U[b]] = b`, every entry of the
  input is real, so the two variances agree, and a gate of one returns the batch-normalised value: the two arrays are equal.
-/
import proofs.«159259_j85899346585_1_alg».proof.Proof.Frames
import proofs.«159259_j85899346585_1_alg».proof.Proof.RunResultIdeal
import proofs.«159259_j85899346585_1_alg».proof.Proof.KernelAtIdeal
import proofs.«159259_j85899346585_1_alg».proof.Proof.StatsValueIdeal
import proofs.«159259_j85899346585_1_alg».proof.Proof.RefRead
import proofs.«159259_j85899346585_1_alg».proof.Proof.Bridge
import proofs.«159259_j85899346585_1_alg».proof.Proof.FiniteFacts
import Idealize.ShloMosaic.Lib.ValueIdx

set_option maxRecDepth 16384

noncomputable section

namespace Cert.Proof.Algebraic

open Idealize.ShloMosaic Idealize.ShloMosaic.TcCoe Idealize.ShloMosaic.ValueIdx Idealize.SL.Sem
open Cert.Proof.Frames

abbrev MemKI := (ℓ : Loc Cert.KernelIdeal.nD Cert.KernelIdeal.τ Cert.KernelIdeal.sig) → Buf (Elt Ideal) ℓ

/-- The statistics region's proof at the table read off the launch memory. -/
abbrev stOf (m : MemKI) (h : Cert.Pre_KernelIdeal m) :=
  fun V => Cert.KernelIdeal.StatsRegion.stats (Cert.KernelIdeal.PreGlue.adm m h) V

/-- A 32-bit word in `[0, 64)` read signed is below 64 read unsigned. -/
theorem lt64 (v : BitVec 32) (h : 0 ≤ v.toInt ∧ v.toInt < 64) : v.toNat < 64 :=
  Cert.KernelIdeal.TableOk.toNat_lt_of_signed v h.1 h.2

/-- The kernel program's result at an index, as the formula of its arguments. -/
theorem kernel_at (m : MemKI) (hpre : Cert.Pre_KernelIdeal m) (c : Dev Cert.KernelIdeal.nD)
    (hS : ∀ j, (m ((c.tc : Thread Cert.KernelIdeal.nD Cert.KernelIdeal.τ).loc Cert.KernelIdeal.main_arg1) j).toNat < 64)
    (hU : ∀ j, (m ((c.tc : Thread Cert.KernelIdeal.nD Cert.KernelIdeal.τ).loc Cert.KernelIdeal.main_arg2) j).toNat < 64)
    (b : Fin 64) (k : Fin 128) (h w : Fin 64) :
    Cert.KernelIdeal.Run.W7 m (Cert.KernelIdeal.PreGlue.adm m hpre) (stOf m hpre) c (Proc.devRef .tc Cert.KernelIdeal.main_v57) (ix4 b k h w)
      = Cert.Bridge.kernelOut (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6))
          (m ((c.tc : Thread Cert.KernelIdeal.nD Cert.KernelIdeal.τ).loc Cert.KernelIdeal.main_arg7)) hS hU b k h w :=
  Cert.KernelIdeal.Value.kernel_at_of_stats m (Cert.KernelIdeal.PreGlue.adm m hpre) (stOf m hpre) (tab_ki m hpre) c hS hU
    (fun d i => Cert.KernelIdeal.StatsRegion.rowAtDom (Cert.KernelIdeal.PreGlue.adm m hpre) d i) (fun _ _ => rfl)
    (fun d k => Cert.KernelIdeal.StatsRegion.stats_sum (Cert.KernelIdeal.PreGlue.adm m hpre) (Cert.KernelIdeal.Run.V0 m) c d k)
    (fun d k => Cert.KernelIdeal.StatsRegion.stats_sumsq (Cert.KernelIdeal.PreGlue.adm m hpre) (Cert.KernelIdeal.Run.V0 m) c d k)
    b k h w

/-- THE ALGEBRAIC CLAIM. -/
theorem algebraic : Cert.algebraic_KernelIdeal_ReferenceIdeal := by
  intro m ρ m' ρ' hpre hagree
  refine ⟨fun c => Cert.KernelIdeal.Run.W7 m (Cert.KernelIdeal.PreGlue.adm m hpre) (stOf m hpre) c (Proc.devRef .tc Cert.KernelIdeal.main_v57),
    Cert.KernelIdeal.Run.run_result m ρ (Cert.KernelIdeal.PreGlue.adm m hpre) (stOf m hpre) (tab_ki m hpre) _ (fun c => rfl), ?_⟩
  refine (θ_run Cert.ReferenceIdeal.defs _ _).mono (fun r hr c => ⟨(hr c).1.trans ?_, (hr c).2⟩)
    (Cert.ReferenceIdeal.HandRun.run (F := Ideal) m' ρ')
  obtain ⟨g0, g1, g2, g3, g4, g5, g6, g7⟩ := hagree c
  rw [g0, g1, g2, g3, g4, g5, g6, g7]
  have dec := Cert.IndexFacts.decode _ _ _ _ _ _ _ _ (hpre c)
  have hS : ∀ j, (m ((c.tc : Thread Cert.KernelIdeal.nD Cert.KernelIdeal.τ).loc Cert.KernelIdeal.main_arg1) j).toNat < 64 :=
    fun j => lt64 _ (dec.1 j)
  have hU : ∀ j, (m ((c.tc : Thread Cert.KernelIdeal.nD Cert.KernelIdeal.τ).loc Cert.KernelIdeal.main_arg2) j).toNat < 64 :=
    fun j => lt64 _ (dec.2.1 j)
  funext i
  obtain ⟨b, k, h, w, rfl⟩ : ∃ (b : Fin 64) (k : Fin 128) (h w : Fin 64), i = ix4 b k h w := ⟨i 0, i 1, i 2, i 3, eq_ix4 i⟩
  rw [Cert.ReferenceIdeal.HandRun.result_at _ _ _ _ _ _ _ _ hS hU b k h w]
  exact ((kernel_at m hpre c hS hU b k h w).trans
    (Cert.Bridge.kernelOut_eq_refOut _ _ _ _ _ _ _ _ hS hU dec.2.2 (Cert.FiniteFacts.x_real _ _ _ _ _ _ _ _ (hpre c)) b k h w)).symm

end Cert.Proof.Algebraic

end
-- ==== Proof.lean ====
/-
  The certificate: the kernel program and its reference compute the same array.

  Under the precondition — every float input finite, both index arrays holding batch positions, and the un-sorting array
  undoing the sorting one — each of the three programs runs to its end without fault and leaves its arguments unchanged
  (`Frames`); the idealised kernel is the printed kernel's own text, so nothing is owed for the idealisation; and at exact
  arithmetic the two programs' results agree entry by entry (`Algebraic`): the kernel normalises sample `b` with the statistics
  of the domain its sorted position falls in and blends with the instance norm only in the last domain, which is what the
  reference does to the sample it reads back at that position — the same sample, because un-sorting undoes sorting.
-/
import proofs.«159259_j85899346585_1_alg».proof.Defs
import proofs.«159259_j85899346585_1_alg».proof.Proof.Gen.Kernel
import proofs.«159259_j85899346585_1_alg».proof.Proof.Gen.KernelIdeal
import proofs.«159259_j85899346585_1_alg».proof.Proof.Gen.ReferenceIdeal
import proofs.«159259_j85899346585_1_alg».proof.Proof.Gen.Pre_finite_inputs
import proofs.«159259_j85899346585_1_alg».proof.Proof.Frames
import proofs.«159259_j85899346585_1_alg».proof.Proof.Algebraic

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Frames.frame_k, Cert.Proof.Frames.frame_ki, Cert.Proof.Frames.frame_ri, trivial, Cert.Proof.Algebraic.algebraic⟩

end Cert.Proof

end
